-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x3 : Shape := ⟨2, ![16384, 3]⟩
abbrev S100000x128 : Shape := ⟨2, ![100000, 128]⟩
abbrev S101000x128 : Shape := ⟨2, ![101000, 128]⟩
abbrev S384x1024 : Shape := ⟨2, ![384, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S101000x128 : S_.BroadcastsInDim S101000x128 (![] : Fin 0 → Fin S101000x128.rank)
  reducesTo_S101000x128_S_d0_1 : S101000x128.ReducesTo [0, 1] S_
  bcast_S_S384x1024 : S_.BroadcastsInDim S384x1024 (![] : Fin 0 → Fin S384x1024.rank)
  reducesTo_S384x1024_S_d0_1 : S384x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S16384x3 : S_.BroadcastsInDim S16384x3 (![] : Fin 0 → Fin S16384x3.rank)
  reducesTo_S16384x3_S_d0_1 : S16384x3.ReducesTo [0, 1] S_

variable [Facts]

def fn_part3 {F : FTy → Type} [FloatOps F] (main_arg0 : IVec S16384x3 32) (main_arg12 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S16384x3 32 := broadcastInDim S16384x3 ![] bcast_S_S16384x3 main_c_22
  let main_v60 : IVec S16384x3 1 := cmpi .sge main_arg0 main_v59
  let main_c_23 : IVec S_ 32 := constantI S_ 32 999#32
  let main_v61 : IVec S16384x3 32 := broadcastInDim S16384x3 ![] bcast_S_S16384x3 main_c_23
  let main_v62 : IVec S16384x3 1 := cmpi .sle main_arg0 main_v61
  let main_v63 : IVec S16384x3 1 := andi main_v60 main_v62
  let main_c_24 : IVec S_ 1 := constantI S_ 1 1#1
  let main_v64 : IVec S_ 1 := (fun x v => Host.reduce IntOp.andi x v reducesTo_S16384x3_S_d0_1 h_S_) main_v63 main_c_24
  let main_v65 : IVec S_ 1 := andi main_v58 main_v64
  main_v65

def fn_part2 {F : FTy → Type} [FloatOps F] (main_arg0 : IVec S16384x3 32) (main_arg8 : FVec F S512 .f32) (main_arg9 : FVec F S512x256 .f32) (main_arg10 : FVec F S256 .f32) (main_arg11 : FVec F S256x1 .f32) (main_arg12 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_arg0 main_arg12 main_v48 main_v49 main_v50

def fn_part1 {F : FTy → Type} [FloatOps F] (main_arg0 : IVec S16384x3 32) (main_arg5 : FVec F S384x1024 .f32) (main_arg6 : FVec F S1024 .f32) (main_arg7 : FVec F S1024x512 .f32) (main_arg8 : FVec F S512 .f32) (main_arg9 : FVec F S512x256 .f32) (main_arg10 : FVec F S256 .f32) (main_arg11 : FVec F S256x1 .f32) (main_arg12 : FVec F S1 .f32) (main_v13 : IVec S_ 1) (main_v16 : IVec S101000x128 1) : IVec S_ 1 :=
  let main_c_5 : IVec S_ 1 := constantI S_ 1 1#1
  let main_v17 : IVec S_ 1 := (fun x v => Host.reduce IntOp.andi x v reducesTo_S101000x128_S_d0_1 h_S_) main_v16 main_c_5
  let main_v18 : IVec S_ 1 := andi main_v13 main_v17
  let main_v19 : FVec F S384x1024 .f32 := Host.absf main_arg5
  let main_cst_6 : FVec F S_ .f32 := constant S_ .f32 0x7F800000#32
  let main_v20 : FVec F S384x1024 .f32 := broadcastInDim S384x1024 ![] bcast_S_S384x1024 main_cst_6
  let main_v21 : IVec S384x1024 1 := cmpf .olt main_v19 main_v20
  let main_c_7 : IVec S_ 1 := constantI S_ 1 1#1
  let main_v22 : IVec S_ 1 := (fun x v => Host.reduce IntOp.andi x v reducesTo_S384x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg0 main_arg8 main_arg9 main_arg10 main_arg11 main_arg12 main_v33

def fn {F : FTy → Type} [FloatOps F] (main_arg0 : IVec S16384x3 32) (main_arg1 : FVec F S100000x128 .f32) (main_arg2 : FVec F S100000x128 .f32) (main_arg3 : FVec F S101000x128 .f32) (main_arg4 : FVec F S101000x128 .f32) (main_arg5 : FVec F S384x1024 .f32) (main_arg6 : FVec F S1024 .f32) (main_arg7 : FVec F S1024x512 .f32) (main_arg8 : FVec F S512 .f32) (main_arg9 : FVec F S512x256 .f32) (main_arg10 : FVec F S256 .f32) (main_arg11 : FVec F S256x1 .f32) (main_arg12 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S101000x128 .f32 := Host.absf main_arg3
  let main_cst_2 : FVec F S_ .f32 := constant S_ .f32 0x7F800000#32
  let main_v10 : FVec F S101000x128 .f32 := broadcastInDim S101000x128 ![] bcast_S_S101000x128 main_cst_2
  let main_v11 : IVec S101000x128 1 := cmpf .olt main_v9 main_v10
  let main_c_3 : IVec S_ 1 := constantI S_ 1 1#1
  let main_v12 : IVec S_ 1 := (fun x v => Host.reduce IntOp.andi x v reducesTo_S101000x128_S_d0_1 h_S_) main_v11 main_c_3
  let main_v13 : IVec S_ 1 := andi main_v8 main_v12
  let main_v14 : FVec F S101000x128 .f32 := Host.absf main_arg4
  let main_cst_4 : FVec F S_ .f32 := constant S_ .f32 0x7F800000#32
  let main_v15 : FVec F S101000x128 .f32 := broadcastInDim S101000x128 ![] bcast_S_S101000x128 main_cst_4
  let main_v16 : IVec S101000x128 1 := cmpf .olt main_v14 main_v15
  fn_part1 (F := F) main_arg0 main_arg5 main_arg6 main_arg7 main_arg8 main_arg9 main_arg10 main_arg11 main_arg12 main_v13 main_v16
-- ==== Kernel.lean ====
abbrev S16384x3 : Shape := ⟨2, ![16384, 3]⟩
abbrev S100000x128 : Shape := ⟨2, ![100000, 128]⟩
abbrev S101000x128 : Shape := ⟨2, ![101000, 128]⟩
abbrev S384x1024 : Shape := ⟨2, ![384, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S3000x128 : Shape := ⟨2, ![3000, 128]⟩
abbrev S1000x128 : Shape := ⟨2, ![1000, 128]⟩
abbrev S49152 : Shape := ⟨1, ![49152]⟩
abbrev S49152x128 : Shape := ⟨2, ![49152, 128]⟩
abbrev S128 : Shape := ⟨1, ![128]⟩
abbrev S128x128 : Shape := ⟨2, ![128, 128]⟩
abbrev S_ : Shape := ⟨0, ![]⟩
abbrev S16 : Shape := ⟨1, ![16]⟩
abbrev S16384x384 : Shape := ⟨2, ![16384, 384]⟩
abbrev S1x1024 : Shape := ⟨2, ![1, 1024]⟩
abbrev S1x512 : Shape := ⟨2, ![1, 512]⟩
abbrev S1x256 : Shape := ⟨2, ![1, 256]⟩
abbrev S1x1 : Shape := ⟨2, ![1, 1]⟩
abbrev S16x1x1024 : Shape := ⟨3, ![16, 1, 1024]⟩
abbrev S1024x384 : Shape := ⟨2, ![1024, 384]⟩
abbrev S1x1x1024 : Shape := ⟨3, ![1, 1, 1024]⟩
abbrev S1024x1024 : Shape := ⟨2, ![1024, 1024]⟩
abbrev S1024x256 : Shape := ⟨2, ![1024, 256]⟩
abbrev S16384 : Shape := ⟨1, ![16384]⟩

abbrev nBuf : Table → Nat
  | .hbm => 27
  | .local .tc .vmem => 19
  | .local .scVector .vmem => 2
  | _ => 0

abbrev bufTy : (tb : Table) → Fin (nBuf tb) → BufTy
  | .hbm, ⟨0, _⟩ => ⟨S16384x3, .i32⟩
  | .hbm, ⟨1, _⟩ => ⟨S100000x128, .f32⟩
  | .hbm, ⟨2, _⟩ => ⟨S100000x128, .f32⟩
  | .hbm, ⟨3, _⟩ => ⟨S101000x128, .f32⟩
  | .hbm, ⟨4, _⟩ => ⟨S101000x128, .f32⟩
  | .hbm, ⟨5, _⟩ => ⟨S384x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S3000x128, .f32⟩
  | .hbm, ⟨14, _⟩ => ⟨S49152, .i32⟩
  | .hbm, ⟨15, _⟩ => ⟨S49152x128, .f32⟩
  | .hbm, ⟨16, _⟩ => ⟨S16384x384, .f32⟩
  | .hbm, ⟨17, _⟩ => ⟨S384x1024, .bf16⟩
  | .hbm, ⟨18, _⟩ => ⟨S1x1024, .f32⟩
  | .hbm, ⟨19, _⟩ => ⟨S1024x512, .bf16⟩
  | .hbm, ⟨20, _⟩ => ⟨S1x512, .f32⟩
  | .hbm, ⟨21, _⟩ => ⟨S512x256, .bf16⟩
  | .hbm, ⟨22, _⟩ => ⟨S1x256, .f32⟩
  | .hbm, ⟨23, _⟩ => ⟨S1x256, .f32⟩
  | .hbm, ⟨24, _⟩ => ⟨S1x1, .f32⟩
  | .hbm, ⟨25, _⟩ => ⟨S16x1x1024, .f32⟩
  | .hbm, ⟨26, _⟩ => ⟨S16384, .f32⟩
  | .local .tc .vmem, ⟨0, _⟩ => ⟨S1000x128, .f32⟩
  | .local .tc .vmem, ⟨1, _⟩ => ⟨S1000x128, .f32⟩
  | .local .tc .vmem, ⟨2, _⟩ => ⟨S1000x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S3000x128, .f32⟩
  | .local .tc .vmem, ⟨7, _⟩ => ⟨S1024x384, .f32⟩
  | .local .tc .vmem, ⟨8, _⟩ => ⟨S1024x384, .f32⟩
  | .local .tc .vmem, ⟨9, _⟩ => ⟨S384x1024, .bf16⟩
  | .local .tc .vmem, ⟨10, _⟩ => ⟨S1x1024, .f32⟩
  | .local .tc .vmem, ⟨11, _⟩ => ⟨S1024x512, .bf16⟩
  | .local .tc .vmem, ⟨12, _⟩ => ⟨S1x512, .f32⟩
  | .local .tc .vmem, ⟨13, _⟩ => ⟨S512x256, .bf16⟩
  | .local .tc .vmem, ⟨14, _⟩ => ⟨S1x256, .f32⟩
  | .local .tc .vmem, ⟨15, _⟩ => ⟨S1x256, .f32⟩
  | .local .tc .vmem, ⟨16, _⟩ => ⟨S1x1, .f32⟩
  | .local .tc .vmem, ⟨17, _⟩ => ⟨S1x1x1024, .f32⟩
  | .local .tc .vmem, ⟨18, _⟩ => ⟨S1x1x1024, .f32⟩
  | .local .scVector .vmem, ⟨0, _⟩ => ⟨S128, .i32⟩
  | .local .scVector .vmem, ⟨1, _⟩ => ⟨S128x128, .f32⟩
  | _, _ => ⟨S16384x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v0_scv : Ref sig .scVector := ⟨.hbm, 13, rfl⟩
abbrev main_v1_scv : Ref sig .scVector := ⟨.hbm, 14, rfl⟩
abbrev main_v2_scv : Ref sig .scVector := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc2_stg9_1 : Ref sig .tc := ⟨.vmem, 18, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem8_0 : DmaSem sig := 19
abbrev cc2_sem9_0 : DmaSem sig := 20
abbrev cc2_sem9_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c100_i32 : BitVec 32 := 100#32
  let c0_i32 : BitVec 32 := 0#32
  let c0_i32_0 : BitVec 32 := 0#32
  ![c100_i32.toNat, c0_i32.toNat]

def cc0_transform_5 (i : grid0.Coords) : Fin 2 → Nat :=
  let arg0 : BitVec 32 := BitVec.ofNat 32 (i 0).val
  let c100_i32 : BitVec 32 := 100#32
  let c0_i32 : BitVec 32 := 0#32
  let c0_i32_0 : BitVec 32 := 0#32
  ![c100_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

@[reducible] def k1_t1_loop : Scf.Loop 32 :=
  let c0_i32_0 : BitVec 32 := 0#32
  let c12_i32 : BitVec 32 := 12#32
  let v3 : BitVec 32 := Scalar.addi c0_i32_0 c12_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  let c0_i32_0 : BitVec 32 := 0#32
  let c1_i32 : BitVec 32 := 1#32
  let arg8 : BitVec 32 := Scf.iv c0_i32_0 c1_i32 k1_t1
  let c128_i32 : BitVec 32 := 128#32
  let v5 : BitVec 32 := Scalar.muli arg8 c128_i32
  let v6 : BitVec 32 := Scalar.addi v2 v5
  ![v6.toNat]
@[reducible] def k1_t2_loop : Scf.Loop 32 :=
  let c0_i32_3 : BitVec 32 := 0#32
  let c8_i32 : BitVec 32 := 8#32
  let v7 : BitVec 32 := Scalar.addi c0_i32_3 c8_i32
  let c1_i32_4 : BitVec 32 := 1#32
  ⟨c0_i32_3, v7, c1_i32_4⟩
def k1_off2 (k1_t2 : Fin k1_t2_loop.trips) : Fin 1 → Nat :=
  let c0_i32_3 : BitVec 32 := 0#32
  let c1_i32_4 : BitVec 32 := 1#32
  let arg10 : BitVec 32 := Scf.iv c0_i32_3 c1_i32_4 k1_t2
  let c16_i32_11 : BitVec 32 := 16#32
  let v20 : BitVec 32 := Scalar.muli arg10 c16_i32_11
  let v21 : Index := Scalar.indexCast v20
  ![v21.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  let c0_i32_0 : BitVec 32 := 0#32
  let c1_i32 : BitVec 32 := 1#32
  let arg8 : BitVec 32 := Scf.iv c0_i32_0 c1_i32 k1_t1
  let c128_i32 : BitVec 32 := 128#32
  let v5 : BitVec 32 := Scalar.muli arg8 c128_i32
  let v6 : BitVec 32 := Scalar.addi v2 v5
  let c0_i32_11_r1 : BitVec 32 := 0#32
  ![v6.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x1x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000x128_S1000x128_0_0 : ∀ a, (![0, 0] : Fin 2 → Nat) a + S1000x128.size a ≤ S1000x128.size a
  h_S1000x128 : 0 < S1000x128.numel
  inb_S3000x128_S1000x128_0_0 : ∀ a, (![0, 0] : Fin 2 → Nat) a + S1000x128.size a ≤ S3000x128.size a
  inb_S3000x128_S1000x128_1000_0 : ∀ a, (![1000, 0] : Fin 2 → Nat) a + S1000x128.size a ≤ S3000x128.size a
  inb_S3000x128_S1000x128_2000_0 : ∀ a, (![2000, 0] : Fin 2 → Nat) a + S1000x128.size a ≤ S3000x128.size a
  shapeCasts_S16384x3_S49152 : S16384x3.ShapeCasts S49152
  iota_S16_d0_w32_scVector : S16.Iotas .scVector 32 [0]
  h_S16 : 0 < S16.numel
  shapeCasts_S16_S16 : S16.ShapeCasts S16
  inb_S3000x128_S3000x128_0_0 : ∀ a, (![0, 0] : Fin 2 → Nat) a + S3000x128.size a ≤ S3000x128.size a
  gathers_S3000x128_S128x128 : S3000x128.Gathers 0 S128x128
  shapeCasts_S49152x128_S16384x384 : S49152x128.ShapeCasts S16384x384
  bitsLt_bf16_f32 : FTy.bits .bf16 < FTy.bits .f32
  shapeCasts_S1024_S1x1024 : S1024.ShapeCasts S1x1024
  shapeCasts_S512_S1x512 : S512.ShapeCasts S1x512
  shapeCasts_S256_S1x256 : S256.ShapeCasts S1x256
  shapeCasts_S256x1_S1x256 : S256x1.ShapeCasts S1x256
  shapeCasts_S1_S1x1 : S1.ShapeCasts S1x1
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S384x1024_S384x1024_0_0 : ∀ a, (![0, 0] : Fin 2 → Nat) a + S384x1024.size a ≤ S384x1024.size a
  h_S384x1024 : 0 < S384x1024.numel
  shapeCasts_S384x1024_S384x1024 : S384x1024.ShapeCasts S384x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  shapeCasts_S16x1x1024_S16384 : S16x1x1024.ShapeCasts S16384
  dot_S1024x384_S384x1024_S1024x1024_1_0_0_1_n_n_wf : DotDims.WF S1024x384 S384x1024 S1024x1024 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  hcc1_scratch2 : 7 + S_.numel ≤ 22
  hcc1_scoped0 : 8 + S_.numel ≤ 22
  hcc1_scoped1 : 9 + S_.numel ≤ 22
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S101000x128.size a
  hwx0_2 : ∀ i : grid0.Coords, EltTy.bits .f32 = 32 ∨ (Rect.block (s := S101000x128) S1000x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S101000x128.size a
  hwx0_3 : ∀ i : grid0.Coords, EltTy.bits .f32 = 32 ∨ (Rect.block (s := S101000x128) S1000x128.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S101000x128.size a
  hwx0_4 : ∀ i : grid0.Coords, EltTy.bits .f32 = 32 ∨ (Rect.block (s := S101000x128) S1000x128.size (cc0_transform_4 i) (hinb0_4 i)).WholeWords (EltTy.packing .f32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S101000x128.size a
  hwx0_5 : ∀ i : grid0.Coords, EltTy.bits .f32 = 32 ∨ (Rect.block (s := S101000x128) S1000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3000x128.size a ≤ S3000x128.size a
  hwx0_6 : ∀ i : grid0.Coords, EltTy.bits .f32 = 32 ∨ (Rect.block (s := S3000x128) S3000x128.size (cc0_transform_6 i) (hinb0_6 i)).WholeWords (EltTy.packing .f32)
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S128.size a ≤ S49152.size a
  k1_t2_ok : k1_t2_loop.OK
  k1_off2_inb : ∀ k1_t2 : Fin k1_t2_loop.trips, ∀ a, (k1_off2 k1_t2) a + S16.size a ≤ S128.size a
  k1_off3_inb : ∀ (i : grid1.Coords) (k1_t1 : Fin k1_t1_loop.trips), ∀ a, (k1_off3 i k1_t1) a + S128x128.size a ≤ S49152x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x384.size a ≤ S16384x384.size a
  hwx2_0 : ∀ i : grid2.Coords, EltTy.bits .f32 = 32 ∨ (Rect.block (s := S16384x384) S1024x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x1024.size a ≤ S384x1024.size a
  hwx2_1 : ∀ i : grid2.Coords, EltTy.bits .bf16 = 32 ∨ (Rect.block (s := S384x1024) S384x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S1024x512.size a
  hwx2_3 : ∀ i : grid2.Coords, EltTy.bits .bf16 = 32 ∨ (Rect.block (s := S1024x512) S1024x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S512x256.size a
  hwx2_5 : ∀ i : grid2.Coords, EltTy.bits .bf16 = 32 ∨ (Rect.block (s := S512x256) S512x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x1024.size a ≤ S16x1x1024.size a
  hwx2_9 : ∀ i : grid2.Coords, EltTy.bits .f32 = 32 ∨ (Rect.block (s := S16x1x1024) S1x1x1024.size (cc2_transform_9 i) (hinb2_9 i)).WholeWords (EltTy.packing .f32)

variable [Facts₀]

abbrev cc1_scratch2 : DmaSems sig S_ := SemArray.consecutive 7 S_ hcc1_scratch2
abbrev cc1_scoped0 : DmaSems sig S_ := SemArray.consecutive 8 S_ hcc1_scoped0
abbrev cc1_scoped1 : DmaSems sig S_ := SemArray.consecutive 9 S_ hcc1_scoped1
def dot_S1024x384_S384x1024_S1024x1024_1_0_0_1_n_n : DotDims S1024x384 S384x1024 S1024x1024 where
  lhsContracting := [1]
  rhsContracting := [0]
  lhsNonContracting := [0]
  rhsNonContracting := [1]
  lhsBatch := []
  rhsBatch := []
  wf := dot_S1024x384_S384x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg1) S1000x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1000x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1000x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1000x128.size cc0_transform_4 reads0_4 false false 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1000x128.size cc0_transform_5 reads0_5 false false 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S3000x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win2_0 : Pipeline.Window sig grid2 :=
  Pipeline.Window.ofSpec (Memref.whole main_v3) S1024x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S384x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1024x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S512x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v12) S1x1x1024.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S16384x3 : Shape := ⟨2, ![16384, 3]⟩
abbrev S100000x128 : Shape := ⟨2, ![100000, 128]⟩
abbrev S101000x128 : Shape := ⟨2, ![101000, 128]⟩
abbrev S384x1024 : Shape := ⟨2, ![384, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2 : Shape := ⟨1, ![2]⟩
abbrev S16384x1 : Shape := ⟨2, ![16384, 1]⟩
abbrev S16384 : Shape := ⟨1, ![16384]⟩
abbrev S16384x2 : Shape := ⟨2, ![16384, 2]⟩
abbrev S_ : Shape := ⟨0, ![]⟩
abbrev S1x1 : Shape := ⟨2, ![1, 1]⟩
abbrev S16384x128 : Shape := ⟨2, ![16384, 128]⟩
abbrev S1x2 : Shape := ⟨2, ![1, 2]⟩
abbrev S16384x2x1 : Shape := ⟨3, ![16384, 2, 1]⟩
abbrev S1x1x1 : Shape := ⟨3, ![1, 1, 1]⟩
abbrev S16384x2x128 : Shape := ⟨3, ![16384, 2, 128]⟩
abbrev S16384x256 : Shape := ⟨2, ![16384, 256]⟩
abbrev S16384x384 : Shape := ⟨2, ![16384, 384]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S1x256 : Shape := ⟨2, ![1, 256]⟩

abbrev nBuf : Space → Nat
  | .hbm => 151
  | .vmem => 0
  | .smem => 0
  | _ => 0

abbrev hbmTy0_0 (i : Nat) : BufTy := match i % 128 with
  | 0 => ⟨S16384x3, .i32⟩
  | 1 => ⟨S100000x128, .f32⟩
  | 2 => ⟨S100000x128, .f32⟩
  | 3 => ⟨S101000x128, .f32⟩
  | 4 => ⟨S101000x128, .f32⟩
  | 5 => ⟨S384x1024, .f32⟩
  | 6 => ⟨S1024, .f32⟩
  | 7 => ⟨S1024x512, .f32⟩
  | 8 => ⟨S512, .f32⟩
  | 9 => ⟨S512x256, .f32⟩
  | 10 => ⟨S256, .f32⟩
  | 11 => ⟨S256x1, .f32⟩
  | 12 => ⟨S1, .f32⟩
  | 13 => ⟨S2, .i32⟩
  | 14 => ⟨S16384x1, .i32⟩
  | 15 => ⟨S16384, .i32⟩
  | 16 => ⟨S16384x2, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x128, .f32⟩
  | 36 => ⟨S16384x128, .i1⟩
  | 37 => ⟨S_, .f32⟩
  | 38 => ⟨S16384x128, .f32⟩
  | 39 => ⟨S16384x128, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x128, .f32⟩
  | 59 => ⟨S16384x128, .i1⟩
  | 60 => ⟨S_, .f32⟩
  | 61 => ⟨S16384x128, .f32⟩
  | 62 => ⟨S16384x128, .f32⟩
  | 63 => ⟨S1x2, .i32⟩
  | 64 => ⟨S16384x2, .i32⟩
  | 65 => ⟨S16384x2, .i32⟩
  | 66 => ⟨S_, .i32⟩
  | 67 => ⟨S16384x2, .i32⟩
  | 68 => ⟨S16384x2, .i1⟩
  | 69 => ⟨S_, .i32⟩
  | 70 => ⟨S16384x2, .i32⟩
  | 71 => ⟨S16384x2, .i32⟩
  | 72 => ⟨S16384x2, .i32⟩
  | 73 => ⟨S16384x2x1, .i32⟩
  | 74 => ⟨S1, .i32⟩
  | 75 => ⟨S_, .i32⟩
  | 76 => ⟨S16384x2x1, .i32⟩
  | 77 => ⟨S16384x2x1, .i1⟩
  | 78 => ⟨S1x1x1, .i32⟩
  | 79 => ⟨S16384x2x1, .i32⟩
  | 80 => ⟨S16384x2x1, .i1⟩
  | 81 => ⟨S16384x2x1, .i1⟩
  | 82 => ⟨S_, .i1⟩
  | 83 => ⟨S16384x2, .i1⟩
  | 84 => ⟨S16384x2x128, .f32⟩
  | 85 => ⟨S16384x2x128, .i1⟩
  | 86 => ⟨S_, .f32⟩
  | 87 => ⟨S16384x2x128, .f32⟩
  | 88 => ⟨S16384x2x128, .f32⟩
  | 89 => ⟨S16384x256, .f32⟩
  | 90 => ⟨S_, .i32⟩
  | 91 => ⟨S16384x2, .i32⟩
  | 92 => ⟨S16384x2, .i1⟩
  | 93 => ⟨S_, .i32⟩
  | 94 => ⟨S16384x2, .i32⟩
  | 95 => ⟨S16384x2, .i32⟩
  | 96 => ⟨S16384x2, .i32⟩
  | 97 => ⟨S16384x2x1, .i32⟩
  | 98 => ⟨S1, .i32⟩
  | 99 => ⟨S_, .i32⟩
  | 100 => ⟨S16384x2x1, .i32⟩
  | 101 => ⟨S16384x2x1, .i1⟩
  | 102 => ⟨S1x1x1, .i32⟩
  | 103 => ⟨S16384x2x1, .i32⟩
  | 104 => ⟨S16384x2x1, .i1⟩
  | 105 => ⟨S16384x2x1, .i1⟩
  | 106 => ⟨S_, .i1⟩
  | 107 => ⟨S16384x2, .i1⟩
  | 108 => ⟨S16384x2x128, .f32⟩
  | 109 => ⟨S16384x2x128, .i1⟩
  | 110 => ⟨S_, .f32⟩
  | 111 => ⟨S16384x2x128, .f32⟩
  | 112 => ⟨S16384x2x128, .f32⟩
  | 113 => ⟨S16384x256, .f32⟩
  | 114 => ⟨S16384x128, .f32⟩
  | 115 => ⟨S16384x256, .f32⟩
  | 116 => ⟨S16384x384, .f32⟩
  | 117 => ⟨S16384x1024, .f32⟩
  | 118 => ⟨S1x1024, .f32⟩
  | 119 => ⟨S16384x1024, .f32⟩
  | 120 => ⟨S16384x1024, .f32⟩
  | 121 => ⟨S_, .f32⟩
  | 122 => ⟨S16384x1024, .f32⟩
  | 123 => ⟨S16384x1024, .f32⟩
  | 124 => ⟨S16384x512, .f32⟩
  | 125 => ⟨S1x512, .f32⟩
  | 126 => ⟨S16384x512, .f32⟩
  | 127 => ⟨S16384x512, .f32⟩
  | _ => ⟨S16384x3, .i32⟩

abbrev hbmTy0_1 (i : Nat) : BufTy := match i % 128 with
  | 0 => ⟨S_, .f32⟩
  | 1 => ⟨S16384x512, .f32⟩
  | 2 => ⟨S16384x512, .f32⟩
  | 3 => ⟨S16384x256, .f32⟩
  | 4 => ⟨S1x256, .f32⟩
  | 5 => ⟨S16384x256, .f32⟩
  | 6 => ⟨S16384x256, .f32⟩
  | 7 => ⟨S_, .f32⟩
  | 8 => ⟨S16384x256, .f32⟩
  | 9 => ⟨S16384x256, .f32⟩
  | 10 => ⟨S16384x1, .f32⟩
  | 11 => ⟨S1x1, .f32⟩
  | 12 => ⟨S16384x1, .f32⟩
  | 13 => ⟨S16384x1, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384, .f32⟩
  | _ => ⟨S16384x3, .i32⟩

abbrev hbmTy (i : Nat) : BufTy := match i / 128 with
  | 0 => hbmTy0_0 i
  | 1 => hbmTy0_1 i
  | _ => ⟨S16384x3, .i32⟩

abbrev bufTy : (tb : Table) → Fin (tcTables nBuf tb) → BufTy
  | .hbm, ⟨i, _⟩ => hbmTy i
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v3 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v8 : Ref sig .tc := ⟨.hbm, 88, rfl⟩
abbrev main_v9 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_call4_cst : Ref sig .tc := ⟨.hbm, 121, rfl⟩
abbrev main_call4_v0 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_call5_cst : Ref sig .tc := ⟨.hbm, 128, rfl⟩
abbrev main_call5_v0 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_call6_cst : Ref sig .tc := ⟨.hbm, 135, rfl⟩
abbrev main_call6_v0 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_cst : Ref sig .tc := ⟨.hbm, 144, rfl⟩
abbrev main_v36 : Ref sig .tc := ⟨.hbm, 145, rfl⟩
abbrev main_v37 : Ref sig .tc := ⟨.hbm, 146, rfl⟩
abbrev main_cst_0 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩

abbrev nD : Nat := 1
abbrev τ : Topo := Topo.v7x

variable {F : FTy → Type} [FloatOps F]

class Facts₀ : Prop where
  slices_S16384x3_S16384x1_0_0 : S16384x3.Slices ![0, 0] S16384x1
  shapeCasts_S16384x1_S16384 : S16384x1.ShapeCasts S16384
  slices_S16384x3_S16384x2_0_1 : S16384x3.Slices ![0, 1] S16384x2
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  bcast_S_S16384x2x1 : S_.BroadcastsInDim S16384x2x1 (![] : Fin 0 → Fin S16384x2x1.rank)
  bcast_S1_S1x1x1_2 : S1.BroadcastsInDim S1x1x1 (![2] : Fin 1 → Fin S1x1x1.rank)
  bcast_S1x1x1_S16384x2x1_0_1_2 : S1x1x1.BroadcastsInDim S16384x2x1 (![0, 1, 2] : Fin 3 → Fin S16384x2x1.rank)
  reducesTo_S16384x2x1_S16384x2_d2 : S16384x2x1.ReducesTo [2] S16384x2
  bcast_S16384x2_S16384x2x128_0_1 : S16384x2.BroadcastsInDim S16384x2x128 (![0, 1] : Fin 2 → Fin S16384x2x128.rank)
  bcast_S_S16384x2x128 : S_.BroadcastsInDim S16384x2x128 (![] : Fin 0 → Fin S16384x2x128.rank)
  shapeCasts_S16384x2x128_S16384x256 : S16384x2x128.ShapeCasts S16384x256
  concatenates_S16384x128_S16384x256_S16384x384_d1 : Shape.Concatenates [S16384x128, S16384x256] S16384x384 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  gather_S100000x128_S16384x1_S16384x128_1_0_n_n_0_1_1128_wf : GatherDims.WF S100000x128 S16384x1 S16384x128 [1] [0] [] [0] [] 1 ![1, 128]
  gather_S101000x128_S16384x2x1_S16384x2x128_2_0_n_n_0_2_1128_wf : GatherDims.WF S101000x128 S16384x2x1 S16384x2x128 [2] [0] [] [0] [] 2 ![1, 128]
  dot_S16384x384_S384x1024_S16384x1024_1_0_0_1_n_n_wf : DotDims.WF S16384x384 S384x1024 S16384x1024 [1] [0] [0] [1] [] []
  dot_S16384x1024_S1024x512_S16384x512_1_0_0_1_n_n_wf : DotDims.WF S16384x1024 S1024x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S101000x128_S16384x2x1_S16384x2x128_2_0_n_n_0_2_1128 : GatherDims S101000x128 S16384x2x1 S16384x2x128 where
  offsetDims := [2]
  collapsedSliceDims := [0]
  operandBatchingDims := []
  startIndicesBatchingDims := []
  startIndexMap := [0]
  indexVectorDim := 2
  sliceSizes := ![1, 128]
  wf := gather_S101000x128_S16384x2x1_S16384x2x128_2_0_n_n_0_2_1128_wf
def dot_S16384x384_S384x1024_S16384x1024_1_0_0_1_n_n : DotDims S16384x384 S384x1024 S16384x1024 where
  lhsContracting := [1]
  rhsContracting := [0]
  lhsNonContracting := [0]
  rhsNonContracting := [1]
  lhsBatch := []
  rhsBatch := []
  wf := dot_S16384x384_S384x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.SetupIdeal.lean ====
/-
  The program as the SparseCore launch theorem sees it, and the ghost state the proof runs over: the handshakes'
  rounds, the TensorCore pipelines' rounds for their staging cells, and the transfers' counters, side by side.
-/
import proofs.«205820_g61907658604586_cont_9to1_m_785_3_alg».proof.Proof.Gen.KernelIdeal.Launch
import proofs.«205820_g61907658604586_cont_9to1_m_785_3_alg».proof.Proof.Gen.KernelIdeal.Points
import proofs.«205820_g61907658604586_cont_9to1_m_785_3_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-- A TensorCore region's invariant between grid points: the scoped buffers no window stages, at any contents, and the
    generator register at any state. -/
def ΦR {gr : Nat} {W : Nat} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.KernelIdeal.Setup

end
-- ==== Proof.PrepBodyIdeal.lean ====
/-
  The first TensorCore kernel (three elementwise maxima of 1000-row blocks of the four tables, written one under the other
  into a 3000-row table) as the pipeline runs it at its one grid point: each window's block, what the body leaves in the
  output window's staging buffer as three stores of pure payloads of the six input blocks, the body's triple, and the
  pipeline's proof data with the body obligation. Two of the four tables are read through two windows each (rows 0..999 and
  rows 100000..100999): those windows hold half a share of the table each.
-/
import proofs.«205820_g61907658604586_cont_9to1_m_785_3_alg».proof.Proof.SetupIdeal

set_option maxRecDepth 16384

noncomputable section

namespace Cert.KernelIdeal.Prep

open Cert.KernelIdeal Cert.KernelIdeal.Gen Cert.KernelIdeal.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered, what the core owes throughout it, and a bound on the
-- (semaphore, index) pairs its waits have recorded
variable (V : (c : Dev nD) → (b : Ref sig .tc) → Buf (Elt F) ((c : Thread nD τ).loc b)) (O : CellTallies nD τ sig (HIx 1))
  (B : Set (SemLoc sig × HIx 1))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at the point. -/
theorem before0_of {c : Dev nD} (dat : Dat τ (Elt F) (HIx 1) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at the point. -/
theorem before1_of {c : Dev nD} (dat : Dat τ (Elt F) (HIx 1) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at the point. -/
theorem before2_of {c : Dev nD} (dat : Dat τ (Elt F) (HIx 1) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at the point. -/
theorem before3_of {c : Dev nD} (dat : Dat τ (Elt F) (HIx 1) ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at the point. -/
theorem before4_of {c : Dev nD} (dat : Dat τ (Elt F) (HIx 1) ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at the point. -/
theorem before5_of {c : Dev nD} (dat : Dat τ (Elt F) (HIx 1) ℕ UU ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: six whole loads, three stores of 1000 rows each at rows 0, 1000 and 2000 of the output's buffer -/

abbrev rIn : Rect S1000x128 := Rect.unit (s := S1000x128) ![0, 0] S1000x128.size inb_S1000x128_S1000x128_0_0
abbrev rA : Rect S3000x128 := Rect.unit (s := S3000x128) ![0, 0] S1000x128.size inb_S3000x128_S1000x128_0_0
abbrev rB : Rect S3000x128 := Rect.unit (s := S3000x128) ![1000, 0] S1000x128.size inb_S3000x128_S1000x128_1000_0
abbrev rC : Rect S3000x128 := Rect.unit (s := S3000x128) ![2000, 0] S1000x128.size inb_S3000x128_S1000x128_2000_0

/-- The output window's staging buffer after the body, from the input windows' blocks: its three stores, last first. -/
def out6 (x0 : Vec F S1000x128 .f32) (x1 : Vec F S1000x128 .f32) (x2 : Vec F S1000x128 .f32) (x3 : Vec F S1000x128 .f32) (x4 : Vec F S1000x128 .f32) (x5 : Vec F S1000x128 .f32) : Vec F S3000x128 .f32 :=
  View.canon [⟨rC, k0_pay3 (View.ld x4 rIn) (View.ld x5 rIn)⟩, ⟨rB, k0_pay2 (View.ld x2 rIn) (View.ld x3 rIn)⟩, ⟨rA, k0_pay1 (View.ld x0 rIn) (View.ld x1 rIn)⟩]

/-- The three stores tile the buffer. -/
theorem cover6 (p0 p1 p2 : Vec F S1000x128 .f32) (y : S3000x128.Idx) :
    ∃ pc ∈ ([⟨rC, p2⟩, ⟨rB, p1⟩, ⟨rA, p0⟩] : List (View.Piece (Elt F) S3000x128 .f32)), y ∈ pc.1.set :=
  View.cover_of_tiled [⟨rC, p2⟩, ⟨rB, p1⟩, ⟨rA, p0⟩] S1000x128.size (by rfl) y

set_option maxHeartbeats 4000000 in
/-- The body on whole staging memrefs, the inputs' at read contents and the output's at anything, runs to the continuation
    holding the inputs' as they were and the output's at `out6` of the inputs'. -/
theorem sound_kernel (c : Dev nD) (E : Set ℕ) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole) (arg7 : Memref sig .tc .vmem S3000x128 .f32) (harg7 : arg7.IsWhole)
    (x0 : Vec F S1000x128 .f32) (x1 : Vec F S1000x128 .f32) (x2 : Vec F S1000x128 .f32) (x3 : Vec F S1000x128 .f32) (x4 : Vec F S1000x128 .f32) (x5 : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5)) -∗ K ⟨⟩))
      ⊢ wp frame (wpE (defs₀ (F := F)) Variants.none c none) E (cc0__prep_body i arg1 harg1 arg2 harg2 arg3 harg3 arg4 harg4 arg5 harg5 arg6 harg6 arg7 harg7) K := by
  simp only [cc0__prep_body_eq_skeleton]; unfold cc0__prep_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _ _ _)

/-! ## The pipeline's proof data -/

/-- The arrays as the region finds them; after the body each input's buffer at its block and the output's at `out6` of the
    input blocks; the invariant the scoped rest and the generator register, untouched; what the core owes constant through
    the region; the two tables read through two windows at half a share per window, the others whole. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := ΦR spec0 c
  q w := match w with
    | ⟨0, _⟩ => fullShare
    | ⟨1, _⟩ => fullShare
    | ⟨2, _⟩ => fullShare.left
    | ⟨3, _⟩ => fullShare.left
    | ⟨4, _⟩ => fullShare.right
    | ⟨5, _⟩ => fullShare.right
    | ⟨6, _⟩ => fullShare
  owed _ := O
  recorded _ := B

theorem A_eq (c : Dev nD) (w : Fin cfg0.W) : (dat V O B c).A w = V c (Pipeline.arrRef spec0 w) := by
  dsimp only [dat]

theorem after0 (c : Dev nD) (t : Fin cfg0.N) : (dat V O B c).after 0 t = iblk V c 0 t := by dsimp only [dat]
theorem after1 (c : Dev nD) (t : Fin cfg0.N) : (dat V O B c).after 1 t = iblk V c 1 t := by dsimp only [dat]
theorem after2 (c : Dev nD) (t : Fin cfg0.N) : (dat V O B c).after 2 t = iblk V c 2 t := by dsimp only [dat]
theorem after3 (c : Dev nD) (t : Fin cfg0.N) : (dat V O B c).after 3 t = iblk V c 3 t := by dsimp only [dat]
theorem after4 (c : Dev nD) (t : Fin cfg0.N) : (dat V O B c).after 4 t = iblk V c 4 t := by dsimp only [dat]
theorem after5 (c : Dev nD) (t : Fin cfg0.N) : (dat V O B c).after 5 t = iblk V c 5 t := by dsimp only [dat]
theorem after6 (c : Dev nD) (t : Fin cfg0.N) : (dat V O B c).after 6 t = out6 (iblk V c 0 t) (iblk V c 1 t) (iblk V c 2 t) (iblk V c 3 t) (iblk V c 4 t) (iblk V c 5 t) := by dsimp only [dat]

theorem before0 (c : Dev nD) (t : Fin cfg0.N) (d) : (dat V O B c).before 0 t d = iblk V c 0 t :=
  before0_of V (dat V O B c) (A_eq V O B c 0) (after0 V O B c) t d
theorem before1 (c : Dev nD) (t : Fin cfg0.N) (d) : (dat V O B c).before 1 t d = iblk V c 1 t :=
  before1_of V (dat V O B c) (A_eq V O B c 1) (after1 V O B c) t d
theorem before2 (c : Dev nD) (t : Fin cfg0.N) (d) : (dat V O B c).before 2 t d = iblk V c 2 t :=
  before2_of V (dat V O B c) (A_eq V O B c 2) (after2 V O B c) t d
theorem before3 (c : Dev nD) (t : Fin cfg0.N) (d) : (dat V O B c).before 3 t d = iblk V c 3 t :=
  before3_of V (dat V O B c) (A_eq V O B c 3) (after3 V O B c) t d
theorem before4 (c : Dev nD) (t : Fin cfg0.N) (d) : (dat V O B c).before 4 t d = iblk V c 4 t :=
  before4_of V (dat V O B c) (A_eq V O B c 4) (after4 V O B c) t d
theorem before5 (c : Dev nD) (t : Fin cfg0.N) (d) : (dat V O B c).before 5 t d = iblk V c 5 t :=
  before5_of V (dat V O B c) (A_eq V O B c 5) (after5 V O B c) t d

/-! ## The body obligation -/

def bodyPre (c : Dev nD) (t : Fin cfg0.N) : sProp 𝕄 :=
  iprop((dat V O B c).Φ t.castSucc ∗ (dat V O B c).owesAt none t.castSucc
    ∗ (∃ d, owns (c : Thread nD τ) (st0_0 t) fullShare ((dat V O B c).before 0 t d))
    ∗ (∃ d, owns (c : Thread nD τ) (st0_1 t) fullShare ((dat V O B c).before 1 t d))
    ∗ (∃ d, owns (c : Thread nD τ) (st0_2 t) fullShare ((dat V O B c).before 2 t d))
    ∗ (∃ d, owns (c : Thread nD τ) (st0_3 t) fullShare ((dat V O B c).before 3 t d))
    ∗ (∃ d, owns (c : Thread nD τ) (st0_4 t) fullShare ((dat V O B c).before 4 t d))
    ∗ (∃ d, owns (c : Thread nD τ) (st0_5 t) fullShare ((dat V O B c).before 5 t d))
    ∗ (∃ d, owns (c : Thread nD τ) (st0_6 t) fullShare ((dat V O B c).before 6 t d)))

def bodyPost (c : Dev nD) (t : Fin cfg0.N) : sProp 𝕄 :=
  iprop((dat V O B c).Φ t.succ ∗ (dat V O B c).owesAt none t.succ
    ∗ owns (c : Thread nD τ) (st0_0 t) fullShare ((dat V O B c).after 0 t)
    ∗ owns (c : Thread nD τ) (st0_1 t) fullShare ((dat V O B c).after 1 t)
    ∗ owns (c : Thread nD τ) (st0_2 t) fullShare ((dat V O B c).after 2 t)
    ∗ owns (c : Thread nD τ) (st0_3 t) fullShare ((dat V O B c).after 3 t)
    ∗ owns (c : Thread nD τ) (st0_4 t) fullShare ((dat V O B c).after 4 t)
    ∗ owns (c : Thread nD τ) (st0_5 t) fullShare ((dat V O B c).after 5 t)
    ∗ owns (c : Thread nD τ) (st0_6 t) fullShare ((dat V O B c).after 6 t))

theorem sound_body (c : Dev nD) (t : Fin cfg0.N) :
    bodyPre V O B c t ⊢ wp frame (wpE (defs₀ (F := F)) Variants.none c none) Set.univ (bodyAt0 t) (fun _ => bodyPost V O B c t) := by
  unfold bodyPre bodyPost bodyAt0
  simp only [before0, before1, before2, before3, before4, before5]
  rw [show (dat V O B c).Φ t.succ = (dat V O B c).Φ t.castSucc from rfl,
    show (dat V O B c).owesAt none t.succ = (dat V O B c).owesAt none t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V O B c) (defs₀ (F := F)) Variants.none none Set.univ := fun t => by
  rw [bigSep_W0, bigSep_W0]
  exact sound_body V O B c t

end Cert.KernelIdeal.Prep

end
-- ==== Proof.MlpBodyIdeal.lean ====
/-
  The second TensorCore kernel (three affine layers with a rectifier, a weighted lane sum, a bias and the logistic
  function, on a block of 1024 rows) as the pipeline runs it: each window's block at a grid point, what the body leaves in
  the output window's staging buffer as one store of a pure payload of the nine input blocks, the body's triple, and the
  pipeline's proof data with the body obligation at every point. The weights and biases are fetched once, at the first
  point; the rows' block and the output block move with the point.
-/
import proofs.«205820_g61907658604586_cont_9to1_m_785_3_alg».proof.Proof.SetupIdeal

set_option maxRecDepth 16384

noncomputable section

namespace Cert.KernelIdeal.Mlp

open Cert.KernelIdeal Cert.KernelIdeal.Gen Cert.KernelIdeal.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered, what the core owes throughout it, and a bound on the
-- (semaphore, index) pairs its waits have recorded
variable (V : (c : Dev nD) → (b : Ref sig .tc) → Buf (Elt F) ((c : Thread nD τ).loc b)) (O : CellTallies nD τ sig (HIx 1))
  (B : Set (SemLoc sig × HIx 1))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) (HIx 1) ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) (HIx 1) ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) (HIx 1) ℕ UU ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) (HIx 1) ℕ UU ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) (HIx 1) ℕ UU ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) (HIx 1) ℕ UU ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load takes a whole staging buffer, the one store fills the output's -/

abbrev r0 : Rect S1024x384 := Rect.unit (s := S1024x384) ![0, 0] S1024x384.size inb_S1024x384_S1024x384_0_0
abbrev r1 : Rect S384x1024 := Rect.unit (s := S384x1024) ![0, 0] S384x1024.size inb_S384x1024_S384x1024_0_0
abbrev r2 : Rect S1x1024 := Rect.unit (s := S1x1024) ![0, 0] S1x1024.size inb_S1x1024_S1x1024_0_0
abbrev r3 : Rect S1024x512 := Rect.unit (s := S1024x512) ![0, 0] S1024x512.size inb_S1024x512_S1024x512_0_0
abbrev r4 : Rect S1x512 := Rect.unit (s := S1x512) ![0, 0] S1x512.size inb_S1x512_S1x512_0_0
abbrev r5 : Rect S512x256 := Rect.unit (s := S512x256) ![0, 0] S512x256.size inb_S512x256_S512x256_0_0
abbrev r6 : Rect S1x256 := Rect.unit (s := S1x256) ![0, 0] S1x256.size inb_S1x256_S1x256_0_0
abbrev r7 : Rect S1x256 := Rect.unit (s := S1x256) ![0, 0] S1x256.size inb_S1x256_S1x256_0_0
abbrev r8 : Rect S1x1 := Rect.unit (s := S1x1) ![0, 0] S1x1.size inb_S1x1_S1x1_0_0
abbrev r9 : Rect S1x1x1024 := Rect.unit (s := S1x1x1024) ![0, 0, 0] S1x1x1024.size inb_S1x1x1024_S1x1x1024_0_0_0

/-- The output window's staging buffer after the body, from the input windows' blocks: its one store. -/
def out9 (x0 : Vec F S1024x384 .f32) (x1 : Vec F S384x1024 .bf16) (x2 : Vec F S1x1024 .f32) (x3 : Vec F S1024x512 .bf16) (x4 : Vec F S1x512 .f32) (x5 : Vec F S512x256 .bf16) (x6 : Vec F S1x256 .f32) (x7 : Vec F S1x256 .f32) (x8 : Vec F S1x1 .f32) : Vec F S1x1x1024 .f32 :=
  View.canon [⟨r9, k2_pay1 (k2_pay2 (View.ld x0 r0) (View.ld x1 r1) (View.ld x2 r2) (View.ld x3 r3) (View.ld x4 r4) (View.ld x5 r5) (View.ld x6 r6) (View.ld x7 r7)) (View.ld x8 r8)⟩]

/-- The store fills the buffer. -/
theorem cover9 (p0 : Vec F S1x1x1024 .f32) (y : S1x1x1024.Idx) :
    ∃ pc ∈ ([⟨r9, p0⟩] : List (View.Piece (Elt F) S1x1x1024 .f32)), y ∈ pc.1.set :=
  View.cover_of_tiled [⟨r9, p0⟩] S1x1x1024.size (by rfl) y

set_option maxHeartbeats 4000000 in
/-- The body on whole staging memrefs, the inputs' at read contents and the output's at anything, runs to the continuation
    holding the inputs' as they were and the output's at `out9` of the inputs'. -/
theorem sound_kernel (c : Dev nD) (E : Set ℕ) (i : grid2.Coords) (arg1 : Memref sig .tc .vmem S1024x384 .f32) (harg1 : arg1.IsWhole) (arg2 : Memref sig .tc .vmem S384x1024 .bf16) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x1x1024 .f32) (harg10 : arg10.IsWhole)
    (x0 : Vec F S1024x384 .f32) (x1 : Vec F S384x1024 .bf16) (x2 : Vec F S1x1024 .f32) (x3 : Vec F S1024x512 .bf16) (x4 : Vec F S1x512 .f32) (x5 : Vec F S512x256 .bf16) (x6 : Vec F S1x256 .f32) (x7 : Vec F S1x256 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9 arg10 harg10) K := by
  simp only [cc2__mlp_body_eq_skeleton]; unfold cc2__mlp_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

/-! ## The pipeline's proof data -/

/-- The arrays as the region finds them; after the body at point `t` each input's buffer at its block and the output's at
    `out9` of the input blocks; the invariant the scoped rest and the generator register, untouched; what the core owes
    constant through the region; full shares. -/
def dat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9 (iblk V c 0 t) (iblk V c 1 t) (iblk V c 2 t) (iblk V c 3 t) (iblk V c 4 t) (iblk V c 5 t) (iblk V c 6 t) (iblk V c 7 t) (iblk V c 8 t)
  Φ _ := ΦR spec2 c
  q _ := fullShare
  owed _ := O
  recorded _ := B

theorem A_eq (c : Dev nD) (w : Fin cfg2.W) : (dat V O B c).A w = V c (Pipeline.arrRef spec2 w) := by
  dsimp only [dat]

theorem after0 (c : Dev nD) (t : Fin cfg2.N) : (dat V O B c).after 0 t = iblk V c 0 t := by dsimp only [dat]
theorem after1 (c : Dev nD) (t : Fin cfg2.N) : (dat V O B c).after 1 t = iblk V c 1 t := by dsimp only [dat]
theorem after2 (c : Dev nD) (t : Fin cfg2.N) : (dat V O B c).after 2 t = iblk V c 2 t := by dsimp only [dat]
theorem after3 (c : Dev nD) (t : Fin cfg2.N) : (dat V O B c).after 3 t = iblk V c 3 t := by dsimp only [dat]
theorem after4 (c : Dev nD) (t : Fin cfg2.N) : (dat V O B c).after 4 t = iblk V c 4 t := by dsimp only [dat]
theorem after5 (c : Dev nD) (t : Fin cfg2.N) : (dat V O B c).after 5 t = iblk V c 5 t := by dsimp only [dat]
theorem after6 (c : Dev nD) (t : Fin cfg2.N) : (dat V O B c).after 6 t = iblk V c 6 t := by dsimp only [dat]
theorem after7 (c : Dev nD) (t : Fin cfg2.N) : (dat V O B c).after 7 t = iblk V c 7 t := by dsimp only [dat]
theorem after8 (c : Dev nD) (t : Fin cfg2.N) : (dat V O B c).after 8 t = iblk V c 8 t := by dsimp only [dat]
theorem after9 (c : Dev nD) (t : Fin cfg2.N) : (dat V O B c).after 9 t = out9 (iblk V c 0 t) (iblk V c 1 t) (iblk V c 2 t) (iblk V c 3 t) (iblk V c 4 t) (iblk V c 5 t) (iblk V c 6 t) (iblk V c 7 t) (iblk V c 8 t) := by dsimp only [dat]

theorem before0 (c : Dev nD) (t : Fin cfg2.N) (d) : (dat V O B c).before 0 t d = iblk V c 0 t :=
  before0_of V (dat V O B c) (A_eq V O B c 0) (after0 V O B c) t d
theorem before1 (c : Dev nD) (t : Fin cfg2.N) (d) : (dat V O B c).before 1 t d = iblk V c 1 t :=
  before1_of V (dat V O B c) (A_eq V O B c 1) (after1 V O B c) t d
theorem before2 (c : Dev nD) (t : Fin cfg2.N) (d) : (dat V O B c).before 2 t d = iblk V c 2 t :=
  before2_of V (dat V O B c) (A_eq V O B c 2) (after2 V O B c) t d
theorem before3 (c : Dev nD) (t : Fin cfg2.N) (d) : (dat V O B c).before 3 t d = iblk V c 3 t :=
  before3_of V (dat V O B c) (A_eq V O B c 3) (after3 V O B c) t d
theorem before4 (c : Dev nD) (t : Fin cfg2.N) (d) : (dat V O B c).before 4 t d = iblk V c 4 t :=
  before4_of V (dat V O B c) (A_eq V O B c 4) (after4 V O B c) t d
theorem before5 (c : Dev nD) (t : Fin cfg2.N) (d) : (dat V O B c).before 5 t d = iblk V c 5 t :=
  before5_of V (dat V O B c) (A_eq V O B c 5) (after5 V O B c) t d
theorem before6 (c : Dev nD) (t : Fin cfg2.N) (d) : (dat V O B c).before 6 t d = iblk V c 6 t :=
  before6_of V (dat V O B c) (A_eq V O B c 6) (after6 V O B c) t d
theorem before7 (c : Dev nD) (t : Fin cfg2.N) (d) : (dat V O B c).before 7 t d = iblk V c 7 t :=
  before7_of V (dat V O B c) (A_eq V O B c 7) (after7 V O B c) t d
theorem before8 (c : Dev nD) (t : Fin cfg2.N) (d) : (dat V O B c).before 8 t d = iblk V c 8 t :=
  before8_of V (dat V O B c) (A_eq V O B c 8) (after8 V O B c) t d

/-! ## The body obligation, at a generic point -/

def bodyPre (c : Dev nD) (t : Fin cfg2.N) : sProp 𝕄 :=
  iprop((dat V O B c).Φ t.castSucc ∗ (dat V O B c).owesAt none t.castSucc
    ∗ (∃ d, owns (c : Thread nD τ) (st2_0 t) fullShare ((dat V O B c).before 0 t d))
    ∗ (∃ d, owns (c : Thread nD τ) (st2_1 t) fullShare ((dat V O B c).before 1 t d))
    ∗ (∃ d, owns (c : Thread nD τ) (st2_2 t) fullShare ((dat V O B c).before 2 t d))
    ∗ (∃ d, owns (c : Thread nD τ) (st2_3 t) fullShare ((dat V O B c).before 3 t d))
    ∗ (∃ d, owns (c : Thread nD τ) (st2_4 t) fullShare ((dat V O B c).before 4 t d))
    ∗ (∃ d, owns (c : Thread nD τ) (st2_5 t) fullShare ((dat V O B c).before 5 t d))
    ∗ (∃ d, owns (c : Thread nD τ) (st2_6 t) fullShare ((dat V O B c).before 6 t d))
    ∗ (∃ d, owns (c : Thread nD τ) (st2_7 t) fullShare ((dat V O B c).before 7 t d))
    ∗ (∃ d, owns (c : Thread nD τ) (st2_8 t) fullShare ((dat V O B c).before 8 t d))
    ∗ (∃ d, owns (c : Thread nD τ) (st2_9 t) fullShare ((dat V O B c).before 9 t d)))

def bodyPost (c : Dev nD) (t : Fin cfg2.N) : sProp 𝕄 :=
  iprop((dat V O B c).Φ t.succ ∗ (dat V O B c).owesAt none t.succ
    ∗ owns (c : Thread nD τ) (st2_0 t) fullShare ((dat V O B c).after 0 t)
    ∗ owns (c : Thread nD τ) (st2_1 t) fullShare ((dat V O B c).after 1 t)
    ∗ owns (c : Thread nD τ) (st2_2 t) fullShare ((dat V O B c).after 2 t)
    ∗ owns (c : Thread nD τ) (st2_3 t) fullShare ((dat V O B c).after 3 t)
    ∗ owns (c : Thread nD τ) (st2_4 t) fullShare ((dat V O B c).after 4 t)
    ∗ owns (c : Thread nD τ) (st2_5 t) fullShare ((dat V O B c).after 5 t)
    ∗ owns (c : Thread nD τ) (st2_6 t) fullShare ((dat V O B c).after 6 t)
    ∗ owns (c : Thread nD τ) (st2_7 t) fullShare ((dat V O B c).after 7 t)
    ∗ owns (c : Thread nD τ) (st2_8 t) fullShare ((dat V O B c).after 8 t)
    ∗ owns (c : Thread nD τ) (st2_9 t) fullShare ((dat V O B c).after 9 t))

theorem sound_body (c : Dev nD) (t : Fin cfg2.N) :
    bodyPre V O B c t ⊢ wp frame (wpE (defs₀ (F := F)) Variants.none c none) Set.univ (bodyAt2 t) (fun _ => bodyPost V O B c t) := by
  unfold bodyPre bodyPost bodyAt2
  simp only [before0, before1, before2, before3, before4, before5, before6, before7, before8]
  rw [show (dat V O B c).Φ t.succ = (dat V O B c).Φ t.castSucc from rfl,
    show (dat V O B c).owesAt none t.succ = (dat V O B c).owesAt none t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dat (F := F) V O B c) (defs₀ (F := F)) Variants.none none Set.univ := fun t => by
  rw [bigSep_W2, bigSep_W2]
  exact sound_body V O B c t

end Cert.KernelIdeal.Mlp

end
-- ==== Proof.Spec.lean ====
/-
  The function both programs compute, stated once, index by index, over literal shapes.

  A sample b has three integer entries x(b,0), x(b,1), x(b,2), each in [0, 999]. Its feature row of 384 numbers is three
  pieces of 128: the elementwise maximum of row x(b,0) of the two user tables, of row x(b,1) of the two item tables, and
  of row 100000 + x(b,2) of the two item tables. Three affine layers with a rectifier follow (widths 1024, 512, 256), then a
  dot product with a column of 256 weights, a bias, and the logistic function.

  The kernel reaches the feature row through a merged table of 3000 rows (rows 0..999 the user maxima, 1000..1999 the
  item maxima, 2000..2999 the item maxima from row 100000 on) read at row x(b,f) + 1000 f; `hcat_merged` says that this is
  the same feature row. Row numbers are formed with `Fin.ofNat` (reduction modulo the extent), which does nothing on the
  numbers that occur when the entries are in range and keeps every definition total.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extents `a`, `b`. -/
abbrev Arr2 (α : Type) (a b : Nat) : Type := (⟨2, ![a, b]⟩ : Shape).Idx → α
/-- A rank-1 array of extent `a`. -/
abbrev Arr1 (α : Type) (a : Nat) : Type := (⟨1, ![a]⟩ : Shape).Idx → α

/-- The field (0, 1 or 2) a feature column belongs to, and its place within the field's 128 numbers. -/
def fld (k : Fin 384) : Fin 3 := ⟨k.val / 128, by omega⟩
def lane (k : Fin 384) : Fin 128 := ⟨k.val % 128, Nat.mod_lt _ (by decide)⟩

/-- Entry `j` of the flattened index list (sample `j / 3`, field `j % 3`) names this row of the merged table: the
    entry plus 1000 times the field. -/
def rowOf (xf : Arr1 (BitVec 32) 49152) (j : Fin 49152) : Fin 3000 :=
  Fin.ofNat 3000 ((xf (ix1 j)).toNat + (j.val % 3) * 1000)

/-- The gathered rows: row `j` is row `rowOf xf j` of the table. -/
def gath {α : Type} (M : Arr2 α 3000 128) (xf : Arr1 (BitVec 32) 49152) : Arr2 α 49152 128 :=
  fun i => M (ix2 (rowOf xf (i 0)) (i 1))

/-- The flattened index list of the samples' entries, row-major. -/
def flat (x : Arr2 (BitVec 32) 16384 3) : Arr1 (BitVec 32) 49152 :=
  fun j => x (ix2 (Fin.ofNat 16384 ((j 0).val / 3)) (Fin.ofNat 3 ((j 0).val % 3)))

/-- One entry of the merged table: three bands of 1000 rows, each the elementwise maximum of two tables' rows. -/
def mergedAt {F : FTy → Type} [FloatOps F] (su tu : Arr2 (F .f32) 100000 128) (si ti : Arr2 (F .f32) 101000 128) (r : Nat) (e : Fin 128) : F .f32 :=
  if r < 1000 then FloatOps.maximumf (su (ix2 (Fin.ofNat 100000 r) e)) (tu (ix2 (Fin.ofNat 100000 r) e))
  else if r < 2000 then FloatOps.maximumf (si (ix2 (Fin.ofNat 101000 (r - 1000)) e)) (ti (ix2 (Fin.ofNat 101000 (r - 1000)) e))
  else FloatOps.maximumf (si (ix2 (Fin.ofNat 101000 (r + 98000)) e)) (ti (ix2 (Fin.ofNat 101000 (r + 98000)) e))

/-- The merged table. -/
def merged {F : FTy → Type} [FloatOps F] (su tu : Arr2 (F .f32) 100000 128) (si ti : Arr2 (F .f32) 101000 128) : Arr2 (F .f32) 3000 128 :=
  fun i => mergedAt su tu si ti (i 0).val (i 1)

/-- The feature rows read off the merged table: piece `f` of sample `b` is row x(b,f) + 1000 f. -/
def hcat {α : Type} (M : Arr2 α 3000 128) (x : Arr2 (BitVec 32) 16384 3) : Arr2 α 16384 384 :=
  fun i => M (ix2 (Fin.ofNat 3000 ((x (ix2 (i 0) (fld (i 1)))).toNat + (fld (i 1)).val * 1000)) (lane (i 1)))

/-- One entry of the feature rows read off the four tables directly: entry `r` of the sample in field `f`, lane `e`. -/
def featAt (su tu : Arr2 EReal 100000 128) (si ti : Arr2 EReal 101000 128) (r : Nat) (f : Nat) (e : Fin 128) : EReal :=
  if f = 0 then max (su (ix2 (Fin.ofNat 100000 r) e)) (tu (ix2 (Fin.ofNat 100000 r) e))
  else if f = 1 then max (si (ix2 (Fin.ofNat 101000 r) e)) (ti (ix2 (Fin.ofNat 101000 r) e))
  else max (si (ix2 (Fin.ofNat 101000 (r + 100000)) e)) (ti (ix2 (Fin.ofNat 101000 (r + 100000)) e))

/-- The feature rows read off the four tables directly. -/
def feat (su tu : Arr2 EReal 100000 128) (si ti : Arr2 EReal 101000 128) (x : Arr2 (BitVec 32) 16384 3) : Arr2 EReal 16384 384 :=
  fun i => featAt su tu si ti (x (ix2 (i 0) (fld (i 1)))).toNat (fld (i 1)).val (lane (i 1))

/-- One affine layer with a rectifier: `max (∑ₖ h(b,k) · W(k,n) + bias(n), 0)`. -/
def layer {n k o : Nat} (h : Arr2 EReal n k) (W : Arr2 EReal k o) (b : Arr1 EReal o) : Arr2 EReal n o :=
  fun i => max ((∑ q : Fin k, h (ix2 (i 0) q) * W (ix2 q (i 1))) + b (ix1 (i 1))) 0

/-- The last step: the dot product with the weight column, the bias, the logistic function. -/
def head {n : Nat} (a : Arr2 EReal n 256) (Wp : Arr2 EReal 256 1) (bp : Arr1 EReal 1) : Arr1 EReal n :=
  fun i => Ideal.logistic ((∑ q : Fin 256, a (ix2 (i 0) q) * Wp (ix2 q (0 : Fin 1))) + bp (ix1 (0 : Fin 1)))

/-- The network on given feature rows (any number of rows: each row's result depends on that row only). -/
def net {n : Nat} (h : Arr2 EReal n 384) (W1 : Arr2 EReal 384 1024) (b1 : Arr1 EReal 1024) (W2 : Arr2 EReal 1024 512) (b2 : Arr1 EReal 512)
    (W3 : Arr2 EReal 512 256) (b3 : Arr1 EReal 256) (Wp : Arr2 EReal 256 1) (bp : Arr1 EReal 1) : Arr1 EReal n :=
  head (layer (layer (layer h W1 b1) W2 b2) W3 b3) Wp bp

/-- A one-row matrix read as a vector, and a one-row matrix read as a one-column matrix (the same numbers re-indexed). -/
def rowVec {α : Type} {n : Nat} (b : Arr2 α 1 n) : Arr1 α n := fun i => b (ix2 (0 : Fin 1) (i 0))
def colOf {α : Type} {n : Nat} (w : Arr2 α 1 n) : Arr2 α n 1 := fun i => w (ix2 (0 : Fin 1) (i 0))

/-- The result, as one function of the thirteen argument arrays. -/
def G (x : Arr2 (BitVec 32) 16384 3) (su tu : Arr2 EReal 100000 128) (si ti : Arr2 EReal 101000 128)
    (W1 : Arr2 EReal 384 1024) (b1 : Arr1 EReal 1024) (W2 : Arr2 EReal 1024 512) (b2 : Arr1 EReal 512)
    (W3 : Arr2 EReal 512 256) (b3 : Arr1 EReal 256) (Wp : Arr2 EReal 256 1) (bp : Arr1 EReal 1) : Arr1 EReal 16384 :=
  net (feat su tu si ti x) W1 b1 W2 b2 W3 b3 Wp bp

/-- Every entry of the index array is at most 999. -/
def InRange (x : Arr2 (BitVec 32) 16384 3) : Prop := ∀ i, (x i).toNat ≤ 999

theorem ofNat_congr {n : Nat} [NeZero n] {a b : Nat} (h : a % n = b % n) : Fin.ofNat n a = Fin.ofNat n b :=
  Fin.ext (by simpa [Fin.ofNat] using h)

/-- An entry in range, shifted by 1000 times its field, is a row of the merged table; no reduction happens. -/
theorem ofNat_row (r f : Nat) (hr : r ≤ 999) (hf : f < 3) : (Fin.ofNat 3000 (r + f * 1000)).val = r + f * 1000 := by
  simp only [Fin.ofNat]; omega

/-- Read through the merged table at row x(b,f) + 1000 f, the feature rows are the ones read off the four tables. -/
theorem hcat_merged (su tu : Arr2 EReal 100000 128) (si ti : Arr2 EReal 101000 128) (x : Arr2 (BitVec 32) 16384 3) (hx : InRange x) :
    hcat (merged (F := Ideal) su tu si ti) x = feat su tu si ti x := by
  funext i
  have hr := hx (ix2 (i 0) (fld (i 1)))
  have hf := (fld (i 1)).isLt
  show mergedAt (F := Ideal) su tu si ti (Fin.ofNat 3000 ((x (ix2 (i 0) (fld (i 1)))).toNat + (fld (i 1)).val * 1000)).val (lane (i 1))
    = featAt su tu si ti (x (ix2 (i 0) (fld (i 1)))).toNat (fld (i 1)).val (lane (i 1))
  rw [ofNat_row _ _ hr hf]
  generalize (x (ix2 (i 0) (fld (i 1)))).toNat = r at hr
  generalize lane (i 1) = e
  generalize (fld (i 1)).val = f at hf
  unfold mergedAt featAt
  simp only [Ideal.maximumf_def]
  have h3 : f = 0 ∨ f = 1 ∨ f = 2 := by omega
  rcases h3 with rfl | rfl | rfl
  · rw [if_pos (by omega), if_pos rfl]; rfl
  · rw [if_neg (by omega), if_pos (by omega), if_neg (by omega), if_pos rfl]
    rw [ofNat_congr (n := 101000) (a := r + 1 * 1000 - 1000) (b := r) (by omega)]
  · rw [if_neg (by omega), if_neg (by omega), if_neg (by omega), if_neg (by omega)]

end Cert.Spec

end
-- ==== Proof.ChainIdeal.lean ====
/-
  The TensorCore's buffers from the launch to the return, as a chain of valuations: the launch memory; after the first
  kernel's region (its output array written, nothing else touched); after the reshape of the index array; after the
  gather on the SparseCores (its output array at the gathered rows); after the nine host operations that reshape the
  gathered rows and round or reshape the weights; after the second kernel's region; after the final reshape. And the two
  pipelines' proof data, each at its region's entry contents.
-/
import proofs.«205820_g61907658604586_cont_9to1_m_785_3_alg».proof.Proof.PrepBodyIdeal
import proofs.«205820_g61907658604586_cont_9to1_m_785_3_alg».proof.Proof.MlpBodyIdeal
import proofs.«205820_g61907658604586_cont_9to1_m_785_3_alg».proof.Proof.Spec

set_option maxRecDepth 16384

noncomputable section

namespace Cert.KernelIdeal.Chain

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The host operations between the kernels -/

abbrev hostOpsA : List (HloOp τ sig (Elt F)) :=
  [ StableHlo.reshape main_arg0 main_v1 rfl shapeCasts_S16384x3_S49152 ]

abbrev hostOpsB : List (HloOp τ sig (Elt F)) :=
  [ StableHlo.reshape main_v2 main_v3 rfl shapeCasts_S49152x128_S16384x384,
    StableHlo.unary main_arg5 main_v4 ((truncf .bf16 · bitsLt_bf16_f32) : (⟨S384x1024, .f32⟩ : BufTy).Contents (Elt F) → (⟨S384x1024, .bf16⟩ : BufTy).Contents (Elt F)),
    StableHlo.reshape main_arg6 main_v5 rfl shapeCasts_S1024_S1x1024,
    StableHlo.unary main_arg7 main_v6 ((truncf .bf16 · bitsLt_bf16_f32) : (⟨S1024x512, .f32⟩ : BufTy).Contents (Elt F) → (⟨S1024x512, .bf16⟩ : BufTy).Contents (Elt F)),
    StableHlo.reshape main_arg8 main_v7 rfl shapeCasts_S512_S1x512,
    StableHlo.unary main_arg9 main_v8 ((truncf .bf16 · bitsLt_bf16_f32) : (⟨S512x256, .f32⟩ : BufTy).Contents (Elt F) → (⟨S512x256, .bf16⟩ : BufTy).Contents (Elt F)),
    StableHlo.reshape main_arg10 main_v9 rfl shapeCasts_S256_S1x256,
    StableHlo.reshape main_arg11 main_v10 rfl shapeCasts_S256x1_S1x256,
    StableHlo.reshape main_arg12 main_v11 rfl shapeCasts_S1_S1x1 ]

abbrev hostOpsC : List (HloOp τ sig (Elt F)) :=
  [ StableHlo.reshape main_v12 main_v13 rfl shapeCasts_S16x1x1024_S16384 ]

theorem hostOpsA_sub : (hostOpsA : List (HloOp τ sig (Elt F))).Forall fun op => op.bufs ⊆ StableHlo.tcRefs τ sig := by
  simp only [List.Forall]; exact StableHlo.reshape_bufs_sub ..
theorem hostOpsB_sub : (hostOpsB : List (HloOp τ sig (Elt F))).Forall fun op => op.bufs ⊆ StableHlo.tcRefs τ sig := by
  simp only [List.Forall]
  exact ⟨StableHlo.reshape_bufs_sub .., StableHlo.unary_bufs_sub .., StableHlo.reshape_bufs_sub .., StableHlo.unary_bufs_sub .., StableHlo.reshape_bufs_sub ..,
    StableHlo.unary_bufs_sub .., StableHlo.reshape_bufs_sub .., StableHlo.reshape_bufs_sub .., StableHlo.reshape_bufs_sub ..⟩
theorem hostOpsC_sub : (hostOpsC : List (HloOp τ sig (Elt F))).Forall fun op => op.bufs ⊆ StableHlo.tcRefs τ sig := by
  simp only [List.Forall]; exact StableHlo.reshape_bufs_sub ..
theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor
theorem hostOpsC_fresh : (hostOpsC : List (HloOp τ sig (Elt F))).Forall fun op => op.fresh = ∅ := by
  simp only [List.Forall]; repeat' constructor

/-! ## The buffers' contents at each boundary -/

/-- Core `d`'s buffers at launch. -/
abbrev W0 : Dev nD → Valuation τ sig (Elt F) := fun d b => m (d, b)
abbrev V0 : (c : Dev nD) → (b : Ref sig .tc) → Buf (Elt F) ((c : Thread nD τ).loc b) := fun c b => W0 m c b

/-- What the TensorCore of `d` owes the SparseCores before call `n`. -/
abbrev Ow (d : Dev nD) (n : ℕ) : CellTallies nD τ sig (HIx 1) := (K (F := F)).Otc d n
/-- The (semaphore, index) pairs at or below the level the TensorCore's recorded waits stay under before call `n`. -/
abbrev Bw (d : Dev nD) (n : ℕ) : Set (SemLoc sig × HIx 1) := {p | (K (F := F)).lev (T d, p.1) p.2 ≤ 8 * n}

/-- After the first kernel's region: its output array at what the pipeline's one write-back leaves. -/
def W1 (d : Dev nD) : Valuation τ sig (Elt F) :=
  Function.update (W0 m d) (Proc.devRef .tc main_v0) ((Prep.dat (V0 m) (Ow (F := F) d 0) (Bw (F := F) d 0) d).arrAt 6 cfg0.N)
abbrev V1 : (c : Dev nD) → (b : Ref sig .tc) → Buf (Elt F) ((c : Thread nD τ).loc b) := fun c b => W1 m c b
/-- After the reshape of the index array. -/
abbrev W2 : Dev nD → Valuation τ sig (Elt F) := fun d => StableHlo.after hostOpsA (W1 m d)
abbrev V2 : (c : Dev nD) → (b : Ref sig .tc) → Buf (Elt F) ((c : Thread nD τ).loc b) := fun c b => W2 m c b
/-- After the gather: its output array at the gathered rows of the table, by the flat index list. -/
def W3 (d : Dev nD) : Valuation τ sig (Elt F) :=
  Function.update (W2 m d) (Proc.devRef .tc main_v2)
    (Cert.Spec.gath (V2 m d main_v0 : S3000x128.Idx → F .f32) (V2 m d main_v1 : S49152.Idx → BitVec 32) : S49152x128.Idx → F .f32)
abbrev V3 : (c : Dev nD) → (b : Ref sig .tc) → Buf (Elt F) ((c : Thread nD τ).loc b) := fun c b => W3 m c b
/-- After the nine host operations before the second kernel. -/
abbrev W4 : Dev nD → Valuation τ sig (Elt F) := fun d => StableHlo.after hostOpsB (W3 m d)
abbrev V4 : (c : Dev nD) → (b : Ref sig .tc) → Buf (Elt F) ((c : Thread nD τ).loc b) := fun c b => W4 m c b
/-- After the second kernel's region: its output array at what the sixteen write-backs leave. -/
def W5 (d : Dev nD) : Valuation τ sig (Elt F) :=
  Function.update (W4 m d) (Proc.devRef .tc main_v12) ((Mlp.dat (V4 m) (0 : CellTallies nD τ sig (HIx 1)) (Bw (F := F) d 1) d).arrAt 9 cfg2.N)
abbrev V5 : (c : Dev nD) → (b : Ref sig .tc) → Buf (Elt F) ((c : Thread nD τ).loc b) := fun c b => W5 m c b
/-- After the final reshape. -/
abbrev W6 : Dev nD → Valuation τ sig (Elt F) := fun d => StableHlo.after hostOpsC (W5 m d)

/-! ## The pipelines' proof data -/

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => Prep.dat (V0 m) (Ow (F := F) c 0) (Bw (F := F) c 0) c
  | ⟨1, _⟩ => fun c => Mlp.dat (V4 m) (0 : CellTallies nD τ sig (HIx 1)) (Bw (F := F) c 1) c

end Cert.KernelIdeal.Chain

end
-- ==== Proof.RefOps.lean ====
/-
  The reference's program as one straight line of host operations. The functions it calls are written once each as a
  list over the call's operands and buffer record (the body of the function, operation by operation), and the program
  is the concatenation of its own operations with those lists at the call sites.
-/
import proofs.«205820_g61907658604586_cont_9to1_m_785_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two arrays of 16384 rows, of 128 and of 256 columns, joined row by row into one of 384 columns. -/
def cat2 {α : Type} (a : S16384x128.Idx → α) (b : S16384x256.Idx → α) : S16384x384.Idx → α :=
  concatenate S16384x384 1 [⟨S16384x128, a⟩, ⟨S16384x256, b⟩] concatenates_S16384x128_S16384x256_S16384x384_d1

/-- Reading rows of a 100000-row table at a list of 16384 row numbers (the 23 operations of the function): a negative
    row number is wrapped by adding 100000, the result is tested to lie in [0, 99999], the rows are gathered, and a row
    whose number failed the test is replaced by a fill value. -/
abbrev takeOps (arg0 : TRef sig ⟨S100000x128, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 100000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S100000x128_S16384x1_S16384x128_1_0_n_n_0_1_1128 x i),
    TRef.unary φ.v12 φ.v14 (broadcastInDim S16384x128 ![0] bcast_S16384_S16384x128_0),
    TRef.nullary φ.cst (constant S_ .f32 0x7FC00000#32),
    TRef.unary φ.cst φ.v15 (broadcastInDim S16384x128 ![] bcast_S_S16384x128),
    TRef.ternary φ.v14 φ.v13 φ.v15 φ.v16 select ]

/-- The same for a 101000-row table at a 16384 × 2 array of row numbers (23 operations). -/
abbrev take0Ops (arg0 : TRef sig ⟨S101000x128, .f32⟩) (arg1 : TRef sig ⟨S16384x2, .i32⟩) (φ : fn_take_0.Bufs) : List (HloOp τ sig (Elt F)) :=
  [ TRef.nullary φ.c (constantI S_ 32 0#32),
    TRef.unary φ.c φ.v0 (broadcastInDim S16384x2 ![] bcast_S_S16384x2),
    TRef.binary arg1 φ.v0 φ.v1 (cmpi .slt),
    TRef.nullary φ.c_0 (constantI S_ 32 101000#32),
    TRef.unary φ.c_0 φ.v2 (broadcastInDim S16384x2 ![] bcast_S_S16384x2),
    TRef.binary arg1 φ.v2 φ.v3 addi,
    TRef.ternary φ.v1 φ.v3 arg1 φ.call0.v0 select,
    TRef.unary φ.call0.v0 φ.v5 (broadcastInDim S16384x2x1 ![0, 1] bcast_S16384x2_S16384x2x1_0_1),
    TRef.nullary φ.c_1 (constantI S1 32 100999#32),
    TRef.nullary φ.c_2 (constantI S_ 32 0#32),
    TRef.unary φ.c_2 φ.v6 (broadcastInDim S16384x2x1 ![] bcast_S_S16384x2x1),
    TRef.binary φ.v5 φ.v6 φ.v7 (cmpi .sge),
    TRef.unary φ.c_1 φ.v8 (broadcastInDim S1x1x1 ![2] bcast_S1_S1x1x1_2),
    TRef.unary φ.v8 φ.v9 (broadcastInDim S16384x2x1 ![0, 1, 2] bcast_S1x1x1_S16384x2x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x2x1_S16384x2_d2 h_S_),
    TRef.binary arg0 φ.v5 φ.v13 (fun x i => Host.gather gather_S101000x128_S16384x2x1_S16384x2x128_2_0_n_n_0_2_1128 x i),
    TRef.unary φ.v12 φ.v14 (broadcastInDim S16384x2x128 ![0, 1] bcast_S16384x2_S16384x2x128_0_1),
    TRef.nullary φ.cst (constant S_ .f32 0x7FC00000#32),
    TRef.unary φ.cst φ.v15 (broadcastInDim S16384x2x128 ![] bcast_S_S16384x2x128),
    TRef.ternary φ.v14 φ.v13 φ.v15 φ.v16 select ]

/-- The program's operations before the network: the index columns, the four row reads, the two maxima, the joined
    feature rows. -/
abbrev opsA : List (HloOp τ sig (Elt F)) :=
  [ nullary main_c (fun i => lit0 (S2.rowMajor i)),
    unary main_arg0 main_v0 ((extractStridedSlice S16384x1 ![0, 0] · slices_S16384x3_S16384x1_0_0) : (⟨S16384x3, .i32⟩ : BufTy).Contents (Elt F) → (⟨S16384x1, .i32⟩ : BufTy).Contents (Elt F)),
    reshape main_v0 main_v1 rfl shapeCasts_S16384x1_S16384,
    unary main_arg0 main_v2 ((extractStridedSlice S16384x2 ![0, 1] · slices_S16384x3_S16384x2_0_1) : (⟨S16384x3, .i32⟩ : BufTy).Contents (Elt F) → (⟨S16384x2, .i32⟩ : BufTy).Contents (Elt F)) ]
  ++ takeOps (.of main_arg1) (.of main_v1) main_call0
  ++ takeOps (.of main_arg2) (.of main_v1) main_call1
  ++ [ unary main_c main_v5 (broadcastInDim S1x2 ![1] bcast_S2_S1x2_1 : (⟨S2, .i32⟩ : BufTy).Contents (Elt F) → (⟨S1x2, .i32⟩ : BufTy).Contents (Elt F)),
    unary main_v5 main_v6 (broadcastInDim S16384x2 ![0, 1] bcast_S1x2_S16384x2_0_1 : (⟨S1x2, .i32⟩ : BufTy).Contents (Elt F) → (⟨S16384x2, .i32⟩ : BufTy).Contents (Elt F)),
    binary main_v2 main_v6 main_v7 (addi : (⟨S16384x2, .i32⟩ : BufTy).Contents (Elt F) → (⟨S16384x2, .i32⟩ : BufTy).Contents (Elt F) → (⟨S16384x2, .i32⟩ : BufTy).Contents (Elt F)) ]
  ++ take0Ops (.of main_arg3) (.of main_v7) main_call2
  ++ [ reshape main_v8 main_v9 rfl shapeCasts_S16384x2x128_S16384x256 ]
  ++ take0Ops (.of main_arg4) (.of main_v7) main_call3
  ++ [ reshape main_v10 main_v11 rfl shapeCasts_S16384x2x128_S16384x256,
    binary main_v3 main_v4 main_v12 (maximumf : (⟨S16384x128, .f32⟩ : BufTy).Contents (Elt F) → (⟨S16384x128, .f32⟩ : BufTy).Contents (Elt F) → (⟨S16384x128, .f32⟩ : BufTy).Contents (Elt F)),
    binary main_v9 main_v11 main_v13 (maximumf : (⟨S16384x256, .f32⟩ : BufTy).Contents (Elt F) → (⟨S16384x256, .f32⟩ : BufTy).Contents (Elt F) → (⟨S16384x256, .f32⟩ : BufTy).Contents (Elt F)),
    binary main_v12 main_v13 main_v14 (cat2 : (⟨S16384x128, .f32⟩ : BufTy).Contents (Elt F) → (⟨S16384x256, .f32⟩ : BufTy).Contents (Elt F) → (⟨S16384x384, .f32⟩ : BufTy).Contents (Elt F)) ]

/-- The network's operations: three affine layers each followed by the maximum with zero, the last affine step, and the
    logistic function spelt as 1 / (1 + exp (−·)). -/
abbrev opsB : List (HloOp τ sig (Elt F)) :=
  [ binary main_v14 main_arg5 main_v15 ((fun l r => Host.dotGeneral dot_S16384x384_S384x1024_S16384x1024_1_0_0_1_n_n none l r) : (⟨S16384x384, .f32⟩ : BufTy).Contents (Elt F) → (⟨S384x1024, .f32⟩ : BufTy).Contents (Elt F) → (⟨S16384x1024, .f32⟩ : BufTy).Contents (Elt F)),
    unary main_arg6 main_v16 (broadcastInDim S1x1024 ![1] bcast_S1024_S1x1024_1 : (⟨S1024, .f32⟩ : BufTy).Contents (Elt F) → (⟨S1x1024, .f32⟩ : BufTy).Contents (Elt F)),
    unary main_v16 main_v17 (broadcastInDim S16384x1024 ![0, 1] bcast_S1x1024_S16384x1024_0_1 : (⟨S1x1024, .f32⟩ : BufTy).Contents (Elt F) → (⟨S16384x1024, .f32⟩ : BufTy).Contents (Elt F)),
    binary main_v15 main_v17 main_v18 (addf : (⟨S16384x1024, .f32⟩ : BufTy).Contents (Elt F) → (⟨S16384x1024, .f32⟩ : BufTy).Contents (Elt F) → (⟨S16384x1024, .f32⟩ : BufTy).Contents (Elt F)),
    TRef.nullary main_call4.cst (constant S_ .f32 0x00000000#32),
    TRef.unary main_call4.cst main_call4.v0 (broadcastInDim S16384x1024 ![] bcast_S_S16384x1024),
    TRef.binary (.of main_v18) main_call4.v0 main_call4.v1 maximumf,
    binary main_v19 main_arg7 main_v20 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg8 main_v21 (broadcastInDim S1x512 ![1] bcast_S512_S1x512_1 : (⟨S512, .f32⟩ : BufTy).Contents (Elt F) → (⟨S1x512, .f32⟩ : BufTy).Contents (Elt F)),
    unary main_v21 main_v22 (broadcastInDim S16384x512 ![0, 1] bcast_S1x512_S16384x512_0_1 : (⟨S1x512, .f32⟩ : BufTy).Contents (Elt F) → (⟨S16384x512, .f32⟩ : BufTy).Contents (Elt F)),
    binary main_v20 main_v22 main_v23 (addf : (⟨S16384x512, .f32⟩ : BufTy).Contents (Elt F) → (⟨S16384x512, .f32⟩ : BufTy).Contents (Elt F) → (⟨S16384x512, .f32⟩ : BufTy).Contents (Elt F)),
    TRef.nullary main_call5.cst (constant S_ .f32 0x00000000#32),
    TRef.unary main_call5.cst main_call5.v0 (broadcastInDim S16384x512 ![] bcast_S_S16384x512),
    TRef.binary (.of main_v23) main_call5.v0 main_call5.v1 maximumf,
    binary main_v24 main_arg9 main_v25 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg10 main_v26 (broadcastInDim S1x256 ![1] bcast_S256_S1x256_1 : (⟨S256, .f32⟩ : BufTy).Contents (Elt F) → (⟨S1x256, .f32⟩ : BufTy).Contents (Elt F)),
    unary main_v26 main_v27 (broadcastInDim S16384x256 ![0, 1] bcast_S1x256_S16384x256_0_1 : (⟨S1x256, .f32⟩ : BufTy).Contents (Elt F) → (⟨S16384x256, .f32⟩ : BufTy).Contents (Elt F)),
    binary main_v25 main_v27 main_v28 (addf : (⟨S16384x256, .f32⟩ : BufTy).Contents (Elt F) → (⟨S16384x256, .f32⟩ : BufTy).Contents (Elt F) → (⟨S16384x256, .f32⟩ : BufTy).Contents (Elt F)),
    TRef.nullary main_call6.cst (constant S_ .f32 0x00000000#32),
    TRef.unary main_call6.cst main_call6.v0 (broadcastInDim S16384x256 ![] bcast_S_S16384x256),
    TRef.binary (.of main_v28) main_call6.v0 main_call6.v1 maximumf,
    binary main_v29 main_arg11 main_v30 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg12 main_v31 (broadcastInDim S1x1 ![1] bcast_S1_S1x1_1 : (⟨S1, .f32⟩ : BufTy).Contents (Elt F) → (⟨S1x1, .f32⟩ : BufTy).Contents (Elt F)),
    unary main_v31 main_v32 (broadcastInDim S16384x1 ![0, 1] bcast_S1x1_S16384x1_0_1 : (⟨S1x1, .f32⟩ : BufTy).Contents (Elt F) → (⟨S16384x1, .f32⟩ : BufTy).Contents (Elt F)),
    binary main_v30 main_v32 main_v33 (addf : (⟨S16384x1, .f32⟩ : BufTy).Contents (Elt F) → (⟨S16384x1, .f32⟩ : BufTy).Contents (Elt F) → (⟨S16384x1, .f32⟩ : BufTy).Contents (Elt F)),
    unary main_v33 main_v34 (Host.negf : (⟨S16384x1, .f32⟩ : BufTy).Contents (Elt F) → (⟨S16384x1, .f32⟩ : BufTy).Contents (Elt F)),
    unary main_v34 main_v35 (Host.exp : (⟨S16384x1, .f32⟩ : BufTy).Contents (Elt F) → (⟨S16384x1, .f32⟩ : BufTy).Contents (Elt F)),
    nullary main_cst (constant S_ .f32 0x3F800000#32),
    unary main_cst main_v36 (broadcastInDim S16384x1 ![] bcast_S_S16384x1 : (⟨S_, .f32⟩ : BufTy).Contents (Elt F) → (⟨S16384x1, .f32⟩ : BufTy).Contents (Elt F)),
    binary main_v36 main_v35 main_v37 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v38 (broadcastInDim S16384x1 ![] bcast_S_S16384x1 : (⟨S_, .f32⟩ : BufTy).Contents (Elt F) → (⟨S16384x1, .f32⟩ : BufTy).Contents (Elt F)),
    binary main_v38 main_v37 main_v39 (Host.divf : (⟨S16384x1, .f32⟩ : BufTy).Contents (Elt F) → (⟨S16384x1, .f32⟩ : BufTy).Contents (Elt F) → (⟨S16384x1, .f32⟩ : BufTy).Contents (Elt F)),
    reshape main_v39 main_v40 rfl shapeCasts_S16384x1_S16384 ]

/-- The program's 138 operations, in order. -/
abbrev ops : List (HloOp τ sig (Elt F)) := opsA ++ opsB

set_option maxRecDepth 4096 in
/-- The program is that straight line: with each called function replaced by its body at the call, the program's steps
    in order are exactly the list's operations. -/
theorem main_eq (c : Dev nD) : main (F := F) c = seq ops := by
  simp only [main, fn_take.body, fn_take_0.body, fn_where.body, fn_where_1.body, fn_relu.body, fn_relu_2.body, fn_relu_3.body,
    ops, opsA, opsB, takeOps, take0Ops, List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefValue

end
-- ==== Proof.RefTerm.lean ====
/-
  The reference's result as one pure term of the thirteen argument arrays, built from the terms of its stages: the index
  columns, the two kinds of row read, the joined feature rows, the three layers and the last step.
-/
import proofs.«205820_g61907658604586_cont_9to1_m_785_3_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Column 0 of the index array, as a list of 16384 row numbers. -/
def col0 (x : IVec S16384x3 32) : IVec S16384 32 :=
  shapeCast S16384 (extractStridedSlice S16384x1 ![0, 0] x slices_S16384x3_S16384x1_0_0) shapeCasts_S16384x1_S16384

/-- Columns 1 and 2 of the index array with the offsets 0 and 100000 added. -/
def cols12 (x : IVec S16384x3 32) : IVec S16384x2 32 :=
  addi (extractStridedSlice S16384x2 ![0, 1] x slices_S16384x3_S16384x2_0_1)
    (broadcastInDim S16384x2 ![0, 1] bcast_S1x2_S16384x2_0_1 (broadcastInDim S1x2 ![1] bcast_S2_S1x2_1 (fun i => lit0 (S2.rowMajor i))))

/-- The row numbers with a negative one wrapped by adding 100000, with a trailing unit axis. -/
def wrapU (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100000#32))) idx)

/-- The test that a wrapped row number lies in [0, 99999], spread over the 128 lanes of its row. -/
def maskU (w : IVec S16384x1 32) : IVec S16384x128 1 :=
  broadcastInDim S16384x128 ![0] bcast_S16384_S16384x128_0
    (Host.reduce IntOp.andi
      (andi (cmpi .sge w (broadcastInDim S16384x1 ![] bcast_S_S16384x1 (constantI S_ 32 0#32)))
        (cmpi .sle w (broadcastInDim S16384x1 ![0, 1] bcast_S1x1_S16384x1_0_1 (broadcastInDim S1x1 ![1] bcast_S1_S1x1_1 (constantI S1 32 99999#32)))))
      (constantI S_ 1 1#1) reducesTo_S16384x1_S16384_d1 h_S_)

/-- Rows of a 100000-row table at 16384 row numbers: the gathered rows where the test holds, a fill value elsewhere. -/
def takeU (tab : FVec F S100000x128 .f32) (idx : IVec S16384 32) : FVec F S16384x128 .f32 :=
  select (maskU (wrapU idx)) (Host.gather gather_S100000x128_S16384x1_S16384x128_1_0_n_n_0_1_1128 tab (wrapU idx))
    (broadcastInDim S16384x128 ![] bcast_S_S16384x128 (constant S_ .f32 0x7FC00000#32))

/-- The same wrap for a 16384 × 2 array of row numbers of a 101000-row table. -/
def wrapI (idx : IVec S16384x2 32) : IVec S16384x2x1 32 :=
  broadcastInDim S16384x2x1 ![0, 1] bcast_S16384x2_S16384x2x1_0_1
    (select (cmpi .slt idx (broadcastInDim S16384x2 ![] bcast_S_S16384x2 (constantI S_ 32 0#32)))
      (addi idx (broadcastInDim S16384x2 ![] bcast_S_S16384x2 (constantI S_ 32 101000#32))) idx)

/-- The test that a wrapped row number lies in [0, 100999], spread over the 128 lanes. -/
def maskI (w : IVec S16384x2x1 32) : IVec S16384x2x128 1 :=
  broadcastInDim S16384x2x128 ![0, 1] bcast_S16384x2_S16384x2x128_0_1
    (Host.reduce IntOp.andi
      (andi (cmpi .sge w (broadcastInDim S16384x2x1 ![] bcast_S_S16384x2x1 (constantI S_ 32 0#32)))
        (cmpi .sle w (broadcastInDim S16384x2x1 ![0, 1, 2] bcast_S1x1x1_S16384x2x1_0_1_2 (broadcastInDim S1x1x1 ![2] bcast_S1_S1x1x1_2 (constantI S1 32 100999#32)))))
      (constantI S_ 1 1#1) reducesTo_S16384x2x1_S16384x2_d2 h_S_)

/-- Rows of a 101000-row table at a 16384 × 2 array of row numbers. -/
def takeI (tab : FVec F S101000x128 .f32) (idx : IVec S16384x2 32) : FVec F S16384x2x128 .f32 :=
  select (maskI (wrapI idx)) (Host.gather gather_S101000x128_S16384x2x1_S16384x2x128_2_0_n_n_0_2_1128 tab (wrapI idx))
    (broadcastInDim S16384x2x128 ![] bcast_S_S16384x2x128 (constant S_ .f32 0x7FC00000#32))

/-- The feature rows: the maximum of the two user tables' rows, then the maxima of the two item tables' rows, joined. -/
def featT (x : IVec S16384x3 32) (su tu : FVec F S100000x128 .f32) (si ti : FVec F S101000x128 .f32) : FVec F S16384x384 .f32 :=
  cat2 (maximumf (takeU su (col0 x)) (takeU tu (col0 x)))
    (maximumf (shapeCast S16384x256 (takeI si (cols12 x)) shapeCasts_S16384x2x128_S16384x256)
      (shapeCast S16384x256 (takeI ti (cols12 x)) shapeCasts_S16384x2x128_S16384x256))

/-- The first affine layer followed by the maximum with zero. -/
def layer1T (h : FVec F S16384x384 .f32) (W : FVec F S384x1024 .f32) (b : FVec F S1024 .f32) : FVec F S16384x1024 .f32 :=
  maximumf (addf (Host.dotGeneral dot_S16384x384_S384x1024_S16384x1024_1_0_0_1_n_n none h W)
      (broadcastInDim S16384x1024 ![0, 1] bcast_S1x1024_S16384x1024_0_1 (broadcastInDim S1x1024 ![1] bcast_S1024_S1x1024_1 b)))
    (broadcastInDim S16384x1024 ![] bcast_S_S16384x1024 (constant S_ .f32 0x00000000#32))

/-- The second. -/
def layer2T (h : FVec F S16384x1024 .f32) (W : FVec F S1024x512 .f32) (b : FVec F S512 .f32) : FVec F S16384x512 .f32 :=
  maximumf (addf (Host.dotGeneral dot_S16384x1024_S1024x512_S16384x512_1_0_0_1_n_n none h W)
      (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- The third. -/
def layer3T (h : FVec F S16384x512 .f32) (W : FVec F S512x256 .f32) (b : FVec F S256 .f32) : FVec F S16384x256 .f32 :=
  maximumf (addf (Host.dotGeneral dot_S16384x512_S512x256_S16384x256_1_0_0_1_n_n none h W)
      (broadcastInDim S16384x256 ![0, 1] bcast_S1x256_S16384x256_0_1 (broadcastInDim S1x256 ![1] bcast_S256_S1x256_1 b)))
    (broadcastInDim S16384x256 ![] bcast_S_S16384x256 (constant S_ .f32 0x00000000#32))

/-- The last affine step and 1 / (1 + exp (−·)), as a list of 16384 numbers. -/
def headT (a : FVec F S16384x256 .f32) (Wp : FVec F S256x1 .f32) (bp : FVec F S1 .f32) : FVec F S16384 .f32 :=
  shapeCast S16384
    (Host.divf (broadcastInDim S16384x1 ![] bcast_S_S16384x1 (constant S_ .f32 0x3F800000#32))
      (addf (broadcastInDim S16384x1 ![] bcast_S_S16384x1 (constant S_ .f32 0x3F800000#32))
        (Host.exp (Host.negf (addf (Host.dotGeneral dot_S16384x256_S256x1_S16384x1_1_0_0_1_n_n none a Wp)
          (broadcastInDim S16384x1 ![0, 1] bcast_S1x1_S16384x1_0_1 (broadcastInDim S1x1 ![1] bcast_S1_S1x1_1 bp)))))))
    shapeCasts_S16384x1_S16384

/-- The reference's result as one term of its thirteen arguments. -/
def refTerm (x : IVec S16384x3 32) (su tu : FVec F S100000x128 .f32) (si ti : FVec F S101000x128 .f32)
    (W1 : FVec F S384x1024 .f32) (b1 : FVec F S1024 .f32) (W2 : FVec F S1024x512 .f32) (b2 : FVec F S512 .f32)
    (W3 : FVec F S512x256 .f32) (b3 : FVec F S256 .f32) (Wp : FVec F S256x1 .f32) (bp : FVec F S1 .f32) : FVec F S16384 .f32 :=
  headT (layer3T (layer2T (layer1T (featT x su tu si ti) W1 b1) W2 b2) W3 b3) Wp bp

end Cert.ReferenceIdeal.RefValue

end
-- ==== Proof.RefArgs.lean ====
/-
  No operation of the reference's program writes an argument buffer: the fold of the 138 operations leaves each of the
  thirteen arguments as it was.
-/
import proofs.«205820_g61907658604586_cont_9to1_m_785_3_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

theorem after_arg0 (V : Valuation τ sig (Elt F)) :
    after (ops (F := F)) V (Proc.devRef .tc main_arg0) = V (Proc.devRef .tc main_arg0) := by
  simp only [ops, opsA, opsB, takeOps, take0Ops, List.cons_append, List.nil_append]
  after_results_simp

theorem after_arg1 (V : Valuation τ sig (Elt F)) :
    after (ops (F := F)) V (Proc.devRef .tc main_arg1) = V (Proc.devRef .tc main_arg1) := by
  simp only [ops, opsA, opsB, takeOps, take0Ops, List.cons_append, List.nil_append]
  after_results_simp

theorem after_arg2 (V : Valuation τ sig (Elt F)) :
    after (ops (F := F)) V (Proc.devRef .tc main_arg2) = V (Proc.devRef .tc main_arg2) := by
  simp only [ops, opsA, opsB, takeOps, take0Ops, List.cons_append, List.nil_append]
  after_results_simp

theorem after_arg3 (V : Valuation τ sig (Elt F)) :
    after (ops (F := F)) V (Proc.devRef .tc main_arg3) = V (Proc.devRef .tc main_arg3) := by
  simp only [ops, opsA, opsB, takeOps, take0Ops, List.cons_append, List.nil_append]
  after_results_simp

theorem after_arg4 (V : Valuation τ sig (Elt F)) :
    after (ops (F := F)) V (Proc.devRef .tc main_arg4) = V (Proc.devRef .tc main_arg4) := by
  simp only [ops, opsA, opsB, takeOps, take0Ops, List.cons_append, List.nil_append]
  after_results_simp

theorem after_arg5 (V : Valuation τ sig (Elt F)) :
    after (ops (F := F)) V (Proc.devRef .tc main_arg5) = V (Proc.devRef .tc main_arg5) := by
  simp only [ops, opsA, opsB, takeOps, take0Ops, List.cons_append, List.nil_append]
  after_results_simp

theorem after_arg6 (V : Valuation τ sig (Elt F)) :
    after (ops (F := F)) V (Proc.devRef .tc main_arg6) = V (Proc.devRef .tc main_arg6) := by
  simp only [ops, opsA, opsB, takeOps, take0Ops, List.cons_append, List.nil_append]
  after_results_simp

theorem after_arg7 (V : Valuation τ sig (Elt F)) :
    after (ops (F := F)) V (Proc.devRef .tc main_arg7) = V (Proc.devRef .tc main_arg7) := by
  simp only [ops, opsA, opsB, takeOps, take0Ops, List.cons_append, List.nil_append]
  after_results_simp

theorem after_arg8 (V : Valuation τ sig (Elt F)) :
    after (ops (F := F)) V (Proc.devRef .tc main_arg8) = V (Proc.devRef .tc main_arg8) := by
  simp only [ops, opsA, opsB, takeOps, take0Ops, List.cons_append, List.nil_append]
  after_results_simp

theorem after_arg9 (V : Valuation τ sig (Elt F)) :
    after (ops (F := F)) V (Proc.devRef .tc main_arg9) = V (Proc.devRef .tc main_arg9) := by
  simp only [ops, opsA, opsB, takeOps, take0Ops, List.cons_append, List.nil_append]
  after_results_simp

theorem after_arg10 (V : Valuation τ sig (Elt F)) :
    after (ops (F := F)) V (Proc.devRef .tc main_arg10) = V (Proc.devRef .tc main_arg10) := by
  simp only [ops, opsA, opsB, takeOps, take0Ops, List.cons_append, List.nil_append]
  after_results_simp

theorem after_arg11 (V : Valuation τ sig (Elt F)) :
    after (ops (F := F)) V (Proc.devRef .tc main_arg11) = V (Proc.devRef .tc main_arg11) := by
  simp only [ops, opsA, opsB, takeOps, take0Ops, List.cons_append, List.nil_append]
  after_results_simp

theorem after_arg12 (V : Valuation τ sig (Elt F)) :
    after (ops (F := F)) V (Proc.devRef .tc main_arg12) = V (Proc.devRef .tc main_arg12) := by
  simp only [ops, opsA, opsB, takeOps, take0Ops, List.cons_append, List.nil_append]
  after_results_simp

theorem ops_sub : (ops : List (HloOp τ sig (Elt F))).Forall fun op => op.bufs ⊆ tcRefs τ sig := by
  simp only [ops, opsA, opsB, takeOps, take0Ops, List.cons_append, List.nil_append, List.Forall]
  simp only [nullary_bufs_sub, unary_bufs_sub, binary_bufs_sub, ternary_bufs_sub, reshape_bufs_sub, and_self]

/-- Every operation of the list determines its results (none allocates a buffer of unspecified contents). -/
theorem ops_fresh : ∀ op ∈ (ops : List (HloOp τ sig (Elt F))), op.fresh = ∅ := by
  simp only [ops, opsA, opsB, takeOps, take0Ops, List.cons_append, List.nil_append]
  intro op h
  repeat (cases h with | head => rfl | tail _ h => ?_)
  exact nomatch h

end Cert.ReferenceIdeal.RefValue

end
-- ==== Proof.RefRun.lean ====
/-
  The reference's run: every execution ends with the result buffer at the reference's term of the arguments' contents and
  the arguments unchanged.
-/
import proofs.«205820_g61907658604586_cont_9to1_m_785_3_alg».proof.Proof.RefTerm
import proofs.«205820_g61907658604586_cont_9to1_m_785_3_alg».proof.Proof.RefArgs
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer type and back are unchanged. -/
theorem ofBuf_toBuf {T : BufTy} {Val : EltTy → Type} (x : TRef sig T) (v : T.Contents Val) : x.ofBuf (x.toBuf v) = v := by
  obtain ⟨r, h, h1, h2⟩ := x
  subst h
  rfl

attribute [local irreducible] Host.reduce Host.gather cat2 shapeCast broadcastInDim extractStridedSlice in
set_option maxRecDepth 65536 in
set_option maxHeartbeats 1600000 in
/-- The fold of the 138 operations at the result buffer is that term of the argument buffers' contents. -/
theorem after_v40 (V : Valuation τ sig (Elt F)) :
    after (ops (F := F)) V (Proc.devRef .tc main_v40)
      = refTerm (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) := by
  simp only [ops, opsA, opsB, takeOps, take0Ops, List.cons_append, List.nil_append]
  after_results_simp
  simp only [ofBuf_toBuf]
  rfl

/-- On every device, from any memory with zero counters: every weakly fair execution of the reference's program terminates
    with the result buffer at `refTerm` of the arguments' launch contents and the arguments unchanged. -/
theorem run0 (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v40) = refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c => ⟨(h c main_v40).trans (after_v40 (F := Ideal) _),
      (h c main_arg0).trans (after_arg0 (F := Ideal) _),
      (h c main_arg1).trans (after_arg1 (F := Ideal) _),
      (h c main_arg2).trans (after_arg2 (F := Ideal) _),
      (h c main_arg3).trans (after_arg3 (F := Ideal) _),
      (h c main_arg4).trans (after_arg4 (F := Ideal) _),
      (h c main_arg5).trans (after_arg5 (F := Ideal) _),
      (h c main_arg6).trans (after_arg6 (F := Ideal) _),
      (h c main_arg7).trans (after_arg7 (F := Ideal) _),
      (h c main_arg8).trans (after_arg8 (F := Ideal) _),
      (h c main_arg9).trans (after_arg9 (F := Ideal) _),
      (h c main_arg10).trans (after_arg10 (F := Ideal) _),
      (h c main_arg11).trans (after_arg11 (F := Ideal) _),
      (h c main_arg12).trans (after_arg12 (F := Ideal) _)⟩)
    (run_seq scopedRefs_eq scopedSems_eq defs main (fun _ => ops) main_eq (fun _ => ops_sub) m ρ (fun _ => ops_fresh))

end Cert.ReferenceIdeal.RefValue

end
-- ==== Proof.RefGather.lean ====
/-
  The two row gathers read at an index: with these dimension numbers (the operand's axis 0 collapsed and named by the
  start index, its axis 1 an offset axis of full extent) the result at (…, e) is the operand at row
  min (start index read signed) (rows − 1), lane e.
-/
import proofs.«205820_g61907658604586_cont_9to1_m_785_3_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

local notation "dU" => gather_S100000x128_S16384x1_S16384x128_1_0_n_n_0_1_1128
local notation "dI" => gather_S101000x128_S16384x2x1_S16384x2x128_2_0_n_n_0_2_1128

/-- The gather from a 100000-row table at a column of 16384 start indices, read at (b, e). -/
theorem gatherU_apply (x : S100000x128.Idx → α) (idx : IVec S16384x1 32) (b : Fin 16384) (e : Fin 128) :
    Host.gather dU x idx (ix2 b e)
      = x (ix2 (⟨min (idx (ix2 b (0 : Fin 1))).toInt.toNat 99999, by omega⟩ : Fin 100000) e) := by
  unfold Host.gather
  congr 1
  funext a
  refine Fin.ext ?_
  match a with
  | ⟨0, _⟩ =>
    show GatherDims.start dU (ix2 b e) idx 0 + GatherDims.batchCoord dU (ix2 b e) 0 + GatherDims.offCoord dU (ix2 b e) 0 = _
    rw [GatherDims.batchCoord_eq_zero _ _ _ (by decide), GatherDims.offCoord_eq_zero _ _ _ (by decide)]
    simp only [Nat.add_zero]
    unfold GatherDims.start
    rw [dif_pos (show (0 : Fin 2) ∈ GatherDims.startIndexMap dU from by decide)]
    have hsi : GatherDims.siIdx dU (ix2 b e) ⟨List.idxOf (0 : Fin 2) (GatherDims.startIndexMap dU),
        List.idxOf_lt_length_iff.2 (by decide)⟩ = ix2 b (0 : Fin 1) := by
      funext c; refine Fin.ext ?_
      match c with
      | ⟨0, _⟩ => rfl
      | ⟨1, _⟩ => rfl
    rw [hsi]
    rfl
  | ⟨1, _⟩ =>
    show GatherDims.start dU (ix2 b e) idx 1 + GatherDims.batchCoord dU (ix2 b e) 1 + GatherDims.offCoord dU (ix2 b e) 1 = _
    rw [GatherDims.batchCoord_eq_zero _ _ _ (by decide)]
    unfold GatherDims.start
    rw [dif_neg (show (1 : Fin 2) ∉ GatherDims.startIndexMap dU from by decide)]
    simp only [Nat.add_zero, Nat.zero_add]
    rfl

/-- The gather from a 101000-row table at a 16384 × 2 array of start indices, read at (b, f, e). -/
theorem gatherI_apply (x : S101000x128.Idx → α) (idx : IVec S16384x2x1 32) (b : Fin 16384) (f : Fin 2) (e : Fin 128) :
    Host.gather dI x idx (ix3 b f e)
      = x (ix2 (⟨min (idx (ix3 b f (0 : Fin 1))).toInt.toNat 100999, by omega⟩ : Fin 101000) e) := by
  unfold Host.gather
  congr 1
  funext a
  refine Fin.ext ?_
  match a with
  | ⟨0, _⟩ =>
    show GatherDims.start dI (ix3 b f e) idx 0 + GatherDims.batchCoord dI (ix3 b f e) 0 + GatherDims.offCoord dI (ix3 b f e) 0 = _
    rw [GatherDims.batchCoord_eq_zero _ _ _ (by decide), GatherDims.offCoord_eq_zero _ _ _ (by decide)]
    simp only [Nat.add_zero]
    unfold GatherDims.start
    rw [dif_pos (show (0 : Fin 2) ∈ GatherDims.startIndexMap dI from by decide)]
    have hsi : GatherDims.siIdx dI (ix3 b f e) ⟨List.idxOf (0 : Fin 2) (GatherDims.startIndexMap dI),
        List.idxOf_lt_length_iff.2 (by decide)⟩ = ix3 b f (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start dI (ix3 b f e) idx 1 + GatherDims.batchCoord dI (ix3 b f e) 1 + GatherDims.offCoord dI (ix3 b f e) 1 = _
    rw [GatherDims.batchCoord_eq_zero _ _ _ (by decide)]
    unfold GatherDims.start
    rw [dif_neg (show (1 : Fin 2) ∉ GatherDims.startIndexMap dI from by decide)]
    simp only [Nat.add_zero, Nat.zero_add]
    rfl

end Cert.ReferenceIdeal.RefValue

end
-- ==== Proof.LibMask.lean ====
/-
  One-bit masks that are everywhere 1.  A reduction by `and` from the constant 1 over an array of ones is 1 at every
  result index (the converse of reading `jnp.all` back), a select under a mask that is everywhere 1 is its first branch,
  and a signed 32-bit row number that already lies in `[0, n)` passes jnp's fill-mode bounds test unchanged: its
  negative-index wrap `select (w < 0) (w + n) w` is `w` itself, which is `≥ 0` and `≤ n - 1`.
-/
import Idealize.ShloMosaic.Lib.ReduceAll
import Idealize.ShloMosaic.Lib.ValueIdx

namespace Cert.Lib.Mask

open Idealize.ShloMosaic

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- A `stablehlo.reduce` by `and`, from an initial value that is 1, of an array of ones is 1 at every result index. -/
theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_one x _ _ (hi _) (fun n _ => hx n)

/-- A select whose mask is 1 at every index is its first branch. -/
theorem select_of_all_one {s : Shape} {α : Type} (c : IVec s 1) (a b : s.Idx → α) (hc : ∀ i, c i = 1#1) : select c a b = a :=
  funext fun i => by rw [ValueIdx.select_apply, hc i]; exact ValueIdx.select_one _ _

/-- A row number `w` with `0 ≤ w < n` (signed, `n` below 2³¹) is its own negative-index wrap, and the wrap passes the
    bounds test `0 ≤ · ≤ n - 1`. -/
theorem wrap_in_range (w : BitVec 32) (n : Nat) (hn : n < 2 ^ 31) (h0 : 0 ≤ w.toInt) (h1 : w.toInt < n) :
    IntOp.andi
      (IntOp.cmpi .sge (Scalar.select (IntOp.cmpi .slt w 0#32) (IntOp.addi w (BitVec.ofNat 32 n)) w) 0#32)
      (IntOp.cmpi .sle (Scalar.select (IntOp.cmpi .slt w 0#32) (IntOp.addi w (BitVec.ofNat 32 n)) w) (BitVec.ofNat 32 (n - 1))) = 1#1 := by
  have hlt : IntOp.cmpi .slt w 0#32 = 0#1 :=
    ValueIdx.eq_zero_of_ne_one fun h => by
      have := IntOp.cmpi_slt.1 h
      simp only [BitVec.toInt_zero] at this
      omega
  rw [hlt, ValueIdx.select_zero, IntOp.andi_eq_one]
  refine ⟨IntOp.cmpi_sge.2 (by simp only [BitVec.toInt_zero]; exact h0), IntOp.cmpi_sle.2 ?_⟩
  have hlit : (BitVec.ofNat 32 (n - 1)).toInt = ((n - 1 : Nat) : Int) := by
    rw [BitVec.toInt_eq_toNat_of_lt (by simp only [BitVec.toNat_ofNat]; omega)]
    simp only [BitVec.toNat_ofNat]
    congr 1
    exact Nat.mod_eq_of_lt (by omega)
  rw [hlit]
  omega

end Cert.Lib.Mask
-- ==== Proof.RefReadIdx.lean ====
/-
  The reference's row reads at an index. With every entry of the index array in [0, 999] no row number is negative and
  none leaves its table: the wrap of a negative row number does nothing, the bounds test passes everywhere, the fill value
  is never chosen, and the clamp inside the gather does nothing; what is read is the plain row.
-/
import proofs.«205820_g61907658604586_cont_9to1_m_785_3_alg».proof.Proof.RefTerm
import proofs.«205820_g61907658604586_cont_9to1_m_785_3_alg».proof.Proof.RefGather
import proofs.«205820_g61907658604586_cont_9to1_m_785_3_alg».proof.Proof.LibMask
import proofs.«205820_g61907658604586_cont_9to1_m_785_3_alg».proof.Proof.Spec
import Idealize.ShloMosaic.Lib.Pipeline.Value
import Idealize.ShloMosaic.Lib.KernelVsHost
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- A 32-bit word whose unsigned value is below a bound under 2³¹ is, read signed, that value: nonnegative and below
    the bound. -/
theorem toInt_of_small (w : BitVec 32) (n : Nat) (hn : n < 2 ^ 31) (h : w.toNat < n) :
    w.toInt = (w.toNat : Int) ∧ 0 ≤ w.toInt ∧ w.toInt < (n : Int) := by
  have e : w.toInt = (w.toNat : Int) := BitVec.toInt_eq_toNat_of_lt (by omega)
  rw [e]
  exact ⟨rfl, by omega, by omega⟩

/-- Such a word is not negative: the signed test against zero is 0. -/
theorem slt_zero_of_small (w : BitVec 32) (n : Nat) (hn : n < 2 ^ 31) (h : w.toNat < n) : IntOp.cmpi .slt w 0#32 = 0#1 :=
  eq_zero_of_ne_one fun h1 => by
    have := IntOp.cmpi_slt.1 h1
    have h2 := (toInt_of_small w n hn h).2.1
    simp only [BitVec.toInt_zero] at this
    omega

/-- Column 0 of the index array at sample b. -/
theorem col0_apply (x : IVec S16384x3 32) (b : Fin 16384) : col0 x (ix1 b) = x (ix2 b (0 : Fin 3)) := by
  unfold col0
  refine (shapeCast_apply _ shapeCasts_S16384x1_S16384 (ix1 b) (ix2 b (0 : Fin 1)) (by
    rw [Shape.rowMajor_val_two, Shape.rowMajor_val_one]; show b.val * 1 + 0 = b.val; omega)).trans ?_
  exact extractStridedSlice_apply ![0, 0] x slices_S16384x3_S16384x1_0_0 (ix2 b (0 : Fin 1)) (ix2 b (0 : Fin 3)) (by
    intro a
    match a with
    | ⟨0, _⟩ => show b.val = 0 + b.val; omega
    | ⟨1, _⟩ => show (0 : ℕ) = 0 + 0; rfl)

/-- Columns 1 and 2 with their offsets, at sample b and column f: the entry plus 0 or 100000. -/
theorem cols12_apply (x : IVec S16384x3 32) (b : Fin 16384) (f : Fin 2) :
    cols12 x (ix2 b f) = IntOp.addi (x (ix2 b (⟨f.val + 1, by omega⟩ : Fin 3))) (lit0 f) := by
  unfold cols12
  show IntOp.addi (extractStridedSlice S16384x2 ![0, 1] x slices_S16384x3_S16384x2_0_1 (ix2 b f))
      (broadcastInDim S16384x2 ![0, 1] bcast_S1x2_S16384x2_0_1 (broadcastInDim S1x2 ![1] bcast_S2_S1x2_1 (fun i => lit0 (S2.rowMajor i))) (ix2 b f)) = _
  rw [extractStridedSlice_apply ![0, 1] x slices_S16384x3_S16384x2_0_1 (ix2 b f) (ix2 b (⟨f.val + 1, by omega⟩ : Fin 3)) (by
      intro a
      match a with
      | ⟨0, _⟩ => show b.val = 0 + b.val; omega
      | ⟨1, _⟩ => show f.val + 1 = 1 + f.val; omega),
    broadcastInDim_oneRow_apply bcast_S1x2_S16384x2_0_1 _ b f,
    broadcastInDim_apply ![1] bcast_S2_S1x2_1 _ (ix2 (0 : Fin 1) f) (ix1 f) (by
      intro a
      match a with
      | ⟨0, _⟩ => show f.val = if (2 : ℕ) = 1 then 0 else f.val; simp)]
  exact congrArg (fun q => IntOp.addi (x (ix2 b (⟨f.val + 1, by omega⟩ : Fin 3))) (lit0 q)) (Fin.ext (Shape.rowMajor_val_one _))

/-- With the entries at most 999 the shifted entry is the entry plus 0 or 100000, with no wrap-around. -/
theorem cols12_toNat (x : IVec S16384x3 32) (hx : Cert.Spec.InRange x) (b : Fin 16384) (f : Fin 2) :
    (cols12 x (ix2 b f)).toNat = (x (ix2 b (⟨f.val + 1, by omega⟩ : Fin 3))).toNat + f.val * 100000 := by
  have hl : (lit0 f).toNat = f.val * 100000 := by
    match f with
    | ⟨0, _⟩ => show (BitVec.ofNat 32 0).toNat = 0 * 100000; rw [BitVec.toNat_ofNat]
    | ⟨1, _⟩ => show (BitVec.ofNat 32 100000).toNat = 1 * 100000; rw [BitVec.toNat_ofNat]
  rw [cols12_apply]
  unfold IntOp.addi
  rw [BitVec.toNat_add, hl]
  have h1 := hx (ix2 b (⟨f.val + 1, by omega⟩ : Fin 3))
  have h2 := f.isLt
  omega

/-! ## The 100000-row tables -/

/-- The wrapped row number at sample b. -/
theorem wrapU_apply (idx : IVec S16384 32) (b : Fin 16384) :
    wrapU idx (ix2 b (0 : Fin 1))
      = Scalar.select (IntOp.cmpi .slt (idx (ix1 b)) 0#32) (IntOp.addi (idx (ix1 b)) 100000#32) (idx (ix1 b)) := by
  unfold wrapU
  rw [broadcastInDim_apply ![0] bcast_S16384_S16384x1_0 _ (ix2 b (0 : Fin 1)) (ix1 b) (by
    intro a
    match a with
    | ⟨0, _⟩ => show b.val = if (16384 : ℕ) = 1 then 0 else b.val; simp)]
  rfl

/-- With every row number below 100000 the bounds test is 1 at every index. -/
theorem maskU_one (idx : IVec S16384 32) (h : ∀ b : Fin 16384, (idx (ix1 b)).toNat < 100000) (i : S16384x128.Idx) :
    maskU (wrapU idx) i = 1#1 := by
  obtain ⟨b, e, rfl⟩ : ∃ (b : Fin 16384) (e : Fin 128), i = ix2 b e := ⟨i 0, i 1, eq_ix2 i⟩
  unfold maskU
  rw [broadcastInDim_apply ![0] bcast_S16384_S16384x128_0 _ (ix2 b e) (ix1 b) (by
    intro a
    match a with
    | ⟨0, _⟩ => show b.val = if (16384 : ℕ) = 1 then 0 else b.val; simp)]
  refine Cert.Lib.Mask.reduce_andi_one _ _ _ _ (fun _ => rfl) (fun j => ?_) _
  obtain ⟨b', z, rfl⟩ : ∃ (b' : Fin 16384) (z : Fin 1), j = ix2 b' z := ⟨j 0, j 1, eq_ix2 j⟩
  obtain rfl : z = 0 := Subsingleton.elim _ _
  show IntOp.andi (IntOp.cmpi .sge (wrapU idx (ix2 b' (0 : Fin 1))) 0#32) (IntOp.cmpi .sle (wrapU idx (ix2 b' (0 : Fin 1))) 99999#32) = 1#1
  rw [wrapU_apply]
  have hs := toInt_of_small (idx (ix1 b')) 100000 (by norm_num) (h b')
  exact Cert.Lib.Mask.wrap_in_range (idx (ix1 b')) 100000 (by norm_num) hs.2.1 hs.2.2

/-- The row read at (b, e): row idx(b) of the table. -/
theorem takeU_apply (tab : FVec Ideal S100000x128 .f32) (idx : IVec S16384 32) (h : ∀ b : Fin 16384, (idx (ix1 b)).toNat < 100000)
    (b : Fin 16384) (e : Fin 128) :
    takeU (F := Ideal) tab idx (ix2 b e) = tab (ix2 (Fin.ofNat 100000 (idx (ix1 b)).toNat) e) := by
  have hw : wrapU idx (ix2 b (0 : Fin 1)) = idx (ix1 b) := by
    rw [wrapU_apply, slt_zero_of_small _ 100000 (by norm_num) (h b), select_zero]
  have hs := toInt_of_small (idx (ix1 b)) 100000 (by norm_num) (h b)
  unfold takeU
  rw [Cert.Lib.Mask.select_of_all_one _ _ _ (maskU_one idx h), gatherU_apply]
  refine congrArg (fun r => tab (ix2 r e)) (Fin.ext ?_)
  show min (wrapU idx (ix2 b (0 : Fin 1))).toInt.toNat 99999 = (idx (ix1 b)).toNat % 100000
  rw [hw, hs.1]
  have := h b
  omega

/-! ## The 101000-row tables -/

/-- The wrapped row number at sample b, column f. -/
theorem wrapI_apply (idx : IVec S16384x2 32) (b : Fin 16384) (f : Fin 2) :
    wrapI idx (ix3 b f (0 : Fin 1))
      = Scalar.select (IntOp.cmpi .slt (idx (ix2 b f)) 0#32) (IntOp.addi (idx (ix2 b f)) 101000#32) (idx (ix2 b f)) := by
  unfold wrapI
  rw [broadcastInDim_apply ![0, 1] bcast_S16384x2_S16384x2x1_0_1 _ (ix3 b f (0 : Fin 1)) (ix2 b f) (by
    intro a
    match a with
    | ⟨0, _⟩ => show b.val = if (16384 : ℕ) = 1 then 0 else b.val; simp
    | ⟨1, _⟩ => show f.val = if (2 : ℕ) = 1 then 0 else f.val; simp)]
  rfl

/-- With every row number below 101000 the bounds test is 1 at every index. -/
theorem maskI_one (idx : IVec S16384x2 32) (h : ∀ (b : Fin 16384) (f : Fin 2), (idx (ix2 b f)).toNat < 101000) (i : S16384x2x128.Idx) :
    maskI (wrapI idx) i = 1#1 := by
  obtain ⟨b, f, e, rfl⟩ : ∃ (b : Fin 16384) (f : Fin 2) (e : Fin 128), i = ix3 b f e := ⟨i 0, i 1, i 2, eq_ix3 i⟩
  unfold maskI
  rw [broadcastInDim_apply ![0, 1] bcast_S16384x2_S16384x2x128_0_1 _ (ix3 b f e) (ix2 b f) (by
    intro a
    match a with
    | ⟨0, _⟩ => show b.val = if (16384 : ℕ) = 1 then 0 else b.val; simp
    | ⟨1, _⟩ => show f.val = if (2 : ℕ) = 1 then 0 else f.val; simp)]
  refine Cert.Lib.Mask.reduce_andi_one _ _ _ _ (fun _ => rfl) (fun j => ?_) _
  obtain ⟨b', f', z, rfl⟩ : ∃ (b' : Fin 16384) (f' : Fin 2) (z : Fin 1), j = ix3 b' f' z := ⟨j 0, j 1, j 2, eq_ix3 j⟩
  obtain rfl : z = 0 := Subsingleton.elim _ _
  show IntOp.andi (IntOp.cmpi .sge (wrapI idx (ix3 b' f' (0 : Fin 1))) 0#32) (IntOp.cmpi .sle (wrapI idx (ix3 b' f' (0 : Fin 1))) 100999#32) = 1#1
  rw [wrapI_apply]
  have hs := toInt_of_small (idx (ix2 b' f')) 101000 (by norm_num) (h b' f')
  exact Cert.Lib.Mask.wrap_in_range (idx (ix2 b' f')) 101000 (by norm_num) hs.2.1 hs.2.2

/-- The row read at (b, f, e): row idx(b, f) of the table. -/
theorem takeI_apply (tab : FVec Ideal S101000x128 .f32) (idx : IVec S16384x2 32)
    (h : ∀ (b : Fin 16384) (f : Fin 2), (idx (ix2 b f)).toNat < 101000) (b : Fin 16384) (f : Fin 2) (e : Fin 128) :
    takeI (F := Ideal) tab idx (ix3 b f e) = tab (ix2 (Fin.ofNat 101000 (idx (ix2 b f)).toNat) e) := by
  have hw : wrapI idx (ix3 b f (0 : Fin 1)) = idx (ix2 b f) := by
    rw [wrapI_apply, slt_zero_of_small _ 101000 (by norm_num) (h b f), select_zero]
  have hs := toInt_of_small (idx (ix2 b f)) 101000 (by norm_num) (h b f)
  unfold takeI
  rw [Cert.Lib.Mask.select_of_all_one _ _ _ (maskI_one idx h), gatherI_apply]
  refine congrArg (fun r => tab (ix2 r e)) (Fin.ext ?_)
  show min (wrapI idx (ix3 b f (0 : Fin 1))).toInt.toNat 100999 = (idx (ix2 b f)).toNat % 101000
  rw [hw, hs.1]
  have := h b f
  omega

end Cert.ReferenceIdeal.RefValue

end
-- ==== Proof.RefReadFeat.lean ====
/-
  The reference's feature rows at an index are the specification's: columns 0..127 are the maximum of the two user tables'
  row x(b,0); columns 128..383, read through the reshape of the 16384 × 2 × 128 array, are the maxima of the two item
  tables' rows x(b,1) and 100000 + x(b,2).
-/
import proofs.«205820_g61907658604586_cont_9to1_m_785_3_alg».proof.Proof.RefReadIdx

noncomputable section

namespace Cert.ReferenceIdeal.RefValue

open Cert.ReferenceIdeal Cert.ReferenceIdeal.Gen Idealize.ShloMosaic Idealize.ShloMosaic.ValueIdx
open scoped BigOperators

/-- The specification's entry for field q + 1 (q = 0, 1) is the item tables' maximum at row r + 100000 q. -/
theorem featAt_item (su tu : Cert.Spec.Arr2 EReal 100000 128) (si ti : Cert.Spec.Arr2 EReal 101000 128) (r q : Nat) (hq : q < 2) (e : Fin 128) :
    Cert.Spec.featAt su tu si ti r (q + 1) e
      = max (si (ix2 (Fin.ofNat 101000 (r + q * 100000)) e)) (ti (ix2 (Fin.ofNat 101000 (r + q * 100000)) e)) := by
  unfold Cert.Spec.featAt
  have h2 : q = 0 ∨ q = 1 := by omega
  rcases h2 with rfl | rfl
  · rw [if_neg (by omega), if_pos rfl]
    simp only [Nat.zero_mul, Nat.add_zero]
  · rw [if_neg (by omega), if_neg (by omega)]

section
variable (x : IVec S16384x3 32) (su tu : FVec Ideal S100000x128 .f32) (si ti : FVec Ideal S101000x128 .f32) (hx : Cert.Spec.InRange x)
include hx

theorem col0_lt (b : Fin 16384) : (col0 x (ix1 b)).toNat < 100000 := by
  rw [col0_apply]
  have := hx (ix2 b (0 : Fin 3))
  omega

theorem cols12_lt (b : Fin 16384) (f : Fin 2) : (cols12 x (ix2 b f)).toNat < 101000 := by
  rw [cols12_toNat x hx]
  have := hx (ix2 b (⟨f.val + 1, by omega⟩ : Fin 3))
  have := f.isLt
  omega

/-- A column of the user piece. -/
theorem feat_user (b : Fin 16384) (k : Fin 384) (hk : k.val < 128) :
    featT (F := Ideal) x su tu si ti (ix2 b k) = Cert.Spec.feat su tu si ti x (ix2 b k) := by
  unfold featT cat2
  rw [concatenate_pair_apply_left (t := S16384x384) 1 _ _ concatenates_S16384x128_S16384x256_S16384x384_d1 (ix2 b k) rfl (ix2 b (⟨k.val, hk⟩ : Fin 128)) (by
    intro a
    match a with
    | ⟨0, _⟩ => rfl
    | ⟨1, _⟩ => rfl)]
  rw [maximumf_apply, takeU_apply su _ (col0_lt x hx), takeU_apply tu _ (col0_lt x hx), col0_apply]
  have hf : Cert.Spec.fld k = (0 : Fin 3) := Fin.ext (by show k.val / 128 = 0; omega)
  have hl : Cert.Spec.lane k = (⟨k.val, hk⟩ : Fin 128) := Fin.ext (by show k.val % 128 = k.val; omega)
  show _ = Cert.Spec.featAt su tu si ti (x (ix2 b (Cert.Spec.fld k))).toNat (Cert.Spec.fld k).val (Cert.Spec.lane k)
  rw [hf, hl]
  unfold Cert.Spec.featAt
  exact (if_pos rfl).symm

/-- A column of the item pieces: column 128 + 128 q + e, q = 0, 1. -/
theorem feat_item (b : Fin 16384) (q : Fin 2) (e : Fin 128) (k : Fin 384) (hk : k.val = 128 + q.val * 128 + e.val) :
    featT (F := Ideal) x su tu si ti (ix2 b k) = Cert.Spec.feat su tu si ti x (ix2 b k) := by
  have he := e.isLt
  have hq := q.isLt
  unfold featT cat2
  rw [concatenate_pair_apply_right (t := S16384x384) 1 _ _ concatenates_S16384x128_S16384x256_S16384x384_d1 (ix2 b k) rfl rfl (ix2 b (⟨q.val * 128 + e.val, by omega⟩ : Fin 256)) (by
      intro a ha
      match a with
      | ⟨0, _⟩ => rfl
      | ⟨1, _⟩ => exact absurd rfl ha) (by show (q.val * 128 + e.val) + 128 = k.val; omega)]
  rw [maximumf_apply]
  have hsc : ∀ (T : FVec Ideal S16384x2x128 .f32),
      shapeCast S16384x256 T shapeCasts_S16384x2x128_S16384x256 (ix2 b (⟨q.val * 128 + e.val, by omega⟩ : Fin 256)) = T (ix3 b q e) := fun T =>
    shapeCast_apply T shapeCasts_S16384x2x128_S16384x256 _ _ (by
      rw [Shape.rowMajor_val_three, Shape.rowMajor_val_two]
      show (b.val * 2 + q.val) * 128 + e.val = b.val * 256 + (q.val * 128 + e.val)
      omega)
  rw [hsc, hsc, takeI_apply si _ (cols12_lt x hx), takeI_apply ti _ (cols12_lt x hx), cols12_toNat x hx]
  have hl : Cert.Spec.lane k = e := Fin.ext (by show k.val % 128 = e.val; omega)
  have hf : Cert.Spec.fld k = (⟨q.val + 1, by omega⟩ : Fin 3) := Fin.ext (by show k.val / 128 = q.val + 1; omega)
  show _ = Cert.Spec.featAt su tu si ti (x (ix2 b (Cert.Spec.fld k))).toNat (Cert.Spec.fld k).val (Cert.Spec.lane k)
  rw [hf, hl]
  exact (featAt_item su tu si ti _ q.val hq e).symm

/-- The reference's feature rows are the specification's. -/
theorem featT_eq : featT (F := Ideal) x su tu si ti = Cert.Spec.feat su tu si ti x := by
  funext i
  obtain ⟨b, k, rfl⟩ : ∃ (b : Fin 16384) (k : Fin 384), i = ix2 b k := ⟨i 0, i 1, eq_ix2 i⟩
  by_cases hk : k.val < 128
  · exact feat_user x su tu si ti hx b k hk
  · have hk3 := k.isLt
    exact feat_item x su tu si ti hx b (⟨(k.val - 128) / 128, by omega⟩ : Fin 2) (⟨(k.val - 128) % 128, Nat.mod_lt _ (by decide)⟩ : Fin 128) k
      (by show k.val = 128 + (k.val - 128) / 128 * 128 + (k.val - 128) % 128; omega)

end

end Cert.ReferenceIdeal.RefValue

end
-- ==== Proof.RefReadNet.lean ====
/-
  The reference's network at an index: each product with a weight matrix is the sum over the contracted positions, the bias
  is read through its two broadcasts, the rectifier is the maximum with zero, and the last four operations are the
  logistic function by its definition.
-/
import proofs.«205820_g61907658604586_cont_9to1_m_785_3_alg».proof.Proof.RefTerm
import proofs.«205820_g61907658604586_cont_9to1_m_785_3_alg».proof.Proof.Spec
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-- A vector laid along a new leading unit axis and then down m rows, read at (r, t), is the vector at t. -/
theorem bias_apply {m n : Nat} {α : Type} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (t : Fin n) :
    broadcastInDim ⟨2, ![m, n]⟩ ![0, 1] h2 (broadcastInDim ⟨2, ![1, n]⟩ ![1] h1 v) (ix2 r t) = v (ix1 t) := by
  rw [broadcastInDim_oneRow_apply h2 _ r t]
  exact broadcastInDim_apply ![1] h1 v (ix2 (0 : Fin 1) t) (ix1 t) (by
    intro a
    match a with
    | ⟨0, _⟩ =>
      show t.val = if n = 1 then 0 else t.val
      split
      · have := t.isLt; omega
      · rfl)

/-- The 32-bit pattern 0x3F800000 is the number 1. -/
theorem ofBits_one_f32 : Ideal.ofBits .f32 0x3F800000#32 = 1 := by
  simp [Ideal.ofBits, Ideal.ieee, -EReal.coe_mul]
  norm_num

/-- The product with the 384 × 1024 matrix at (r, n): the sum over the 384 contracted positions. -/
theorem dot1_apply (h : FVec Ideal S16384x384 .f32) (W : FVec Ideal S384x1024 .f32) (r : Fin 16384) (n : Fin 1024) :
    Host.dotGeneral (F := Ideal) dot_S16384x384_S384x1024_S16384x1024_1_0_0_1_n_n none h W (ix2 r n) = ∑ q : Fin 384, h (ix2 r q) * W (ix2 q n) := by
  show FloatOps.dotGeneral dot_S16384x384_S384x1024_S16384x1024_1_0_0_1_n_n none .single h W (ix2 r n) = _
  rw [Ideal.dotGeneral_apply, ← Equiv.sum_comp (contrEquiv1 dot_S16384x384_S384x1024_S16384x1024_1_0_0_1_n_n 384 rfl rfl).symm]
  refine Finset.sum_congr rfl fun q _ => ?_
  have hl : DotDims.lhsIdx dot_S16384x384_S384x1024_S16384x1024_1_0_0_1_n_n (ix2 r n) ((contrEquiv1 dot_S16384x384_S384x1024_S16384x1024_1_0_0_1_n_n 384 rfl rfl).symm q) = ix2 r q := by
    funext a
    refine Fin.ext ?_
    match a with
    | ⟨0, _⟩ => rfl
    | ⟨1, _⟩ => exact (DotDims.lhsIdx_val_of_single _ rfl _ _).trans (contrEquiv1_symm_val _ 384 rfl rfl q)
  have hr : DotDims.rhsIdx dot_S16384x384_S384x1024_S16384x1024_1_0_0_1_n_n (ix2 r n) ((contrEquiv1 dot_S16384x384_S384x1024_S16384x1024_1_0_0_1_n_n 384 rfl rfl).symm q) = ix2 q n := by
    funext a
    refine Fin.ext ?_
    match a with
    | ⟨0, _⟩ => exact (DotDims.rhsIdx_val_of_single _ rfl _ _).trans (contrEquiv1_symm_val _ 384 rfl rfl q)
    | ⟨1, _⟩ => rfl
  rw [hl, hr]

/-- The product with the 1024 × 512 matrix at (r, n): the sum over the 1024 contracted positions. -/
theorem dot2_apply (h : FVec Ideal S16384x1024 .f32) (W : FVec Ideal S1024x512 .f32) (r : Fin 16384) (n : Fin 512) :
    Host.dotGeneral (F := Ideal) dot_S16384x1024_S1024x512_S16384x512_1_0_0_1_n_n none h W (ix2 r n) = ∑ q : Fin 1024, h (ix2 r q) * W (ix2 q n) := by
  show FloatOps.dotGeneral dot_S16384x1024_S1024x512_S16384x512_1_0_0_1_n_n none .single h W (ix2 r n) = _
  rw [Ideal.dotGeneral_apply, ← Equiv.sum_comp (contrEquiv1 dot_S16384x1024_S1024x512_S16384x512_1_0_0_1_n_n 1024 rfl rfl).symm]
  refine Finset.sum_congr rfl fun q _ => ?_
  have hl : DotDims.lhsIdx dot_S16384x1024_S1024x512_S16384x512_1_0_0_1_n_n (ix2 r n) ((contrEquiv1 dot_S16384x1024_S1024x512_S16384x512_1_0_0_1_n_n 1024 rfl rfl).symm q) = ix2 r q := by
    funext a
    refine Fin.ext ?_
    match a with
    | ⟨0, _⟩ => rfl
    | ⟨1, _⟩ => exact (DotDims.lhsIdx_val_of_single _ rfl _ _).trans (contrEquiv1_symm_val _ 1024 rfl rfl q)
  have hr : DotDims.rhsIdx dot_S16384x1024_S1024x512_S16384x512_1_0_0_1_n_n (ix2 r n) ((contrEquiv1 dot_S16384x1024_S1024x512_S16384x512_1_0_0_1_n_n 1024 rfl rfl).symm q) = ix2 q n := by
    funext a
    refine Fin.ext ?_
    match a with
    | ⟨0, _⟩ => exact (DotDims.rhsIdx_val_of_single _ rfl _ _).trans (contrEquiv1_symm_val _ 1024 rfl rfl q)
    | ⟨1, _⟩ => rfl
  rw [hl, hr]

/-- The product with the 512 × 256 matrix at (r, n): the sum over the 512 contracted positions. -/
theorem dot3_apply (h : FVec Ideal S16384x512 .f32) (W : FVec Ideal S512x256 .f32) (r : Fin 16384) (n : Fin 256) :
    Host.dotGeneral (F := Ideal) dot_S16384x512_S512x256_S16384x256_1_0_0_1_n_n none h W (ix2 r n) = ∑ q : Fin 512, h (ix2 r q) * W (ix2 q n) := by
  show FloatOps.dotGeneral dot_S16384x512_S512x256_S16384x256_1_0_0_1_n_n none .single h W (ix2 r n) = _
  rw [Ideal.dotGeneral_apply, ← Equiv.sum_comp (contrEquiv1 dot_S16384x512_S512x256_S16384x256_1_0_0_1_n_n 512 rfl rfl).symm]
  refine Finset.sum_congr rfl fun q _ => ?_
  have hl : DotDims.lhsIdx dot_S16384x512_S512x256_S16384x256_1_0_0_1_n_n (ix2 r n) ((contrEquiv1 dot_S16384x512_S512x256_S16384x256_1_0_0_1_n_n 512 rfl rfl).symm q) = ix2 r q := by
    funext a
    refine Fin.ext ?_
    match a with
    | ⟨0, _⟩ => rfl
    | ⟨1, _⟩ => exact (DotDims.lhsIdx_val_of_single _ rfl _ _).trans (contrEquiv1_symm_val _ 512 rfl rfl q)
  have hr : DotDims.rhsIdx dot_S16384x512_S512x256_S16384x256_1_0_0_1_n_n (ix2 r n) ((contrEquiv1 dot_S16384x512_S512x256_S16384x256_1_0_0_1_n_n 512 rfl rfl).symm q) = ix2 q n := by
    funext a
    refine Fin.ext ?_
    match a with
    | ⟨0, _⟩ => exact (DotDims.rhsIdx_val_of_single _ rfl _ _).trans (contrEquiv1_symm_val _ 512 rfl rfl q)
    | ⟨1, _⟩ => rfl
  rw [hl, hr]

/-- The product with the 256 × 1 matrix at (r, n): the sum over the 256 contracted positions. -/
theorem dotP_apply (h : FVec Ideal S16384x256 .f32) (W : FVec Ideal S256x1 .f32) (r : Fin 16384) (n : Fin 1) :
    Host.dotGeneral (F := Ideal) dot_S16384x256_S256x1_S16384x1_1_0_0_1_n_n none h W (ix2 r n) = ∑ q : Fin 256, h (ix2 r q) * W (ix2 q n) := by
  show FloatOps.dotGeneral dot_S16384x256_S256x1_S16384x1_1_0_0_1_n_n none .single h W (ix2 r n) = _
  rw [Ideal.dotGeneral_apply, ← Equiv.sum_comp (contrEquiv1 dot_S16384x256_S256x1_S16384x1_1_0_0_1_n_n 256 rfl rfl).symm]
  refine Finset.sum_congr rfl fun q _ => ?_
  have hl : DotDims.lhsIdx dot_S16384x256_S256x1_S16384x1_1_0_0_1_n_n (ix2 r n) ((contrEquiv1 dot_S16384x256_S256x1_S16384x1_1_0_0_1_n_n 256 rfl rfl).symm q) = ix2 r q := by
    funext a
    refine Fin.ext ?_
    match a with
    | ⟨0, _⟩ => rfl
    | ⟨1, _⟩ => exact (DotDims.lhsIdx_val_of_single _ rfl _ _).trans (contrEquiv1_symm_val _ 256 rfl rfl q)
  have hr : DotDims.rhsIdx dot_S16384x256_S256x1_S16384x1_1_0_0_1_n_n (ix2 r n) ((contrEquiv1 dot_S16384x256_S256x1_S16384x1_1_0_0_1_n_n 256 rfl rfl).symm q) = ix2 q n := by
    funext a
    refine Fin.ext ?_
    match a with
    | ⟨0, _⟩ => exact (DotDims.rhsIdx_val_of_single _ rfl _ _).trans (contrEquiv1_symm_val _ 256 rfl rfl q)
    | ⟨1, _⟩ => rfl
  rw [hl, hr]

/-- Layer 1 at (r, n): the maximum of the affine value with zero. -/
theorem layer1T_apply (h : FVec Ideal S16384x384 .f32) (W : FVec Ideal S384x1024 .f32) (bias : FVec Ideal S1024 .f32) (r : Fin 16384) (n : Fin 1024) :
    layer1T (F := Ideal) h W bias (ix2 r n) = Cert.Spec.layer h W bias (ix2 r n) := by
  unfold layer1T
  show max (Host.dotGeneral (F := Ideal) dot_S16384x384_S384x1024_S16384x1024_1_0_0_1_n_n none h W (ix2 r n)
      + broadcastInDim S16384x1024 ![0, 1] bcast_S1x1024_S16384x1024_0_1 (broadcastInDim S1x1024 ![1] bcast_S1024_S1x1024_1 bias) (ix2 r n)) (Ideal.ofBits .f32 0x00000000#32) = _
  rw [dot1_apply, bias_apply, Ideal.ofBits_zero_f32]
  rfl

/-- Layer 2 at (r, n): the maximum of the affine value with zero. -/
theorem layer2T_apply (h : FVec Ideal S16384x1024 .f32) (W : FVec Ideal S1024x512 .f32) (bias : FVec Ideal S512 .f32) (r : Fin 16384) (n : Fin 512) :
    layer2T (F := Ideal) h W bias (ix2 r n) = Cert.Spec.layer h W bias (ix2 r n) := by
  unfold layer2T
  show max (Host.dotGeneral (F := Ideal) dot_S16384x1024_S1024x512_S16384x512_1_0_0_1_n_n none h W (ix2 r n)
      + broadcastInDim S16384x512 ![0, 1] bcast_S1x512_S16384x512_0_1 (broadcastInDim S1x512 ![1] bcast_S512_S1x512_1 bias) (ix2 r n)) (Ideal.ofBits .f32 0x00000000#32) = _
  rw [dot2_apply, bias_apply, Ideal.ofBits_zero_f32]
  rfl

/-- Layer 3 at (r, n): the maximum of the affine value with zero. -/
theorem layer3T_apply (h : FVec Ideal S16384x512 .f32) (W : FVec Ideal S512x256 .f32) (bias : FVec Ideal S256 .f32) (r : Fin 16384) (n : Fin 256) :
    layer3T (F := Ideal) h W bias (ix2 r n) = Cert.Spec.layer h W bias (ix2 r n) := by
  unfold layer3T
  show max (Host.dotGeneral (F := Ideal) dot_S16384x512_S512x256_S16384x256_1_0_0_1_n_n none h W (ix2 r n)
      + broadcastInDim S16384x256 ![0, 1] bcast_S1x256_S16384x256_0_1 (broadcastInDim S1x256 ![1] bcast_S256_S1x256_1 bias) (ix2 r n)) (Ideal.ofBits .f32 0x00000000#32) = _
  rw [dot3_apply, bias_apply, Ideal.ofBits_zero_f32]
  rfl

/-- The last step at sample r: the logistic function of the affine value. -/
theorem headT_apply (a : FVec Ideal S16384x256 .f32) (Wp : FVec Ideal S256x1 .f32) (bp : FVec Ideal S1 .f32) (r : Fin 16384) :
    headT (F := Ideal) a Wp bp (ix1 r) = Cert.Spec.head a Wp bp (ix1 r) := by
  unfold headT
  rw [shapeCast_apply _ shapeCasts_S16384x1_S16384 (ix1 r) (ix2 r (0 : Fin 1)) (by
    rw [Shape.rowMajor_val_two, Shape.rowMajor_val_one]; show r.val * 1 + 0 = r.val; omega)]
  show Ideal.div (Ideal.ofBits .f32 0x3F800000#32) (Ideal.ofBits .f32 0x3F800000#32
      + Ideal.exp (-(Host.dotGeneral (F := Ideal) dot_S16384x256_S256x1_S16384x1_1_0_0_1_n_n none a Wp (ix2 r (0 : Fin 1))
        + broadcastInDim S16384x1 ![0, 1] bcast_S1x1_S16384x1_0_1 (broadcastInDim S1x1 ![1] bcast_S1_S1x1_1 bp) (ix2 r (0 : Fin 1))))) = _
  rw [ofBits_one_f32, dotP_apply, bias_apply]
  rfl

end Cert.ReferenceIdeal.RefValue

end
-- ==== Proof.RefEq.lean ====
/-
  The reference's term is the specification, and the reference's run stated with the specification as its result.
-/
import proofs.«205820_g61907658604586_cont_9to1_m_785_3_alg».proof.Proof.RefRun
import proofs.«205820_g61907658604586_cont_9to1_m_785_3_alg».proof.Proof.RefReadFeat
import proofs.«205820_g61907658604586_cont_9to1_m_785_3_alg».proof.Proof.RefReadNet

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- With every entry of the index array at most 999, the reference's term of its thirteen arguments is the specification. -/
theorem refTerm_eq_G (x : IVec S16384x3 32) (su tu : FVec Ideal S100000x128 .f32) (si ti : FVec Ideal S101000x128 .f32)
    (W1 : FVec Ideal S384x1024 .f32) (b1 : FVec Ideal S1024 .f32) (W2 : FVec Ideal S1024x512 .f32) (b2 : FVec Ideal S512 .f32)
    (W3 : FVec Ideal S512x256 .f32) (b3 : FVec Ideal S256 .f32) (Wp : FVec Ideal S256x1 .f32) (bp : FVec Ideal S1 .f32)
    (hx : Cert.Spec.InRange x) :
    refTerm (F := Ideal) x su tu si ti W1 b1 W2 b2 W3 b3 Wp bp = Cert.Spec.G x su tu si ti W1 b1 W2 b2 W3 b3 Wp bp := by
  have hl1 : ∀ (h : FVec Ideal S16384x384 .f32), layer1T (F := Ideal) h W1 b1 = Cert.Spec.layer h W1 b1 := fun h => funext fun i => by
    obtain ⟨r, n, rfl⟩ : ∃ (r : Fin 16384) (n : Fin 1024), i = ix2 r n := ⟨i 0, i 1, eq_ix2 i⟩
    exact layer1T_apply h W1 b1 r n
  have hl2 : ∀ (h : FVec Ideal S16384x1024 .f32), layer2T (F := Ideal) h W2 b2 = Cert.Spec.layer h W2 b2 := fun h => funext fun i => by
    obtain ⟨r, n, rfl⟩ : ∃ (r : Fin 16384) (n : Fin 512), i = ix2 r n := ⟨i 0, i 1, eq_ix2 i⟩
    exact layer2T_apply h W2 b2 r n
  have hl3 : ∀ (h : FVec Ideal S16384x512 .f32), layer3T (F := Ideal) h W3 b3 = Cert.Spec.layer h W3 b3 := fun h => funext fun i => by
    obtain ⟨r, n, rfl⟩ : ∃ (r : Fin 16384) (n : Fin 256), i = ix2 r n := ⟨i 0, i 1, eq_ix2 i⟩
    exact layer3T_apply h W3 b3 r n
  have hh : ∀ (a : FVec Ideal S16384x256 .f32), headT (F := Ideal) a Wp bp = Cert.Spec.head a Wp bp := fun a => funext fun i => by
    obtain ⟨r, rfl⟩ : ∃ (r : Fin 16384), i = ix1 r := ⟨i 0, eq_ix1 i⟩
    exact headT_apply a Wp bp r
  unfold refTerm Cert.Spec.G Cert.Spec.net
  rw [featT_eq x su tu si ti hx, hl1, hl2, hl3, hh]

/-- On every device, from any memory with zero counters whose index array has every entry at most 999: every weakly fair
    execution of the reference's program terminates with the result buffer at the specification of the arguments' launch
    contents and the arguments unchanged. -/
theorem run (m : (ℓ : Loc nD τ sig) → Buf (Elt Ideal) ℓ) (ρ : Dev nD → PrngReg)
    (hx : ∀ c : Dev nD, Cert.Spec.InRange (m ((c.tc : Thread nD τ).loc main_arg0))) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v40) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c => ⟨((h c).1).trans (refTerm_eq_G _ _ _ _ _ _ _ _ _ _ _ _ _ (hx c)), (h c).2⟩) (run0 m ρ)

end Cert.ReferenceIdeal.RefValue

end
-- ==== Proof.PreRange.lean ====
/-
  The precondition's last conjunct says that every entry of the integer array lies between 0 and 999 as a signed
  32-bit number. Read back: the unsigned value of every entry is at most 999.
-/
import proofs.«205820_g61907658604586_cont_9to1_m_785_3_alg».proof.Pre_input_domain
import proofs.«205820_g61907658604586_cont_9to1_m_785_3_alg».proof.Proof.Spec
import Idealize.ShloMosaic.Lib.ReduceAll
import Idealize.ShloMosaic.Lib.ValueIdx

namespace Cert.PreRange

open Idealize.ShloMosaic Cert.Pre_input_domain

instance : Subsingleton S_.Idx := ⟨fun a b => funext fun d => d.elim0⟩

/-- A signed 32-bit word that is at least 0 and at most 999 has unsigned value at most 999. -/
theorem word_le (v : BitVec 32) (e : IntOp.andi (IntOp.cmpi .sge v 0#32) (IntOp.cmpi .sle v 999#32) = 1#1) :
    v.toNat ≤ 999 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Under the precondition every entry of the integer array is at most 999. -/
theorem inRange_of_pre {F : FTy → Type} [FloatOps F] [Cert.Pre_input_domain.Facts]
    (x : IVec S16384x3 32) (su tu : FVec F S100000x128 .f32) (si ti : FVec F S101000x128 .f32)
    (W1 : FVec F S384x1024 .f32) (b1 : FVec F S1024 .f32) (W2 : FVec F S1024x512 .f32) (b2 : FVec F S512 .f32)
    (W3 : FVec F S512x256 .f32) (b3 : FVec F S256 .f32) (Wp : FVec F S256x1 .f32) (bp : FVec F S1 .f32)
    (h : Cert.Pre_input_domain.fn (F := F) x su tu si ti W1 b1 W2 b2 W3 b3 Wp bp = fun _ => 1#1) :
    Cert.Spec.InRange x := by
  have e := congrFun h ValueIdx.ix0
  dsimp only [fn, fn_part1, fn_part2, fn_part3] at e
  have e2 := (IntOp.andi_eq_one.1 e).2
  intro i
  have e3 := Host.reduce_andi_all _ _ _ _ _ e2 i
  exact word_le _ e3

end Cert.PreRange
-- ==== Proof.Assemble.lean ====
/-
  The certificate's five claims assembled from four facts: the idealized kernel's run to named final contents of the
  TensorCore's buffers; that those contents leave the thirteen argument arrays as they were; that, with every entry of
  the index array at most 999, they hold the specification of the arguments in the result array; and the word-level
  kernel's frame. The reference's run to the same specification is proved apart; the precondition gives the range of the
  index array; so both idealized programs end with one and the same result, the specification of the common arguments.
-/
import proofs.«205820_g61907658604586_cont_9to1_m_785_3_alg».proof.Defs
import proofs.«205820_g61907658604586_cont_9to1_m_785_3_alg».proof.Proof.ChainIdeal
import proofs.«205820_g61907658604586_cont_9to1_m_785_3_alg».proof.Proof.Spec
import proofs.«205820_g61907658604586_cont_9to1_m_785_3_alg».proof.Proof.RefEq
import proofs.«205820_g61907658604586_cont_9to1_m_785_3_alg».proof.Proof.PreRange
import proofs.«205820_g61907658604586_cont_9to1_m_785_3_alg».proof.Proof.Gen.Kernel
import proofs.«205820_g61907658604586_cont_9to1_m_785_3_alg».proof.Proof.Gen.KernelIdeal
import proofs.«205820_g61907658604586_cont_9to1_m_785_3_alg».proof.Proof.Gen.ReferenceIdeal
import proofs.«205820_g61907658604586_cont_9to1_m_785_3_alg».proof.Proof.Gen.Pre_input_domain

noncomputable section

namespace Cert.Assemble

open Idealize.ShloMosaic Idealize.SL.Sem

/-- A TensorCore buffer of the idealized kernel, and of the idealized reference, on device `d`. -/
abbrev kloc (d : Dev Cert.KernelIdeal.nD) (b : Ref Cert.KernelIdeal.sig .tc) : Loc Cert.KernelIdeal.nD Cert.KernelIdeal.τ Cert.KernelIdeal.sig :=
  (d.tc : Thread Cert.KernelIdeal.nD Cert.KernelIdeal.τ).loc b
abbrev rloc (d : Dev Cert.ReferenceIdeal.nD) (b : Ref Cert.ReferenceIdeal.sig .tc) : Loc Cert.ReferenceIdeal.nD Cert.ReferenceIdeal.τ Cert.ReferenceIdeal.sig :=
  (d.tc : Thread Cert.ReferenceIdeal.nD Cert.ReferenceIdeal.τ).loc b

/-- An unscoped TensorCore buffer is among those the final contents name. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem claim_of
    (hKI : ∀ (m : (ℓ : Loc Cert.KernelIdeal.nD Cert.KernelIdeal.τ Cert.KernelIdeal.sig) → Buf (Elt Ideal) ℓ) (ρ : Dev Cert.KernelIdeal.nD → PrngReg),
        (∀ d : Dev Cert.KernelIdeal.nD, Cert.Spec.InRange (m (kloc d Cert.KernelIdeal.main_arg0))) →
        θ_run (Cert.KernelIdeal.defs (F := Ideal)) (Cert.KernelIdeal.threads (F := Ideal)) ⟨m, fun _ => 0, ρ⟩
          (fun r => ∀ c : Dev Cert.KernelIdeal.nD, ∀ b ∈ Pipeline.ucRefs Cert.KernelIdeal.τ Cert.KernelIdeal.sig,
            r.2.mem (c, b) = Cert.KernelIdeal.Chain.W6 (F := Ideal) m c b))
    (hargI : ∀ (m : (ℓ : Loc Cert.KernelIdeal.nD Cert.KernelIdeal.τ Cert.KernelIdeal.sig) → Buf (Elt Ideal) ℓ) (d : Dev Cert.KernelIdeal.nD),
        Cert.KernelIdeal.Chain.W6 (F := Ideal) m d (Proc.devRef .tc Cert.KernelIdeal.main_arg0) = m (kloc d Cert.KernelIdeal.main_arg0)
        ∧ Cert.KernelIdeal.Chain.W6 (F := Ideal) m d (Proc.devRef .tc Cert.KernelIdeal.main_arg1) = m (kloc d Cert.KernelIdeal.main_arg1)
        ∧ Cert.KernelIdeal.Chain.W6 (F := Ideal) m d (Proc.devRef .tc Cert.KernelIdeal.main_arg2) = m (kloc d Cert.KernelIdeal.main_arg2)
        ∧ Cert.KernelIdeal.Chain.W6 (F := Ideal) m d (Proc.devRef .tc Cert.KernelIdeal.main_arg3) = m (kloc d Cert.KernelIdeal.main_arg3)
        ∧ Cert.KernelIdeal.Chain.W6 (F := Ideal) m d (Proc.devRef .tc Cert.KernelIdeal.main_arg4) = m (kloc d Cert.KernelIdeal.main_arg4)
        ∧ Cert.KernelIdeal.Chain.W6 (F := Ideal) m d (Proc.devRef .tc Cert.KernelIdeal.main_arg5) = m (kloc d Cert.KernelIdeal.main_arg5)
        ∧ Cert.KernelIdeal.Chain.W6 (F := Ideal) m d (Proc.devRef .tc Cert.KernelIdeal.main_arg6) = m (kloc d Cert.KernelIdeal.main_arg6)
        ∧ Cert.KernelIdeal.Chain.W6 (F := Ideal) m d (Proc.devRef .tc Cert.KernelIdeal.main_arg7) = m (kloc d Cert.KernelIdeal.main_arg7)
        ∧ Cert.KernelIdeal.Chain.W6 (F := Ideal) m d (Proc.devRef .tc Cert.KernelIdeal.main_arg8) = m (kloc d Cert.KernelIdeal.main_arg8)
        ∧ Cert.KernelIdeal.Chain.W6 (F := Ideal) m d (Proc.devRef .tc Cert.KernelIdeal.main_arg9) = m (kloc d Cert.KernelIdeal.main_arg9)
        ∧ Cert.KernelIdeal.Chain.W6 (F := Ideal) m d (Proc.devRef .tc Cert.KernelIdeal.main_arg10) = m (kloc d Cert.KernelIdeal.main_arg10)
        ∧ Cert.KernelIdeal.Chain.W6 (F := Ideal) m d (Proc.devRef .tc Cert.KernelIdeal.main_arg11) = m (kloc d Cert.KernelIdeal.main_arg11)
        ∧ Cert.KernelIdeal.Chain.W6 (F := Ideal) m d (Proc.devRef .tc Cert.KernelIdeal.main_arg12) = m (kloc d Cert.KernelIdeal.main_arg12))
    (hresI : ∀ (m : (ℓ : Loc Cert.KernelIdeal.nD Cert.KernelIdeal.τ Cert.KernelIdeal.sig) → Buf (Elt Ideal) ℓ) (d : Dev Cert.KernelIdeal.nD),
        Cert.Spec.InRange (m (kloc d Cert.KernelIdeal.main_arg0)) →
        (Cert.KernelIdeal.Chain.W6 (F := Ideal) m d (Proc.devRef .tc Cert.KernelIdeal.main_v13) : Cert.KernelIdeal.S16384.Idx → EReal)
          = Cert.Spec.G (m (kloc d Cert.KernelIdeal.main_arg0)) (m (kloc d Cert.KernelIdeal.main_arg1)) (m (kloc d Cert.KernelIdeal.main_arg2)) (m (kloc d Cert.KernelIdeal.main_arg3)) (m (kloc d Cert.KernelIdeal.main_arg4)) (m (kloc d Cert.KernelIdeal.main_arg5)) (m (kloc d Cert.KernelIdeal.main_arg6)) (m (kloc d Cert.KernelIdeal.main_arg7)) (m (kloc d Cert.KernelIdeal.main_arg8)) (m (kloc d Cert.KernelIdeal.main_arg9)) (m (kloc d Cert.KernelIdeal.main_arg10)) (m (kloc d Cert.KernelIdeal.main_arg11)) (m (kloc d Cert.KernelIdeal.main_arg12)))
    (hKframe : Cert.frame_Kernel (hKernel := Cert.Kernel.Gen.facts) (hPre_input_domain := Cert.Pre_input_domain.Gen.facts)) :
    Cert.Claim := by
  have hIn : ∀ (m : (ℓ : Loc Cert.KernelIdeal.nD Cert.KernelIdeal.τ Cert.KernelIdeal.sig) → Buf (Elt Ideal) ℓ),
      Cert.Pre_KernelIdeal (hPre_input_domain := Cert.Pre_input_domain.Gen.facts) m →
      ∀ d : Dev Cert.KernelIdeal.nD, Cert.Spec.InRange (m (kloc d Cert.KernelIdeal.main_arg0)) :=
    fun m hpre d => Cert.PreRange.inRange_of_pre (F := Ideal) _ _ _ _ _ _ _ _ _ _ _ _ _ (hpre d)
  refine ⟨Cert.Kernel.Gen.facts, Cert.KernelIdeal.Gen.facts, Cert.ReferenceIdeal.Gen.facts, Cert.Pre_input_domain.Gen.facts,
    hKframe, ?_, ?_, trivial, ?_⟩
  · -- the idealized kernel's frame: its run, the argument arrays read off the final contents
    intro m g hpre
    refine (θ_run _ _ _).mono (fun r h c => ?_) (hKI m g (hIn m hpre))
    obtain ⟨e0, e1, e2, e3, e4, e5, e6, e7, e8, e9, e10, e11, e12⟩ := hargI m c
    exact ⟨(h c _ (mem_uc Cert.KernelIdeal.main_arg0 (by decide))).trans e0,
      (h c _ (mem_uc Cert.KernelIdeal.main_arg1 (by decide))).trans e1,
      (h c _ (mem_uc Cert.KernelIdeal.main_arg2 (by decide))).trans e2,
      (h c _ (mem_uc Cert.KernelIdeal.main_arg3 (by decide))).trans e3,
      (h c _ (mem_uc Cert.KernelIdeal.main_arg4 (by decide))).trans e4,
      (h c _ (mem_uc Cert.KernelIdeal.main_arg5 (by decide))).trans e5,
      (h c _ (mem_uc Cert.KernelIdeal.main_arg6 (by decide))).trans e6,
      (h c _ (mem_uc Cert.KernelIdeal.main_arg7 (by decide))).trans e7,
      (h c _ (mem_uc Cert.KernelIdeal.main_arg8 (by decide))).trans e8,
      (h c _ (mem_uc Cert.KernelIdeal.main_arg9 (by decide))).trans e9,
      (h c _ (mem_uc Cert.KernelIdeal.main_arg10 (by decide))).trans e10,
      (h c _ (mem_uc Cert.KernelIdeal.main_arg11 (by decide))).trans e11,
      (h c _ (mem_uc Cert.KernelIdeal.main_arg12 (by decide))).trans e12⟩
  · -- the idealized reference's frame: its run with the result dropped
    intro m g _
    exact (θ_run _ _ _).mono (fun _ h c => (h c).2) (Cert.ReferenceIdeal.RefValue.run0 m g)
  · -- both idealized programs end at the specification of the common arguments
    intro m g m' g' hpre hag
    have hx := hIn m hpre
    refine ⟨fun c => Cert.Spec.G (m (kloc c Cert.KernelIdeal.main_arg0)) (m (kloc c Cert.KernelIdeal.main_arg1)) (m (kloc c Cert.KernelIdeal.main_arg2)) (m (kloc c Cert.KernelIdeal.main_arg3)) (m (kloc c Cert.KernelIdeal.main_arg4)) (m (kloc c Cert.KernelIdeal.main_arg5)) (m (kloc c Cert.KernelIdeal.main_arg6)) (m (kloc c Cert.KernelIdeal.main_arg7)) (m (kloc c Cert.KernelIdeal.main_arg8)) (m (kloc c Cert.KernelIdeal.main_arg9)) (m (kloc c Cert.KernelIdeal.main_arg10)) (m (kloc c Cert.KernelIdeal.main_arg11)) (m (kloc c Cert.KernelIdeal.main_arg12)), ?_, ?_⟩
    · refine (θ_run _ _ _).mono (fun r h c => ?_) (hKI m g hx)
      obtain ⟨e0, e1, e2, e3, e4, e5, e6, e7, e8, e9, e10, e11, e12⟩ := hargI m c
      exact ⟨(h c _ (mem_uc Cert.KernelIdeal.main_v13 (by decide))).trans (hresI m c (hx c)),
        (h c _ (mem_uc Cert.KernelIdeal.main_arg0 (by decide))).trans e0,
        (h c _ (mem_uc Cert.KernelIdeal.main_arg1 (by decide))).trans e1,
        (h c _ (mem_uc Cert.KernelIdeal.main_arg2 (by decide))).trans e2,
        (h c _ (mem_uc Cert.KernelIdeal.main_arg3 (by decide))).trans e3,
        (h c _ (mem_uc Cert.KernelIdeal.main_arg4 (by decide))).trans e4,
        (h c _ (mem_uc Cert.KernelIdeal.main_arg5 (by decide))).trans e5,
        (h c _ (mem_uc Cert.KernelIdeal.main_arg6 (by decide))).trans e6,
        (h c _ (mem_uc Cert.KernelIdeal.main_arg7 (by decide))).trans e7,
        (h c _ (mem_uc Cert.KernelIdeal.main_arg8 (by decide))).trans e8,
        (h c _ (mem_uc Cert.KernelIdeal.main_arg9 (by decide))).trans e9,
        (h c _ (mem_uc Cert.KernelIdeal.main_arg10 (by decide))).trans e10,
        (h c _ (mem_uc Cert.KernelIdeal.main_arg11 (by decide))).trans e11,
        (h c _ (mem_uc Cert.KernelIdeal.main_arg12 (by decide))).trans e12⟩
    · have hx' : ∀ c : Dev Cert.ReferenceIdeal.nD, Cert.Spec.InRange (m' (rloc c Cert.ReferenceIdeal.main_arg0)) := fun c => by
        rw [(hag c).1]; exact hx c
      refine (θ_run _ _ _).mono (fun r h c => ?_) (Cert.ReferenceIdeal.RefValue.run m' g' hx')
      obtain ⟨a0, a1, a2, a3, a4, a5, a6, a7, a8, a9, a10, a11, a12⟩ := hag c
      refine ⟨(h c).1.trans ?_, (h c).2⟩
      rw [a0, a1, a2, a3, a4, a5, a6, a7, a8, a9, a10, a11, a12]

end Cert.Assemble

end
-- ==== Proof.ScWordsLemmas.lean ====
/-
  Word arithmetic of the row numbers the gather's index list is turned into.

  Position `n` of the flat index list (`n < 49152`) belongs to field `n % 3`; the word stored there, at most 999, is
  shifted by 1000 times the field. All of it is 32-bit word arithmetic: the position is formed by word additions and
  multiplications of small numbers, the field by the signed remainder by 3 of a non-negative word, the shift by a word
  product and a word sum. Nothing wraps, the signed remainder is the natural one, and the result is below 3000.
-/
import Idealize.ShloMosaic.PureOps.Vector
import Idealize.ShloMosaic.Lib.Scf

namespace Cert.ScWords

open Idealize.ShloMosaic

/-- The position word: the tile's base `1536 · (2 a₁ + a₀)`, the chunk's `128 t`, the slice's `16 t₂`, the lane. -/
theorem pos_word (a0 a1 t t2 lane : Nat) (ha0 : a0 < 2) (ha1 : a1 < 16) (ht : t < 12) (ht2 : t2 < 8) (hl : lane < 16) :
    IntOp.addi
      (Scalar.addi
        (Scalar.addi (Scalar.muli (Scalar.addi (Scalar.muli (BitVec.ofNat 32 a1) 2#32) (BitVec.ofNat 32 a0)) 1536#32)
          (Scalar.muli (Scf.iv 0#32 1#32 t) 128#32))
        (Scalar.muli (Scf.iv 0#32 1#32 t2) 16#32))
      (BitVec.ofNat 32 lane)
      = BitVec.ofNat 32 (3072 * a1 + 1536 * a0 + 128 * t + 16 * t2 + lane) := by
  apply BitVec.eq_of_toNat_eq
  simp only [IntOp.addi, IntOp.muli, Scalar.addi, Scalar.muli, Scf.iv, BitVec.toNat_add, BitVec.toNat_mul, BitVec.toNat_ofNat]
  omega

/-- The signed remainder by 3 of a non-negative word is the natural remainder. -/
theorem remsi_three (n : Nat) (hn : n < 2 ^ 31) :
    IntOp.remsi .vector (BitVec.ofNat 32 n) 3#32 = BitVec.ofNat 32 (n % 3) := by
  have hc : ¬ IntOp.SDivCorner (BitVec.ofNat 32 n) 3#32 := by
    rintro (h | ⟨_, h⟩)
    · exact absurd h (by decide)
    · exact absurd h (by decide)
  have hm : (BitVec.ofNat 32 n).msb = false := by
    rw [BitVec.msb_eq_false_iff_two_mul_lt, BitVec.toNat_ofNat]; omega
  have h3 : (3#32).msb = false := by decide
  unfold IntOp.remsi
  rw [if_neg hc, BitVec.srem_eq, hm, h3]
  apply BitVec.eq_of_toNat_eq
  simp only [BitVec.umod_eq, BitVec.toNat_umod, BitVec.toNat_ofNat, Nat.reducePow, Nat.reduceMod]
  omega

/-- The fixed word: the entry plus 1000 times the position's field. -/
def fix (n : Nat) (x : BitVec 32) : BitVec 32 :=
  IntOp.addi x (IntOp.muli (IntOp.remsi .vector (BitVec.ofNat 32 n) 3#32) 1000#32)

theorem toNat_fix (n : Nat) (x : BitVec 32) (hn : n < 49152) (hx : x.toNat ≤ 999) :
    (fix n x).toNat = x.toNat + (n % 3) * 1000 := by
  unfold fix
  rw [remsi_three n (by omega)]
  simp only [IntOp.addi, IntOp.muli, BitVec.toNat_add, BitVec.toNat_mul, BitVec.toNat_ofNat]
  have : n % 3 < 3 := Nat.mod_lt _ (by decide)
  omega

theorem fix_lt (n : Nat) (x : BitVec 32) (hn : n < 49152) (hx : x.toNat ≤ 999) : (fix n x).toNat < 3000 := by
  rw [toNat_fix n x hn hx]
  have : n % 3 < 3 := Nat.mod_lt _ (by decide)
  omega

end Cert.ScWords
-- ==== Proof.ScBodySetupIdeal.lean ====
/-
  The places one vector subcore of the gather kernel touches: its three DMA semaphores and two scratch buffers among the
  subcore's own, and the geometry of its block of the output. Tile (c, s) has number w = 2 s + c and owns rows
  1536 w .. 1536 w + 1535 of the output; chunk t of the block is rows 1536 w + 128 t .. 1536 w + 128 t + 127, and the
  same 128 positions of the flat index list are the chunk's slice of it.
-/
import proofs.«205820_g61907658604586_cont_9to1_m_785_3_alg».proof.KernelIdeal
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import proofs.«205820_g61907658604586_cont_9to1_m_785_3_alg».proof.Proof.Gen.KernelIdeal
import proofs.«205820_g61907658604586_cont_9to1_m_785_3_alg».proof.Proof.Gen.KernelIdeal.Skeleton
import proofs.«205820_g61907658604586_cont_9to1_m_785_3_alg».proof.Proof.Spec
import proofs.«205820_g61907658604586_cont_9to1_m_785_3_alg».proof.Proof.ScWordsLemmas

noncomputable section

namespace Cert.KernelIdeal.ScBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ
local notation "mV" => (Memref.whole Cert.KernelIdeal.main_v0_scv : Memref Cert.KernelIdeal.sig Kind.scVector Space.hbm Cert.KernelIdeal.S3000x128 EltTy.f32)
local notation "xV" => (Memref.whole Cert.KernelIdeal.main_v1_scv : Memref Cert.KernelIdeal.sig Kind.scVector Space.hbm Cert.KernelIdeal.S49152 EltTy.i32)
local notation "oV" => (Memref.whole Cert.KernelIdeal.main_v2_scv : Memref Cert.KernelIdeal.sig Kind.scVector Space.hbm Cert.KernelIdeal.S49152x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

abbrev mLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

theorem odiv : 32 ∣ S49152x128.size 0 := ⟨1536, rfl⟩
abbrev orow (w : Fin 32) : Rect S49152x128 := Rect.part (s := S49152x128) (a₀ := 0) odiv w
abbrev oRowSet (w : Fin 32) : Finset S49152x128.Idx := ((oV).view.slice (orow w)).set

/-- The tile's number: twice the subcore's plus the SparseCore's. -/
def wid (L : grid1.Coords) : Fin 32 := ⟨2 * (L 1).val + (L 0).val, by
  have h0 : (L 0).val < 2 := (L 0).isLt
  have h1 : (L 1).val < 16 := (L 1).isLt
  omega⟩

abbrev cV (L : grid1.Coords) : Fin τ.nSC := (L 0).castLE hcore1
abbrev jV (L : grid1.Coords) : Fin τ.nSub := (L 1).castLE hsub1

/-! ## The subcore's semaphores and scratch buffers -/

section Own

variable (d : Dev nD) (L : grid1.Coords)

/-- The index fetch's, the gather's and the write-out's semaphore. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_xV (q : PosShare TreeShare) (f : Buf (Elt F) (xLoc d)) :
    ((xV).view.loc (V d (cV L) (jV L)) ↦{q} f : sProp 𝕄) = xLoc d ↦{q} f := rfl
theorem pts_mV (q : PosShare TreeShare) (f : Buf (Elt F) (mLoc d)) :
    ((mV).view.loc (V d (cV L) (jV L)) ↦{q} f : sProp 𝕄) = mLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

end Own

/-! ## The block's geometry -/

/-- The first row of chunk `t` of tile `L`'s block, which is also the first position of the chunk's slice of the index list. -/
def rowBase (L : grid1.Coords) (t : Nat) : Nat := 3072 * (L 1).val + 1536 * (L 0).val + 128 * t

theorem rowBase_wid (L : grid1.Coords) (t : Nat) : rowBase L t = 1536 * (wid L).val + 128 * t := by
  unfold rowBase wid; show _ = 1536 * (2 * (L 1).val + (L 0).val) + 128 * t; omega

theorem wid_lt (L : grid1.Coords) : (wid L).val < 32 := (wid L).isLt

/-- The chunk's slice of the index list, the chunk of the output, the whole table, as the program slices them. -/
abbrev xSliceK (L : grid1.Coords) (t : Fin k1_t1_loop.trips) : Memref sig .scVector .hbm S128 .i32 :=
  (xV).slice (Rect.unit (s := S49152) (k1_off1 L t) S128.size (k1_off1_inb L t)) (fun _ => rfl)
abbrev oChunkK (L : grid1.Coords) (t : Fin k1_t1_loop.trips) : Memref sig .scVector .hbm S128x128 .f32 :=
  (oV).slice (Rect.unit (s := S49152x128) (k1_off3 L t) S128x128.size (k1_off3_inb L t)) (fun _ => rfl)
abbrev mAllK : Memref sig .scVector .hbm S3000x128 .f32 :=
  (mV).slice (Rect.unit (s := S3000x128) ![0, 0] S3000x128.size inb_S3000x128_S3000x128_0_0) (fun _ => rfl)

theorem t1_lt (t : Fin k1_t1_loop.trips) : t.val < 12 := Nat.lt_of_lt_of_le t.isLt k1_t1_abs.2.1
theorem t2_lt (t : Fin k1_t2_loop.trips) : t.val < 8 := Nat.lt_of_lt_of_le t.isLt k1_t2_abs.2.1

theorem mem_oRowSet (w : Fin 32) (i : S49152x128.Idx) :
    i ∈ oRowSet w ↔ 1536 * w.val ≤ (i 0).val ∧ (i 0).val < 1536 * w.val + 1536 := by
  show i ∈ ((View.whole (main_v2_scv : Ref sig .scVector)).slice (orow w)).set ↔ _
  rw [View.set_slice_whole, Rect.mem_set_unit]
  constructor
  · intro h
    have h0 := h 0
    simp only [Shape.partIx, Shape.partSize, if_true] at h0
    have e : S49152x128.size 0 / 32 = 1536 := rfl
    rw [e] at h0
    omega
  · intro h a
    have h1 : (i 1).val < 128 := (i 1).isLt
    match a with
    | 0 =>
      simp only [Shape.partIx, Shape.partSize, if_true]
      have e : S49152x128.size 0 / 32 = 1536 := rfl
      rw [e]; omega
    | 1 =>
      simp only [Shape.partIx, Shape.partSize]
      have e : S49152x128.size 1 = 128 := rfl
      simp [e]; exact h1

theorem mem_chunk (L : grid1.Coords) (t : Fin k1_t1_loop.trips) (i : S49152x128.Idx) :
    i ∈ (oChunkK L t).view.set ↔ rowBase L t.val ≤ (i 0).val ∧ (i 0).val < rowBase L t.val + 128 := by
  show i ∈ ((View.whole (main_v2_scv : Ref sig .scVector)).slice (Rect.unit (s := S49152x128) (k1_off3 L t) S128x128.size (k1_off3_inb L t))).set ↔ _
  rw [View.set_slice_whole, Rect.mem_set_unit, k1_off3_eq]
  unfold rowBase
  constructor
  · intro h
    have h0 := h 0
    have e : S128x128.size 0 = 128 := rfl
    simp only [Matrix.cons_val_zero, e] at h0
    exact h0
  · intro h a
    have h1 : (i 1).val < 128 := (i 1).isLt
    match a with
    | 0 =>
      have e : S128x128.size 0 = 128 := rfl
      simp only [Matrix.cons_val_zero, e]; exact h
    | 1 =>
      have e : S128x128.size 1 = 128 := rfl
      simp [e]; exact h1

theorem chunk_subset (L : grid1.Coords) (t : Fin k1_t1_loop.trips) : (oChunkK L t).view.set ⊆ oRowSet (wid L) := by
  intro i hi
  rw [mem_chunk, rowBase_wid] at hi
  rw [mem_oRowSet]
  have := t1_lt t
  omega

/-- The chunk's rows and columns in the output's own coordinates. -/
theorem emb_chunk_0 (L : grid1.Coords) (t : Fin k1_t1_loop.trips) (y : S128x128.Idx) :
    ((oChunkK L t).view.emb y 0).val = rowBase L t.val + (y 0).val := by
  show (Rect.unit (s := S49152x128) (k1_off3 L t) S128x128.size (k1_off3_inb L t)).off 0
      + (Rect.unit (s := S49152x128) (k1_off3 L t) S128x128.size (k1_off3_inb L t)).stride 0 * (y 0).val = _
  simp only [Rect.off_unit, Rect.stride_unit, Nat.one_mul, k1_off3_eq, Matrix.cons_val_zero]; rfl
theorem emb_chunk_1 (L : grid1.Coords) (t : Fin k1_t1_loop.trips) (y : S128x128.Idx) :
    ((oChunkK L t).view.emb y 1).val = (y 1).val := by
  show (Rect.unit (s := S49152x128) (k1_off3 L t) S128x128.size (k1_off3_inb L t)).off 1
      + (Rect.unit (s := S49152x128) (k1_off3 L t) S128x128.size (k1_off3_inb L t)).stride 1 * (y 1).val = _
  simp only [Rect.off_unit, Rect.stride_unit, Nat.one_mul, k1_off3_eq]; simp
/-- The slice's positions in the index list's own coordinates. -/
theorem emb_xSlice (L : grid1.Coords) (t : Fin k1_t1_loop.trips) (j : S128.Idx) :
    ((xSliceK L t).view.emb j 0).val = rowBase L t.val + (j 0).val := by
  show (Rect.unit (s := S49152) (k1_off1 L t) S128.size (k1_off1_inb L t)).off 0
      + (Rect.unit (s := S49152) (k1_off1 L t) S128.size (k1_off1_inb L t)).stride 0 * (j 0).val = _
  simp only [Rect.off_unit, Rect.stride_unit, Nat.one_mul, k1_off1_eq, Matrix.cons_val_zero]; rfl

end Cert.KernelIdeal.ScBody

end
-- ==== Proof.PayIdeal.lean ====
/-
  What the launch's handshakes carry for the gather call. The TensorCore hands each SparseCore, and each SparseCore hands
  each of its sixteen vector subcores, a read share of the flat index list and of the table (the full share halved five
  times, one leaf per tile) and the tile's own block of 1536 rows of the output; back come the same shares and the block
  at the gathered rows. Tile (c, i) has number 2 i + c.
-/
import proofs.«205820_g61907658604586_cont_9to1_m_785_3_alg».proof.Proof.ChainIdeal
import proofs.«205820_g61907658604586_cont_9to1_m_785_3_alg».proof.Proof.ScBodySetupIdeal

set_option maxRecDepth 16384

noncomputable section

namespace Cert.KernelIdeal.PayM

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Chain

variable {F : FTy → Type} [FloatOps F]

local notation "𝕄" => MT nD τ sig (HIx 1) (Elt F) ℕ UU ℕ

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Tile `w`'s share of a table every tile reads. -/
abbrev qt (w : Fin 32) : PosShare TreeShare := leaf 5 fullShare w

/-! ## The tiles' holdings -/

variable (m : (ℓ : Loc nD τ sig) → Buf (Elt F) ℓ)

/-- The flat index list, the table and the output array as the call finds them. -/
abbrev fx (d : Dev nD) : Buf (Elt F) (ScBody.xLoc d) := V2 m d main_v1
abbrev fm (d : Dev nD) : Buf (Elt F) (ScBody.mLoc d) := V2 m d main_v0
abbrev fo (d : Dev nD) : Buf (Elt F) (ScBody.oLoc d) := V2 m d main_v2

/-- What tile `w` is handed, -/
abbrev tileIn (d : Dev nD) (w : Fin 32) : sProp 𝕄 :=
  iprop((ScBody.xLoc d ↦{qt w} fx m d) ∗ (ScBody.mLoc d ↦{qt w} fm m d) ∗ (ScBody.oLoc d ↦[ScBody.oRowSet w]{fullShare} fo m d))
/-- and what it hands back: its block at the gathered rows. -/
abbrev tileOut (d : Dev nD) (w : Fin 32) : sProp 𝕄 :=
  iprop((ScBody.xLoc d ↦{qt w} fx m d) ∗ (ScBody.mLoc d ↦{qt w} fm m d)
    ∗ ∃ f, ⌜∀ i ∈ ScBody.oRowSet w, f i = Cert.Spec.gath (fm m d) (fx m d) i⌝ ∗ (ScBody.oLoc d ↦[ScBody.oRowSet w]{fullShare} f))

/-- The number of subcore `i` of SparseCore `c`. -/
def widOf (c : Fin ((K (F := F)).nCore 0)) (i : Fin ((K (F := F)).nSub 0)) : Fin 32 :=
  ⟨2 * i.val + c.val, by have hc : c.val < 2 := c.isLt; have hi : i.val < 16 := i.isLt; omega⟩

/-- The call's operands for SparseCore `c` are its sixteen tiles' holdings; each tile's go carries its own. -/
def P : (K (F := F)).Pay (nD := nD) (Val := Elt F) (Name := ℕ) (U := UU) where
  st := fun q d c => match q with | 0 => bigSep Finset.univ fun i : Fin ((K (F := F)).nSub 0) => tileIn m d (widOf c i)
  dn := fun q d c => match q with | 0 => bigSep Finset.univ fun i : Fin ((K (F := F)).nSub 0) => tileOut m d (widOf c i)
  go := fun q d c i => match q with | 0 => tileIn m d (widOf c i)
  td := fun q d c i => match q with | 0 => tileOut m d (widOf c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileIn m d (widOf c i)))
  dn q d c := match q with
    | 0 => (inferInstance : BI.Storable (upEmb : UEmb _ 𝕄) (bigSep Finset.univ fun i : Fin ((K (F := F)).nSub 0) => tileOut m d (widOf c i)))
  go q d c i := match q with
    | 0 => (inferInstance : BI.Storable (upEmb : UEmb _ 𝕄) (tileIn m d (widOf c i)))
  td q d c i := match q with
    | 0 => (inferInstance : BI.Storable (upEmb : UEmb _ 𝕄) (tileOut m d (widOf c i)))

/-- A SparseCore's operands are its tiles' holdings and nothing else: the split is the identity. -/
theorem vecSplit : (K (F := F)).VecSplit' (P m) 0 := by
  intro d c
  show (bigSep Finset.univ fun i : Fin ((K (F := F)).nSub 0) => tileIn m d (widOf c i))
    ⊢ |={Set.univ}=> iprop((bigSep Finset.univ fun i : Fin ((K (F := F)).nSub 0) => tileIn m d (widOf c i))
      ∗ ((bigSep Finset.univ fun i : Fin ((K (F := F)).nSub 0) => tileOut m d (widOf c i))
        -∗ bigSep Finset.univ fun i : Fin ((K (F := F)).nSub 0) => tileOut m d (widOf c i)))
  iintro H; imodintro
  isplitl [H]; · iexact H
  iintro H; iexact H

end Cert.KernelIdeal.PayM

end
-- ==== Proof.TilesIdeal.lean ====
/-
  The gather call's three arrays dealt to the thirty-two tiles and collected again: the index list and the table by read
  shares (one leaf of the full share halved five times per tile), the output array by its thirty-two blocks of 1536 rows,
  which are disjoint and cover it. Collected, the blocks each at the gathered rows are the whole array at the gathered rows.
-/
import proofs.«205820_g61907658604586_cont_9to1_m_785_3_alg».proof.Proof.PayIdeal

set_option maxRecDepth 16384

noncomputable section

namespace Cert.KernelIdeal.Tiles

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Chain Cert.KernelIdeal.PayM

variable {F : FTy → Type} [FloatOps F]

local notation "𝕄" => MT nD τ sig (HIx 1) (Elt F) ℕ UU ℕ

variable (m : (ℓ : Loc nD τ sig) → Buf (Elt F) ℓ)

/-! ## The blocks partition the output array -/

theorem oRowSet_eq (w : Fin 32) : ScBody.oRowSet w = (ScBody.orow w).set := by
  show ((View.whole (main_v2_scv : Ref sig .scVector)).slice (ScBody.orow w)).set = _
  rw [View.set_slice]; exact Finset.map_refl
theorem orows_disjoint : ∀ i ∈ (Finset.univ : Finset (Fin 32)), ∀ j ∈ (Finset.univ : Finset (Fin 32)), i ≠ j → Disjoint (ScBody.oRowSet i) (ScBody.oRowSet j) :=
  fun i _ j _ h => by rw [oRowSet_eq, oRowSet_eq]; exact Rect.part_disjoint ScBody.odiv h
theorem orows_cover : (Finset.univ : Finset (Fin 32)).biUnion ScBody.oRowSet = Finset.univ :=
  (Finset.biUnion_congr rfl fun i _ => oRowSet_eq i).trans (Rect.biUnion_part ScBody.odiv)

theorem oPts_rows (d : Dev nD) (f : Buf (Elt F) (ScBody.oLoc d)) :
    (ScBody.oLoc d ↦{fullShare} f : sProp 𝕄) = bigSep Finset.univ fun w : Fin 32 => ScBody.oLoc d ↦[ScBody.oRowSet w]{fullShare} f := by
  rw [← pointsTo_biUnion Finset.univ (ℓ := ScBody.oLoc d) ScBody.oRowSet orows_disjoint, orows_cover]; try rfl

/-! ## Dealing and collecting -/

/-- The three arrays whole are the thirty-two tiles' holdings. -/
theorem tiles_split (d : Dev nD) :
    (iprop((ScBody.xLoc d ↦{fullShare} fx m d) ∗ (ScBody.mLoc d ↦{fullShare} fm m d) ∗ (ScBody.oLoc d ↦{fullShare} fo m d)) : sProp 𝕄)
      = bigSep Finset.univ fun w : Fin 32 => tileIn m d w := by
  rw [bigSep_sep', bigSep_sep', oPts_rows d (fo m d)]
  rw [pointsTo_leaves (F := F) Finset.univ (fx m d) 5 fullShare, pointsTo_leaves (F := F) Finset.univ (fm m d) 5 fullShare]
  rfl

theorem out_one (d : Dev nD) (G : Buf (Elt F) (ScBody.oLoc d)) (w : Fin 32) :
    (iprop(∃ f, ⌜∀ i ∈ ScBody.oRowSet w, f i = G i⌝ ∗ (ScBody.oLoc d ↦[ScBody.oRowSet w]{fullShare} f)) : sProp 𝕄)
      ⊢ (ScBody.oLoc d ↦[ScBody.oRowSet w]{fullShare} G : sProp 𝕄) := by
  iintro ⟨%f, %hf, H⟩
  iapply (Entails.of_eq (pointsTo_congr (q := fullShare) (ℓ := ScBody.oLoc d) (I := ScBody.oRowSet w) hf))
  iexact H

/-- A block at contents that agree with `G` on it is the block at `G`; the blocks at `G` are the array at `G`. -/
theorem out_join (d : Dev nD) (G : Buf (Elt F) (ScBody.oLoc d)) :
    (bigSep Finset.univ fun w : Fin 32 => iprop(∃ f, ⌜∀ i ∈ ScBody.oRowSet w, f i = G i⌝ ∗ (ScBody.oLoc d ↦[ScBody.oRowSet w]{fullShare} f)))
      ⊢ (ScBody.oLoc d ↦{fullShare} G : sProp 𝕄) := by
  rw [oPts_rows d G]
  exact bigSep_mono fun w _ => out_one d G w

/-- The thirty-two tiles' results are the index list and the table whole again and the output array at the gathered rows. -/
theorem tiles_join (d : Dev nD) :
    (bigSep Finset.univ fun w : Fin 32 => tileOut m d w)
      ⊢ (iprop((ScBody.xLoc d ↦{fullShare} fx m d) ∗ (ScBody.mLoc d ↦{fullShare} fm m d)
          ∗ (ScBody.oLoc d ↦{fullShare} (Cert.Spec.gath (fm m d) (fx m d) : Buf (Elt F) (ScBody.oLoc d)))) : sProp 𝕄) := by
  rw [bigSep_sep', bigSep_sep']
  rw [pointsTo_leaves (F := F) Finset.univ (fx m d) 5 fullShare, pointsTo_leaves (F := F) Finset.univ (fm m d) 5 fullShare]
  iintro ⟨Hx, Hm, Ho⟩
  isplitl [Hx]; · iexact Hx
  isplitl [Hm]; · iexact Hm
  iapply (out_join d _); iexact Ho

/-! ## Tiles by SparseCore and subcore, and by number -/

def tileEquiv : Fin ((K (F := F)).nCore 0) × Fin ((K (F := F)).nSub 0) ≃ Fin 32 where
  toFun p := widOf p.1 p.2
  invFun w := (⟨w.val % 2, Nat.mod_lt _ (by decide)⟩, ⟨w.val / 2, by have := w.isLt; show w.val / 2 < 16; omega⟩)
  left_inv := by
    rintro ⟨c, i⟩
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

theorem bigSep_tiles (Φ : Fin 32 → sProp 𝕄) :
    (bigSep Finset.univ fun c : Fin ((K (F := F)).nCore 0) => bigSep Finset.univ fun i : Fin ((K (F := F)).nSub 0) => Φ (widOf c i)) = bigSep Finset.univ Φ := by
  rw [← bigSep_univ_prod (fun p : Fin ((K (F := F)).nCore 0) × Fin ((K (F := F)).nSub 0) => Φ (widOf p.1 p.2)), bigSep_univ_equiv (tileEquiv (F := F)) Φ]
  rfl

end Cert.KernelIdeal.Tiles

end
-- ==== Proof.ScBodyValIdeal.lean ====
/-
  The values one chunk moves. A pass over sixteen lanes of the index scratch replaces word j by the word plus 1000 times
  the field of its position; the gather then reads, at row y of the row scratch, the table's row named by word y of the
  scratch; and that row is the row the specification's gathered array has at the chunk's y-th row.
-/
import proofs.«205820_g61907658604586_cont_9to1_m_785_3_alg».proof.Proof.ScBodySetupIdeal

noncomputable section

namespace Cert.KernelIdeal.ScBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {U : Type} [URA U] [CountersIn U]

local notation "𝕄" => MT nD τ sig (HIx 1) (Elt F) ℕ U ℕ
local notation "mV" => (Memref.whole Cert.KernelIdeal.main_v0_scv : Memref Cert.KernelIdeal.sig Kind.scVector Space.hbm Cert.KernelIdeal.S3000x128 EltTy.f32)
local notation "xV" => (Memref.whole Cert.KernelIdeal.main_v1_scv : Memref Cert.KernelIdeal.sig Kind.scVector Space.hbm Cert.KernelIdeal.S49152 EltTy.i32)
local notation "oV" => (Memref.whole Cert.KernelIdeal.main_v2_scv : Memref Cert.KernelIdeal.sig Kind.scVector Space.hbm Cert.KernelIdeal.S49152x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

variable [FloatOps F]

/-- The pass's payload at a lane: the loaded word, fixed for its position in the index list. -/
theorem pay1_apply (L : grid1.Coords) (t : Fin k1_t1_loop.trips) (t₂ : Fin k1_t2_loop.trips) (v : Vec F S16 .i32) (x : S16.Idx) :
    k1_pay1 L t t₂ v x = Cert.ScWords.fix (rowBase L t.val + 16 * t₂.val + (x 0).val) (v x) := by
  have hx : (x 0).val < 16 := (x 0).isLt
  have h0 : (L 0).val < 2 := (L 0).isLt
  have h1 : (L 1).val < 16 := (L 1).isLt
  unfold Cert.ScWords.fix rowBase
  rw [← Cert.ScWords.pos_word (L 0).val (L 1).val t.val t₂.val (x 0).val h0 h1 (t1_lt t) (t2_lt t₂) hx]
  simp only [k1_pay1, shapeCast, Shape.reshapeEquiv_self, Idealize.ShloMosaic.addi, Idealize.ShloMosaic.muli, Idealize.ShloMosaic.remsi,
    broadcast, iota, List.foldl, Nat.zero_mul, Nat.zero_add]

/-- A position of a rank-one shape of 128 is its row-major number. -/
theorem rowMajor_symm_val (k : Fin S128.numel) : (S128.rowMajor.symm k 0).val = k.val := by
  have h := Shape.rowMajor_val_one (d := ![128]) (S128.rowMajor.symm k)
  rw [Equiv.apply_symm_apply] at h; exact h.symm

/-- One pass over lanes `16 t₂ .. 16 t₂ + 15` of the index scratch: the words before it were fixed by the earlier passes, its
    own are fixed by it, the later ones are still as fetched (`g`). -/
theorem pass_val (L : grid1.Coords) (t : Fin k1_t1_loop.trips) (t₂ : Fin k1_t2_loop.trips) (g : S128.Idx → Elt F .i32)
    (fs : (sV).view.ty.Contents (Elt F))
    (hfs : ∀ j : S128.Idx, fs j = if (j 0).val < 16 * t₂.val then Cert.ScWords.fix (rowBase L t.val + (j 0).val) (g j) else g j)
    (j : S128.Idx) :
    ((sV).view.writes (Elt F) fs [⟨Rect.unit (s := S128) (k1_off2 t₂) S16.size (k1_off2_inb t₂),
        k1_pay1 L t t₂ (View.readAt (Elt F) (sV).view (Rect.unit (s := S128) (k1_off2 t₂) S16.size (k1_off2_inb t₂)).toLoadRect fs)⟩]) j
      = if (j 0).val < 16 * (t₂.val + 1) then Cert.ScWords.fix (rowBase L t.val + (j 0).val) (g j) else g j := by
  rw [View.writes_singleton]
  have hk := t2_lt t₂
  have hj : (j 0).val < 128 := (j 0).isLt
  by_cases hm : 16 * t₂.val ≤ (j 0).val ∧ (j 0).val < 16 * t₂.val + 16
  · -- a lane of this pass
    let x : S16.Idx := ValueIdx.ix1 (⟨(j 0).val - 16 * t₂.val, by omega⟩ : Fin 16)
    have hx0 : (x 0).val = (j 0).val - 16 * t₂.val := rfl
    have hjx : (Rect.unit (s := S128) (k1_off2 t₂) S16.size (k1_off2_inb t₂)).emb x = j := by
      funext a; apply Fin.ext
      match a with
      | ⟨0, _⟩ =>
        show (k1_off2 t₂) 0 + 1 * (x 0).val = (j 0).val
        rw [k1_off2_eq, hx0]; simp only [Matrix.cons_val_zero]; omega
    have hw := View.write_emb_of_mem (v := (sV).view.slice (Rect.unit (s := S128) (k1_off2 t₂) S16.size (k1_off2_inb t₂))) (Val := Elt F) fs
      (k1_pay1 L t t₂ (View.readAt (Elt F) (sV).view (Rect.unit (s := S128) (k1_off2 t₂) S16.size (k1_off2_inb t₂)).toLoadRect fs))
      (Finset.mem_univ x)
    rw [show ((sV).view.slice (Rect.unit (s := S128) (k1_off2 t₂) S16.size (k1_off2_inb t₂))).emb x = j from hjx] at hw
    rw [hw, cast_eq, pay1_apply]
    rw [show View.readAt (Elt F) (sV).view (Rect.unit (s := S128) (k1_off2 t₂) S16.size (k1_off2_inb t₂)).toLoadRect fs x = fs j from
      congrArg fs hjx]
    rw [hfs j, if_neg (by omega), if_pos (by omega), hx0]
    congr 1; omega
  · -- a lane of another pass
    rw [View.write_of_not_mem]
    · rw [hfs j]
      by_cases h1 : (j 0).val < 16 * t₂.val
      · rw [if_pos h1, if_pos (by omega)]
      · rw [if_neg h1, if_neg (by omega)]
    · rw [View.setOn_univ]
      show j ∉ ((View.whole (cc1_scratch0 : Ref sig .scVector)).slice (Rect.unit (s := S128) (k1_off2 t₂) S16.size (k1_off2_inb t₂))).set
      rw [View.set_slice_whole, Rect.mem_set_unit]
      intro h
      have h0 := h 0
      rw [k1_off2_eq] at h0
      have e : S16.size 0 = 16 := rfl
      simp only [Matrix.cons_val_zero, e] at h0
      exact hm h0

/-- The gathered row, over plain arrays: the list's word for row `y` is the fixed word of position `base + y`, so the table's
    row it names is the row the specification reads for output row `base + y`. -/
theorem gather_val_core {α : Type} (fm : S3000x128.Idx → α) (fx : S49152.Idx → BitVec 32) (hx : ∀ j, (fx j).toNat ≤ 999)
    (base : Nat) (fs' : S128.Idx → Elt F .i32) (e : S128.Idx → S49152.Idx) (he : ∀ j, (e j 0).val = base + (j 0).val)
    (hfs : ∀ j, fs' j = Cert.ScWords.fix (base + (j 0).val) (fx (e j)))
    (hn : S128.numel = S128x128.size gathers_S3000x128_S128x128.axis')
    (hin : ∀ x, (fs' x).toNat < S3000x128.size gathers_S3000x128_S128x128.axis)
    (y : S128x128.Idx) (hb : base + (y 0).val < 49152)
    (i : S49152x128.Idx) (hi0 : (i 0).val = base + (y 0).val) (hi1 : (i 1).val = (y 1).val)
    (z : S3000x128.Idx) (hz0 : (z 0).val = (gathers_S3000x128_S128x128.idx (SparseCore.rows (F := F) fs' hn hin) y 0).val)
    (hz1 : (z 1).val = (gathers_S3000x128_S128x128.idx (SparseCore.rows (F := F) fs' hn hin) y 1).val) :
    fm z = Cert.Spec.gath fm fx i := by
  unfold Cert.Spec.gath
  congr 1
  funext a; apply Fin.ext
  match a with
  | ⟨0, _⟩ =>
    show (z 0).val = (Cert.Spec.rowOf fx (i 0)).val
    rw [hz0]
    have e1 := congrArg Fin.val (Shape.Gathers.idx_axis gathers_S3000x128_S128x128 (SparseCore.rows (F := F) fs' hn hin) y)
    rw [show (gathers_S3000x128_S128x128.idx (SparseCore.rows (F := F) fs' hn hin) y 0).val = _ from e1]
    show (fs' (S128.rowMajor.symm ((y 0).cast hn.symm))).toNat = _
    have hj : ((S128.rowMajor.symm ((y 0).cast hn.symm)) 0).val = (y 0).val := rowMajor_symm_val _
    rw [hfs, hj]
    unfold Cert.Spec.rowOf
    have hidx : (ValueIdx.ix1 (i 0) : S49152.Idx) = e (S128.rowMajor.symm ((y 0).cast hn.symm)) := by
      funext b; apply Fin.ext
      match b with
      | ⟨0, _⟩ => show (i 0).val = (e _ 0).val; rw [he, hj, hi0]
    rw [hidx, hi0, Cert.ScWords.toNat_fix _ _ hb (hx _)]
    have h3 : (base + (y 0).val) % 3 < 3 := Nat.mod_lt _ (by decide)
    exact (Cert.Spec.ofNat_row _ _ (hx _) h3).symm
  | ⟨1, _⟩ =>
    show (z 1).val = (i 1).val
    rw [hz1, hi1, Shape.Gathers.idx_of_ne gathers_S3000x128_S128x128 _ y 1 (by decide)]
    rfl

/-- What the gather delivers at an index of the chunk, the list's words fixed: the specification's gathered row. -/
theorem gather_val (d : Dev nD) (L : grid1.Coords) (t : Fin k1_t1_loop.trips)
    (fx : Buf (Elt F) (xLoc d)) (hx : ∀ j, (fx j).toNat ≤ 999) (fm : Buf (Elt F) (mLoc d)) (fs' : S128.Idx → Elt F .i32)
    (hfs : ∀ j, fs' j = Cert.ScWords.fix (rowBase L t.val + (j 0).val) (fx ((xSliceK L t).view.emb j)))
    (hn : S128.numel = S128x128.size gathers_S3000x128_S128x128.axis')
    (hin : ∀ x, (fs' x).toNat < S3000x128.size gathers_S3000x128_S128x128.axis) (y : S128x128.Idx) :
    SparseCore.gatherPayload gathers_S3000x128_S128x128 ((mAllK).view.read (Elt F) fm) (SparseCore.rows fs' hn hin) y
      = Cert.Spec.gath fm fx ((oChunkK L t).view.emb y) := by
  have hy0 : (y 0).val < 128 := (y 0).isLt
  have hb : rowBase L t.val + (y 0).val < 49152 := by
    have := t1_lt t; have := wid_lt L; rw [rowBase_wid]; omega
  unfold SparseCore.gatherPayload
  rw [show ∀ z, (mAllK).view.read (Elt F) fm z = fm ((mAllK).view.emb z) from fun z => (View.read_apply _ _).trans (cast_eq _ _)]
  exact gather_val_core (F := F) fm fx hx (rowBase L t.val) fs' (fun j => (xSliceK L t).view.emb j) (emb_xSlice L t) hfs hn hin y hb
    ((oChunkK L t).view.emb y) (emb_chunk_0 L t y) (emb_chunk_1 L t y) ((mAllK).view.emb _)
    (by show 0 + 1 * _ = _; omega) (by show 0 + 1 * _ = _; omega)

/-- The write-out through the chunk's slice: on the chunk the block holds what was written, -/
theorem chunk_write_emb (d : Dev nD) (L : grid1.Coords) (t : Fin k1_t1_loop.trips) (f : Buf (Elt F) (oLoc d))
    (p : S128x128.Idx → Elt F .f32) (y : S128x128.Idx) :
    (oChunkK L t).view.writes (Elt F) f [⟨Rect.whole S128x128, p⟩] ((oChunkK L t).view.emb y) = p y := by
  rw [View.writes_singleton]
  have h := View.write_emb_of_mem (v := (oChunkK L t).view.slice (Rect.whole S128x128)) (Val := Elt F) f p (Finset.mem_univ y)
  rw [show ((oChunkK L t).view.slice (Rect.whole S128x128)).emb y = (oChunkK L t).view.emb y from by
    show (oChunkK L t).view.emb ((Rect.whole S128x128).emb y) = _
    rw [Rect.emb_whole_apply]] at h
  rw [h, cast_eq]

/-- and off the chunk it is unchanged. -/
theorem chunk_write_off (d : Dev nD) (L : grid1.Coords) (t : Fin k1_t1_loop.trips) (f : Buf (Elt F) (oLoc d))
    (p : S128x128.Idx → Elt F .f32) (i : S49152x128.Idx) (hi : i ∉ (oChunkK L t).view.set) :
    (oChunkK L t).view.writes (Elt F) f [⟨Rect.whole S128x128, p⟩] i = f i := by
  rw [View.writes_singleton, View.write_of_not_mem]
  rw [View.setOn_univ, View.set_slice, Rect.set_whole]; exact hi

/-- A block whose rows before chunk `t` are gathered, its chunk `t` written with the gathered rows, has its rows before
    chunk `t + 1` gathered. -/
theorem block_val (d : Dev nD) (L : grid1.Coords) (t : Fin k1_t1_loop.trips)
    (fx : Buf (Elt F) (xLoc d)) (fm : Buf (Elt F) (mLoc d)) (f : Buf (Elt F) (oLoc d)) (p : S128x128.Idx → Elt F .f32)
    (hf : ∀ i ∈ oRowSet (wid L), (i 0).val < rowBase L t.val → f i = Cert.Spec.gath fm fx i)
    (hp : ∀ y, p y = Cert.Spec.gath fm fx ((oChunkK L t).view.emb y)) :
    ∀ i ∈ oRowSet (wid L), (i 0).val < rowBase L (t.val + 1) →
      (oChunkK L t).view.writes (Elt F) f [⟨Rect.whole S128x128, p⟩] i = Cert.Spec.gath fm fx i := by
  intro i hi hlt
  by_cases hc : i ∈ (oChunkK L t).view.set
  · obtain ⟨y, -, rfl⟩ := Finset.mem_map.mp hc
    rw [chunk_write_emb, hp]
  · rw [chunk_write_off d L t f p i hc]
    apply hf i hi
    rw [mem_chunk] at hc
    unfold rowBase at *
    omega

end Cert.KernelIdeal.ScBody

end
-- ==== Proof.ScBodyIdeal.lean ====
/-
  One vector subcore's run of the gather kernel, once, at a symbolic tile.

  For chunk t of the tile's block, at base = 1536 w + 128 t: the 128 words base .. base + 127 of the flat index list are
  copied into the index scratch; eight passes of sixteen lanes add to word j the number 1000 · ((base + j) mod 3), so that
  it names row  x(base + j) + 1000 · ((base + j) mod 3)  of the 3000-row table; the indirect gather copies those rows of
  the table into the row scratch; the row scratch is copied to rows base .. base + 127 of the output. Hence after t chunks
  rows 1536 w .. 1536 w + 128 t - 1 of the output are the gathered rows, and after twelve the whole block is.
-/
import proofs.«205820_g61907658604586_cont_9to1_m_785_3_alg».proof.Proof.ScBodySetupIdeal
import proofs.«205820_g61907658604586_cont_9to1_m_785_3_alg».proof.Proof.ScBodyValIdeal

noncomputable section

namespace Cert.KernelIdeal.ScBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {U : Type} [URA U] [CountersIn U]

local notation "𝕄" => MT nD τ sig (HIx 1) (Elt F) ℕ U ℕ
local notation "mV" => (Memref.whole Cert.KernelIdeal.main_v0_scv : Memref Cert.KernelIdeal.sig Kind.scVector Space.hbm Cert.KernelIdeal.S3000x128 EltTy.f32)
local notation "xV" => (Memref.whole Cert.KernelIdeal.main_v1_scv : Memref Cert.KernelIdeal.sig Kind.scVector Space.hbm Cert.KernelIdeal.S49152 EltTy.i32)
local notation "oV" => (Memref.whole Cert.KernelIdeal.main_v2_scv : Memref Cert.KernelIdeal.sig Kind.scVector Space.hbm Cert.KernelIdeal.S49152x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

variable [FloatOps F]

/-- The outer loop's invariant before chunk `k`: the index list and the table whole at their shares, the tile's block of
    the output with its first `128 k` rows gathered, the two scratch buffers at some contents, the three semaphores at
    zero, and what the tile owes. -/
def invO (d : Dev nD) (L : grid1.Coords) (qx qm : PosShare TreeShare) (fx : Buf (Elt F) (xLoc d)) (fm : Buf (Elt F) (mLoc d))
    (O : CellTallies nD τ sig (HIx 1)) (W : Waits sig (HIx 1)) (k : Nat) (_ : BitVec 32) : sProp 𝕄 :=
  iprop(Transfers.MayWaits (V d (cV L) (jV L)) (none : HIx 1) O
    ∗ ((xV).view.loc (V d (cV L) (jV L)) ↦{qx} fx)
    ∗ ((mV).view.loc (V d (cV L) (jV L)) ↦{qm} fm)
    ∗ (∃ f, ⌜∀ i ∈ oRowSet (wid L), (i 0).val < rowBase L k → f i = Cert.Spec.gath fm fx i⌝ ∗ (oLoc d ↦[oRowSet (wid L)]{fullShare} f))
    ∗ (∃ fs, (sV).view.loc (V d (cV L) (jV L)) ↦{fullShare} fs)
    ∗ (∃ fr, (rV).view.loc (V d (cV L) (jV L)) ↦{fullShare} fr)
    ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

/-- The inner loop's invariant before pass `k` of chunk `t`: the first `16 k` words of the index scratch are fixed for
    their positions, the rest are as fetched from the chunk's slice of the index list. -/
def invI (d : Dev nD) (L : grid1.Coords) (fx : Buf (Elt F) (xLoc d)) (t : Fin k1_t1_loop.trips) (k : Nat) (_ : BitVec 32) : sProp 𝕄 :=
  iprop(∃ fs : Buf (Elt F) ((V d (cV L) (jV L)).loc cc1_scratch0),
    ⌜∀ j : S128.Idx, fs j = if (j 0).val < 16 * k then Cert.ScWords.fix (rowBase L t.val + (j 0).val) (fx ((xSliceK L t).view.emb j))
        else fx ((xSliceK L t).view.emb j)⌝
    ∗ ((sV).view.loc (V d (cV L) (jV L)) ↦{fullShare} fs))

set_option maxHeartbeats 4000000 in
theorem tile_body (hF : (K (F := F)).Facts) (d : Dev nD) (L : grid1.Coords) (qx qm : PosShare TreeShare)
    (fx : Buf (Elt F) (xLoc d)) (hx : ∀ j, (fx j).toNat ≤ 999) (fm : Buf (Elt F) (mLoc d)) (fo : Buf (Elt F) (oLoc d))
    (O : CellTallies nD τ sig (HIx 1)) (W : Waits sig (HIx 1)) (hO : ∀ g, O g none = 0) :
    (iprop(levAts (K (F := F)).L (K (F := F)).lev ∗ emp
        ∗ ((xLoc d ↦{qx} fx) ∗ (mLoc d ↦{qm} fm) ∗ (oLoc d ↦[oRowSet (wid L)]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__sc_gather L mV (Memref.isWhole_whole _) xV (Memref.isWhole_whole _) oV (Memref.isWhole_whole _)
            sV (Memref.isWhole_whole _) rV (Memref.isWhole_whole _) cc1_scratch2 cc1_scoped0 cc1_scoped1)
          fun _ => iprop(((xLoc d ↦{qx} fx) ∗ (mLoc d ↦{qm} fm)
              ∗ ∃ f, ⌜∀ i ∈ oRowSet (wid L), f i = Cert.Spec.gath fm fx i⌝ ∗ (oLoc d ↦[oRowSet (wid L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel k1_t1_body k1_t2_body
  rw [(K (F := F)).scopedBufs_V hF d (cV L) (jV L), SparseCore.Cfg.scopedSems0_V (Val := Elt F) d (cV L) (jV L), ownSems0_V, ownBufs_V]
  iintro ⟨#Hlv, -, ⟨Hx, Hm, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) (U := U) d L _ _).symm) $$ Hx
  ihave Hm' := (Entails.of_eq (pts_mV (F := F) (U := U) d L _ _).symm) $$ Hm
  ihave Hs' := (Entails.of_eq (pts_sV (F := F) (U := U) d L _).symm) $$ Hs
  ihave Hr' := (Entails.of_eq (pts_rV (F := F) (U := U) d L _).symm) $$ Hr
  have htr1 : k1_t1_loop.trips = 12 := by decide
  have htr2 : k1_t2_loop.trips = 8 := by decide
  sl_for (invO d L qx qm fx fm O W) $$ [Hmw Hx' Hm' Ho Hs' Hr' HsemA HsemB HsemC HO]
  case region =>
    intro k acc
    unfold invO
    iintro ⟨#Hmw, Hx, Hm, ⟨%f, %hf, Ho⟩, ⟨%fs, Hs⟩, ⟨%fr, Hr⟩, HsemA, HsemB, HsemC, %W', %hW', HO⟩
    sl_exec
    sl_for (invI d L fx k) $$ [Hs]
    case region =>
      intro k2 acc2
      unfold invI
      iintro ⟨%fs2, %hfs2, Hs⟩
      sl_exec
      sl_step
      iexists _; isplitr
      swap; · iexact Hs
      ipureintro
      exact pass_val L k k2 (fun j => fx ((xSliceK L k).view.emb j)) fs2 hfs2
    · unfold invI
      iexists _; isplitr
      swap; · iexact Hs
      ipureintro; intro j
      rw [if_neg (by omega)]
      simp only [Memref.view_whole, View.write_whole_univ]
      rfl
    iintro %_ HI
    unfold invI
    icases HI with ⟨%fs3, %hfs3, Hs⟩
    have hfs4 : ∀ j : S128.Idx, fs3 j = Cert.ScWords.fix (rowBase L k.val + (j 0).val) (fx ((xSliceK L k).view.emb j)) := by
      intro j
      have hj : (j 0).val < 128 := (j 0).isLt
      rw [hfs3 j, if_pos]
      show (j 0).val < 16 * k1_t2_loop.trips
      rw [htr2]; omega
    have hinb : ∀ x, ((sV).view.read (Elt F) fs3 x).toNat < S3000x128.size gathers_S3000x128_S128x128.axis := by
      intro x
      have hx0 : (x 0).val < 128 := (x 0).isLt
      have hb : rowBase L k.val + (x 0).val < 49152 := by
        have := t1_lt k; have := wid_lt L; rw [rowBase_wid]; omega
      simp only [Memref.view_whole, View.read_whole]
      rw [hfs4 x]
      exact Cert.ScWords.fix_lt _ _ hb (hx _)
    -- the indirect gather: a share of the table on the slice's own elements, the row scratch, the list whole, the cell at zero
    ihave Hms := (pointsTo_split_subset (q := qm) (f := fm) (S := Finset.univ) (Finset.subset_univ (mAllK).view.set)).1 $$ Hm
    icases Hms with ⟨Hms, Hmr⟩
    have hrs : (rV).view.set = Finset.univ := View.set_whole _
    have hss : (sV).view.set = Finset.univ := View.set_whole _
    ihave Hr'' := (Entails.of_eq (show ((rV).view.loc (V d (cV L) (jV L)) ↦{fullShare} fr : sProp 𝕄)
        = (rV).view.loc (V d (cV L) (jV L)) ↦[(rV).view.set]{fullShare} fr by rw [hrs])) $$ Hr
    ihave Hs'' := (Entails.of_eq (show ((sV).view.loc (V d (cV L) (jV L)) ↦{fullShare} fs3 : sProp 𝕄)
        = (sV).view.loc (V d (cV L) (jV L)) ↦[(sV).view.set]{fullShare} fs3 by rw [hss])) $$ Hs
    iapply (SparseCore.wp_indirectGatherLocal countersEmb 𝒱₀ (V d (cV L) (jV L)) none (hg := gathers_S3000x128_S128x128) (default : HIx 1)
        (rV).view.dmaCredit (SparseCore.sum_rowCredit_eq_dmaCredit (rV) _ (fun _ => rfl)) (by decide) hinb) $$ [Hms Hr'' Hs'' HsemB]
    · isplitl [Hms]; · iexact Hms
      isplitl [Hr'']; · iexact Hr''
      isplitl [Hs'']; · iexact Hs''
      iexact HsemB
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc1_scratch2.sem)) $$ Hmw
    iintro ⟨⟨Hr, Hms, Hs⟩, HsemB, HO⟩
    ihave Hm := (pointsTo_split_subset (q := qm) (f := fm) (S := Finset.univ) (Finset.subset_univ (mAllK).view.set)).2 $$ [Hms Hmr]; · isplitl [Hms] <;> iassumption
    ihave Hr3 := (Entails.of_eq (show ((rV).view.loc (V d (cV L) (jV L)) ↦[(rV).view.set]{fullShare} _ : sProp 𝕄)
        = (rV).view.loc (V d (cV L) (jV L)) ↦{fullShare} _ by rw [hrs])) $$ Hr
    ihave Hs3 := (Entails.of_eq (show ((sV).view.loc (V d (cV L) (jV L)) ↦[(sV).view.set]{fullShare} _ : sProp 𝕄)
        = (sV).view.loc (V d (cV L) (jV L)) ↦{fullShare} _ by rw [hss])) $$ Hs
    -- the chunk of the output the write-out fills, as the program slices it
    ihave Hoc := (pointsTo_split_subset (q := fullShare) (f := f) (chunk_subset L k)).1 $$ Ho
    icases Hoc with ⟨Hoc, Hor⟩
    ihave Hoc' := (Entails.of_eq (show (oLoc d ↦[(oChunkK L k).view.set]{fullShare} f : sProp 𝕄)
        = (oChunkK L k).view.loc (V d (cV L) (jV L)) ↦[(oChunkK L k).view.set]{fullShare} f from rfl)) $$ Hoc
    sl_exec
    sl_step
    -- what the chunk now holds: the gathered rows, which are the specification's
    have hp : ∀ y, tile_body.sl.dma0_1 d L fm fr fs3 hinb y = Cert.Spec.gath fm fx ((oChunkK L k).view.emb y) := fun y => by
      have e := gather_val d L k fx hx fm ((sV).view.read (Elt F) fs3) hfs4 rfl hinb y
      rw [← e]
      exact congrFun (View.write_whole_univ (cc1_scratch1 : Ref sig .scVector) (Val := Elt F) fr _) y
    isplitr; · iexact Hmw
    isplitl [Hx]; · iexact Hx
    isplitl [Hm]; · iexact Hm
    isplitl [Hoc' Hor]
    · iexists ((oChunkK L k).view.writes (Elt F) f [⟨Rect.whole S128x128, tile_body.sl.dma0_1 d L fm fr fs3 hinb⟩])
      isplitr
      · ipureintro
        exact block_val d L k fx fm f _ hf hp
      · ihave Hor' := (Entails.of_eq (pointsTo_congr (q := fullShare) (ℓ := oLoc d)
            (g := (oChunkK L k).view.writes (Elt F) f [⟨Rect.whole S128x128, tile_body.sl.dma0_1 d L fm fr fs3 hinb⟩])
            (fun i hi => (chunk_write_off d L k f _ i (Finset.mem_sdiff.mp hi).2).symm))) $$ Hor
        iapply (pointsTo_split_subset (q := fullShare) (chunk_subset L k)).2
        isplitl [Hoc']
        · iexact Hoc'
        · iexact Hor'
    isplitl [Hs3]; · iexists _; iexact Hs3
    isplitl [Hr3]; · iexists _; iexact Hr3
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold invO
    isplitr; · iexact Hmw
    isplitl [Hx']; · iexact Hx'
    isplitl [Hm']; · iexact Hm'
    isplitl [Ho]
    · iexists fo; isplitr
      · ipureintro; intro i hi hlt; exfalso
        rw [mem_oRowSet] at hi; rw [rowBase_wid] at hlt; omega
      · iexact Ho
    isplitl [Hs']; · iexists _; iexact Hs'
    isplitl [Hr']; · iexists _; iexact Hr'
    isplitl [HsemA]; · iexact HsemA
    isplitl [HsemB]; · iexact HsemB
    isplitl [HsemC]; · iexact HsemC
    iexists W; isplitr
    · ipureintro; exact fun p hp => .inl hp
    · iexact HO
  iintro %_ HI
  unfold invO
  icases HI with ⟨-, Hx, Hm, ⟨%f, %hf, Ho⟩, ⟨%fs', Hs⟩, ⟨%fr', Hr⟩, HsemA, HsemB, HsemC, %W', %hW', HO⟩
  sl_exec
  sl_step
  isplitl [Hx Hm Ho]
  · isplitl [Hx]; · iexact Hx
    isplitl [Hm]; · iexact Hm
    iexists f; isplitr
    · ipureintro; intro i hi
      apply hf i hi
      rw [mem_oRowSet] at hi
      show (i 0).val < rowBase L k1_t1_loop.trips
      rw [htr1, rowBase_wid]; omega
    · iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

/-! ## The kernel function as the label table calls it -/

/-- The grid point of a SparseCore and a subcore, as the label table builds it. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          mV (Memref.isWhole_whole _) xV (Memref.isWhole_whole _) oV (Memref.isWhole_whole _)
          sV (Memref.isWhole_whole _) rV (Memref.isWhole_whole _) cc1_scratch2 cc1_scoped0 cc1_scoped1) ⟨⟩ c s := rfl

end Cert.KernelIdeal.ScBody

end
-- ==== Proof.TileOblIdeal.lean ====
/-
  The gather kernel's body as the launch theorem's obligation for one vector subcore's task: from what its go hands it
  (read shares of the index list and the table, its block of the output) and its scoped storage, to what its taskDone
  hands back (the block at the gathered rows).
-/
import proofs.«205820_g61907658604586_cont_9to1_m_785_3_alg».proof.Proof.PayIdeal
import proofs.«205820_g61907658604586_cont_9to1_m_785_3_alg».proof.Proof.ScBodyIdeal

set_option maxRecDepth 16384

noncomputable section

namespace Cert.KernelIdeal.TileOb

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Chain Cert.KernelIdeal.PayM

variable {F : FTy → Type} [FloatOps F]

local notation "𝕄" => MT nD τ sig (HIx 1) (Elt F) ℕ UU ℕ

variable (m : (ℓ : Loc nD τ sig) → Buf (Elt F) ℓ)

/-- What the proof asks of the launch memory: every entry of the flat index list is at most 999. -/
def PreOK : Prop := ∀ (d : Dev nD) (j : S49152.Idx), ((fx m d : S49152.Idx → BitVec 32) j).toNat ≤ 999

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem wid_coords (c : Fin ((K (F := F)).nCore 0)) (i : Fin ((K (F := F)).nSub 0)) (h0 h1) :
    ScBody.wid (ScBody.coordsV ⟨((K (F := F)).core 0 c).val, h0⟩ ⟨((K (F := F)).sub 0 i).val, h1⟩) = widOf c i := Fin.ext rfl

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [ScBody.defs₀_vector]; simp only [SparseCore.onTile, hci, and_self, ↓reduceDIte]
  have hb := ScBody.tile_body (F := F) (U := UU) facts d (ScBody.coordsV ⟨_, hci.1⟩ ⟨_, hci.2⟩) (qt (widOf c i)) (qt (widOf c i)) (fx m d) (hpre d) (fm m d) (fo m d) O W hO
  rw [wid_coords c i hci.1 hci.2] at hb
  exact hb.trans (wp_mono frame _ _ fun _ => obl_post)

end Cert.KernelIdeal.TileOb

end
-- ==== Proof.RegionsIdeal.lean ====
/-
  The two TensorCore kernel regions as segments of @main over the thread state "every unscoped buffer whole at the
  boundary's contents, the generator register at some state, the core owing the SparseCores their start signals with its
  recorded waits below the current call's level": entered from one boundary's contents and left at the next one's. The
  host stretches between them are lines of StableHLO operations over the same thread state.
-/
import proofs.«205820_g61907658604586_cont_9to1_m_785_3_alg».proof.Proof.ChainIdeal

set_option maxRecDepth 16384

noncomputable section

namespace Cert.KernelIdeal.Regions

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Chain

variable {F : FTy → Type} [FloatOps F]

local notation "𝕄" => MT nD τ sig (HIx 1) (Elt F) ℕ UU ℕ

variable (m : (ℓ : Loc nD τ sig) → Buf (Elt F) ℓ)

abbrev Lk : GSem nD τ sig → Finset (HIx 1) := (K (F := F)).L
abbrev lvk : GSem nD τ sig → HIx 1 → ℕ := (K (F := F)).lev

/-- What rides beside the buffers: the generator register at some state, and the core's debts `O` with every recorded wait
    at or below level `8 n`. -/
abbrev Rs (d : Dev nD) (O : CellTallies nD τ sig (HIx 1)) (n : ℕ) : sProp 𝕄 :=
  iprop((∃ r, prngReg d r) ∗ ∃ Ws, ⌜(K (F := F)).WBelow (T d) Ws (8 * n)⌝ ∗ owes (T d) O Ws)

/-- The thread state at a boundary. -/
abbrev St (d : Dev nD) (W : Valuation τ sig (Elt F)) (O : CellTallies nD τ sig (HIx 1)) (n : ℕ) : sProp 𝕄 :=
  iprop(StableHlo.held (T d) (Pipeline.ucRefs τ sig) W ∗ Rs (F := F) d O n)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (O : Dev nD → CellTallies nD τ sig (HIx 1)) (n : ℕ) :
    Pipeline.HostSeg (Name := ℕ) (U := UU) (pcfgs (F := F)) defs₀ 𝒱₀ (Lk (F := F)) (lvk (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun d => Rs (F := F) d (O d) n)

/-- A recorded wait of a pipeline's own, at the index the kernels' own waits use, sits at level 0. -/
theorem wbelow_of_bound (d : Dev nD) (n : ℕ) {cfg : Pipeline.Cfg sig Λ₀} (Ws : Waits sig (HIx 1))
    (h : (↑Ws : Set (SemLoc sig × HIx 1)) ⊆ Bw (F := F) d n ∪ cfg.waitPairs none) : (K (F := F)).WBelow (T d) Ws (8 * n) := by
  intro p hp
  rcases h hp with h | ⟨w, s, rfl⟩
  · exact h
  · rw [SparseCore.Cfg.lev_none]; exact Nat.zero_le _

/-! ## The second kernel's region -/

theorem hF2 (c : Dev nD) (w : Fin cfg2.W) :
    (Mlp.dat (V4 m) (0 : CellTallies nD τ sig (HIx 1)) (Bw (F := F) c 1) c).arrAt w cfg2.N = V5 m c (Pipeline.arrRef spec2 w) := by
  by_cases h : w = 9
  · subst h
    show _ = W5 m c (Proc.devRef .tc main_v12)
    unfold W5; rw [Function.update_self]
  · have hin : (cfg2.win w).isOut = false := by revert w; decide
    have hne : Pipeline.arrRef spec2 w ≠ main_v12 := by revert w; decide
    rw [(Mlp.dat (V4 m) (0 : CellTallies nD τ sig (HIx 1)) (Bw (F := F) c 1) c).arrAt_in w hin, Mlp.A_eq]
    show _ = W5 m c (Proc.devRef .tc (Pipeline.arrRef spec2 w))
    unfold W5; rw [Function.update_of_ne (StableHlo.devRef_ne_of_ne hne)]

theorem hrest2 (c : Dev nD) : ∀ b, b ∉ Finset.univ.image (Pipeline.arrRef spec2) → V5 m c b = V4 m c b := by
  intro b hb
  have hne : b ≠ main_v12 := fun e => hb (e ▸ Finset.mem_image.mpr ⟨9, Finset.mem_univ _, rfl⟩)
  show W5 m c (Proc.devRef .tc b) = _
  unfold W5; rw [Function.update_of_ne (StableHlo.devRef_ne_of_ne hne)]

set_option backward.isDefEq.respectTransparency.types false in
/-- The second kernel's region: entered from the buffers at `W4`, left at `W5`; its ten arrays split out of the unscoped
    buffers and put back at the exit contents; the generator register into the region's invariant and out; the core
    owes nothing by now, its recorded waits stay below the next call's level; no semaphore of the kernel's own. -/
def regM : Pipeline.RegionSeg (pcfgs (F := F)) adm (pdats m) none defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := (Mlp.body_obligation (V4 m) (0 : CellTallies nD τ sig (HIx 1)) (Bw (F := F) c 1) c).loose
  hwaits := Pipeline.hwaits_of_owed_zero _ _ _ _ (Lk (F := F)) (lvk (F := F)) 1 fun _ _ => rfl
  pre c := St (F := F) c (W4 m c) 0 1
  post c := St (F := F) c (W5 m c) 0 1
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats m 1 c).Φ 0 = ΦR spec2 c from rfl]; unfold ΦR
    iintro ⟨Hp, -, Hr⟩
    isplitl [Hr]; · iexact Hr
    iexact Hp
  hout c := by
    rw [Pipeline.ownSems0_none, show (pdats m 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact wbelow_of_bound c 1 W hW
    iexact HO

/-! ## The first kernel's region

Two of the four tables are read through two windows each, so the windows' arrays are not distinct buffers: the split of the
unscoped buffers into the windows' arrays is done by hand here, the two tables halved between their two windows. -/

/-- The five buffers the first kernel's windows name: the four tables and its output array. -/
abbrev Tp : Finset (DevRef τ sig) :=
  {Proc.devRef .tc main_arg1, Proc.devRef .tc main_arg2, Proc.devRef .tc main_arg3, Proc.devRef .tc main_arg4, Proc.devRef .tc main_v0}

theorem Tp_sub : (Tp : Finset (DevRef τ sig)) ⊆ Pipeline.ucRefs τ sig := by decide

theorem held_Tp (d : Dev nD) (W : Valuation τ sig (Elt F)) :
    (StableHlo.held (T d) Tp W : sProp 𝕄)
      = iprop(((d, Proc.devRef .tc main_arg1) ↦{fullShare} W (Proc.devRef .tc main_arg1)) ∗ ((d, Proc.devRef .tc main_arg2) ↦{fullShare} W (Proc.devRef .tc main_arg2))
          ∗ ((d, Proc.devRef .tc main_arg3) ↦{fullShare} W (Proc.devRef .tc main_arg3)) ∗ ((d, Proc.devRef .tc main_arg4) ↦{fullShare} W (Proc.devRef .tc main_arg4))
          ∗ ((d, Proc.devRef .tc main_v0) ↦{fullShare} W (Proc.devRef .tc main_v0))) := by
  unfold StableHlo.held Tp
  rw [SparseCore.bigSep_insert' (by decide), SparseCore.bigSep_insert' (by decide), SparseCore.bigSep_insert' (by decide), SparseCore.bigSep_insert' (by decide), bigSep_singleton]

theorem halves {ℓ : Loc nD τ sig} (f : Buf (Elt F) ℓ) :
    (ℓ ↦{fullShare} f : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-- What the TensorCore owes before the call is owed at a call's index, never at the kernels' own. -/
theorem Ow_none (d : Dev nD) (n : ℕ) (g : GSem nD τ sig) : Ow (F := F) d n g none = 0 := by
  by_contra h
  have := (K (F := F)).lev_of_Otc_pos (Nat.pos_of_ne_zero h)
  rw [SparseCore.Cfg.lev_none] at this; omega

theorem W1_of_ne (d : Dev nD) (b : Ref sig .tc) (hb : b ≠ main_v0) : W1 m d (Proc.devRef .tc b) = W0 m d (Proc.devRef .tc b) := by
  unfold W1; rw [Function.update_of_ne (StableHlo.devRef_ne_of_ne hb)]

/-- The first kernel's arrays, window by window, each a whole buffer at the window's share. -/
theorem arrays_shares (c : Dev nD) (G : (w : Fin cfg0.W) → Buf (Elt F) ((cfg0.win w).arr.view.loc (c.tc : Thread nD τ))) :
    ((Prep.dat (V0 m) (Ow (F := F) c 0) (Bw (F := F) c 0) c).arrays G : sProp 𝕄)
      = bigSep Finset.univ fun w : Fin 7 => (((c.tc : Thread nD τ).loc (Pipeline.arrRef spec0 w)) ↦{(Prep.dat (V0 m) (Ow (F := F) c 0) (Bw (F := F) c 0) c).share w} G w : sProp 𝕄) := by
  unfold Pipeline.Dat.arrays
  exact bigSep_congr fun w _ => by rw [(arr_whole0 w).set_eq_univ]

theorem share_p (c : Dev nD) :
    (Prep.dat (V0 m) (Ow (F := F) c 0) (Bw (F := F) c 0) c).share 0 = fullShare ∧ (Prep.dat (V0 m) (Ow (F := F) c 0) (Bw (F := F) c 0) c).share 1 = fullShare
    ∧ (Prep.dat (V0 m) (Ow (F := F) c 0) (Bw (F := F) c 0) c).share 2 = fullShare.left ∧ (Prep.dat (V0 m) (Ow (F := F) c 0) (Bw (F := F) c 0) c).share 3 = fullShare.left
    ∧ (Prep.dat (V0 m) (Ow (F := F) c 0) (Bw (F := F) c 0) c).share 4 = fullShare.right ∧ (Prep.dat (V0 m) (Ow (F := F) c 0) (Bw (F := F) c 0) c).share 5 = fullShare.right
    ∧ (Prep.dat (V0 m) (Ow (F := F) c 0) (Bw (F := F) c 0) c).share 6 = fullShare := by
  unfold Pipeline.Dat.share
  refine ⟨?_, ?_, ?_, ?_, ?_, ?_, ?_⟩
  · rw [if_neg (by decide)]; dsimp only [Prep.dat]
  · rw [if_neg (by decide)]; dsimp only [Prep.dat]
  · rw [if_neg (by decide)]; dsimp only [Prep.dat]
  · rw [if_neg (by decide)]; dsimp only [Prep.dat]
  · rw [if_neg (by decide)]; dsimp only [Prep.dat]
  · rw [if_neg (by decide)]; dsimp only [Prep.dat]
  · rw [if_pos (by decide)]

/-- The seven windows' arrays as the five buffers behind them, the two doubled tables in halves. -/
theorem arrays_buffers (c : Dev nD) (G : (w : Fin cfg0.W) → Buf (Elt F) ((cfg0.win w).arr.view.loc (c.tc : Thread nD τ))) :
    ((Prep.dat (V0 m) (Ow (F := F) c 0) (Bw (F := F) c 0) c).arrays G : sProp 𝕄)
      = iprop((((c.tc : Thread nD τ).loc main_arg1) ↦{fullShare} G 0) ∗ (((c.tc : Thread nD τ).loc main_arg2) ↦{fullShare} G 1)
          ∗ (((c.tc : Thread nD τ).loc main_arg3) ↦{fullShare.left} G 2) ∗ (((c.tc : Thread nD τ).loc main_arg4) ↦{fullShare.left} G 3)
          ∗ (((c.tc : Thread nD τ).loc main_arg3) ↦{fullShare.right} G 4) ∗ (((c.tc : Thread nD τ).loc main_arg4) ↦{fullShare.right} G 5)
          ∗ (((c.tc : Thread nD τ).loc main_v0) ↦{fullShare} G 6)) := by
  obtain ⟨h0, h1, h2, h3, h4, h5, h6⟩ := share_p m c
  rw [arrays_shares, bigSep_W0, h0, h1, h2, h3, h4, h5, h6]

/-- Every input window's array ends the region as it entered it. -/
theorem arrAt_in_p (c : Dev nD) (w : Fin cfg0.W) (hw : w ≠ 6) (n : ℕ) :
    (Prep.dat (V0 m) (Ow (F := F) c 0) (Bw (F := F) c 0) c).arrAt w n = V0 m c (Pipeline.arrRef spec0 w) := by
  have hin : (cfg0.win w).isOut = false := by revert w; decide
  rw [(Prep.dat (V0 m) (Ow (F := F) c 0) (Bw (F := F) c 0) c).arrAt_in w hin, Prep.A_eq]

theorem W1_v0 (c : Dev nD) : W1 m c (Proc.devRef .tc main_v0) = (Prep.dat (V0 m) (Ow (F := F) c 0) (Bw (F := F) c 0) c).arrAt 6 cfg0.N := by
  unfold W1; rw [Function.update_self]

theorem W1_rest (c : Dev nD) (b : DevRef τ sig) (hb : b ∈ Pipeline.ucRefs τ sig \ Tp) : W1 m c b = W0 m c b := by
  have hne : b ≠ Proc.devRef .tc main_v0 := fun e => (Finset.mem_sdiff.mp hb).2 (e ▸ by decide)
  unfold W1; rw [Function.update_of_ne hne]

set_option backward.isDefEq.respectTransparency.types false in
/-- The first kernel's region: entered from the launch contents, left with its output array written. -/
def regP : Pipeline.RegionSeg (pcfgs (F := F)) adm (pdats m) none defs₀ 𝒱₀ (Lk (F := F)) (lvk (F := F)) 0 where
  win := winFacts₀0
  block_pos := block_pos0
  stage_whole := stage_whole0
  K := PEmpty
  osem k := k.elim
  ho := Pipeline.OwnSemFacts.none _
  hbody c := (Prep.body_obligation (V0 m) (Ow (F := F) c 0) (Bw (F := F) c 0) c).loose
  hwaits c := Pipeline.cellsWaits_intro (Pipeline.pin (pcfgs (F := F)) adm) (pdats m) none 0 c
    fun w s t => (K (F := F)).mayWait_none _ (Ow_none (F := F) c 0)
  pre c := St (F := F) c (W0 m c) (Ow (F := F) c 0) 0
  post c := St (F := F) c (W1 m c) (Ow (F := F) c 0) 0
  X c := iprop(∃ r, prngReg c r)
  Y c := iprop(∃ r, prngReg c r)
  Z c := StableHlo.held (T c) (Pipeline.ucRefs τ sig \ Tp) (W0 m c)
  hentry c := by
    rw [Pipeline.ownSems0_none, show (pdats m 0 c) = Prep.dat (V0 m) (Ow (F := F) c 0) (Bw (F := F) c 0) c from rfl, arrays_buffers]
    iintro ⟨⟨Hub, Hp, HO⟩, -, -⟩
    ihave H := (Entails.of_eq (StableHlo.held_sub_split (T c) Tp_sub (W0 m c))) $$ Hub
    icases H with ⟨Ht, Hrest⟩
    ihave Ht' := (Entails.of_eq (held_Tp c (W0 m c))) $$ Ht
    icases Ht' with ⟨H1, H2, H3, H4, H0⟩
    ihave H3' := (Entails.of_eq (halves (F := F) _)) $$ H3
    icases H3' with ⟨H3l, H3r⟩
    ihave H4' := (Entails.of_eq (halves (F := F) _)) $$ H4
    icases H4' with ⟨H4l, H4r⟩
    imodintro
    isplitl [H1 H2 H3l H3r H4l H4r H0]
    · isplitl [H1]; · iexact H1
      isplitl [H2]; · iexact H2
      isplitl [H3l]; · iexact H3l
      isplitl [H4l]; · iexact H4l
      isplitl [H3r]; · iexact H3r
      isplitl [H4r]; · iexact H4r
      iexact H0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats m 0 c).Φ 0 = ΦR spec0 c from rfl]; unfold ΦR
    iintro ⟨Hp, -, Hr⟩
    isplitl [Hr]; · iexact Hr
    iexact Hp
  hout c := by
    rw [Pipeline.ownSems0_none, show (pdats m 0 c).Φ (Fin.last _) = ΦR spec0 c from rfl]; unfold ΦR
    iintro ⟨Hr, Hp⟩
    isplitl [Hp]; · iexact Hp
    isplitr; · iempintro
    iexact Hr
  hexit c := by
    rw [show (pdats m 0 c) = Prep.dat (V0 m) (Ow (F := F) c 0) (Bw (F := F) c 0) c from rfl, arrays_buffers]
    rw [arrAt_in_p m c 0 (by decide), arrAt_in_p m c 1 (by decide), arrAt_in_p m c 2 (by decide), arrAt_in_p m c 3 (by decide),
      arrAt_in_p m c 4 (by decide), arrAt_in_p m c 5 (by decide)]
    iintro ⟨⟨H1, H2, H3l, H4l, H3r, H4r, H0⟩, HO, HY, Hrest⟩
    imodintro
    isplitl [H1 H2 H3l H4l H3r H4r H0 Hrest]
    · iapply (Entails.of_eq (StableHlo.held_sub_split (T c) Tp_sub (W1 m c)).symm)
      isplitl [H1 H2 H3l H4l H3r H4r H0]
      · iapply (Entails.of_eq (held_Tp c (W1 m c)).symm)
        rw [W1_of_ne m c main_arg1 (by decide), W1_of_ne m c main_arg2 (by decide), W1_of_ne m c main_arg3 (by decide), W1_of_ne m c main_arg4 (by decide)]
        isplitl [H1]; · iexact H1
        isplitl [H2]; · iexact H2
        isplitl [H3l H3r]
        · iapply (Entails.of_eq (halves (F := F) _).symm); isplitl [H3l] <;> iassumption
        isplitl [H4l H4r]
        · iapply (Entails.of_eq (halves (F := F) _).symm); isplitl [H4l] <;> iassumption
        iapply (Entails.of_eq (congrArg (fun f => (((c.tc : Thread nD τ).loc main_v0) ↦{fullShare} f : sProp 𝕄)) (W1_v0 m c).symm))
        iexact H0
      · iapply (Entails.of_eq (StableHlo.held_congr (T c) (S := Pipeline.ucRefs τ sig \ Tp) (V := W0 m c) (V' := W1 m c) (fun b hb => (W1_rest m c b hb).symm)))
        iexact Hrest
    isplitl [HY]; · iexact HY
    unfold Pipeline.Dat.owesAt Pipeline.owesWithin
    icases HO with ⟨%W, %hW, HO⟩; iexists W; isplitr
    · ipureintro; exact wbelow_of_bound c 0 W hW
    iexact HO

end Cert.KernelIdeal.Regions

end
-- ==== Proof.LaunchIdeal.lean ====
/-
  @main on the TensorCore, run through the SparseCore launch theorem: the first kernel's region and the reshape of the
  index array, the gather call (the three arrays dealt to the thirty-two tiles and collected), nine host operations, the
  second kernel's region and the final reshape; the launch element of the ghost state; and what the final memory holds.
-/
import proofs.«205820_g61907658604586_cont_9to1_m_785_3_alg».proof.Proof.TilesIdeal
import proofs.«205820_g61907658604586_cont_9to1_m_785_3_alg».proof.Proof.TileOblIdeal
import proofs.«205820_g61907658604586_cont_9to1_m_785_3_alg».proof.Proof.RegionsIdeal

set_option maxRecDepth 16384

noncomputable section

namespace Cert.KernelIdeal.Launch

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Chain Cert.KernelIdeal.PayM Cert.KernelIdeal.Tiles Cert.KernelIdeal.TileOb Cert.KernelIdeal.Regions

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main in three stretches -/

abbrev progA : Prog (TpuEff nD τ sig (Elt F) (ΛP (F := F)) .tc) PUnit :=
  Pipeline.chain [Prog.lift (.customCall (Pipeline.entry 0) ()), StableHlo.seq hostOpsA]
abbrev progB : Prog (TpuEff nD τ sig (Elt F) (ΛP (F := F)) .tc) PUnit :=
  Pipeline.chain [StableHlo.seq hostOpsB, Prog.lift (.customCall (Pipeline.entry 1) ()), StableHlo.seq hostOpsC]

theorem main_split (d : Dev nD) : main (F := F) d
    = (SparseCore.liftProg (Q := 1) (progA (F := F)) >>= fun _ => (sc (F := F)).run d 0 >>= fun _ => SparseCore.liftProg (Q := 1) (progB (F := F))) := by
  rfl

/-- Before the gather call: the first kernel's region, then the reshape of the index array. -/
abbrev segsA : List (Pipeline.Seg (pcfgs (F := F)) adm (pdats m) none defs₀ 𝒱₀ (Lk (F := F)) (lvk (F := F))) :=
  [ .region (regP m),
    .host (hseg hostOpsA hostOpsA_sub hostOpsA_fresh (W1 m) (fun d => Ow (F := F) d 0) 0) ]
/-- After it: nine host operations, the second kernel's region, the final reshape. -/
abbrev segsB : List (Pipeline.Seg (pcfgs (F := F)) adm (pdats m) none defs₀ 𝒱₀ (Lk (F := F)) (lvk (F := F))) :=
  [ .host (hseg hostOpsB hostOpsB_sub hostOpsB_fresh (W3 m) (fun _ => 0) 1),
    .region (regM m),
    .host (hseg hostOpsC hostOpsC_sub hostOpsC_fresh (W5 m) (fun _ => 0) 1) ]

theorem progA_run : progA (F := F) = Pipeline.Seg.run (segsA m) := by
  rw [Pipeline.Seg.run_eq_chain]; rfl
theorem progB_run : progB (F := F) = Pipeline.Seg.run (segsB m) := by
  rw [Pipeline.Seg.run_eq_chain]; rfl

/-! ## The launch element -/

/-- The handshakes' launch element, the pipelines', no transfer in flight. -/
def u₀ : UU := (initOf (K (F := F)).hsCells (K (F := F)).hsToks, (initOf (Pipeline.cells cfgs cellOf_inj) (Pipeline.launchToks cfgs cellOf_inj), 1))

/-- What @main's proof starts from on each device: the two pipelines' ghost state. -/
abbrev G0 (d : Dev nD) : sProp 𝕄 := Pipeline.ghostOn (pcfgs (F := F)) adm (EP (F := F)) Finset.univ d

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => G0 (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells cfgs cellOf_inj) (Pipeline.launchToks cfgs cellOf_inj), (1 : Counters)) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HP, -⟩
  imod (Pipeline.fund_ghost (cfgs := Pipeline.pin (pcfgs (F := F)) adm) (ER := EP (F := F)) cellOf_inj) $$ HP with ⟨Hg, Ht⟩
  imodintro
  isplitl [HH]; · iexact HH
  isplitl [Hg Ht]
  · unfold G0 Pipeline.ghostOn Pipeline.PerCore.ghostOn
    simp only [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What the TensorCore ends with: every unscoped buffer at the last boundary's contents. -/
abbrev FIN (d : Dev nD) : sProp 𝕄 := StableHlo.held (T d) (Pipeline.ucRefs τ sig) (W6 m d)

/-- The three buffers the gather call takes: the table, the flat index list, the output array. -/
abbrev T3 : Finset (DevRef τ sig) := {Proc.devRef .tc main_v0, Proc.devRef .tc main_v1, Proc.devRef .tc main_v2}
theorem T3_sub : (T3 : Finset (DevRef τ sig)) ⊆ Pipeline.ucRefs τ sig := by decide

theorem held_T3 (d : Dev nD) (W : Valuation τ sig (Elt F)) :
    (StableHlo.held (T d) T3 W : sProp 𝕄)
      = iprop(((d, Proc.devRef .tc main_v0) ↦{fullShare} W (Proc.devRef .tc main_v0)) ∗ ((d, Proc.devRef .tc main_v1) ↦{fullShare} W (Proc.devRef .tc main_v1))
          ∗ ((d, Proc.devRef .tc main_v2) ↦{fullShare} W (Proc.devRef .tc main_v2))) := by
  unfold StableHlo.held T3
  rw [SparseCore.bigSep_insert' (by decide), SparseCore.bigSep_insert' (by decide), bigSep_singleton]

/-- The call's operands out of the thread state: the three arrays dealt to the tiles, the rest set aside. -/
theorem call_in (d : Dev nD) :
    (StableHlo.held (T d) (Pipeline.ucRefs τ sig) (W2 m d) : sProp 𝕄)
      ⊢ iprop((bigSep Finset.univ fun c : Fin ((K (F := F)).nCore 0) => (P m).st 0 d c) ∗ StableHlo.held (T d) (Pipeline.ucRefs τ sig \ T3) (W2 m d)) := by
  rw [StableHlo.held_sub_split (T d) T3_sub (W2 m d), held_T3]
  refine sep_mono ?_ .rfl
  show _ ⊢ bigSep Finset.univ fun c : Fin ((K (F := F)).nCore 0) => bigSep Finset.univ fun i : Fin ((K (F := F)).nSub 0) => tileIn m d (widOf c i)
  rw [bigSep_tiles (F := F) (fun w => tileIn m d w), ← tiles_split]
  iintro ⟨Hm, Hx, Ho⟩
  isplitl [Hx]; · iexact Hx
  isplitl [Hm]; · iexact Hm
  iexact Ho

theorem W3_v0 (d : Dev nD) : W3 m d (Proc.devRef .tc main_v0) = W2 m d (Proc.devRef .tc main_v0) := by
  unfold W3; rw [Function.update_of_ne (StableHlo.devRef_ne_of_ne (by decide))]
theorem W3_v1 (d : Dev nD) : W3 m d (Proc.devRef .tc main_v1) = W2 m d (Proc.devRef .tc main_v1) := by
  unfold W3; rw [Function.update_of_ne (StableHlo.devRef_ne_of_ne (by decide))]
theorem W3_v2 (d : Dev nD) : W3 m d (Proc.devRef .tc main_v2) = (Cert.Spec.gath (fm m d) (fx m d) : Buf (Elt F) (ScBody.oLoc d)) := by
  unfold W3; rw [Function.update_self]
theorem W3_rest (d : Dev nD) (b : DevRef τ sig) (hb : b ∈ Pipeline.ucRefs τ sig \ T3) : W3 m d b = W2 m d b := by
  have hne : b ≠ Proc.devRef .tc main_v2 := fun e => (Finset.mem_sdiff.mp hb).2 (e ▸ by decide)
  unfold W3; rw [Function.update_of_ne hne]

/-- The call's results back into the thread state, at the next boundary's contents. -/
theorem call_out (d : Dev nD) :
    iprop((bigSep Finset.univ fun c : Fin ((K (F := F)).nCore 0) => (P m).dn 0 d c) ∗ StableHlo.held (T d) (Pipeline.ucRefs τ sig \ T3) (W2 m d))
      ⊢ (StableHlo.held (T d) (Pipeline.ucRefs τ sig) (W3 m d) : sProp 𝕄) := by
  rw [StableHlo.held_sub_split (T d) T3_sub (W3 m d), held_T3, W3_v0, W3_v1, W3_v2,
    StableHlo.held_congr (T d) (S := Pipeline.ucRefs τ sig \ T3) (V := W3 m d) (V' := W2 m d) (W3_rest m d)]
  refine sep_mono ?_ .rfl
  show (bigSep Finset.univ fun c : Fin ((K (F := F)).nCore 0) => bigSep Finset.univ fun i : Fin ((K (F := F)).nSub 0) => tileOut m d (widOf c i)) ⊢ _
  rw [bigSep_tiles (F := F) (fun w => tileOut m d w)]
  refine (tiles_join m d).trans ?_
  iintro ⟨Hx, Hm, Ho⟩
  isplitl [Hm]; · iexact Hm
  isplitl [Hx]; · iexact Hx
  iexact Ho

theorem chainsA : Pipeline.Seg.Chains (fun d => St (F := F) d (W0 m d) (Ow (F := F) d 0) 0) (segsA m) (fun d => St (F := F) d (W2 m d) (Ow (F := F) d 0) 0) :=
  ⟨fun _ => .rfl, fun _ => .rfl, fun _ => .rfl⟩
theorem chainsB : Pipeline.Seg.Chains (fun d => St (F := F) d (W3 m d) 0 1) (segsB m) (fun d => St (F := F) d (W6 m d) 0 1) :=
  ⟨fun _ => .rfl, fun _ => .rfl, fun _ => .rfl, fun _ => .rfl⟩

set_option backward.isDefEq.respectTransparency.types false in
set_option maxHeartbeats 4000000 in
theorem hmain (hpre : PreOK m) (κ : GSem nD τ sig → ℕ) (d : Dev nD) :
    iprop((K (F := F)).ctx EH (P m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m d) := by
  rw [main_split]
  unfold SparseCore.Cfg.tcRes SparseCore.Cfg.tcSt
  iintro ⟨#Hctx, ⟨⟨%Ws, %hWs, HO⟩, Hat, #Hrd, #Hrs, Htoks⟩, ⟨Hbd, Hub, Hsems, Hprng⟩, HG⟩
  ihave Hlev := ((K (F := F)).ctx_levAts κ) $$ Hctx
  ihave Hh := (Entails.of_eq (Pipeline.unscopedBufs_held (Ix := HIx 1) (Name := ℕ) (U := UU) (Lvl := ℕ) d (W0 m d))) $$ Hub
  ihave HG' := (Entails.of_eq (Pipeline.PerCore.ghostOn_erase (pcfgs (F := F)) (fun _ => adm) (EP (F := F)) (S := Finset.univ) (p := (0 : Fin 2)) (Finset.mem_univ _) d)) $$ HG
  icases HG' with ⟨Hg0, Hg1⟩
  -- the first stretch
  rw [wp_bind]
  iapply ((K (F := F)).wp_liftProg (D (F := F)) 𝒱 (T d) Set.univ none (progA (F := F)) _)
  rw [progA_run m]
  iapply (Pipeline.wp_segs (pcfgs (F := F)) adm (pdats m) none cellOf_inj (EP (F := F)) defs₀ 𝒱₀ (Lk (F := F)) (lvk (F := F)) d (segsA m) {0}
      (fun d => St (F := F) d (W0 m d) (Ow (F := F) d 0) 0) (fun d => St (F := F) d (W2 m d) (Ow (F := F) d 0) 0)
      (by simp only [Pipeline.Seg.pipes_host, Pipeline.Seg.pipes_region, Pipeline.Seg.pipes_nil]; decide)
      (by simp only [Pipeline.Seg.pipes_host, Pipeline.Seg.pipes_region, Pipeline.Seg.pipes_nil]; decide) (chainsA m)) $$ [Hbd Hh Hprng HO Hg0 Hat Htoks Hsems Hg1]
  isplitr [Hbd Hh Hprng HO Hg0]
  swap
  · isplitl [Hbd]; · iexact Hbd
    isplitl [Hh Hprng HO]
    · isplitl [Hh]; · iexact Hh
      isplitl [Hprng]; · iexists _; iexact Hprng
      iexists Ws; isplitr; · ipureintro; exact hWs
      iexact HO
    isplitr; · iexact Hlev
    unfold Pipeline.ghostOn Pipeline.PerCore.ghostOn; rw [bigSep_singleton]; iexact Hg0
  iintro ⟨Hbd, ⟨Hh, ⟨%r, Hprng⟩, %Ws', %hWs', HO⟩⟩
  -- the gather call
  rw [wp_bind]
  ihave Hc := (call_in m d) $$ Hh
  icases Hc with ⟨Hst, Hrest⟩
  iapply ((K (F := F)).wp_run (D (F := F)) 𝒱 (EH := EH) (P := P m) κ d 0) $$ [HO Hat Htoks Hst Hbd Hprng Hrest Hsems Hg1]
  isplitr; · iexact Hctx
  isplitl [HO Hat Htoks]
  · unfold SparseCore.Cfg.tcSt
    isplitl [HO]; · iexists Ws'; isplitr; · ipureintro; exact hWs'
                    iexact HO
    isplitl [Hat]; · iexact Hat
    isplitr; · iexact Hrd
    isplitr; · iexact Hrs
    iexact Htoks
  isplitl [Hst]; · iexact Hst
  iintro ⟨Hst1, Hdn⟩
  unfold SparseCore.Cfg.tcSt
  icases Hst1 with ⟨⟨%Ws1, %hWs1, HO⟩, Hat, #Hrd1, #Hrs1, Htoks⟩
  ihave Hh := (call_out m d) $$ [Hdn Hrest]
  · isplitl [Hdn] <;> iassumption
  -- the second stretch
  iapply ((K (F := F)).wp_liftProg (D (F := F)) 𝒱 (T d) Set.univ none (progB (F := F)) _)
  rw [progB_run m]
  iapply (Pipeline.wp_segs (pcfgs (F := F)) adm (pdats m) none cellOf_inj (EP (F := F)) defs₀ 𝒱₀ (Lk (F := F)) (lvk (F := F)) d (segsB m) (Finset.univ.erase 0)
      (fun d => St (F := F) d (W3 m d) 0 1) (fun d => St (F := F) d (W6 m d) 0 1)
      (by simp only [Pipeline.Seg.pipes_host, Pipeline.Seg.pipes_region, Pipeline.Seg.pipes_nil]; decide)
      (by simp only [Pipeline.Seg.pipes_host, Pipeline.Seg.pipes_region, Pipeline.Seg.pipes_nil]; decide) (chainsB m)) $$ [Hbd Hh Hprng HO Hg1 Hat Htoks Hsems]
  isplitr [Hbd Hh Hprng HO Hg1]
  swap
  · isplitl [Hbd]; · iexact Hbd
    isplitl [Hh Hprng HO]
    · isplitl [Hh]; · iexact Hh
      isplitl [Hprng]; · iexists _; iexact Hprng
      iexists Ws1; isplitr; · ipureintro; exact hWs1
      rw [show (0 : CellTallies nD τ sig (HIx 1)) = (K (F := F)).Otc d ((0 : Fin 1).val + 1) from ((K (F := F)).Otc_end d (le_refl _)).symm]
      iexact HO
    isplitr; · iexact Hlev
    iexact Hg1
  iintro ⟨Hbd, ⟨Hh, ⟨%r', Hprng⟩, %Ws2, %hWs2, HO⟩⟩
  isplitl [HO Hat Htoks]
  · isplitl [HO]
    · iexists Ws2; isplitr; · ipureintro; exact hWs2
      rw [(K (F := F)).Otc_end d (n := 1) (le_refl _)]
      iexact HO
    isplitl [Hat]; · iexact Hat
    isplitr; · iexact Hrd1
    isplitr; · iexact Hrs1
    iexact Htoks
  iexact Hh

/-! ## The final memory, and the run -/

/-- What the final memory holds on device `d`: every unscoped buffer at the last boundary's contents. -/
def fq (d : Dev nD) (s' : Phys nD τ sig (Elt F)) : Prop := ∀ b ∈ Pipeline.ucRefs τ sig, s'.mem.mem (d, b) = W6 m d b

set_option maxRecDepth 16384 in
theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((d, b) : Loc nD τ sig)) (W6 m d) s') $$ [Hh HSI]
  · isplitl [Hh] <;> iassumption
  icases Hr with ⟨%h, -⟩
  ipureintro; exact h

def QC : PUnit × MemSt nD τ sig (Elt F) → Prop := fun r => ∀ c : Dev nD, ∀ b ∈ Pipeline.ucRefs τ sig, r.2.mem (c, b) = W6 m c b

/-- Every weakly fair execution of the whole family of threads terminates, and every unscoped buffer of every TensorCore ends
    at the last boundary's contents. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (G0 (F := F)) (FIN m) (u₀ (F := F)) (sep_elim_left.trans (hu₀ m)) (hmain m ρ hpre) (fq m) (hfin m) (QC m) (fun _ h => h)

end Cert.KernelIdeal.Launch

end
-- ==== Proof.Setup.lean ====
/-
  The program as the SparseCore launch theorem sees it, and the ghost state the proof runs over: the handshakes'
  rounds, the TensorCore pipelines' rounds for their staging cells, and the transfers' counters, side by side.
-/
import proofs.«205820_g61907658604586_cont_9to1_m_785_3_alg».proof.Proof.Gen.Kernel.Launch
import proofs.«205820_g61907658604586_cont_9to1_m_785_3_alg».proof.Proof.Gen.Kernel.Points
import proofs.«205820_g61907658604586_cont_9to1_m_785_3_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-- A TensorCore region's invariant between grid points: the scoped buffers no window stages, at any contents, and the
    generator register at any state. -/
def ΦR {gr : Nat} {W : Nat} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.Kernel.Setup

end
-- ==== Proof.PrepBody.lean ====
/-
  The first TensorCore kernel (three elementwise maxima of 1000-row blocks of the four tables, written one under the other
  into a 3000-row table) as the pipeline runs it at its one grid point: each window's block, what the body leaves in the
  output window's staging buffer as three stores of pure payloads of the six input blocks, the body's triple, and the
  pipeline's proof data with the body obligation. Two of the four tables are read through two windows each (rows 0..999 and
  rows 100000..100999): those windows hold half a share of the table each.
-/
import proofs.«205820_g61907658604586_cont_9to1_m_785_3_alg».proof.Proof.Setup

set_option maxRecDepth 16384

noncomputable section

namespace Cert.Kernel.Prep

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered, what the core owes throughout it, and a bound on the
-- (semaphore, index) pairs its waits have recorded
variable (V : (c : Dev nD) → (b : Ref sig .tc) → Buf (Elt F) ((c : Thread nD τ).loc b)) (O : CellTallies nD τ sig (HIx 1))
  (B : Set (SemLoc sig × HIx 1))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at the point. -/
theorem before0_of {c : Dev nD} (dat : Dat τ (Elt F) (HIx 1) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at the point. -/
theorem before1_of {c : Dev nD} (dat : Dat τ (Elt F) (HIx 1) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at the point. -/
theorem before2_of {c : Dev nD} (dat : Dat τ (Elt F) (HIx 1) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at the point. -/
theorem before3_of {c : Dev nD} (dat : Dat τ (Elt F) (HIx 1) ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at the point. -/
theorem before4_of {c : Dev nD} (dat : Dat τ (Elt F) (HIx 1) ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at the point. -/
theorem before5_of {c : Dev nD} (dat : Dat τ (Elt F) (HIx 1) ℕ UU ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: six whole loads, three stores of 1000 rows each at rows 0, 1000 and 2000 of the output's buffer -/

abbrev rIn : Rect S1000x128 := Rect.unit (s := S1000x128) ![0, 0] S1000x128.size inb_S1000x128_S1000x128_0_0
abbrev rA : Rect S3000x128 := Rect.unit (s := S3000x128) ![0, 0] S1000x128.size inb_S3000x128_S1000x128_0_0
abbrev rB : Rect S3000x128 := Rect.unit (s := S3000x128) ![1000, 0] S1000x128.size inb_S3000x128_S1000x128_1000_0
abbrev rC : Rect S3000x128 := Rect.unit (s := S3000x128) ![2000, 0] S1000x128.size inb_S3000x128_S1000x128_2000_0

/-- The output window's staging buffer after the body, from the input windows' blocks: its three stores, last first. -/
def out6 (x0 : Vec F S1000x128 .f32) (x1 : Vec F S1000x128 .f32) (x2 : Vec F S1000x128 .f32) (x3 : Vec F S1000x128 .f32) (x4 : Vec F S1000x128 .f32) (x5 : Vec F S1000x128 .f32) : Vec F S3000x128 .f32 :=
  View.canon [⟨rC, k0_pay3 (View.ld x4 rIn) (View.ld x5 rIn)⟩, ⟨rB, k0_pay2 (View.ld x2 rIn) (View.ld x3 rIn)⟩, ⟨rA, k0_pay1 (View.ld x0 rIn) (View.ld x1 rIn)⟩]

/-- The three stores tile the buffer. -/
theorem cover6 (p0 p1 p2 : Vec F S1000x128 .f32) (y : S3000x128.Idx) :
    ∃ pc ∈ ([⟨rC, p2⟩, ⟨rB, p1⟩, ⟨rA, p0⟩] : List (View.Piece (Elt F) S3000x128 .f32)), y ∈ pc.1.set :=
  View.cover_of_tiled [⟨rC, p2⟩, ⟨rB, p1⟩, ⟨rA, p0⟩] S1000x128.size (by rfl) y

set_option maxHeartbeats 4000000 in
/-- The body on whole staging memrefs, the inputs' at read contents and the output's at anything, runs to the continuation
    holding the inputs' as they were and the output's at `out6` of the inputs'. -/
theorem sound_kernel (c : Dev nD) (E : Set ℕ) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole) (arg7 : Memref sig .tc .vmem S3000x128 .f32) (harg7 : arg7.IsWhole)
    (x0 : Vec F S1000x128 .f32) (x1 : Vec F S1000x128 .f32) (x2 : Vec F S1000x128 .f32) (x3 : Vec F S1000x128 .f32) (x4 : Vec F S1000x128 .f32) (x5 : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5)) -∗ K ⟨⟩))
      ⊢ wp frame (wpE (defs₀ (F := F)) Variants.none c none) E (cc0__prep_body i arg1 harg1 arg2 harg2 arg3 harg3 arg4 harg4 arg5 harg5 arg6 harg6 arg7 harg7) K := by
  simp only [cc0__prep_body_eq_skeleton]; unfold cc0__prep_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _ _ _)

/-! ## The pipeline's proof data -/

/-- The arrays as the region finds them; after the body each input's buffer at its block and the output's at `out6` of the
    input blocks; the invariant the scoped rest and the generator register, untouched; what the core owes constant through
    the region; the two tables read through two windows at half a share per window, the others whole. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := ΦR spec0 c
  q w := match w with
    | ⟨0, _⟩ => fullShare
    | ⟨1, _⟩ => fullShare
    | ⟨2, _⟩ => fullShare.left
    | ⟨3, _⟩ => fullShare.left
    | ⟨4, _⟩ => fullShare.right
    | ⟨5, _⟩ => fullShare.right
    | ⟨6, _⟩ => fullShare
  owed _ := O
  recorded _ := B

theorem A_eq (c : Dev nD) (w : Fin cfg0.W) : (dat V O B c).A w = V c (Pipeline.arrRef spec0 w) := by
  dsimp only [dat]

theorem after0 (c : Dev nD) (t : Fin cfg0.N) : (dat V O B c).after 0 t = iblk V c 0 t := by dsimp only [dat]
theorem after1 (c : Dev nD) (t : Fin cfg0.N) : (dat V O B c).after 1 t = iblk V c 1 t := by dsimp only [dat]
theorem after2 (c : Dev nD) (t : Fin cfg0.N) : (dat V O B c).after 2 t = iblk V c 2 t := by dsimp only [dat]
theorem after3 (c : Dev nD) (t : Fin cfg0.N) : (dat V O B c).after 3 t = iblk V c 3 t := by dsimp only [dat]
theorem after4 (c : Dev nD) (t : Fin cfg0.N) : (dat V O B c).after 4 t = iblk V c 4 t := by dsimp only [dat]
theorem after5 (c : Dev nD) (t : Fin cfg0.N) : (dat V O B c).after 5 t = iblk V c 5 t := by dsimp only [dat]
theorem after6 (c : Dev nD) (t : Fin cfg0.N) : (dat V O B c).after 6 t = out6 (iblk V c 0 t) (iblk V c 1 t) (iblk V c 2 t) (iblk V c 3 t) (iblk V c 4 t) (iblk V c 5 t) := by dsimp only [dat]

theorem before0 (c : Dev nD) (t : Fin cfg0.N) (d) : (dat V O B c).before 0 t d = iblk V c 0 t :=
  before0_of V (dat V O B c) (A_eq V O B c 0) (after0 V O B c) t d
theorem before1 (c : Dev nD) (t : Fin cfg0.N) (d) : (dat V O B c).before 1 t d = iblk V c 1 t :=
  before1_of V (dat V O B c) (A_eq V O B c 1) (after1 V O B c) t d
theorem before2 (c : Dev nD) (t : Fin cfg0.N) (d) : (dat V O B c).before 2 t d = iblk V c 2 t :=
  before2_of V (dat V O B c) (A_eq V O B c 2) (after2 V O B c) t d
theorem before3 (c : Dev nD) (t : Fin cfg0.N) (d) : (dat V O B c).before 3 t d = iblk V c 3 t :=
  before3_of V (dat V O B c) (A_eq V O B c 3) (after3 V O B c) t d
theorem before4 (c : Dev nD) (t : Fin cfg0.N) (d) : (dat V O B c).before 4 t d = iblk V c 4 t :=
  before4_of V (dat V O B c) (A_eq V O B c 4) (after4 V O B c) t d
theorem before5 (c : Dev nD) (t : Fin cfg0.N) (d) : (dat V O B c).before 5 t d = iblk V c 5 t :=
  before5_of V (dat V O B c) (A_eq V O B c 5) (after5 V O B c) t d

/-! ## The body obligation -/

def bodyPre (c : Dev nD) (t : Fin cfg0.N) : sProp 𝕄 :=
  iprop((dat V O B c).Φ t.castSucc ∗ (dat V O B c).owesAt none t.castSucc
    ∗ (∃ d, owns (c : Thread nD τ) (st0_0 t) fullShare ((dat V O B c).before 0 t d))
    ∗ (∃ d, owns (c : Thread nD τ) (st0_1 t) fullShare ((dat V O B c).before 1 t d))
    ∗ (∃ d, owns (c : Thread nD τ) (st0_2 t) fullShare ((dat V O B c).before 2 t d))
    ∗ (∃ d, owns (c : Thread nD τ) (st0_3 t) fullShare ((dat V O B c).before 3 t d))
    ∗ (∃ d, owns (c : Thread nD τ) (st0_4 t) fullShare ((dat V O B c).before 4 t d))
    ∗ (∃ d, owns (c : Thread nD τ) (st0_5 t) fullShare ((dat V O B c).before 5 t d))
    ∗ (∃ d, owns (c : Thread nD τ) (st0_6 t) fullShare ((dat V O B c).before 6 t d)))

def bodyPost (c : Dev nD) (t : Fin cfg0.N) : sProp 𝕄 :=
  iprop((dat V O B c).Φ t.succ ∗ (dat V O B c).owesAt none t.succ
    ∗ owns (c : Thread nD τ) (st0_0 t) fullShare ((dat V O B c).after 0 t)
    ∗ owns (c : Thread nD τ) (st0_1 t) fullShare ((dat V O B c).after 1 t)
    ∗ owns (c : Thread nD τ) (st0_2 t) fullShare ((dat V O B c).after 2 t)
    ∗ owns (c : Thread nD τ) (st0_3 t) fullShare ((dat V O B c).after 3 t)
    ∗ owns (c : Thread nD τ) (st0_4 t) fullShare ((dat V O B c).after 4 t)
    ∗ owns (c : Thread nD τ) (st0_5 t) fullShare ((dat V O B c).after 5 t)
    ∗ owns (c : Thread nD τ) (st0_6 t) fullShare ((dat V O B c).after 6 t))

theorem sound_body (c : Dev nD) (t : Fin cfg0.N) :
    bodyPre V O B c t ⊢ wp frame (wpE (defs₀ (F := F)) Variants.none c none) Set.univ (bodyAt0 t) (fun _ => bodyPost V O B c t) := by
  unfold bodyPre bodyPost bodyAt0
  simp only [before0, before1, before2, before3, before4, before5]
  rw [show (dat V O B c).Φ t.succ = (dat V O B c).Φ t.castSucc from rfl,
    show (dat V O B c).owesAt none t.succ = (dat V O B c).owesAt none t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V O B c) (defs₀ (F := F)) Variants.none none Set.univ := fun t => by
  rw [bigSep_W0, bigSep_W0]
  exact sound_body V O B c t

end Cert.Kernel.Prep

end
-- ==== Proof.MlpBody.lean ====
/-
  The second TensorCore kernel (three affine layers with a rectifier, a weighted lane sum, a bias and the logistic
  function, on a block of 1024 rows) as the pipeline runs it: each window's block at a grid point, what the body leaves in
  the output window's staging buffer as one store of a pure payload of the nine input blocks, the body's triple, and the
  pipeline's proof data with the body obligation at every point. The weights and biases are fetched once, at the first
  point; the rows' block and the output block move with the point.
-/
import proofs.«205820_g61907658604586_cont_9to1_m_785_3_alg».proof.Proof.Setup

set_option maxRecDepth 16384

noncomputable section

namespace Cert.Kernel.Mlp

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered, what the core owes throughout it, and a bound on the
-- (semaphore, index) pairs its waits have recorded
variable (V : (c : Dev nD) → (b : Ref sig .tc) → Buf (Elt F) ((c : Thread nD τ).loc b)) (O : CellTallies nD τ sig (HIx 1))
  (B : Set (SemLoc sig × HIx 1))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) (HIx 1) ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) (HIx 1) ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) (HIx 1) ℕ UU ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) (HIx 1) ℕ UU ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) (HIx 1) ℕ UU ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) (HIx 1) ℕ UU ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load takes a whole staging buffer, the one store fills the output's -/

abbrev r0 : Rect S1024x384 := Rect.unit (s := S1024x384) ![0, 0] S1024x384.size inb_S1024x384_S1024x384_0_0
abbrev r1 : Rect S384x1024 := Rect.unit (s := S384x1024) ![0, 0] S384x1024.size inb_S384x1024_S384x1024_0_0
abbrev r2 : Rect S1x1024 := Rect.unit (s := S1x1024) ![0, 0] S1x1024.size inb_S1x1024_S1x1024_0_0
abbrev r3 : Rect S1024x512 := Rect.unit (s := S1024x512) ![0, 0] S1024x512.size inb_S1024x512_S1024x512_0_0
abbrev r4 : Rect S1x512 := Rect.unit (s := S1x512) ![0, 0] S1x512.size inb_S1x512_S1x512_0_0
abbrev r5 : Rect S512x256 := Rect.unit (s := S512x256) ![0, 0] S512x256.size inb_S512x256_S512x256_0_0
abbrev r6 : Rect S1x256 := Rect.unit (s := S1x256) ![0, 0] S1x256.size inb_S1x256_S1x256_0_0
abbrev r7 : Rect S1x256 := Rect.unit (s := S1x256) ![0, 0] S1x256.size inb_S1x256_S1x256_0_0
abbrev r8 : Rect S1x1 := Rect.unit (s := S1x1) ![0, 0] S1x1.size inb_S1x1_S1x1_0_0
abbrev r9 : Rect S1x1x1024 := Rect.unit (s := S1x1x1024) ![0, 0, 0] S1x1x1024.size inb_S1x1x1024_S1x1x1024_0_0_0

/-- The output window's staging buffer after the body, from the input windows' blocks: its one store. -/
def out9 (x0 : Vec F S1024x384 .f32) (x1 : Vec F S384x1024 .bf16) (x2 : Vec F S1x1024 .f32) (x3 : Vec F S1024x512 .bf16) (x4 : Vec F S1x512 .f32) (x5 : Vec F S512x256 .bf16) (x6 : Vec F S1x256 .f32) (x7 : Vec F S1x256 .f32) (x8 : Vec F S1x1 .f32) : Vec F S1x1x1024 .f32 :=
  View.canon [⟨r9, k2_pay1 (k2_pay2 (View.ld x0 r0) (View.ld x1 r1) (View.ld x2 r2) (View.ld x3 r3) (View.ld x4 r4) (View.ld x5 r5) (View.ld x6 r6) (View.ld x7 r7)) (View.ld x8 r8)⟩]

/-- The store fills the buffer. -/
theorem cover9 (p0 : Vec F S1x1x1024 .f32) (y : S1x1x1024.Idx) :
    ∃ pc ∈ ([⟨r9, p0⟩] : List (View.Piece (Elt F) S1x1x1024 .f32)), y ∈ pc.1.set :=
  View.cover_of_tiled [⟨r9, p0⟩] S1x1x1024.size (by rfl) y

set_option maxHeartbeats 4000000 in
/-- The body on whole staging memrefs, the inputs' at read contents and the output's at anything, runs to the continuation
    holding the inputs' as they were and the output's at `out9` of the inputs'. -/
theorem sound_kernel (c : Dev nD) (E : Set ℕ) (i : grid2.Coords) (arg1 : Memref sig .tc .vmem S1024x384 .f32) (harg1 : arg1.IsWhole) (arg2 : Memref sig .tc .vmem S384x1024 .bf16) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x1x1024 .f32) (harg10 : arg10.IsWhole)
    (x0 : Vec F S1024x384 .f32) (x1 : Vec F S384x1024 .bf16) (x2 : Vec F S1x1024 .f32) (x3 : Vec F S1024x512 .bf16) (x4 : Vec F S1x512 .f32) (x5 : Vec F S512x256 .bf16) (x6 : Vec F S1x256 .f32) (x7 : Vec F S1x256 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9 arg10 harg10) K := by
  simp only [cc2__mlp_body_eq_skeleton]; unfold cc2__mlp_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

/-! ## The pipeline's proof data -/

/-- The arrays as the region finds them; after the body at point `t` each input's buffer at its block and the output's at
    `out9` of the input blocks; the invariant the scoped rest and the generator register, untouched; what the core owes
    constant through the region; full shares. -/
def dat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9 (iblk V c 0 t) (iblk V c 1 t) (iblk V c 2 t) (iblk V c 3 t) (iblk V c 4 t) (iblk V c 5 t) (iblk V c 6 t) (iblk V c 7 t) (iblk V c 8 t)
  Φ _ := ΦR spec2 c
  q _ := fullShare
  owed _ := O
  recorded _ := B

theorem A_eq (c : Dev nD) (w : Fin cfg2.W) : (dat V O B c).A w = V c (Pipeline.arrRef spec2 w) := by
  dsimp only [dat]

theorem after0 (c : Dev nD) (t : Fin cfg2.N) : (dat V O B c).after 0 t = iblk V c 0 t := by dsimp only [dat]
theorem after1 (c : Dev nD) (t : Fin cfg2.N) : (dat V O B c).after 1 t = iblk V c 1 t := by dsimp only [dat]
theorem after2 (c : Dev nD) (t : Fin cfg2.N) : (dat V O B c).after 2 t = iblk V c 2 t := by dsimp only [dat]
theorem after3 (c : Dev nD) (t : Fin cfg2.N) : (dat V O B c).after 3 t = iblk V c 3 t := by dsimp only [dat]
theorem after4 (c : Dev nD) (t : Fin cfg2.N) : (dat V O B c).after 4 t = iblk V c 4 t := by dsimp only [dat]
theorem after5 (c : Dev nD) (t : Fin cfg2.N) : (dat V O B c).after 5 t = iblk V c 5 t := by dsimp only [dat]
theorem after6 (c : Dev nD) (t : Fin cfg2.N) : (dat V O B c).after 6 t = iblk V c 6 t := by dsimp only [dat]
theorem after7 (c : Dev nD) (t : Fin cfg2.N) : (dat V O B c).after 7 t = iblk V c 7 t := by dsimp only [dat]
theorem after8 (c : Dev nD) (t : Fin cfg2.N) : (dat V O B c).after 8 t = iblk V c 8 t := by dsimp only [dat]
theorem after9 (c : Dev nD) (t : Fin cfg2.N) : (dat V O B c).after 9 t = out9 (iblk V c 0 t) (iblk V c 1 t) (iblk V c 2 t) (iblk V c 3 t) (iblk V c 4 t) (iblk V c 5 t) (iblk V c 6 t) (iblk V c 7 t) (iblk V c 8 t) := by dsimp only [dat]

theorem before0 (c : Dev nD) (t : Fin cfg2.N) (d) : (dat V O B c).before 0 t d = iblk V c 0 t :=
  before0_of V (dat V O B c) (A_eq V O B c 0) (after0 V O B c) t d
theorem before1 (c : Dev nD) (t : Fin cfg2.N) (d) : (dat V O B c).before 1 t d = iblk V c 1 t :=
  before1_of V (dat V O B c) (A_eq V O B c 1) (after1 V O B c) t d
theorem before2 (c : Dev nD) (t : Fin cfg2.N) (d) : (dat V O B c).before 2 t d = iblk V c 2 t :=
  before2_of V (dat V O B c) (A_eq V O B c 2) (after2 V O B c) t d
theorem before3 (c : Dev nD) (t : Fin cfg2.N) (d) : (dat V O B c).before 3 t d = iblk V c 3 t :=
  before3_of V (dat V O B c) (A_eq V O B c 3) (after3 V O B c) t d
theorem before4 (c : Dev nD) (t : Fin cfg2.N) (d) : (dat V O B c).before 4 t d = iblk V c 4 t :=
  before4_of V (dat V O B c) (A_eq V O B c 4) (after4 V O B c) t d
theorem before5 (c : Dev nD) (t : Fin cfg2.N) (d) : (dat V O B c).before 5 t d = iblk V c 5 t :=
  before5_of V (dat V O B c) (A_eq V O B c 5) (after5 V O B c) t d
theorem before6 (c : Dev nD) (t : Fin cfg2.N) (d) : (dat V O B c).before 6 t d = iblk V c 6 t :=
  before6_of V (dat V O B c) (A_eq V O B c 6) (after6 V O B c) t d
theorem before7 (c : Dev nD) (t : Fin cfg2.N) (d) : (dat V O B c).before 7 t d = iblk V c 7 t :=
  before7_of V (dat V O B c) (A_eq V O B c 7) (after7 V O B c) t d
theorem before8 (c : Dev nD) (t : Fin cfg2.N) (d) : (dat V O B c).before 8 t d = iblk V c 8 t :=
  before8_of V (dat V O B c) (A_eq V O B c 8) (after8 V O B c) t d

/-! ## The body obligation, at a generic point -/

def bodyPre (c : Dev nD) (t : Fin cfg2.N) : sProp 𝕄 :=
  iprop((dat V O B c).Φ t.castSucc ∗ (dat V O B c).owesAt none t.castSucc
    ∗ (∃ d, owns (c : Thread nD τ) (st2_0 t) fullShare ((dat V O B c).before 0 t d))
    ∗ (∃ d, owns (c : Thread nD τ) (st2_1 t) fullShare ((dat V O B c).before 1 t d))
    ∗ (∃ d, owns (c : Thread nD τ) (st2_2 t) fullShare ((dat V O B c).before 2 t d))
    ∗ (∃ d, owns (c : Thread nD τ) (st2_3 t) fullShare ((dat V O B c).before 3 t d))
    ∗ (∃ d, owns (c : Thread nD τ) (st2_4 t) fullShare ((dat V O B c).before 4 t d))
    ∗ (∃ d, owns (c : Thread nD τ) (st2_5 t) fullShare ((dat V O B c).before 5 t d))
    ∗ (∃ d, owns (c : Thread nD τ) (st2_6 t) fullShare ((dat V O B c).before 6 t d))
    ∗ (∃ d, owns (c : Thread nD τ) (st2_7 t) fullShare ((dat V O B c).before 7 t d))
    ∗ (∃ d, owns (c : Thread nD τ) (st2_8 t) fullShare ((dat V O B c).before 8 t d))
    ∗ (∃ d, owns (c : Thread nD τ) (st2_9 t) fullShare ((dat V O B c).before 9 t d)))

def bodyPost (c : Dev nD) (t : Fin cfg2.N) : sProp 𝕄 :=
  iprop((dat V O B c).Φ t.succ ∗ (dat V O B c).owesAt none t.succ
    ∗ owns (c : Thread nD τ) (st2_0 t) fullShare ((dat V O B c).after 0 t)
    ∗ owns (c : Thread nD τ) (st2_1 t) fullShare ((dat V O B c).after 1 t)
    ∗ owns (c : Thread nD τ) (st2_2 t) fullShare ((dat V O B c).after 2 t)
    ∗ owns (c : Thread nD τ) (st2_3 t) fullShare ((dat V O B c).after 3 t)
    ∗ owns (c : Thread nD τ) (st2_4 t) fullShare ((dat V O B c).after 4 t)
    ∗ owns (c : Thread nD τ) (st2_5 t) fullShare ((dat V O B c).after 5 t)
    ∗ owns (c : Thread nD τ) (st2_6 t) fullShare ((dat V O B c).after 6 t)
    ∗ owns (c : Thread nD τ) (st2_7 t) fullShare ((dat V O B c).after 7 t)
    ∗ owns (c : Thread nD τ) (st2_8 t) fullShare ((dat V O B c).after 8 t)
    ∗ owns (c : Thread nD τ) (st2_9 t) fullShare ((dat V O B c).after 9 t))

theorem sound_body (c : Dev nD) (t : Fin cfg2.N) :
    bodyPre V O B c t ⊢ wp frame (wpE (defs₀ (F := F)) Variants.none c none) Set.univ (bodyAt2 t) (fun _ => bodyPost V O B c t) := by
  unfold bodyPre bodyPost bodyAt2
  simp only [before0, before1, before2, before3, before4, before5, before6, before7, before8]
  rw [show (dat V O B c).Φ t.succ = (dat V O B c).Φ t.castSucc from rfl,
    show (dat V O B c).owesAt none t.succ = (dat V O B c).owesAt none t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dat (F := F) V O B c) (defs₀ (F := F)) Variants.none none Set.univ := fun t => by
  rw [bigSep_W2, bigSep_W2]
  exact sound_body V O B c t

end Cert.Kernel.Mlp

end
-- ==== Proof.Chain.lean ====
/-
  The TensorCore's buffers from the launch to the return, as a chain of valuations: the launch memory; after the first
  kernel's region (its output array written, nothing else touched); after the reshape of the index array; after the
  gather on the SparseCores (its output array at the gathered rows); after the nine host operations that reshape the
  gathered rows and round or reshape the weights; after the second kernel's region; after the final reshape. And the two
  pipelines' proof data, each at its region's entry contents.
-/
import proofs.«205820_g61907658604586_cont_9to1_m_785_3_alg».proof.Proof.PrepBody
import proofs.«205820_g61907658604586_cont_9to1_m_785_3_alg».proof.Proof.MlpBody
import proofs.«205820_g61907658604586_cont_9to1_m_785_3_alg».proof.Proof.Spec

set_option maxRecDepth 16384

noncomputable section

namespace Cert.Kernel.Chain

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The host operations between the kernels -/

abbrev hostOpsA : List (HloOp τ sig (Elt F)) :=
  [ StableHlo.reshape main_arg0 main_v1 rfl shapeCasts_S16384x3_S49152 ]

abbrev hostOpsB : List (HloOp τ sig (Elt F)) :=
  [ StableHlo.reshape main_v2 main_v3 rfl shapeCasts_S49152x128_S16384x384,
    StableHlo.unary main_arg5 main_v4 ((truncf .bf16 · bitsLt_bf16_f32) : (⟨S384x1024, .f32⟩ : BufTy).Contents (Elt F) → (⟨S384x1024, .bf16⟩ : BufTy).Contents (Elt F)),
    StableHlo.reshape main_arg6 main_v5 rfl shapeCasts_S1024_S1x1024,
    StableHlo.unary main_arg7 main_v6 ((truncf .bf16 · bitsLt_bf16_f32) : (⟨S1024x512, .f32⟩ : BufTy).Contents (Elt F) → (⟨S1024x512, .bf16⟩ : BufTy).Contents (Elt F)),
    StableHlo.reshape main_arg8 main_v7 rfl shapeCasts_S512_S1x512,
    StableHlo.unary main_arg9 main_v8 ((truncf .bf16 · bitsLt_bf16_f32) : (⟨S512x256, .f32⟩ : BufTy).Contents (Elt F) → (⟨S512x256, .bf16⟩ : BufTy).Contents (Elt F)),
    StableHlo.reshape main_arg10 main_v9 rfl shapeCasts_S256_S1x256,
    StableHlo.reshape main_arg11 main_v10 rfl shapeCasts_S256x1_S1x256,
    StableHlo.reshape main_arg12 main_v11 rfl shapeCasts_S1_S1x1 ]

abbrev hostOpsC : List (HloOp τ sig (Elt F)) :=
  [ StableHlo.reshape main_v12 main_v13 rfl shapeCasts_S16x1x1024_S16384 ]

theorem hostOpsA_sub : (hostOpsA : List (HloOp τ sig (Elt F))).Forall fun op => op.bufs ⊆ StableHlo.tcRefs τ sig := by
  simp only [List.Forall]; exact StableHlo.reshape_bufs_sub ..
theorem hostOpsB_sub : (hostOpsB : List (HloOp τ sig (Elt F))).Forall fun op => op.bufs ⊆ StableHlo.tcRefs τ sig := by
  simp only [List.Forall]
  exact ⟨StableHlo.reshape_bufs_sub .., StableHlo.unary_bufs_sub .., StableHlo.reshape_bufs_sub .., StableHlo.unary_bufs_sub .., StableHlo.reshape_bufs_sub ..,
    StableHlo.unary_bufs_sub .., StableHlo.reshape_bufs_sub .., StableHlo.reshape_bufs_sub .., StableHlo.reshape_bufs_sub ..⟩
theorem hostOpsC_sub : (hostOpsC : List (HloOp τ sig (Elt F))).Forall fun op => op.bufs ⊆ StableHlo.tcRefs τ sig := by
  simp only [List.Forall]; exact StableHlo.reshape_bufs_sub ..
theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor
theorem hostOpsC_fresh : (hostOpsC : List (HloOp τ sig (Elt F))).Forall fun op => op.fresh = ∅ := by
  simp only [List.Forall]; repeat' constructor

/-! ## The buffers' contents at each boundary -/

/-- Core `d`'s buffers at launch. -/
abbrev W0 : Dev nD → Valuation τ sig (Elt F) := fun d b => m (d, b)
abbrev V0 : (c : Dev nD) → (b : Ref sig .tc) → Buf (Elt F) ((c : Thread nD τ).loc b) := fun c b => W0 m c b

/-- What the TensorCore of `d` owes the SparseCores before call `n`. -/
abbrev Ow (d : Dev nD) (n : ℕ) : CellTallies nD τ sig (HIx 1) := (K (F := F)).Otc d n
/-- The (semaphore, index) pairs at or below the level the TensorCore's recorded waits stay under before call `n`. -/
abbrev Bw (d : Dev nD) (n : ℕ) : Set (SemLoc sig × HIx 1) := {p | (K (F := F)).lev (T d, p.1) p.2 ≤ 8 * n}

/-- After the first kernel's region: its output array at what the pipeline's one write-back leaves. -/
def W1 (d : Dev nD) : Valuation τ sig (Elt F) :=
  Function.update (W0 m d) (Proc.devRef .tc main_v0) ((Prep.dat (V0 m) (Ow (F := F) d 0) (Bw (F := F) d 0) d).arrAt 6 cfg0.N)
abbrev V1 : (c : Dev nD) → (b : Ref sig .tc) → Buf (Elt F) ((c : Thread nD τ).loc b) := fun c b => W1 m c b
/-- After the reshape of the index array. -/
abbrev W2 : Dev nD → Valuation τ sig (Elt F) := fun d => StableHlo.after hostOpsA (W1 m d)
abbrev V2 : (c : Dev nD) → (b : Ref sig .tc) → Buf (Elt F) ((c : Thread nD τ).loc b) := fun c b => W2 m c b
/-- After the gather: its output array at the gathered rows of the table, by the flat index list. -/
def W3 (d : Dev nD) : Valuation τ sig (Elt F) :=
  Function.update (W2 m d) (Proc.devRef .tc main_v2)
    (Cert.Spec.gath (V2 m d main_v0 : S3000x128.Idx → F .f32) (V2 m d main_v1 : S49152.Idx → BitVec 32) : S49152x128.Idx → F .f32)
abbrev V3 : (c : Dev nD) → (b : Ref sig .tc) → Buf (Elt F) ((c : Thread nD τ).loc b) := fun c b => W3 m c b
/-- After the nine host operations before the second kernel. -/
abbrev W4 : Dev nD → Valuation τ sig (Elt F) := fun d => StableHlo.after hostOpsB (W3 m d)
abbrev V4 : (c : Dev nD) → (b : Ref sig .tc) → Buf (Elt F) ((c : Thread nD τ).loc b) := fun c b => W4 m c b
/-- After the second kernel's region: its output array at what the sixteen write-backs leave. -/
def W5 (d : Dev nD) : Valuation τ sig (Elt F) :=
  Function.update (W4 m d) (Proc.devRef .tc main_v12) ((Mlp.dat (V4 m) (0 : CellTallies nD τ sig (HIx 1)) (Bw (F := F) d 1) d).arrAt 9 cfg2.N)
abbrev V5 : (c : Dev nD) → (b : Ref sig .tc) → Buf (Elt F) ((c : Thread nD τ).loc b) := fun c b => W5 m c b
/-- After the final reshape. -/
abbrev W6 : Dev nD → Valuation τ sig (Elt F) := fun d => StableHlo.after hostOpsC (W5 m d)

/-! ## The pipelines' proof data -/

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => Prep.dat (V0 m) (Ow (F := F) c 0) (Bw (F := F) c 0) c
  | ⟨1, _⟩ => fun c => Mlp.dat (V4 m) (0 : CellTallies nD τ sig (HIx 1)) (Bw (F := F) c 1) c

end Cert.Kernel.Chain

end
-- ==== Proof.ScBodySetup.lean ====
/-
  The places one vector subcore of the gather kernel touches: its three DMA semaphores and two scratch buffers among the
  subcore's own, and the geometry of its block of the output. Tile (c, s) has number w = 2 s + c and owns rows
  1536 w .. 1536 w + 1535 of the output; chunk t of the block is rows 1536 w + 128 t .. 1536 w + 128 t + 127, and the
  same 128 positions of the flat index list are the chunk's slice of it.
-/
import proofs.«205820_g61907658604586_cont_9to1_m_785_3_alg».proof.Kernel
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import proofs.«205820_g61907658604586_cont_9to1_m_785_3_alg».proof.Proof.Gen.Kernel
import proofs.«205820_g61907658604586_cont_9to1_m_785_3_alg».proof.Proof.Gen.Kernel.Skeleton
import proofs.«205820_g61907658604586_cont_9to1_m_785_3_alg».proof.Proof.Spec
import proofs.«205820_g61907658604586_cont_9to1_m_785_3_alg».proof.Proof.ScWordsLemmas

noncomputable section

namespace Cert.Kernel.ScBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ
local notation "mV" => (Memref.whole Cert.Kernel.main_v0_scv : Memref Cert.Kernel.sig Kind.scVector Space.hbm Cert.Kernel.S3000x128 EltTy.f32)
local notation "xV" => (Memref.whole Cert.Kernel.main_v1_scv : Memref Cert.Kernel.sig Kind.scVector Space.hbm Cert.Kernel.S49152 EltTy.i32)
local notation "oV" => (Memref.whole Cert.Kernel.main_v2_scv : Memref Cert.Kernel.sig Kind.scVector Space.hbm Cert.Kernel.S49152x128 EltTy.f32)
local notation "sV" => (Memref.whole Cert.Kernel.cc1_scratch0 : Memref Cert.Kernel.sig Kind.scVector Space.vmem Cert.Kernel.S128 EltTy.i32)
local notation "rV" => (Memref.whole Cert.Kernel.cc1_scratch1 : Memref Cert.Kernel.sig Kind.scVector Space.vmem Cert.Kernel.S128x128 EltTy.f32)

abbrev mLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

theorem odiv : 32 ∣ S49152x128.size 0 := ⟨1536, rfl⟩
abbrev orow (w : Fin 32) : Rect S49152x128 := Rect.part (s := S49152x128) (a₀ := 0) odiv w
abbrev oRowSet (w : Fin 32) : Finset S49152x128.Idx := ((oV).view.slice (orow w)).set

/-- The tile's number: twice the subcore's plus the SparseCore's. -/
def wid (L : grid1.Coords) : Fin 32 := ⟨2 * (L 1).val + (L 0).val, by
  have h0 : (L 0).val < 2 := (L 0).isLt
  have h1 : (L 1).val < 16 := (L 1).isLt
  omega⟩

abbrev cV (L : grid1.Coords) : Fin τ.nSC := (L 0).castLE hcore1
abbrev jV (L : grid1.Coords) : Fin τ.nSub := (L 1).castLE hsub1

/-! ## The subcore's semaphores and scratch buffers -/

section Own

variable (d : Dev nD) (L : grid1.Coords)

/-- The index fetch's, the gather's and the write-out's semaphore. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_xV (q : PosShare TreeShare) (f : Buf (Elt F) (xLoc d)) :
    ((xV).view.loc (V d (cV L) (jV L)) ↦{q} f : sProp 𝕄) = xLoc d ↦{q} f := rfl
theorem pts_mV (q : PosShare TreeShare) (f : Buf (Elt F) (mLoc d)) :
    ((mV).view.loc (V d (cV L) (jV L)) ↦{q} f : sProp 𝕄) = mLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

end Own

/-! ## The block's geometry -/

/-- The first row of chunk `t` of tile `L`'s block, which is also the first position of the chunk's slice of the index list. -/
def rowBase (L : grid1.Coords) (t : Nat) : Nat := 3072 * (L 1).val + 1536 * (L 0).val + 128 * t

theorem rowBase_wid (L : grid1.Coords) (t : Nat) : rowBase L t = 1536 * (wid L).val + 128 * t := by
  unfold rowBase wid; show _ = 1536 * (2 * (L 1).val + (L 0).val) + 128 * t; omega

theorem wid_lt (L : grid1.Coords) : (wid L).val < 32 := (wid L).isLt

/-- The chunk's slice of the index list, the chunk of the output, the whole table, as the program slices them. -/
abbrev xSliceK (L : grid1.Coords) (t : Fin k1_t1_loop.trips) : Memref sig .scVector .hbm S128 .i32 :=
  (xV).slice (Rect.unit (s := S49152) (k1_off1 L t) S128.size (k1_off1_inb L t)) (fun _ => rfl)
abbrev oChunkK (L : grid1.Coords) (t : Fin k1_t1_loop.trips) : Memref sig .scVector .hbm S128x128 .f32 :=
  (oV).slice (Rect.unit (s := S49152x128) (k1_off3 L t) S128x128.size (k1_off3_inb L t)) (fun _ => rfl)
abbrev mAllK : Memref sig .scVector .hbm S3000x128 .f32 :=
  (mV).slice (Rect.unit (s := S3000x128) ![0, 0] S3000x128.size inb_S3000x128_S3000x128_0_0) (fun _ => rfl)

theorem t1_lt (t : Fin k1_t1_loop.trips) : t.val < 12 := Nat.lt_of_lt_of_le t.isLt k1_t1_abs.2.1
theorem t2_lt (t : Fin k1_t2_loop.trips) : t.val < 8 := Nat.lt_of_lt_of_le t.isLt k1_t2_abs.2.1

theorem mem_oRowSet (w : Fin 32) (i : S49152x128.Idx) :
    i ∈ oRowSet w ↔ 1536 * w.val ≤ (i 0).val ∧ (i 0).val < 1536 * w.val + 1536 := by
  show i ∈ ((View.whole (main_v2_scv : Ref sig .scVector)).slice (orow w)).set ↔ _
  rw [View.set_slice_whole, Rect.mem_set_unit]
  constructor
  · intro h
    have h0 := h 0
    simp only [Shape.partIx, Shape.partSize, if_true] at h0
    have e : S49152x128.size 0 / 32 = 1536 := rfl
    rw [e] at h0
    omega
  · intro h a
    have h1 : (i 1).val < 128 := (i 1).isLt
    match a with
    | 0 =>
      simp only [Shape.partIx, Shape.partSize, if_true]
      have e : S49152x128.size 0 / 32 = 1536 := rfl
      rw [e]; omega
    | 1 =>
      simp only [Shape.partIx, Shape.partSize]
      have e : S49152x128.size 1 = 128 := rfl
      simp [e]; exact h1

theorem mem_chunk (L : grid1.Coords) (t : Fin k1_t1_loop.trips) (i : S49152x128.Idx) :
    i ∈ (oChunkK L t).view.set ↔ rowBase L t.val ≤ (i 0).val ∧ (i 0).val < rowBase L t.val + 128 := by
  show i ∈ ((View.whole (main_v2_scv : Ref sig .scVector)).slice (Rect.unit (s := S49152x128) (k1_off3 L t) S128x128.size (k1_off3_inb L t))).set ↔ _
  rw [View.set_slice_whole, Rect.mem_set_unit, k1_off3_eq]
  unfold rowBase
  constructor
  · intro h
    have h0 := h 0
    have e : S128x128.size 0 = 128 := rfl
    simp only [Matrix.cons_val_zero, e] at h0
    exact h0
  · intro h a
    have h1 : (i 1).val < 128 := (i 1).isLt
    match a with
    | 0 =>
      have e : S128x128.size 0 = 128 := rfl
      simp only [Matrix.cons_val_zero, e]; exact h
    | 1 =>
      have e : S128x128.size 1 = 128 := rfl
      simp [e]; exact h1

theorem chunk_subset (L : grid1.Coords) (t : Fin k1_t1_loop.trips) : (oChunkK L t).view.set ⊆ oRowSet (wid L) := by
  intro i hi
  rw [mem_chunk, rowBase_wid] at hi
  rw [mem_oRowSet]
  have := t1_lt t
  omega

/-- The chunk's rows and columns in the output's own coordinates. -/
theorem emb_chunk_0 (L : grid1.Coords) (t : Fin k1_t1_loop.trips) (y : S128x128.Idx) :
    ((oChunkK L t).view.emb y 0).val = rowBase L t.val + (y 0).val := by
  show (Rect.unit (s := S49152x128) (k1_off3 L t) S128x128.size (k1_off3_inb L t)).off 0
      + (Rect.unit (s := S49152x128) (k1_off3 L t) S128x128.size (k1_off3_inb L t)).stride 0 * (y 0).val = _
  simp only [Rect.off_unit, Rect.stride_unit, Nat.one_mul, k1_off3_eq, Matrix.cons_val_zero]; rfl
theorem emb_chunk_1 (L : grid1.Coords) (t : Fin k1_t1_loop.trips) (y : S128x128.Idx) :
    ((oChunkK L t).view.emb y 1).val = (y 1).val := by
  show (Rect.unit (s := S49152x128) (k1_off3 L t) S128x128.size (k1_off3_inb L t)).off 1
      + (Rect.unit (s := S49152x128) (k1_off3 L t) S128x128.size (k1_off3_inb L t)).stride 1 * (y 1).val = _
  simp only [Rect.off_unit, Rect.stride_unit, Nat.one_mul, k1_off3_eq]; simp
/-- The slice's positions in the index list's own coordinates. -/
theorem emb_xSlice (L : grid1.Coords) (t : Fin k1_t1_loop.trips) (j : S128.Idx) :
    ((xSliceK L t).view.emb j 0).val = rowBase L t.val + (j 0).val := by
  show (Rect.unit (s := S49152) (k1_off1 L t) S128.size (k1_off1_inb L t)).off 0
      + (Rect.unit (s := S49152) (k1_off1 L t) S128.size (k1_off1_inb L t)).stride 0 * (j 0).val = _
  simp only [Rect.off_unit, Rect.stride_unit, Nat.one_mul, k1_off1_eq, Matrix.cons_val_zero]; rfl

end Cert.Kernel.ScBody

end
-- ==== Proof.Pay.lean ====
/-
  What the launch's handshakes carry for the gather call. The TensorCore hands each SparseCore, and each SparseCore hands
  each of its sixteen vector subcores, a read share of the flat index list and of the table (the full share halved five
  times, one leaf per tile) and the tile's own block of 1536 rows of the output; back come the same shares and the block
  at the gathered rows. Tile (c, i) has number 2 i + c.
-/
import proofs.«205820_g61907658604586_cont_9to1_m_785_3_alg».proof.Proof.Chain
import proofs.«205820_g61907658604586_cont_9to1_m_785_3_alg».proof.Proof.ScBodySetup

set_option maxRecDepth 16384

noncomputable section

namespace Cert.Kernel.PayM

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Chain

variable {F : FTy → Type} [FloatOps F]

local notation "𝕄" => MT nD τ sig (HIx 1) (Elt F) ℕ UU ℕ

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Tile `w`'s share of a table every tile reads. -/
abbrev qt (w : Fin 32) : PosShare TreeShare := leaf 5 fullShare w

/-! ## The tiles' holdings -/

variable (m : (ℓ : Loc nD τ sig) → Buf (Elt F) ℓ)

/-- The flat index list, the table and the output array as the call finds them. -/
abbrev fx (d : Dev nD) : Buf (Elt F) (ScBody.xLoc d) := V2 m d main_v1
abbrev fm (d : Dev nD) : Buf (Elt F) (ScBody.mLoc d) := V2 m d main_v0
abbrev fo (d : Dev nD) : Buf (Elt F) (ScBody.oLoc d) := V2 m d main_v2

/-- What tile `w` is handed, -/
abbrev tileIn (d : Dev nD) (w : Fin 32) : sProp 𝕄 :=
  iprop((ScBody.xLoc d ↦{qt w} fx m d) ∗ (ScBody.mLoc d ↦{qt w} fm m d) ∗ (ScBody.oLoc d ↦[ScBody.oRowSet w]{fullShare} fo m d))
/-- and what it hands back: its block at the gathered rows. -/
abbrev tileOut (d : Dev nD) (w : Fin 32) : sProp 𝕄 :=
  iprop((ScBody.xLoc d ↦{qt w} fx m d) ∗ (ScBody.mLoc d ↦{qt w} fm m d)
    ∗ ∃ f, ⌜∀ i ∈ ScBody.oRowSet w, f i = Cert.Spec.gath (fm m d) (fx m d) i⌝ ∗ (ScBody.oLoc d ↦[ScBody.oRowSet w]{fullShare} f))

/-- The number of subcore `i` of SparseCore `c`. -/
def widOf (c : Fin ((K (F := F)).nCore 0)) (i : Fin ((K (F := F)).nSub 0)) : Fin 32 :=
  ⟨2 * i.val + c.val, by have hc : c.val < 2 := c.isLt; have hi : i.val < 16 := i.isLt; omega⟩

/-- The call's operands for SparseCore `c` are its sixteen tiles' holdings; each tile's go carries its own. -/
def P : (K (F := F)).Pay (nD := nD) (Val := Elt F) (Name := ℕ) (U := UU) where
  st := fun q d c => match q with | 0 => bigSep Finset.univ fun i : Fin ((K (F := F)).nSub 0) => tileIn m d (widOf c i)
  dn := fun q d c => match q with | 0 => bigSep Finset.univ fun i : Fin ((K (F := F)).nSub 0) => tileOut m d (widOf c i)
  go := fun q d c i => match q with | 0 => tileIn m d (widOf c i)
  td := fun q d c i => match q with | 0 => tileOut m d (widOf c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileIn m d (widOf c i)))
  dn q d c := match q with
    | 0 => (inferInstance : BI.Storable (upEmb : UEmb _ 𝕄) (bigSep Finset.univ fun i : Fin ((K (F := F)).nSub 0) => tileOut m d (widOf c i)))
  go q d c i := match q with
    | 0 => (inferInstance : BI.Storable (upEmb : UEmb _ 𝕄) (tileIn m d (widOf c i)))
  td q d c i := match q with
    | 0 => (inferInstance : BI.Storable (upEmb : UEmb _ 𝕄) (tileOut m d (widOf c i)))

/-- A SparseCore's operands are its tiles' holdings and nothing else: the split is the identity. -/
theorem vecSplit : (K (F := F)).VecSplit' (P m) 0 := by
  intro d c
  show (bigSep Finset.univ fun i : Fin ((K (F := F)).nSub 0) => tileIn m d (widOf c i))
    ⊢ |={Set.univ}=> iprop((bigSep Finset.univ fun i : Fin ((K (F := F)).nSub 0) => tileIn m d (widOf c i))
      ∗ ((bigSep Finset.univ fun i : Fin ((K (F := F)).nSub 0) => tileOut m d (widOf c i))
        -∗ bigSep Finset.univ fun i : Fin ((K (F := F)).nSub 0) => tileOut m d (widOf c i)))
  iintro H; imodintro
  isplitl [H]; · iexact H
  iintro H; iexact H

end Cert.Kernel.PayM

end
-- ==== Proof.Tiles.lean ====
/-
  The gather call's three arrays dealt to the thirty-two tiles and collected again: the index list and the table by read
  shares (one leaf of the full share halved five times per tile), the output array by its thirty-two blocks of 1536 rows,
  which are disjoint and cover it. Collected, the blocks each at the gathered rows are the whole array at the gathered rows.
-/
import proofs.«205820_g61907658604586_cont_9to1_m_785_3_alg».proof.Proof.Pay

set_option maxRecDepth 16384

noncomputable section

namespace Cert.Kernel.Tiles

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Chain Cert.Kernel.PayM

variable {F : FTy → Type} [FloatOps F]

local notation "𝕄" => MT nD τ sig (HIx 1) (Elt F) ℕ UU ℕ

variable (m : (ℓ : Loc nD τ sig) → Buf (Elt F) ℓ)

/-! ## The blocks partition the output array -/

theorem oRowSet_eq (w : Fin 32) : ScBody.oRowSet w = (ScBody.orow w).set := by
  show ((View.whole (main_v2_scv : Ref sig .scVector)).slice (ScBody.orow w)).set = _
  rw [View.set_slice]; exact Finset.map_refl
theorem orows_disjoint : ∀ i ∈ (Finset.univ : Finset (Fin 32)), ∀ j ∈ (Finset.univ : Finset (Fin 32)), i ≠ j → Disjoint (ScBody.oRowSet i) (ScBody.oRowSet j) :=
  fun i _ j _ h => by rw [oRowSet_eq, oRowSet_eq]; exact Rect.part_disjoint ScBody.odiv h
theorem orows_cover : (Finset.univ : Finset (Fin 32)).biUnion ScBody.oRowSet = Finset.univ :=
  (Finset.biUnion_congr rfl fun i _ => oRowSet_eq i).trans (Rect.biUnion_part ScBody.odiv)

theorem oPts_rows (d : Dev nD) (f : Buf (Elt F) (ScBody.oLoc d)) :
    (ScBody.oLoc d ↦{fullShare} f : sProp 𝕄) = bigSep Finset.univ fun w : Fin 32 => ScBody.oLoc d ↦[ScBody.oRowSet w]{fullShare} f := by
  rw [← pointsTo_biUnion Finset.univ (ℓ := ScBody.oLoc d) ScBody.oRowSet orows_disjoint, orows_cover]; try rfl

/-! ## Dealing and collecting -/

/-- The three arrays whole are the thirty-two tiles' holdings. -/
theorem tiles_split (d : Dev nD) :
    (iprop((ScBody.xLoc d ↦{fullShare} fx m d) ∗ (ScBody.mLoc d ↦{fullShare} fm m d) ∗ (ScBody.oLoc d ↦{fullShare} fo m d)) : sProp 𝕄)
      = bigSep Finset.univ fun w : Fin 32 => tileIn m d w := by
  rw [bigSep_sep', bigSep_sep', oPts_rows d (fo m d)]
  rw [pointsTo_leaves (F := F) Finset.univ (fx m d) 5 fullShare, pointsTo_leaves (F := F) Finset.univ (fm m d) 5 fullShare]
  rfl

theorem out_one (d : Dev nD) (G : Buf (Elt F) (ScBody.oLoc d)) (w : Fin 32) :
    (iprop(∃ f, ⌜∀ i ∈ ScBody.oRowSet w, f i = G i⌝ ∗ (ScBody.oLoc d ↦[ScBody.oRowSet w]{fullShare} f)) : sProp 𝕄)
      ⊢ (ScBody.oLoc d ↦[ScBody.oRowSet w]{fullShare} G : sProp 𝕄) := by
  iintro ⟨%f, %hf, H⟩
  iapply (Entails.of_eq (pointsTo_congr (q := fullShare) (ℓ := ScBody.oLoc d) (I := ScBody.oRowSet w) hf))
  iexact H

/-- A block at contents that agree with `G` on it is the block at `G`; the blocks at `G` are the array at `G`. -/
theorem out_join (d : Dev nD) (G : Buf (Elt F) (ScBody.oLoc d)) :
    (bigSep Finset.univ fun w : Fin 32 => iprop(∃ f, ⌜∀ i ∈ ScBody.oRowSet w, f i = G i⌝ ∗ (ScBody.oLoc d ↦[ScBody.oRowSet w]{fullShare} f)))
      ⊢ (ScBody.oLoc d ↦{fullShare} G : sProp 𝕄) := by
  rw [oPts_rows d G]
  exact bigSep_mono fun w _ => out_one d G w

/-- The thirty-two tiles' results are the index list and the table whole again and the output array at the gathered rows. -/
theorem tiles_join (d : Dev nD) :
    (bigSep Finset.univ fun w : Fin 32 => tileOut m d w)
      ⊢ (iprop((ScBody.xLoc d ↦{fullShare} fx m d) ∗ (ScBody.mLoc d ↦{fullShare} fm m d)
          ∗ (ScBody.oLoc d ↦{fullShare} (Cert.Spec.gath (fm m d) (fx m d) : Buf (Elt F) (ScBody.oLoc d)))) : sProp 𝕄) := by
  rw [bigSep_sep', bigSep_sep']
  rw [pointsTo_leaves (F := F) Finset.univ (fx m d) 5 fullShare, pointsTo_leaves (F := F) Finset.univ (fm m d) 5 fullShare]
  iintro ⟨Hx, Hm, Ho⟩
  isplitl [Hx]; · iexact Hx
  isplitl [Hm]; · iexact Hm
  iapply (out_join d _); iexact Ho

/-! ## Tiles by SparseCore and subcore, and by number -/

def tileEquiv : Fin ((K (F := F)).nCore 0) × Fin ((K (F := F)).nSub 0) ≃ Fin 32 where
  toFun p := widOf p.1 p.2
  invFun w := (⟨w.val % 2, Nat.mod_lt _ (by decide)⟩, ⟨w.val / 2, by have := w.isLt; show w.val / 2 < 16; omega⟩)
  left_inv := by
    rintro ⟨c, i⟩
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

theorem bigSep_tiles (Φ : Fin 32 → sProp 𝕄) :
    (bigSep Finset.univ fun c : Fin ((K (F := F)).nCore 0) => bigSep Finset.univ fun i : Fin ((K (F := F)).nSub 0) => Φ (widOf c i)) = bigSep Finset.univ Φ := by
  rw [← bigSep_univ_prod (fun p : Fin ((K (F := F)).nCore 0) × Fin ((K (F := F)).nSub 0) => Φ (widOf p.1 p.2)), bigSep_univ_equiv (tileEquiv (F := F)) Φ]
  rfl

end Cert.Kernel.Tiles

end
-- ==== Proof.ScBodyVal.lean ====
/-
  The values one chunk moves. A pass over sixteen lanes of the index scratch replaces word j by the word plus 1000 times
  the field of its position; the gather then reads, at row y of the row scratch, the table's row named by word y of the
  scratch; and that row is the row the specification's gathered array has at the chunk's y-th row.
-/
import proofs.«205820_g61907658604586_cont_9to1_m_785_3_alg».proof.Proof.ScBodySetup

noncomputable section

namespace Cert.Kernel.ScBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {U : Type} [URA U] [CountersIn U]

local notation "𝕄" => MT nD τ sig (HIx 1) (Elt F) ℕ U ℕ
local notation "mV" => (Memref.whole Cert.Kernel.main_v0_scv : Memref Cert.Kernel.sig Kind.scVector Space.hbm Cert.Kernel.S3000x128 EltTy.f32)
local notation "xV" => (Memref.whole Cert.Kernel.main_v1_scv : Memref Cert.Kernel.sig Kind.scVector Space.hbm Cert.Kernel.S49152 EltTy.i32)
local notation "oV" => (Memref.whole Cert.Kernel.main_v2_scv : Memref Cert.Kernel.sig Kind.scVector Space.hbm Cert.Kernel.S49152x128 EltTy.f32)
local notation "sV" => (Memref.whole Cert.Kernel.cc1_scratch0 : Memref Cert.Kernel.sig Kind.scVector Space.vmem Cert.Kernel.S128 EltTy.i32)
local notation "rV" => (Memref.whole Cert.Kernel.cc1_scratch1 : Memref Cert.Kernel.sig Kind.scVector Space.vmem Cert.Kernel.S128x128 EltTy.f32)

variable [FloatOps F]

/-- The pass's payload at a lane: the loaded word, fixed for its position in the index list. -/
theorem pay1_apply (L : grid1.Coords) (t : Fin k1_t1_loop.trips) (t₂ : Fin k1_t2_loop.trips) (v : Vec F S16 .i32) (x : S16.Idx) :
    k1_pay1 L t t₂ v x = Cert.ScWords.fix (rowBase L t.val + 16 * t₂.val + (x 0).val) (v x) := by
  have hx : (x 0).val < 16 := (x 0).isLt
  have h0 : (L 0).val < 2 := (L 0).isLt
  have h1 : (L 1).val < 16 := (L 1).isLt
  unfold Cert.ScWords.fix rowBase
  rw [← Cert.ScWords.pos_word (L 0).val (L 1).val t.val t₂.val (x 0).val h0 h1 (t1_lt t) (t2_lt t₂) hx]
  simp only [k1_pay1, shapeCast, Shape.reshapeEquiv_self, Idealize.ShloMosaic.addi, Idealize.ShloMosaic.muli, Idealize.ShloMosaic.remsi,
    broadcast, iota, List.foldl, Nat.zero_mul, Nat.zero_add]

/-- A position of a rank-one shape of 128 is its row-major number. -/
theorem rowMajor_symm_val (k : Fin S128.numel) : (S128.rowMajor.symm k 0).val = k.val := by
  have h := Shape.rowMajor_val_one (d := ![128]) (S128.rowMajor.symm k)
  rw [Equiv.apply_symm_apply] at h; exact h.symm

/-- One pass over lanes `16 t₂ .. 16 t₂ + 15` of the index scratch: the words before it were fixed by the earlier passes, its
    own are fixed by it, the later ones are still as fetched (`g`). -/
theorem pass_val (L : grid1.Coords) (t : Fin k1_t1_loop.trips) (t₂ : Fin k1_t2_loop.trips) (g : S128.Idx → Elt F .i32)
    (fs : (sV).view.ty.Contents (Elt F))
    (hfs : ∀ j : S128.Idx, fs j = if (j 0).val < 16 * t₂.val then Cert.ScWords.fix (rowBase L t.val + (j 0).val) (g j) else g j)
    (j : S128.Idx) :
    ((sV).view.writes (Elt F) fs [⟨Rect.unit (s := S128) (k1_off2 t₂) S16.size (k1_off2_inb t₂),
        k1_pay1 L t t₂ (View.readAt (Elt F) (sV).view (Rect.unit (s := S128) (k1_off2 t₂) S16.size (k1_off2_inb t₂)).toLoadRect fs)⟩]) j
      = if (j 0).val < 16 * (t₂.val + 1) then Cert.ScWords.fix (rowBase L t.val + (j 0).val) (g j) else g j := by
  rw [View.writes_singleton]
  have hk := t2_lt t₂
  have hj : (j 0).val < 128 := (j 0).isLt
  by_cases hm : 16 * t₂.val ≤ (j 0).val ∧ (j 0).val < 16 * t₂.val + 16
  · -- a lane of this pass
    let x : S16.Idx := ValueIdx.ix1 (⟨(j 0).val - 16 * t₂.val, by omega⟩ : Fin 16)
    have hx0 : (x 0).val = (j 0).val - 16 * t₂.val := rfl
    have hjx : (Rect.unit (s := S128) (k1_off2 t₂) S16.size (k1_off2_inb t₂)).emb x = j := by
      funext a; apply Fin.ext
      match a with
      | ⟨0, _⟩ =>
        show (k1_off2 t₂) 0 + 1 * (x 0).val = (j 0).val
        rw [k1_off2_eq, hx0]; simp only [Matrix.cons_val_zero]; omega
    have hw := View.write_emb_of_mem (v := (sV).view.slice (Rect.unit (s := S128) (k1_off2 t₂) S16.size (k1_off2_inb t₂))) (Val := Elt F) fs
      (k1_pay1 L t t₂ (View.readAt (Elt F) (sV).view (Rect.unit (s := S128) (k1_off2 t₂) S16.size (k1_off2_inb t₂)).toLoadRect fs))
      (Finset.mem_univ x)
    rw [show ((sV).view.slice (Rect.unit (s := S128) (k1_off2 t₂) S16.size (k1_off2_inb t₂))).emb x = j from hjx] at hw
    rw [hw, cast_eq, pay1_apply]
    rw [show View.readAt (Elt F) (sV).view (Rect.unit (s := S128) (k1_off2 t₂) S16.size (k1_off2_inb t₂)).toLoadRect fs x = fs j from
      congrArg fs hjx]
    rw [hfs j, if_neg (by omega), if_pos (by omega), hx0]
    congr 1; omega
  · -- a lane of another pass
    rw [View.write_of_not_mem]
    · rw [hfs j]
      by_cases h1 : (j 0).val < 16 * t₂.val
      · rw [if_pos h1, if_pos (by omega)]
      · rw [if_neg h1, if_neg (by omega)]
    · rw [View.setOn_univ]
      show j ∉ ((View.whole (cc1_scratch0 : Ref sig .scVector)).slice (Rect.unit (s := S128) (k1_off2 t₂) S16.size (k1_off2_inb t₂))).set
      rw [View.set_slice_whole, Rect.mem_set_unit]
      intro h
      have h0 := h 0
      rw [k1_off2_eq] at h0
      have e : S16.size 0 = 16 := rfl
      simp only [Matrix.cons_val_zero, e] at h0
      exact hm h0

/-- The gathered row, over plain arrays: the list's word for row `y` is the fixed word of position `base + y`, so the table's
    row it names is the row the specification reads for output row `base + y`. -/
theorem gather_val_core {α : Type} (fm : S3000x128.Idx → α) (fx : S49152.Idx → BitVec 32) (hx : ∀ j, (fx j).toNat ≤ 999)
    (base : Nat) (fs' : S128.Idx → Elt F .i32) (e : S128.Idx → S49152.Idx) (he : ∀ j, (e j 0).val = base + (j 0).val)
    (hfs : ∀ j, fs' j = Cert.ScWords.fix (base + (j 0).val) (fx (e j)))
    (hn : S128.numel = S128x128.size gathers_S3000x128_S128x128.axis')
    (hin : ∀ x, (fs' x).toNat < S3000x128.size gathers_S3000x128_S128x128.axis)
    (y : S128x128.Idx) (hb : base + (y 0).val < 49152)
    (i : S49152x128.Idx) (hi0 : (i 0).val = base + (y 0).val) (hi1 : (i 1).val = (y 1).val)
    (z : S3000x128.Idx) (hz0 : (z 0).val = (gathers_S3000x128_S128x128.idx (SparseCore.rows (F := F) fs' hn hin) y 0).val)
    (hz1 : (z 1).val = (gathers_S3000x128_S128x128.idx (SparseCore.rows (F := F) fs' hn hin) y 1).val) :
    fm z = Cert.Spec.gath fm fx i := by
  unfold Cert.Spec.gath
  congr 1
  funext a; apply Fin.ext
  match a with
  | ⟨0, _⟩ =>
    show (z 0).val = (Cert.Spec.rowOf fx (i 0)).val
    rw [hz0]
    have e1 := congrArg Fin.val (Shape.Gathers.idx_axis gathers_S3000x128_S128x128 (SparseCore.rows (F := F) fs' hn hin) y)
    rw [show (gathers_S3000x128_S128x128.idx (SparseCore.rows (F := F) fs' hn hin) y 0).val = _ from e1]
    show (fs' (S128.rowMajor.symm ((y 0).cast hn.symm))).toNat = _
    have hj : ((S128.rowMajor.symm ((y 0).cast hn.symm)) 0).val = (y 0).val := rowMajor_symm_val _
    rw [hfs, hj]
    unfold Cert.Spec.rowOf
    have hidx : (ValueIdx.ix1 (i 0) : S49152.Idx) = e (S128.rowMajor.symm ((y 0).cast hn.symm)) := by
      funext b; apply Fin.ext
      match b with
      | ⟨0, _⟩ => show (i 0).val = (e _ 0).val; rw [he, hj, hi0]
    rw [hidx, hi0, Cert.ScWords.toNat_fix _ _ hb (hx _)]
    have h3 : (base + (y 0).val) % 3 < 3 := Nat.mod_lt _ (by decide)
    exact (Cert.Spec.ofNat_row _ _ (hx _) h3).symm
  | ⟨1, _⟩ =>
    show (z 1).val = (i 1).val
    rw [hz1, hi1, Shape.Gathers.idx_of_ne gathers_S3000x128_S128x128 _ y 1 (by decide)]
    rfl

/-- What the gather delivers at an index of the chunk, the list's words fixed: the specification's gathered row. -/
theorem gather_val (d : Dev nD) (L : grid1.Coords) (t : Fin k1_t1_loop.trips)
    (fx : Buf (Elt F) (xLoc d)) (hx : ∀ j, (fx j).toNat ≤ 999) (fm : Buf (Elt F) (mLoc d)) (fs' : S128.Idx → Elt F .i32)
    (hfs : ∀ j, fs' j = Cert.ScWords.fix (rowBase L t.val + (j 0).val) (fx ((xSliceK L t).view.emb j)))
    (hn : S128.numel = S128x128.size gathers_S3000x128_S128x128.axis')
    (hin : ∀ x, (fs' x).toNat < S3000x128.size gathers_S3000x128_S128x128.axis) (y : S128x128.Idx) :
    SparseCore.gatherPayload gathers_S3000x128_S128x128 ((mAllK).view.read (Elt F) fm) (SparseCore.rows fs' hn hin) y
      = Cert.Spec.gath fm fx ((oChunkK L t).view.emb y) := by
  have hy0 : (y 0).val < 128 := (y 0).isLt
  have hb : rowBase L t.val + (y 0).val < 49152 := by
    have := t1_lt t; have := wid_lt L; rw [rowBase_wid]; omega
  unfold SparseCore.gatherPayload
  rw [show ∀ z, (mAllK).view.read (Elt F) fm z = fm ((mAllK).view.emb z) from fun z => (View.read_apply _ _).trans (cast_eq _ _)]
  exact gather_val_core (F := F) fm fx hx (rowBase L t.val) fs' (fun j => (xSliceK L t).view.emb j) (emb_xSlice L t) hfs hn hin y hb
    ((oChunkK L t).view.emb y) (emb_chunk_0 L t y) (emb_chunk_1 L t y) ((mAllK).view.emb _)
    (by show 0 + 1 * _ = _; omega) (by show 0 + 1 * _ = _; omega)

/-- The write-out through the chunk's slice: on the chunk the block holds what was written, -/
theorem chunk_write_emb (d : Dev nD) (L : grid1.Coords) (t : Fin k1_t1_loop.trips) (f : Buf (Elt F) (oLoc d))
    (p : S128x128.Idx → Elt F .f32) (y : S128x128.Idx) :
    (oChunkK L t).view.writes (Elt F) f [⟨Rect.whole S128x128, p⟩] ((oChunkK L t).view.emb y) = p y := by
  rw [View.writes_singleton]
  have h := View.write_emb_of_mem (v := (oChunkK L t).view.slice (Rect.whole S128x128)) (Val := Elt F) f p (Finset.mem_univ y)
  rw [show ((oChunkK L t).view.slice (Rect.whole S128x128)).emb y = (oChunkK L t).view.emb y from by
    show (oChunkK L t).view.emb ((Rect.whole S128x128).emb y) = _
    rw [Rect.emb_whole_apply]] at h
  rw [h, cast_eq]

/-- and off the chunk it is unchanged. -/
theorem chunk_write_off (d : Dev nD) (L : grid1.Coords) (t : Fin k1_t1_loop.trips) (f : Buf (Elt F) (oLoc d))
    (p : S128x128.Idx → Elt F .f32) (i : S49152x128.Idx) (hi : i ∉ (oChunkK L t).view.set) :
    (oChunkK L t).view.writes (Elt F) f [⟨Rect.whole S128x128, p⟩] i = f i := by
  rw [View.writes_singleton, View.write_of_not_mem]
  rw [View.setOn_univ, View.set_slice, Rect.set_whole]; exact hi

/-- A block whose rows before chunk `t` are gathered, its chunk `t` written with the gathered rows, has its rows before
    chunk `t + 1` gathered. -/
theorem block_val (d : Dev nD) (L : grid1.Coords) (t : Fin k1_t1_loop.trips)
    (fx : Buf (Elt F) (xLoc d)) (fm : Buf (Elt F) (mLoc d)) (f : Buf (Elt F) (oLoc d)) (p : S128x128.Idx → Elt F .f32)
    (hf : ∀ i ∈ oRowSet (wid L), (i 0).val < rowBase L t.val → f i = Cert.Spec.gath fm fx i)
    (hp : ∀ y, p y = Cert.Spec.gath fm fx ((oChunkK L t).view.emb y)) :
    ∀ i ∈ oRowSet (wid L), (i 0).val < rowBase L (t.val + 1) →
      (oChunkK L t).view.writes (Elt F) f [⟨Rect.whole S128x128, p⟩] i = Cert.Spec.gath fm fx i := by
  intro i hi hlt
  by_cases hc : i ∈ (oChunkK L t).view.set
  · obtain ⟨y, -, rfl⟩ := Finset.mem_map.mp hc
    rw [chunk_write_emb, hp]
  · rw [chunk_write_off d L t f p i hc]
    apply hf i hi
    rw [mem_chunk] at hc
    unfold rowBase at *
    omega

end Cert.Kernel.ScBody

end
-- ==== Proof.ScBody.lean ====
/-
  One vector subcore's run of the gather kernel, once, at a symbolic tile.

  For chunk t of the tile's block, at base = 1536 w + 128 t: the 128 words base .. base + 127 of the flat index list are
  copied into the index scratch; eight passes of sixteen lanes add to word j the number 1000 · ((base + j) mod 3), so that
  it names row  x(base + j) + 1000 · ((base + j) mod 3)  of the 3000-row table; the indirect gather copies those rows of
  the table into the row scratch; the row scratch is copied to rows base .. base + 127 of the output. Hence after t chunks
  rows 1536 w .. 1536 w + 128 t - 1 of the output are the gathered rows, and after twelve the whole block is.
-/
import proofs.«205820_g61907658604586_cont_9to1_m_785_3_alg».proof.Proof.ScBodySetup
import proofs.«205820_g61907658604586_cont_9to1_m_785_3_alg».proof.Proof.ScBodyVal

noncomputable section

namespace Cert.Kernel.ScBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {U : Type} [URA U] [CountersIn U]

local notation "𝕄" => MT nD τ sig (HIx 1) (Elt F) ℕ U ℕ
local notation "mV" => (Memref.whole Cert.Kernel.main_v0_scv : Memref Cert.Kernel.sig Kind.scVector Space.hbm Cert.Kernel.S3000x128 EltTy.f32)
local notation "xV" => (Memref.whole Cert.Kernel.main_v1_scv : Memref Cert.Kernel.sig Kind.scVector Space.hbm Cert.Kernel.S49152 EltTy.i32)
local notation "oV" => (Memref.whole Cert.Kernel.main_v2_scv : Memref Cert.Kernel.sig Kind.scVector Space.hbm Cert.Kernel.S49152x128 EltTy.f32)
local notation "sV" => (Memref.whole Cert.Kernel.cc1_scratch0 : Memref Cert.Kernel.sig Kind.scVector Space.vmem Cert.Kernel.S128 EltTy.i32)
local notation "rV" => (Memref.whole Cert.Kernel.cc1_scratch1 : Memref Cert.Kernel.sig Kind.scVector Space.vmem Cert.Kernel.S128x128 EltTy.f32)

variable [FloatOps F]

/-- The outer loop's invariant before chunk `k`: the index list and the table whole at their shares, the tile's block of
    the output with its first `128 k` rows gathered, the two scratch buffers at some contents, the three semaphores at
    zero, and what the tile owes. -/
def invO (d : Dev nD) (L : grid1.Coords) (qx qm : PosShare TreeShare) (fx : Buf (Elt F) (xLoc d)) (fm : Buf (Elt F) (mLoc d))
    (O : CellTallies nD τ sig (HIx 1)) (W : Waits sig (HIx 1)) (k : Nat) (_ : BitVec 32) : sProp 𝕄 :=
  iprop(Transfers.MayWaits (V d (cV L) (jV L)) (none : HIx 1) O
    ∗ ((xV).view.loc (V d (cV L) (jV L)) ↦{qx} fx)
    ∗ ((mV).view.loc (V d (cV L) (jV L)) ↦{qm} fm)
    ∗ (∃ f, ⌜∀ i ∈ oRowSet (wid L), (i 0).val < rowBase L k → f i = Cert.Spec.gath fm fx i⌝ ∗ (oLoc d ↦[oRowSet (wid L)]{fullShare} f))
    ∗ (∃ fs, (sV).view.loc (V d (cV L) (jV L)) ↦{fullShare} fs)
    ∗ (∃ fr, (rV).view.loc (V d (cV L) (jV L)) ↦{fullShare} fr)
    ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

/-- The inner loop's invariant before pass `k` of chunk `t`: the first `16 k` words of the index scratch are fixed for
    their positions, the rest are as fetched from the chunk's slice of the index list. -/
def invI (d : Dev nD) (L : grid1.Coords) (fx : Buf (Elt F) (xLoc d)) (t : Fin k1_t1_loop.trips) (k : Nat) (_ : BitVec 32) : sProp 𝕄 :=
  iprop(∃ fs : Buf (Elt F) ((V d (cV L) (jV L)).loc cc1_scratch0),
    ⌜∀ j : S128.Idx, fs j = if (j 0).val < 16 * k then Cert.ScWords.fix (rowBase L t.val + (j 0).val) (fx ((xSliceK L t).view.emb j))
        else fx ((xSliceK L t).view.emb j)⌝
    ∗ ((sV).view.loc (V d (cV L) (jV L)) ↦{fullShare} fs))

set_option maxHeartbeats 4000000 in
theorem tile_body (hF : (K (F := F)).Facts) (d : Dev nD) (L : grid1.Coords) (qx qm : PosShare TreeShare)
    (fx : Buf (Elt F) (xLoc d)) (hx : ∀ j, (fx j).toNat ≤ 999) (fm : Buf (Elt F) (mLoc d)) (fo : Buf (Elt F) (oLoc d))
    (O : CellTallies nD τ sig (HIx 1)) (W : Waits sig (HIx 1)) (hO : ∀ g, O g none = 0) :
    (iprop(levAts (K (F := F)).L (K (F := F)).lev ∗ emp
        ∗ ((xLoc d ↦{qx} fx) ∗ (mLoc d ↦{qm} fm) ∗ (oLoc d ↦[oRowSet (wid L)]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__sc_gather L mV (Memref.isWhole_whole _) xV (Memref.isWhole_whole _) oV (Memref.isWhole_whole _)
            sV (Memref.isWhole_whole _) rV (Memref.isWhole_whole _) cc1_scratch2 cc1_scoped0 cc1_scoped1)
          fun _ => iprop(((xLoc d ↦{qx} fx) ∗ (mLoc d ↦{qm} fm)
              ∗ ∃ f, ⌜∀ i ∈ oRowSet (wid L), f i = Cert.Spec.gath fm fx i⌝ ∗ (oLoc d ↦[oRowSet (wid L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel k1_t1_body k1_t2_body
  rw [(K (F := F)).scopedBufs_V hF d (cV L) (jV L), SparseCore.Cfg.scopedSems0_V (Val := Elt F) d (cV L) (jV L), ownSems0_V, ownBufs_V]
  iintro ⟨#Hlv, -, ⟨Hx, Hm, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) (U := U) d L _ _).symm) $$ Hx
  ihave Hm' := (Entails.of_eq (pts_mV (F := F) (U := U) d L _ _).symm) $$ Hm
  ihave Hs' := (Entails.of_eq (pts_sV (F := F) (U := U) d L _).symm) $$ Hs
  ihave Hr' := (Entails.of_eq (pts_rV (F := F) (U := U) d L _).symm) $$ Hr
  have htr1 : k1_t1_loop.trips = 12 := by decide
  have htr2 : k1_t2_loop.trips = 8 := by decide
  sl_for (invO d L qx qm fx fm O W) $$ [Hmw Hx' Hm' Ho Hs' Hr' HsemA HsemB HsemC HO]
  case region =>
    intro k acc
    unfold invO
    iintro ⟨#Hmw, Hx, Hm, ⟨%f, %hf, Ho⟩, ⟨%fs, Hs⟩, ⟨%fr, Hr⟩, HsemA, HsemB, HsemC, %W', %hW', HO⟩
    sl_exec
    sl_for (invI d L fx k) $$ [Hs]
    case region =>
      intro k2 acc2
      unfold invI
      iintro ⟨%fs2, %hfs2, Hs⟩
      sl_exec
      sl_step
      iexists _; isplitr
      swap; · iexact Hs
      ipureintro
      exact pass_val L k k2 (fun j => fx ((xSliceK L k).view.emb j)) fs2 hfs2
    · unfold invI
      iexists _; isplitr
      swap; · iexact Hs
      ipureintro; intro j
      rw [if_neg (by omega)]
      simp only [Memref.view_whole, View.write_whole_univ]
      rfl
    iintro %_ HI
    unfold invI
    icases HI with ⟨%fs3, %hfs3, Hs⟩
    have hfs4 : ∀ j : S128.Idx, fs3 j = Cert.ScWords.fix (rowBase L k.val + (j 0).val) (fx ((xSliceK L k).view.emb j)) := by
      intro j
      have hj : (j 0).val < 128 := (j 0).isLt
      rw [hfs3 j, if_pos]
      show (j 0).val < 16 * k1_t2_loop.trips
      rw [htr2]; omega
    have hinb : ∀ x, ((sV).view.read (Elt F) fs3 x).toNat < S3000x128.size gathers_S3000x128_S128x128.axis := by
      intro x
      have hx0 : (x 0).val < 128 := (x 0).isLt
      have hb : rowBase L k.val + (x 0).val < 49152 := by
        have := t1_lt k; have := wid_lt L; rw [rowBase_wid]; omega
      simp only [Memref.view_whole, View.read_whole]
      rw [hfs4 x]
      exact Cert.ScWords.fix_lt _ _ hb (hx _)
    -- the indirect gather: a share of the table on the slice's own elements, the row scratch, the list whole, the cell at zero
    ihave Hms := (pointsTo_split_subset (q := qm) (f := fm) (S := Finset.univ) (Finset.subset_univ (mAllK).view.set)).1 $$ Hm
    icases Hms with ⟨Hms, Hmr⟩
    have hrs : (rV).view.set = Finset.univ := View.set_whole _
    have hss : (sV).view.set = Finset.univ := View.set_whole _
    ihave Hr'' := (Entails.of_eq (show ((rV).view.loc (V d (cV L) (jV L)) ↦{fullShare} fr : sProp 𝕄)
        = (rV).view.loc (V d (cV L) (jV L)) ↦[(rV).view.set]{fullShare} fr by rw [hrs])) $$ Hr
    ihave Hs'' := (Entails.of_eq (show ((sV).view.loc (V d (cV L) (jV L)) ↦{fullShare} fs3 : sProp 𝕄)
        = (sV).view.loc (V d (cV L) (jV L)) ↦[(sV).view.set]{fullShare} fs3 by rw [hss])) $$ Hs
    iapply (SparseCore.wp_indirectGatherLocal countersEmb 𝒱₀ (V d (cV L) (jV L)) none (hg := gathers_S3000x128_S128x128) (default : HIx 1)
        (rV).view.dmaCredit (SparseCore.sum_rowCredit_eq_dmaCredit (rV) _ (fun _ => rfl)) (by decide) hinb) $$ [Hms Hr'' Hs'' HsemB]
    · isplitl [Hms]; · iexact Hms
      isplitl [Hr'']; · iexact Hr''
      isplitl [Hs'']; · iexact Hs''
      iexact HsemB
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc1_scratch2.sem)) $$ Hmw
    iintro ⟨⟨Hr, Hms, Hs⟩, HsemB, HO⟩
    ihave Hm := (pointsTo_split_subset (q := qm) (f := fm) (S := Finset.univ) (Finset.subset_univ (mAllK).view.set)).2 $$ [Hms Hmr]; · isplitl [Hms] <;> iassumption
    ihave Hr3 := (Entails.of_eq (show ((rV).view.loc (V d (cV L) (jV L)) ↦[(rV).view.set]{fullShare} _ : sProp 𝕄)
        = (rV).view.loc (V d (cV L) (jV L)) ↦{fullShare} _ by rw [hrs])) $$ Hr
    ihave Hs3 := (Entails.of_eq (show ((sV).view.loc (V d (cV L) (jV L)) ↦[(sV).view.set]{fullShare} _ : sProp 𝕄)
        = (sV).view.loc (V d (cV L) (jV L)) ↦{fullShare} _ by rw [hss])) $$ Hs
    -- the chunk of the output the write-out fills, as the program slices it
    ihave Hoc := (pointsTo_split_subset (q := fullShare) (f := f) (chunk_subset L k)).1 $$ Ho
    icases Hoc with ⟨Hoc, Hor⟩
    ihave Hoc' := (Entails.of_eq (show (oLoc d ↦[(oChunkK L k).view.set]{fullShare} f : sProp 𝕄)
        = (oChunkK L k).view.loc (V d (cV L) (jV L)) ↦[(oChunkK L k).view.set]{fullShare} f from rfl)) $$ Hoc
    sl_exec
    sl_step
    -- what the chunk now holds: the gathered rows, which are the specification's
    have hp : ∀ y, tile_body.sl.dma0_1 d L fm fr fs3 hinb y = Cert.Spec.gath fm fx ((oChunkK L k).view.emb y) := fun y => by
      have e := gather_val d L k fx hx fm ((sV).view.read (Elt F) fs3) hfs4 rfl hinb y
      rw [← e]
      exact congrFun (View.write_whole_univ (cc1_scratch1 : Ref sig .scVector) (Val := Elt F) fr _) y
    isplitr; · iexact Hmw
    isplitl [Hx]; · iexact Hx
    isplitl [Hm]; · iexact Hm
    isplitl [Hoc' Hor]
    · iexists ((oChunkK L k).view.writes (Elt F) f [⟨Rect.whole S128x128, tile_body.sl.dma0_1 d L fm fr fs3 hinb⟩])
      isplitr
      · ipureintro
        exact block_val d L k fx fm f _ hf hp
      · ihave Hor' := (Entails.of_eq (pointsTo_congr (q := fullShare) (ℓ := oLoc d)
            (g := (oChunkK L k).view.writes (Elt F) f [⟨Rect.whole S128x128, tile_body.sl.dma0_1 d L fm fr fs3 hinb⟩])
            (fun i hi => (chunk_write_off d L k f _ i (Finset.mem_sdiff.mp hi).2).symm))) $$ Hor
        iapply (pointsTo_split_subset (q := fullShare) (chunk_subset L k)).2
        isplitl [Hoc']
        · iexact Hoc'
        · iexact Hor'
    isplitl [Hs3]; · iexists _; iexact Hs3
    isplitl [Hr3]; · iexists _; iexact Hr3
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold invO
    isplitr; · iexact Hmw
    isplitl [Hx']; · iexact Hx'
    isplitl [Hm']; · iexact Hm'
    isplitl [Ho]
    · iexists fo; isplitr
      · ipureintro; intro i hi hlt; exfalso
        rw [mem_oRowSet] at hi; rw [rowBase_wid] at hlt; omega
      · iexact Ho
    isplitl [Hs']; · iexists _; iexact Hs'
    isplitl [Hr']; · iexists _; iexact Hr'
    isplitl [HsemA]; · iexact HsemA
    isplitl [HsemB]; · iexact HsemB
    isplitl [HsemC]; · iexact HsemC
    iexists W; isplitr
    · ipureintro; exact fun p hp => .inl hp
    · iexact HO
  iintro %_ HI
  unfold invO
  icases HI with ⟨-, Hx, Hm, ⟨%f, %hf, Ho⟩, ⟨%fs', Hs⟩, ⟨%fr', Hr⟩, HsemA, HsemB, HsemC, %W', %hW', HO⟩
  sl_exec
  sl_step
  isplitl [Hx Hm Ho]
  · isplitl [Hx]; · iexact Hx
    isplitl [Hm]; · iexact Hm
    iexists f; isplitr
    · ipureintro; intro i hi
      apply hf i hi
      rw [mem_oRowSet] at hi
      show (i 0).val < rowBase L k1_t1_loop.trips
      rw [htr1, rowBase_wid]; omega
    · iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

/-! ## The kernel function as the label table calls it -/

/-- The grid point of a SparseCore and a subcore, as the label table builds it. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          mV (Memref.isWhole_whole _) xV (Memref.isWhole_whole _) oV (Memref.isWhole_whole _)
          sV (Memref.isWhole_whole _) rV (Memref.isWhole_whole _) cc1_scratch2 cc1_scoped0 cc1_scoped1) ⟨⟩ c s := rfl

end Cert.Kernel.ScBody

end
-- ==== Proof.TileObl.lean ====
/-
  The gather kernel's body as the launch theorem's obligation for one vector subcore's task: from what its go hands it
  (read shares of the index list and the table, its block of the output) and its scoped storage, to what its taskDone
  hands back (the block at the gathered rows).
-/
import proofs.«205820_g61907658604586_cont_9to1_m_785_3_alg».proof.Proof.Pay
import proofs.«205820_g61907658604586_cont_9to1_m_785_3_alg».proof.Proof.ScBody

set_option maxRecDepth 16384

noncomputable section

namespace Cert.Kernel.TileOb

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Chain Cert.Kernel.PayM

variable {F : FTy → Type} [FloatOps F]

local notation "𝕄" => MT nD τ sig (HIx 1) (Elt F) ℕ UU ℕ

variable (m : (ℓ : Loc nD τ sig) → Buf (Elt F) ℓ)

/-- What the proof asks of the launch memory: every entry of the flat index list is at most 999. -/
def PreOK : Prop := ∀ (d : Dev nD) (j : S49152.Idx), ((fx m d : S49152.Idx → BitVec 32) j).toNat ≤ 999

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem wid_coords (c : Fin ((K (F := F)).nCore 0)) (i : Fin ((K (F := F)).nSub 0)) (h0 h1) :
    ScBody.wid (ScBody.coordsV ⟨((K (F := F)).core 0 c).val, h0⟩ ⟨((K (F := F)).sub 0 i).val, h1⟩) = widOf c i := Fin.ext rfl

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [ScBody.defs₀_vector]; simp only [SparseCore.onTile, hci, and_self, ↓reduceDIte]
  have hb := ScBody.tile_body (F := F) (U := UU) facts d (ScBody.coordsV ⟨_, hci.1⟩ ⟨_, hci.2⟩) (qt (widOf c i)) (qt (widOf c i)) (fx m d) (hpre d) (fm m d) (fo m d) O W hO
  rw [wid_coords c i hci.1 hci.2] at hb
  exact hb.trans (wp_mono frame _ _ fun _ => obl_post)

end Cert.Kernel.TileOb

end
-- ==== Proof.Regions.lean ====
/-
  The two TensorCore kernel regions as segments of @main over the thread state "every unscoped buffer whole at the
  boundary's contents, the generator register at some state, the core owing the SparseCores their start signals with its
  recorded waits below the current call's level": entered from one boundary's contents and left at the next one's. The
  host stretches between them are lines of StableHLO operations over the same thread state.
-/
import proofs.«205820_g61907658604586_cont_9to1_m_785_3_alg».proof.Proof.Chain

set_option maxRecDepth 16384

noncomputable section

namespace Cert.Kernel.Regions

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Chain

variable {F : FTy → Type} [FloatOps F]

local notation "𝕄" => MT nD τ sig (HIx 1) (Elt F) ℕ UU ℕ

variable (m : (ℓ : Loc nD τ sig) → Buf (Elt F) ℓ)

abbrev Lk : GSem nD τ sig → Finset (HIx 1) := (K (F := F)).L
abbrev lvk : GSem nD τ sig → HIx 1 → ℕ := (K (F := F)).lev

/-- What rides beside the buffers: the generator register at some state, and the core's debts `O` with every recorded wait
    at or below level `8 n`. -/
abbrev Rs (d : Dev nD) (O : CellTallies nD τ sig (HIx 1)) (n : ℕ) : sProp 𝕄 :=
  iprop((∃ r, prngReg d r) ∗ ∃ Ws, ⌜(K (F := F)).WBelow (T d) Ws (8 * n)⌝ ∗ owes (T d) O Ws)

/-- The thread state at a boundary. -/
abbrev St (d : Dev nD) (W : Valuation τ sig (Elt F)) (O : CellTallies nD τ sig (HIx 1)) (n : ℕ) : sProp 𝕄 :=
  iprop(StableHlo.held (T d) (Pipeline.ucRefs τ sig) W ∗ Rs (F := F) d O n)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (O : Dev nD → CellTallies nD τ sig (HIx 1)) (n : ℕ) :
    Pipeline.HostSeg (Name := ℕ) (U := UU) (pcfgs (F := F)) defs₀ 𝒱₀ (Lk (F := F)) (lvk (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun d => Rs (F := F) d (O d) n)

/-- A recorded wait of a pipeline's own, at the index the kernels' own waits use, sits at level 0. -/
theorem wbelow_of_bound (d : Dev nD) (n : ℕ) {cfg : Pipeline.Cfg sig Λ₀} (Ws : Waits sig (HIx 1))
    (h : (↑Ws : Set (SemLoc sig × HIx 1)) ⊆ Bw (F := F) d n ∪ cfg.waitPairs none) : (K (F := F)).WBelow (T d) Ws (8 * n) := by
  intro p hp
  rcases h hp with h | ⟨w, s, rfl⟩
  · exact h
  · rw [SparseCore.Cfg.lev_none]; exact Nat.zero_le _

/-! ## The second kernel's region -/

theorem hF2 (c : Dev nD) (w : Fin cfg2.W) :
    (Mlp.dat (V4 m) (0 : CellTallies nD τ sig (HIx 1)) (Bw (F := F) c 1) c).arrAt w cfg2.N = V5 m c (Pipeline.arrRef spec2 w) := by
  by_cases h : w = 9
  · subst h
    show _ = W5 m c (Proc.devRef .tc main_v12)
    unfold W5; rw [Function.update_self]
  · have hin : (cfg2.win w).isOut = false := by revert w; decide
    have hne : Pipeline.arrRef spec2 w ≠ main_v12 := by revert w; decide
    rw [(Mlp.dat (V4 m) (0 : CellTallies nD τ sig (HIx 1)) (Bw (F := F) c 1) c).arrAt_in w hin, Mlp.A_eq]
    show _ = W5 m c (Proc.devRef .tc (Pipeline.arrRef spec2 w))
    unfold W5; rw [Function.update_of_ne (StableHlo.devRef_ne_of_ne hne)]

theorem hrest2 (c : Dev nD) : ∀ b, b ∉ Finset.univ.image (Pipeline.arrRef spec2) → V5 m c b = V4 m c b := by
  intro b hb
  have hne : b ≠ main_v12 := fun e => hb (e ▸ Finset.mem_image.mpr ⟨9, Finset.mem_univ _, rfl⟩)
  show W5 m c (Proc.devRef .tc b) = _
  unfold W5; rw [Function.update_of_ne (StableHlo.devRef_ne_of_ne hne)]

set_option backward.isDefEq.respectTransparency.types false in
/-- The second kernel's region: entered from the buffers at `W4`, left at `W5`; its ten arrays split out of the unscoped
    buffers and put back at the exit contents; the generator register into the region's invariant and out; the core
    owes nothing by now, its recorded waits stay below the next call's level; no semaphore of the kernel's own. -/
def regM : Pipeline.RegionSeg (pcfgs (F := F)) adm (pdats m) none defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := (Mlp.body_obligation (V4 m) (0 : CellTallies nD τ sig (HIx 1)) (Bw (F := F) c 1) c).loose
  hwaits := Pipeline.hwaits_of_owed_zero _ _ _ _ (Lk (F := F)) (lvk (F := F)) 1 fun _ _ => rfl
  pre c := St (F := F) c (W4 m c) 0 1
  post c := St (F := F) c (W5 m c) 0 1
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats m 1 c).Φ 0 = ΦR spec2 c from rfl]; unfold ΦR
    iintro ⟨Hp, -, Hr⟩
    isplitl [Hr]; · iexact Hr
    iexact Hp
  hout c := by
    rw [Pipeline.ownSems0_none, show (pdats m 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact wbelow_of_bound c 1 W hW
    iexact HO

/-! ## The first kernel's region

Two of the four tables are read through two windows each, so the windows' arrays are not distinct buffers: the split of the
unscoped buffers into the windows' arrays is done by hand here, the two tables halved between their two windows. -/

/-- The five buffers the first kernel's windows name: the four tables and its output array. -/
abbrev Tp : Finset (DevRef τ sig) :=
  {Proc.devRef .tc main_arg1, Proc.devRef .tc main_arg2, Proc.devRef .tc main_arg3, Proc.devRef .tc main_arg4, Proc.devRef .tc main_v0}

theorem Tp_sub : (Tp : Finset (DevRef τ sig)) ⊆ Pipeline.ucRefs τ sig := by decide

theorem held_Tp (d : Dev nD) (W : Valuation τ sig (Elt F)) :
    (StableHlo.held (T d) Tp W : sProp 𝕄)
      = iprop(((d, Proc.devRef .tc main_arg1) ↦{fullShare} W (Proc.devRef .tc main_arg1)) ∗ ((d, Proc.devRef .tc main_arg2) ↦{fullShare} W (Proc.devRef .tc main_arg2))
          ∗ ((d, Proc.devRef .tc main_arg3) ↦{fullShare} W (Proc.devRef .tc main_arg3)) ∗ ((d, Proc.devRef .tc main_arg4) ↦{fullShare} W (Proc.devRef .tc main_arg4))
          ∗ ((d, Proc.devRef .tc main_v0) ↦{fullShare} W (Proc.devRef .tc main_v0))) := by
  unfold StableHlo.held Tp
  rw [SparseCore.bigSep_insert' (by decide), SparseCore.bigSep_insert' (by decide), SparseCore.bigSep_insert' (by decide), SparseCore.bigSep_insert' (by decide), bigSep_singleton]

theorem halves {ℓ : Loc nD τ sig} (f : Buf (Elt F) ℓ) :
    (ℓ ↦{fullShare} f : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-- What the TensorCore owes before the call is owed at a call's index, never at the kernels' own. -/
theorem Ow_none (d : Dev nD) (n : ℕ) (g : GSem nD τ sig) : Ow (F := F) d n g none = 0 := by
  by_contra h
  have := (K (F := F)).lev_of_Otc_pos (Nat.pos_of_ne_zero h)
  rw [SparseCore.Cfg.lev_none] at this; omega

theorem W1_of_ne (d : Dev nD) (b : Ref sig .tc) (hb : b ≠ main_v0) : W1 m d (Proc.devRef .tc b) = W0 m d (Proc.devRef .tc b) := by
  unfold W1; rw [Function.update_of_ne (StableHlo.devRef_ne_of_ne hb)]

/-- The first kernel's arrays, window by window, each a whole buffer at the window's share. -/
theorem arrays_shares (c : Dev nD) (G : (w : Fin cfg0.W) → Buf (Elt F) ((cfg0.win w).arr.view.loc (c.tc : Thread nD τ))) :
    ((Prep.dat (V0 m) (Ow (F := F) c 0) (Bw (F := F) c 0) c).arrays G : sProp 𝕄)
      = bigSep Finset.univ fun w : Fin 7 => (((c.tc : Thread nD τ).loc (Pipeline.arrRef spec0 w)) ↦{(Prep.dat (V0 m) (Ow (F := F) c 0) (Bw (F := F) c 0) c).share w} G w : sProp 𝕄) := by
  unfold Pipeline.Dat.arrays
  exact bigSep_congr fun w _ => by rw [(arr_whole0 w).set_eq_univ]

theorem share_p (c : Dev nD) :
    (Prep.dat (V0 m) (Ow (F := F) c 0) (Bw (F := F) c 0) c).share 0 = fullShare ∧ (Prep.dat (V0 m) (Ow (F := F) c 0) (Bw (F := F) c 0) c).share 1 = fullShare
    ∧ (Prep.dat (V0 m) (Ow (F := F) c 0) (Bw (F := F) c 0) c).share 2 = fullShare.left ∧ (Prep.dat (V0 m) (Ow (F := F) c 0) (Bw (F := F) c 0) c).share 3 = fullShare.left
    ∧ (Prep.dat (V0 m) (Ow (F := F) c 0) (Bw (F := F) c 0) c).share 4 = fullShare.right ∧ (Prep.dat (V0 m) (Ow (F := F) c 0) (Bw (F := F) c 0) c).share 5 = fullShare.right
    ∧ (Prep.dat (V0 m) (Ow (F := F) c 0) (Bw (F := F) c 0) c).share 6 = fullShare := by
  unfold Pipeline.Dat.share
  refine ⟨?_, ?_, ?_, ?_, ?_, ?_, ?_⟩
  · rw [if_neg (by decide)]; dsimp only [Prep.dat]
  · rw [if_neg (by decide)]; dsimp only [Prep.dat]
  · rw [if_neg (by decide)]; dsimp only [Prep.dat]
  · rw [if_neg (by decide)]; dsimp only [Prep.dat]
  · rw [if_neg (by decide)]; dsimp only [Prep.dat]
  · rw [if_neg (by decide)]; dsimp only [Prep.dat]
  · rw [if_pos (by decide)]

/-- The seven windows' arrays as the five buffers behind them, the two doubled tables in halves. -/
theorem arrays_buffers (c : Dev nD) (G : (w : Fin cfg0.W) → Buf (Elt F) ((cfg0.win w).arr.view.loc (c.tc : Thread nD τ))) :
    ((Prep.dat (V0 m) (Ow (F := F) c 0) (Bw (F := F) c 0) c).arrays G : sProp 𝕄)
      = iprop((((c.tc : Thread nD τ).loc main_arg1) ↦{fullShare} G 0) ∗ (((c.tc : Thread nD τ).loc main_arg2) ↦{fullShare} G 1)
          ∗ (((c.tc : Thread nD τ).loc main_arg3) ↦{fullShare.left} G 2) ∗ (((c.tc : Thread nD τ).loc main_arg4) ↦{fullShare.left} G 3)
          ∗ (((c.tc : Thread nD τ).loc main_arg3) ↦{fullShare.right} G 4) ∗ (((c.tc : Thread nD τ).loc main_arg4) ↦{fullShare.right} G 5)
          ∗ (((c.tc : Thread nD τ).loc main_v0) ↦{fullShare} G 6)) := by
  obtain ⟨h0, h1, h2, h3, h4, h5, h6⟩ := share_p m c
  rw [arrays_shares, bigSep_W0, h0, h1, h2, h3, h4, h5, h6]

/-- Every input window's array ends the region as it entered it. -/
theorem arrAt_in_p (c : Dev nD) (w : Fin cfg0.W) (hw : w ≠ 6) (n : ℕ) :
    (Prep.dat (V0 m) (Ow (F := F) c 0) (Bw (F := F) c 0) c).arrAt w n = V0 m c (Pipeline.arrRef spec0 w) := by
  have hin : (cfg0.win w).isOut = false := by revert w; decide
  rw [(Prep.dat (V0 m) (Ow (F := F) c 0) (Bw (F := F) c 0) c).arrAt_in w hin, Prep.A_eq]

theorem W1_v0 (c : Dev nD) : W1 m c (Proc.devRef .tc main_v0) = (Prep.dat (V0 m) (Ow (F := F) c 0) (Bw (F := F) c 0) c).arrAt 6 cfg0.N := by
  unfold W1; rw [Function.update_self]

theorem W1_rest (c : Dev nD) (b : DevRef τ sig) (hb : b ∈ Pipeline.ucRefs τ sig \ Tp) : W1 m c b = W0 m c b := by
  have hne : b ≠ Proc.devRef .tc main_v0 := fun e => (Finset.mem_sdiff.mp hb).2 (e ▸ by decide)
  unfold W1; rw [Function.update_of_ne hne]

set_option backward.isDefEq.respectTransparency.types false in
/-- The first kernel's region: entered from the launch contents, left with its output array written. -/
def regP : Pipeline.RegionSeg (pcfgs (F := F)) adm (pdats m) none defs₀ 𝒱₀ (Lk (F := F)) (lvk (F := F)) 0 where
  win := winFacts₀0
  block_pos := block_pos0
  stage_whole := stage_whole0
  K := PEmpty
  osem k := k.elim
  ho := Pipeline.OwnSemFacts.none _
  hbody c := (Prep.body_obligation (V0 m) (Ow (F := F) c 0) (Bw (F := F) c 0) c).loose
  hwaits c := Pipeline.cellsWaits_intro (Pipeline.pin (pcfgs (F := F)) adm) (pdats m) none 0 c
    fun w s t => (K (F := F)).mayWait_none _ (Ow_none (F := F) c 0)
  pre c := St (F := F) c (W0 m c) (Ow (F := F) c 0) 0
  post c := St (F := F) c (W1 m c) (Ow (F := F) c 0) 0
  X c := iprop(∃ r, prngReg c r)
  Y c := iprop(∃ r, prngReg c r)
  Z c := StableHlo.held (T c) (Pipeline.ucRefs τ sig \ Tp) (W0 m c)
  hentry c := by
    rw [Pipeline.ownSems0_none, show (pdats m 0 c) = Prep.dat (V0 m) (Ow (F := F) c 0) (Bw (F := F) c 0) c from rfl, arrays_buffers]
    iintro ⟨⟨Hub, Hp, HO⟩, -, -⟩
    ihave H := (Entails.of_eq (StableHlo.held_sub_split (T c) Tp_sub (W0 m c))) $$ Hub
    icases H with ⟨Ht, Hrest⟩
    ihave Ht' := (Entails.of_eq (held_Tp c (W0 m c))) $$ Ht
    icases Ht' with ⟨H1, H2, H3, H4, H0⟩
    ihave H3' := (Entails.of_eq (halves (F := F) _)) $$ H3
    icases H3' with ⟨H3l, H3r⟩
    ihave H4' := (Entails.of_eq (halves (F := F) _)) $$ H4
    icases H4' with ⟨H4l, H4r⟩
    imodintro
    isplitl [H1 H2 H3l H3r H4l H4r H0]
    · isplitl [H1]; · iexact H1
      isplitl [H2]; · iexact H2
      isplitl [H3l]; · iexact H3l
      isplitl [H4l]; · iexact H4l
      isplitl [H3r]; · iexact H3r
      isplitl [H4r]; · iexact H4r
      iexact H0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats m 0 c).Φ 0 = ΦR spec0 c from rfl]; unfold ΦR
    iintro ⟨Hp, -, Hr⟩
    isplitl [Hr]; · iexact Hr
    iexact Hp
  hout c := by
    rw [Pipeline.ownSems0_none, show (pdats m 0 c).Φ (Fin.last _) = ΦR spec0 c from rfl]; unfold ΦR
    iintro ⟨Hr, Hp⟩
    isplitl [Hp]; · iexact Hp
    isplitr; · iempintro
    iexact Hr
  hexit c := by
    rw [show (pdats m 0 c) = Prep.dat (V0 m) (Ow (F := F) c 0) (Bw (F := F) c 0) c from rfl, arrays_buffers]
    rw [arrAt_in_p m c 0 (by decide), arrAt_in_p m c 1 (by decide), arrAt_in_p m c 2 (by decide), arrAt_in_p m c 3 (by decide),
      arrAt_in_p m c 4 (by decide), arrAt_in_p m c 5 (by decide)]
    iintro ⟨⟨H1, H2, H3l, H4l, H3r, H4r, H0⟩, HO, HY, Hrest⟩
    imodintro
    isplitl [H1 H2 H3l H4l H3r H4r H0 Hrest]
    · iapply (Entails.of_eq (StableHlo.held_sub_split (T c) Tp_sub (W1 m c)).symm)
      isplitl [H1 H2 H3l H4l H3r H4r H0]
      · iapply (Entails.of_eq (held_Tp c (W1 m c)).symm)
        rw [W1_of_ne m c main_arg1 (by decide), W1_of_ne m c main_arg2 (by decide), W1_of_ne m c main_arg3 (by decide), W1_of_ne m c main_arg4 (by decide)]
        isplitl [H1]; · iexact H1
        isplitl [H2]; · iexact H2
        isplitl [H3l H3r]
        · iapply (Entails.of_eq (halves (F := F) _).symm); isplitl [H3l] <;> iassumption
        isplitl [H4l H4r]
        · iapply (Entails.of_eq (halves (F := F) _).symm); isplitl [H4l] <;> iassumption
        iapply (Entails.of_eq (congrArg (fun f => (((c.tc : Thread nD τ).loc main_v0) ↦{fullShare} f : sProp 𝕄)) (W1_v0 m c).symm))
        iexact H0
      · iapply (Entails.of_eq (StableHlo.held_congr (T c) (S := Pipeline.ucRefs τ sig \ Tp) (V := W0 m c) (V' := W1 m c) (fun b hb => (W1_rest m c b hb).symm)))
        iexact Hrest
    isplitl [HY]; · iexact HY
    unfold Pipeline.Dat.owesAt Pipeline.owesWithin
    icases HO with ⟨%W, %hW, HO⟩; iexists W; isplitr
    · ipureintro; exact wbelow_of_bound c 0 W hW
    iexact HO

end Cert.Kernel.Regions

end
-- ==== Proof.Launch.lean ====
/-
  @main on the TensorCore, run through the SparseCore launch theorem: the first kernel's region and the reshape of the
  index array, the gather call (the three arrays dealt to the thirty-two tiles and collected), nine host operations, the
  second kernel's region and the final reshape; the launch element of the ghost state; and what the final memory holds.
-/
import proofs.«205820_g61907658604586_cont_9to1_m_785_3_alg».proof.Proof.Tiles
import proofs.«205820_g61907658604586_cont_9to1_m_785_3_alg».proof.Proof.TileObl
import proofs.«205820_g61907658604586_cont_9to1_m_785_3_alg».proof.Proof.Regions

set_option maxRecDepth 16384

noncomputable section

namespace Cert.Kernel.Launch

open Cert.Kernel Cert.Kernel.Gen Cert.Kernel.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Chain Cert.Kernel.PayM Cert.Kernel.Tiles Cert.Kernel.TileOb Cert.Kernel.Regions

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main in three stretches -/

abbrev progA : Prog (TpuEff nD τ sig (Elt F) (ΛP (F := F)) .tc) PUnit :=
  Pipeline.chain [Prog.lift (.customCall (Pipeline.entry 0) ()), StableHlo.seq hostOpsA]
abbrev progB : Prog (TpuEff nD τ sig (Elt F) (ΛP (F := F)) .tc) PUnit :=
  Pipeline.chain [StableHlo.seq hostOpsB, Prog.lift (.customCall (Pipeline.entry 1) ()), StableHlo.seq hostOpsC]

theorem main_split (d : Dev nD) : main (F := F) d
    = (SparseCore.liftProg (Q := 1) (progA (F := F)) >>= fun _ => (sc (F := F)).run d 0 >>= fun _ => SparseCore.liftProg (Q := 1) (progB (F := F))) := by
  rfl

/-- Before the gather call: the first kernel's region, then the reshape of the index array. -/
abbrev segsA : List (Pipeline.Seg (pcfgs (F := F)) adm (pdats m) none defs₀ 𝒱₀ (Lk (F := F)) (lvk (F := F))) :=
  [ .region (regP m),
    .host (hseg hostOpsA hostOpsA_sub hostOpsA_fresh (W1 m) (fun d => Ow (F := F) d 0) 0) ]
/-- After it: nine host operations, the second kernel's region, the final reshape. -/
abbrev segsB : List (Pipeline.Seg (pcfgs (F := F)) adm (pdats m) none defs₀ 𝒱₀ (Lk (F := F)) (lvk (F := F))) :=
  [ .host (hseg hostOpsB hostOpsB_sub hostOpsB_fresh (W3 m) (fun _ => 0) 1),
    .region (regM m),
    .host (hseg hostOpsC hostOpsC_sub hostOpsC_fresh (W5 m) (fun _ => 0) 1) ]

theorem progA_run : progA (F := F) = Pipeline.Seg.run (segsA m) := by
  rw [Pipeline.Seg.run_eq_chain]; rfl
theorem progB_run : progB (F := F) = Pipeline.Seg.run (segsB m) := by
  rw [Pipeline.Seg.run_eq_chain]; rfl

/-! ## The launch element -/

/-- The handshakes' launch element, the pipelines', no transfer in flight. -/
def u₀ : UU := (initOf (K (F := F)).hsCells (K (F := F)).hsToks, (initOf (Pipeline.cells cfgs cellOf_inj) (Pipeline.launchToks cfgs cellOf_inj), 1))

/-- What @main's proof starts from on each device: the two pipelines' ghost state. -/
abbrev G0 (d : Dev nD) : sProp 𝕄 := Pipeline.ghostOn (pcfgs (F := F)) adm (EP (F := F)) Finset.univ d

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => G0 (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells cfgs cellOf_inj) (Pipeline.launchToks cfgs cellOf_inj), (1 : Counters)) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HP, -⟩
  imod (Pipeline.fund_ghost (cfgs := Pipeline.pin (pcfgs (F := F)) adm) (ER := EP (F := F)) cellOf_inj) $$ HP with ⟨Hg, Ht⟩
  imodintro
  isplitl [HH]; · iexact HH
  isplitl [Hg Ht]
  · unfold G0 Pipeline.ghostOn Pipeline.PerCore.ghostOn
    simp only [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What the TensorCore ends with: every unscoped buffer at the last boundary's contents. -/
abbrev FIN (d : Dev nD) : sProp 𝕄 := StableHlo.held (T d) (Pipeline.ucRefs τ sig) (W6 m d)

/-- The three buffers the gather call takes: the table, the flat index list, the output array. -/
abbrev T3 : Finset (DevRef τ sig) := {Proc.devRef .tc main_v0, Proc.devRef .tc main_v1, Proc.devRef .tc main_v2}
theorem T3_sub : (T3 : Finset (DevRef τ sig)) ⊆ Pipeline.ucRefs τ sig := by decide

theorem held_T3 (d : Dev nD) (W : Valuation τ sig (Elt F)) :
    (StableHlo.held (T d) T3 W : sProp 𝕄)
      = iprop(((d, Proc.devRef .tc main_v0) ↦{fullShare} W (Proc.devRef .tc main_v0)) ∗ ((d, Proc.devRef .tc main_v1) ↦{fullShare} W (Proc.devRef .tc main_v1))
          ∗ ((d, Proc.devRef .tc main_v2) ↦{fullShare} W (Proc.devRef .tc main_v2))) := by
  unfold StableHlo.held T3
  rw [SparseCore.bigSep_insert' (by decide), SparseCore.bigSep_insert' (by decide), bigSep_singleton]

/-- The call's operands out of the thread state: the three arrays dealt to the tiles, the rest set aside. -/
theorem call_in (d : Dev nD) :
    (StableHlo.held (T d) (Pipeline.ucRefs τ sig) (W2 m d) : sProp 𝕄)
      ⊢ iprop((bigSep Finset.univ fun c : Fin ((K (F := F)).nCore 0) => (P m).st 0 d c) ∗ StableHlo.held (T d) (Pipeline.ucRefs τ sig \ T3) (W2 m d)) := by
  rw [StableHlo.held_sub_split (T d) T3_sub (W2 m d), held_T3]
  refine sep_mono ?_ .rfl
  show _ ⊢ bigSep Finset.univ fun c : Fin ((K (F := F)).nCore 0) => bigSep Finset.univ fun i : Fin ((K (F := F)).nSub 0) => tileIn m d (widOf c i)
  rw [bigSep_tiles (F := F) (fun w => tileIn m d w), ← tiles_split]
  iintro ⟨Hm, Hx, Ho⟩
  isplitl [Hx]; · iexact Hx
  isplitl [Hm]; · iexact Hm
  iexact Ho

theorem W3_v0 (d : Dev nD) : W3 m d (Proc.devRef .tc main_v0) = W2 m d (Proc.devRef .tc main_v0) := by
  unfold W3; rw [Function.update_of_ne (StableHlo.devRef_ne_of_ne (by decide))]
theorem W3_v1 (d : Dev nD) : W3 m d (Proc.devRef .tc main_v1) = W2 m d (Proc.devRef .tc main_v1) := by
  unfold W3; rw [Function.update_of_ne (StableHlo.devRef_ne_of_ne (by decide))]
theorem W3_v2 (d : Dev nD) : W3 m d (Proc.devRef .tc main_v2) = (Cert.Spec.gath (fm m d) (fx m d) : Buf (Elt F) (ScBody.oLoc d)) := by
  unfold W3; rw [Function.update_self]
theorem W3_rest (d : Dev nD) (b : DevRef τ sig) (hb : b ∈ Pipeline.ucRefs τ sig \ T3) : W3 m d b = W2 m d b := by
  have hne : b ≠ Proc.devRef .tc main_v2 := fun e => (Finset.mem_sdiff.mp hb).2 (e ▸ by decide)
  unfold W3; rw [Function.update_of_ne hne]

/-- The call's results back into the thread state, at the next boundary's contents. -/
theorem call_out (d : Dev nD) :
    iprop((bigSep Finset.univ fun c : Fin ((K (F := F)).nCore 0) => (P m).dn 0 d c) ∗ StableHlo.held (T d) (Pipeline.ucRefs τ sig \ T3) (W2 m d))
      ⊢ (StableHlo.held (T d) (Pipeline.ucRefs τ sig) (W3 m d) : sProp 𝕄) := by
  rw [StableHlo.held_sub_split (T d) T3_sub (W3 m d), held_T3, W3_v0, W3_v1, W3_v2,
    StableHlo.held_congr (T d) (S := Pipeline.ucRefs τ sig \ T3) (V := W3 m d) (V' := W2 m d) (W3_rest m d)]
  refine sep_mono ?_ .rfl
  show (bigSep Finset.univ fun c : Fin ((K (F := F)).nCore 0) => bigSep Finset.univ fun i : Fin ((K (F := F)).nSub 0) => tileOut m d (widOf c i)) ⊢ _
  rw [bigSep_tiles (F := F) (fun w => tileOut m d w)]
  refine (tiles_join m d).trans ?_
  iintro ⟨Hx, Hm, Ho⟩
  isplitl [Hm]; · iexact Hm
  isplitl [Hx]; · iexact Hx
  iexact Ho

theorem chainsA : Pipeline.Seg.Chains (fun d => St (F := F) d (W0 m d) (Ow (F := F) d 0) 0) (segsA m) (fun d => St (F := F) d (W2 m d) (Ow (F := F) d 0) 0) :=
  ⟨fun _ => .rfl, fun _ => .rfl, fun _ => .rfl⟩
theorem chainsB : Pipeline.Seg.Chains (fun d => St (F := F) d (W3 m d) 0 1) (segsB m) (fun d => St (F := F) d (W6 m d) 0 1) :=
  ⟨fun _ => .rfl, fun _ => .rfl, fun _ => .rfl, fun _ => .rfl⟩

set_option backward.isDefEq.respectTransparency.types false in
set_option maxHeartbeats 4000000 in
theorem hmain (hpre : PreOK m) (κ : GSem nD τ sig → ℕ) (d : Dev nD) :
    iprop((K (F := F)).ctx EH (P m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m d) := by
  rw [main_split]
  unfold SparseCore.Cfg.tcRes SparseCore.Cfg.tcSt
  iintro ⟨#Hctx, ⟨⟨%Ws, %hWs, HO⟩, Hat, #Hrd, #Hrs, Htoks⟩, ⟨Hbd, Hub, Hsems, Hprng⟩, HG⟩
  ihave Hlev := ((K (F := F)).ctx_levAts κ) $$ Hctx
  ihave Hh := (Entails.of_eq (Pipeline.unscopedBufs_held (Ix := HIx 1) (Name := ℕ) (U := UU) (Lvl := ℕ) d (W0 m d))) $$ Hub
  ihave HG' := (Entails.of_eq (Pipeline.PerCore.ghostOn_erase (pcfgs (F := F)) (fun _ => adm) (EP (F := F)) (S := Finset.univ) (p := (0 : Fin 2)) (Finset.mem_univ _) d)) $$ HG
  icases HG' with ⟨Hg0, Hg1⟩
  -- the first stretch
  rw [wp_bind]
  iapply ((K (F := F)).wp_liftProg (D (F := F)) 𝒱 (T d) Set.univ none (progA (F := F)) _)
  rw [progA_run m]
  iapply (Pipeline.wp_segs (pcfgs (F := F)) adm (pdats m) none cellOf_inj (EP (F := F)) defs₀ 𝒱₀ (Lk (F := F)) (lvk (F := F)) d (segsA m) {0}
      (fun d => St (F := F) d (W0 m d) (Ow (F := F) d 0) 0) (fun d => St (F := F) d (W2 m d) (Ow (F := F) d 0) 0)
      (by simp only [Pipeline.Seg.pipes_host, Pipeline.Seg.pipes_region, Pipeline.Seg.pipes_nil]; decide)
      (by simp only [Pipeline.Seg.pipes_host, Pipeline.Seg.pipes_region, Pipeline.Seg.pipes_nil]; decide) (chainsA m)) $$ [Hbd Hh Hprng HO Hg0 Hat Htoks Hsems Hg1]
  isplitr [Hbd Hh Hprng HO Hg0]
  swap
  · isplitl [Hbd]; · iexact Hbd
    isplitl [Hh Hprng HO]
    · isplitl [Hh]; · iexact Hh
      isplitl [Hprng]; · iexists _; iexact Hprng
      iexists Ws; isplitr; · ipureintro; exact hWs
      iexact HO
    isplitr; · iexact Hlev
    unfold Pipeline.ghostOn Pipeline.PerCore.ghostOn; rw [bigSep_singleton]; iexact Hg0
  iintro ⟨Hbd, ⟨Hh, ⟨%r, Hprng⟩, %Ws', %hWs', HO⟩⟩
  -- the gather call
  rw [wp_bind]
  ihave Hc := (call_in m d) $$ Hh
  icases Hc with ⟨Hst, Hrest⟩
  iapply ((K (F := F)).wp_run (D (F := F)) 𝒱 (EH := EH) (P := P m) κ d 0) $$ [HO Hat Htoks Hst Hbd Hprng Hrest Hsems Hg1]
  isplitr; · iexact Hctx
  isplitl [HO Hat Htoks]
  · unfold SparseCore.Cfg.tcSt
    isplitl [HO]; · iexists Ws'; isplitr; · ipureintro; exact hWs'
                    iexact HO
    isplitl [Hat]; · iexact Hat
    isplitr; · iexact Hrd
    isplitr; · iexact Hrs
    iexact Htoks
  isplitl [Hst]; · iexact Hst
  iintro ⟨Hst1, Hdn⟩
  unfold SparseCore.Cfg.tcSt
  icases Hst1 with ⟨⟨%Ws1, %hWs1, HO⟩, Hat, #Hrd1, #Hrs1, Htoks⟩
  ihave Hh := (call_out m d) $$ [Hdn Hrest]
  · isplitl [Hdn] <;> iassumption
  -- the second stretch
  iapply ((K (F := F)).wp_liftProg (D (F := F)) 𝒱 (T d) Set.univ none (progB (F := F)) _)
  rw [progB_run m]
  iapply (Pipeline.wp_segs (pcfgs (F := F)) adm (pdats m) none cellOf_inj (EP (F := F)) defs₀ 𝒱₀ (Lk (F := F)) (lvk (F := F)) d (segsB m) (Finset.univ.erase 0)
      (fun d => St (F := F) d (W3 m d) 0 1) (fun d => St (F := F) d (W6 m d) 0 1)
      (by simp only [Pipeline.Seg.pipes_host, Pipeline.Seg.pipes_region, Pipeline.Seg.pipes_nil]; decide)
      (by simp only [Pipeline.Seg.pipes_host, Pipeline.Seg.pipes_region, Pipeline.Seg.pipes_nil]; decide) (chainsB m)) $$ [Hbd Hh Hprng HO Hg1 Hat Htoks Hsems]
  isplitr [Hbd Hh Hprng HO Hg1]
  swap
  · isplitl [Hbd]; · iexact Hbd
    isplitl [Hh Hprng HO]
    · isplitl [Hh]; · iexact Hh
      isplitl [Hprng]; · iexists _; iexact Hprng
      iexists Ws1; isplitr; · ipureintro; exact hWs1
      rw [show (0 : CellTallies nD τ sig (HIx 1)) = (K (F := F)).Otc d ((0 : Fin 1).val + 1) from ((K (F := F)).Otc_end d (le_refl _)).symm]
      iexact HO
    isplitr; · iexact Hlev
    iexact Hg1
  iintro ⟨Hbd, ⟨Hh, ⟨%r', Hprng⟩, %Ws2, %hWs2, HO⟩⟩
  isplitl [HO Hat Htoks]
  · isplitl [HO]
    · iexists Ws2; isplitr; · ipureintro; exact hWs2
      rw [(K (F := F)).Otc_end d (n := 1) (le_refl _)]
      iexact HO
    isplitl [Hat]; · iexact Hat
    isplitr; · iexact Hrd1
    isplitr; · iexact Hrs1
    iexact Htoks
  iexact Hh

/-! ## The final memory, and the run -/

/-- What the final memory holds on device `d`: every unscoped buffer at the last boundary's contents. -/
def fq (d : Dev nD) (s' : Phys nD τ sig (Elt F)) : Prop := ∀ b ∈ Pipeline.ucRefs τ sig, s'.mem.mem (d, b) = W6 m d b

set_option maxRecDepth 16384 in
theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((d, b) : Loc nD τ sig)) (W6 m d) s') $$ [Hh HSI]
  · isplitl [Hh] <;> iassumption
  icases Hr with ⟨%h, -⟩
  ipureintro; exact h

def QC : PUnit × MemSt nD τ sig (Elt F) → Prop := fun r => ∀ c : Dev nD, ∀ b ∈ Pipeline.ucRefs τ sig, r.2.mem (c, b) = W6 m c b

/-- Every weakly fair execution of the whole family of threads terminates, and every unscoped buffer of every TensorCore ends
    at the last boundary's contents. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (G0 (F := F)) (FIN m) (u₀ (F := F)) (sep_elim_left.trans (hu₀ m)) (hmain m ρ hpre) (fq m) (hfin m) (QC m) (fun _ h => h)

end Cert.Kernel.Launch

end
-- ==== Proof.ChainArgsIdeal.lean ====
/-
  The TensorCore's buffers at the end of the kernel program, at the argument buffers: no host operation between the kernels
  and no kernel's output array is an argument, so each argument holds at the end what it held at launch. And the flattened
  index list the gather reads is the index array read row-major: entry j is x(j / 3, j % 3), so it inherits the array's range.
-/
import proofs.«205820_g61907658604586_cont_9to1_m_785_3_alg».proof.Proof.ChainIdeal
import Idealize.ShloMosaic.Lib.StableHlo.Run
import Idealize.ShloMosaic.Lib.Pipeline.Value
import Idealize.ShloMosaic.Lib.ValueIdx

noncomputable section

namespace Cert.KernelIdeal.ChainArgs

open Cert.KernelIdeal Cert.KernelIdeal.Gen Cert.KernelIdeal.Chain
open Idealize.ShloMosaic Idealize.ShloMosaic.TcCoe Idealize.SL.Sem Idealize.ShloMosaic.ValueIdx

variable {F : FTy → Type} [FloatOps F] (m : (ℓ : Loc nD τ sig) → Buf (Elt F) ℓ)

/-! ## A buffer that a step does not write keeps its contents -/

theorem W1_of_ne (d : Dev nD) (b : Ref sig .tc) (hb : b ≠ main_v0) :
    W1 m d (Proc.devRef .tc b) = W0 m d (Proc.devRef .tc b) := by
  unfold W1
  exact Function.update_of_ne (StableHlo.devRef_ne_of_ne hb) _ _

theorem W2_of_ne (d : Dev nD) (b : Ref sig .tc) (hb : b ≠ main_v1) :
    W2 m d (Proc.devRef .tc b) = W1 m d (Proc.devRef .tc b) :=
  StableHlo.after_of_forall_not_mem (b := Proc.devRef .tc b) _ _ (List.forall_iff_forall_mem.mp (by
    simp only [hostOpsA, List.Forall, StableHlo.reshape_writes, Finset.mem_singleton]
    exact StableHlo.devRef_ne_of_ne hb))

theorem W3_of_ne (d : Dev nD) (b : Ref sig .tc) (hb : b ≠ main_v2) :
    W3 m d (Proc.devRef .tc b) = W2 m d (Proc.devRef .tc b) := by
  unfold W3
  exact Function.update_of_ne (StableHlo.devRef_ne_of_ne hb) _ _

theorem W4_of_ne (d : Dev nD) (b : Ref sig .tc)
    (hb : ∀ y ∈ [main_v3, main_v4, main_v5, main_v6, main_v7, main_v8, main_v9, main_v10, main_v11], b ≠ y) :
    W4 m d (Proc.devRef .tc b) = W3 m d (Proc.devRef .tc b) :=
  StableHlo.after_of_forall_not_mem (b := Proc.devRef .tc b) _ _ (List.forall_iff_forall_mem.mp (by
    simp only [hostOpsB, List.Forall, StableHlo.unary_writes, StableHlo.reshape_writes, Finset.mem_singleton]
    refine ⟨?_, ?_, ?_, ?_, ?_, ?_, ?_, ?_, ?_⟩
    all_goals exact StableHlo.devRef_ne_of_ne (hb _ (by decide))))

theorem W5_of_ne (d : Dev nD) (b : Ref sig .tc) (hb : b ≠ main_v12) :
    W5 m d (Proc.devRef .tc b) = W4 m d (Proc.devRef .tc b) := by
  unfold W5
  exact Function.update_of_ne (StableHlo.devRef_ne_of_ne hb) _ _

theorem W6_of_ne (d : Dev nD) (b : Ref sig .tc) (hb : b ≠ main_v13) :
    W6 m d (Proc.devRef .tc b) = W5 m d (Proc.devRef .tc b) :=
  StableHlo.after_of_forall_not_mem (b := Proc.devRef .tc b) _ _ (List.forall_iff_forall_mem.mp (by
    simp only [hostOpsC, List.Forall, StableHlo.reshape_writes, Finset.mem_singleton]
    exact StableHlo.devRef_ne_of_ne hb))

/-- A buffer that is none of the fourteen values of the program holds at the end what it held at launch. -/
theorem W6_of_arg (d : Dev nD) (b : Ref sig .tc)
    (hb : ∀ y ∈ [main_v0, main_v1, main_v2, main_v3, main_v4, main_v5, main_v6, main_v7, main_v8, main_v9, main_v10, main_v11, main_v12, main_v13], b ≠ y) :
    W6 m d (Proc.devRef .tc b) = m ((d.tc : Thread nD τ).loc b) :=
  calc W6 m d (Proc.devRef .tc b)
    _ = W5 m d (Proc.devRef .tc b) := W6_of_ne m d b (hb _ (by decide))
    _ = W4 m d (Proc.devRef .tc b) := W5_of_ne m d b (hb _ (by decide))
    _ = W3 m d (Proc.devRef .tc b) := W4_of_ne m d b (fun y hy => hb y (by
          simp only [List.mem_cons, List.mem_nil_iff, or_false] at hy ⊢
          rcases hy with rfl | rfl | rfl | rfl | rfl | rfl | rfl | rfl | rfl <;> decide))
    _ = W2 m d (Proc.devRef .tc b) := W3_of_ne m d b (hb _ (by decide))
    _ = W1 m d (Proc.devRef .tc b) := W2_of_ne m d b (hb _ (by decide))
    _ = W0 m d (Proc.devRef .tc b) := W1_of_ne m d b (hb _ (by decide))
    _ = m ((d.tc : Thread nD τ).loc b) := rfl

/-! ## The thirteen arguments -/

theorem W6_arg0 (d : Dev nD) : W6 m d (Proc.devRef .tc main_arg0) = m ((d.tc : Thread nD τ).loc main_arg0) :=
  W6_of_arg m d main_arg0 (by decide)
theorem W6_arg1 (d : Dev nD) : W6 m d (Proc.devRef .tc main_arg1) = m ((d.tc : Thread nD τ).loc main_arg1) :=
  W6_of_arg m d main_arg1 (by decide)
theorem W6_arg2 (d : Dev nD) : W6 m d (Proc.devRef .tc main_arg2) = m ((d.tc : Thread nD τ).loc main_arg2) :=
  W6_of_arg m d main_arg2 (by decide)
theorem W6_arg3 (d : Dev nD) : W6 m d (Proc.devRef .tc main_arg3) = m ((d.tc : Thread nD τ).loc main_arg3) :=
  W6_of_arg m d main_arg3 (by decide)
theorem W6_arg4 (d : Dev nD) : W6 m d (Proc.devRef .tc main_arg4) = m ((d.tc : Thread nD τ).loc main_arg4) :=
  W6_of_arg m d main_arg4 (by decide)
theorem W6_arg5 (d : Dev nD) : W6 m d (Proc.devRef .tc main_arg5) = m ((d.tc : Thread nD τ).loc main_arg5) :=
  W6_of_arg m d main_arg5 (by decide)
theorem W6_arg6 (d : Dev nD) : W6 m d (Proc.devRef .tc main_arg6) = m ((d.tc : Thread nD τ).loc main_arg6) :=
  W6_of_arg m d main_arg6 (by decide)
theorem W6_arg7 (d : Dev nD) : W6 m d (Proc.devRef .tc main_arg7) = m ((d.tc : Thread nD τ).loc main_arg7) :=
  W6_of_arg m d main_arg7 (by decide)
theorem W6_arg8 (d : Dev nD) : W6 m d (Proc.devRef .tc main_arg8) = m ((d.tc : Thread nD τ).loc main_arg8) :=
  W6_of_arg m d main_arg8 (by decide)
theorem W6_arg9 (d : Dev nD) : W6 m d (Proc.devRef .tc main_arg9) = m ((d.tc : Thread nD τ).loc main_arg9) :=
  W6_of_arg m d main_arg9 (by decide)
theorem W6_arg10 (d : Dev nD) : W6 m d (Proc.devRef .tc main_arg10) = m ((d.tc : Thread nD τ).loc main_arg10) :=
  W6_of_arg m d main_arg10 (by decide)
theorem W6_arg11 (d : Dev nD) : W6 m d (Proc.devRef .tc main_arg11) = m ((d.tc : Thread nD τ).loc main_arg11) :=
  W6_of_arg m d main_arg11 (by decide)
theorem W6_arg12 (d : Dev nD) : W6 m d (Proc.devRef .tc main_arg12) = m ((d.tc : Thread nD τ).loc main_arg12) :=
  W6_of_arg m d main_arg12 (by decide)

/-! ## The flattened index list -/

/-- The index list the gather reads is the index array read row-major. -/
theorem flat_eq (d : Dev nD) :
    (V2 m d main_v1 : S49152.Idx → BitVec 32) = Cert.Spec.flat (m ((d.tc : Thread nD τ).loc main_arg0)) := by
  have e : W2 m d (Proc.devRef .tc main_v1)
      = (fun i => shapeCast S49152 (W1 m d (Proc.devRef .tc main_arg0)) shapeCasts_S16384x3_S49152 i) := by
    dsimp only [W2, hostOpsA]
    after_results
    rfl
  funext j
  obtain ⟨q, rfl⟩ : ∃ q : Fin 49152, j = ix1 q := ⟨j 0, eq_ix1 j⟩
  have hq := q.isLt
  show W2 m d (Proc.devRef .tc main_v1) (ix1 q) = _
  rw [e]
  show shapeCast S49152 (W1 m d (Proc.devRef .tc main_arg0)) shapeCasts_S16384x3_S49152 (ix1 q) = _
  rw [shapeCast_apply _ shapeCasts_S16384x3_S49152 (ix1 q)
    (ix2 (⟨q.val / 3, by omega⟩ : Fin 16384) (⟨q.val % 3, Nat.mod_lt _ (by decide)⟩ : Fin 3)) (by
      rw [Shape.rowMajor_val_two, Shape.rowMajor_val_one]
      show q.val / 3 * 3 + q.val % 3 = q.val
      omega),
    W1_of_ne m d main_arg0 (by decide)]
  show m ((d.tc : Thread nD τ).loc main_arg0) (ix2 (⟨q.val / 3, by omega⟩ : Fin 16384) (⟨q.val % 3, Nat.mod_lt _ (by decide)⟩ : Fin 3))
    = m ((d.tc : Thread nD τ).loc main_arg0) (ix2 (Fin.ofNat 16384 (q.val / 3)) (Fin.ofNat 3 (q.val % 3)))
  have h1 : (⟨q.val / 3, by omega⟩ : Fin 16384) = Fin.ofNat 16384 (q.val / 3) :=
    Fin.ext (by show q.val / 3 = q.val / 3 % 16384; omega)
  have h2 : (⟨q.val % 3, Nat.mod_lt _ (by decide)⟩ : Fin 3) = Fin.ofNat 3 (q.val % 3) :=
    Fin.ext (by show q.val % 3 = q.val % 3 % 3; omega)
  rw [h1, h2]

/-- With every entry of the index array at most 999, so is every entry of the flattened list. -/
theorem preOK_of_inRange (hx : ∀ d : Dev nD, Cert.Spec.InRange (m ((d.tc : Thread nD τ).loc main_arg0))) :
    ∀ (d : Dev nD) (j : S49152.Idx), ((V2 m d main_v1 : S49152.Idx → BitVec 32) j).toNat ≤ 999 := by
  intro d j
  rw [flat_eq m d]
  exact hx d _

end Cert.KernelIdeal.ChainArgs

end
-- ==== Proof.ChainArgs.lean ====
/-
  The TensorCore's buffers at the end of the kernel program, at the argument buffers: no host operation between the kernels
  and no kernel's output array is an argument, so each argument holds at the end what it held at launch. And the flattened
  index list the gather reads is the index array read row-major: entry j is x(j / 3, j % 3), so it inherits the array's range.
-/
import proofs.«205820_g61907658604586_cont_9to1_m_785_3_alg».proof.Proof.Chain
import Idealize.ShloMosaic.Lib.StableHlo.Run
import Idealize.ShloMosaic.Lib.Pipeline.Value
import Idealize.ShloMosaic.Lib.ValueIdx

noncomputable section

namespace Cert.Kernel.ChainArgs

open Cert.Kernel Cert.Kernel.Gen Cert.Kernel.Chain
open Idealize.ShloMosaic Idealize.ShloMosaic.TcCoe Idealize.SL.Sem Idealize.ShloMosaic.ValueIdx

variable {F : FTy → Type} [FloatOps F] (m : (ℓ : Loc nD τ sig) → Buf (Elt F) ℓ)

/-! ## A buffer that a step does not write keeps its contents -/

theorem W1_of_ne (d : Dev nD) (b : Ref sig .tc) (hb : b ≠ main_v0) :
    W1 m d (Proc.devRef .tc b) = W0 m d (Proc.devRef .tc b) := by
  unfold W1
  exact Function.update_of_ne (StableHlo.devRef_ne_of_ne hb) _ _

theorem W2_of_ne (d : Dev nD) (b : Ref sig .tc) (hb : b ≠ main_v1) :
    W2 m d (Proc.devRef .tc b) = W1 m d (Proc.devRef .tc b) :=
  StableHlo.after_of_forall_not_mem (b := Proc.devRef .tc b) _ _ (List.forall_iff_forall_mem.mp (by
    simp only [hostOpsA, List.Forall, StableHlo.reshape_writes, Finset.mem_singleton]
    exact StableHlo.devRef_ne_of_ne hb))

theorem W3_of_ne (d : Dev nD) (b : Ref sig .tc) (hb : b ≠ main_v2) :
    W3 m d (Proc.devRef .tc b) = W2 m d (Proc.devRef .tc b) := by
  unfold W3
  exact Function.update_of_ne (StableHlo.devRef_ne_of_ne hb) _ _

theorem W4_of_ne (d : Dev nD) (b : Ref sig .tc)
    (hb : ∀ y ∈ [main_v3, main_v4, main_v5, main_v6, main_v7, main_v8, main_v9, main_v10, main_v11], b ≠ y) :
    W4 m d (Proc.devRef .tc b) = W3 m d (Proc.devRef .tc b) :=
  StableHlo.after_of_forall_not_mem (b := Proc.devRef .tc b) _ _ (List.forall_iff_forall_mem.mp (by
    simp only [hostOpsB, List.Forall, StableHlo.unary_writes, StableHlo.reshape_writes, Finset.mem_singleton]
    refine ⟨?_, ?_, ?_, ?_, ?_, ?_, ?_, ?_, ?_⟩
    all_goals exact StableHlo.devRef_ne_of_ne (hb _ (by decide))))

theorem W5_of_ne (d : Dev nD) (b : Ref sig .tc) (hb : b ≠ main_v12) :
    W5 m d (Proc.devRef .tc b) = W4 m d (Proc.devRef .tc b) := by
  unfold W5
  exact Function.update_of_ne (StableHlo.devRef_ne_of_ne hb) _ _

theorem W6_of_ne (d : Dev nD) (b : Ref sig .tc) (hb : b ≠ main_v13) :
    W6 m d (Proc.devRef .tc b) = W5 m d (Proc.devRef .tc b) :=
  StableHlo.after_of_forall_not_mem (b := Proc.devRef .tc b) _ _ (List.forall_iff_forall_mem.mp (by
    simp only [hostOpsC, List.Forall, StableHlo.reshape_writes, Finset.mem_singleton]
    exact StableHlo.devRef_ne_of_ne hb))

/-- A buffer that is none of the fourteen values of the program holds at the end what it held at launch. -/
theorem W6_of_arg (d : Dev nD) (b : Ref sig .tc)
    (hb : ∀ y ∈ [main_v0, main_v1, main_v2, main_v3, main_v4, main_v5, main_v6, main_v7, main_v8, main_v9, main_v10, main_v11, main_v12, main_v13], b ≠ y) :
    W6 m d (Proc.devRef .tc b) = m ((d.tc : Thread nD τ).loc b) :=
  calc W6 m d (Proc.devRef .tc b)
    _ = W5 m d (Proc.devRef .tc b) := W6_of_ne m d b (hb _ (by decide))
    _ = W4 m d (Proc.devRef .tc b) := W5_of_ne m d b (hb _ (by decide))
    _ = W3 m d (Proc.devRef .tc b) := W4_of_ne m d b (fun y hy => hb y (by
          simp only [List.mem_cons, List.mem_nil_iff, or_false] at hy ⊢
          rcases hy with rfl | rfl | rfl | rfl | rfl | rfl | rfl | rfl | rfl <;> decide))
    _ = W2 m d (Proc.devRef .tc b) := W3_of_ne m d b (hb _ (by decide))
    _ = W1 m d (Proc.devRef .tc b) := W2_of_ne m d b (hb _ (by decide))
    _ = W0 m d (Proc.devRef .tc b) := W1_of_ne m d b (hb _ (by decide))
    _ = m ((d.tc : Thread nD τ).loc b) := rfl

/-! ## The thirteen arguments -/

theorem W6_arg0 (d : Dev nD) : W6 m d (Proc.devRef .tc main_arg0) = m ((d.tc : Thread nD τ).loc main_arg0) :=
  W6_of_arg m d main_arg0 (by decide)
theorem W6_arg1 (d : Dev nD) : W6 m d (Proc.devRef .tc main_arg1) = m ((d.tc : Thread nD τ).loc main_arg1) :=
  W6_of_arg m d main_arg1 (by decide)
theorem W6_arg2 (d : Dev nD) : W6 m d (Proc.devRef .tc main_arg2) = m ((d.tc : Thread nD τ).loc main_arg2) :=
  W6_of_arg m d main_arg2 (by decide)
theorem W6_arg3 (d : Dev nD) : W6 m d (Proc.devRef .tc main_arg3) = m ((d.tc : Thread nD τ).loc main_arg3) :=
  W6_of_arg m d main_arg3 (by decide)
theorem W6_arg4 (d : Dev nD) : W6 m d (Proc.devRef .tc main_arg4) = m ((d.tc : Thread nD τ).loc main_arg4) :=
  W6_of_arg m d main_arg4 (by decide)
theorem W6_arg5 (d : Dev nD) : W6 m d (Proc.devRef .tc main_arg5) = m ((d.tc : Thread nD τ).loc main_arg5) :=
  W6_of_arg m d main_arg5 (by decide)
theorem W6_arg6 (d : Dev nD) : W6 m d (Proc.devRef .tc main_arg6) = m ((d.tc : Thread nD τ).loc main_arg6) :=
  W6_of_arg m d main_arg6 (by decide)
theorem W6_arg7 (d : Dev nD) : W6 m d (Proc.devRef .tc main_arg7) = m ((d.tc : Thread nD τ).loc main_arg7) :=
  W6_of_arg m d main_arg7 (by decide)
theorem W6_arg8 (d : Dev nD) : W6 m d (Proc.devRef .tc main_arg8) = m ((d.tc : Thread nD τ).loc main_arg8) :=
  W6_of_arg m d main_arg8 (by decide)
theorem W6_arg9 (d : Dev nD) : W6 m d (Proc.devRef .tc main_arg9) = m ((d.tc : Thread nD τ).loc main_arg9) :=
  W6_of_arg m d main_arg9 (by decide)
theorem W6_arg10 (d : Dev nD) : W6 m d (Proc.devRef .tc main_arg10) = m ((d.tc : Thread nD τ).loc main_arg10) :=
  W6_of_arg m d main_arg10 (by decide)
theorem W6_arg11 (d : Dev nD) : W6 m d (Proc.devRef .tc main_arg11) = m ((d.tc : Thread nD τ).loc main_arg11) :=
  W6_of_arg m d main_arg11 (by decide)
theorem W6_arg12 (d : Dev nD) : W6 m d (Proc.devRef .tc main_arg12) = m ((d.tc : Thread nD τ).loc main_arg12) :=
  W6_of_arg m d main_arg12 (by decide)

/-! ## The flattened index list -/

/-- The index list the gather reads is the index array read row-major. -/
theorem flat_eq (d : Dev nD) :
    (V2 m d main_v1 : S49152.Idx → BitVec 32) = Cert.Spec.flat (m ((d.tc : Thread nD τ).loc main_arg0)) := by
  have e : W2 m d (Proc.devRef .tc main_v1)
      = (fun i => shapeCast S49152 (W1 m d (Proc.devRef .tc main_arg0)) shapeCasts_S16384x3_S49152 i) := by
    dsimp only [W2, hostOpsA]
    after_results
    rfl
  funext j
  obtain ⟨q, rfl⟩ : ∃ q : Fin 49152, j = ix1 q := ⟨j 0, eq_ix1 j⟩
  have hq := q.isLt
  show W2 m d (Proc.devRef .tc main_v1) (ix1 q) = _
  rw [e]
  show shapeCast S49152 (W1 m d (Proc.devRef .tc main_arg0)) shapeCasts_S16384x3_S49152 (ix1 q) = _
  rw [shapeCast_apply _ shapeCasts_S16384x3_S49152 (ix1 q)
    (ix2 (⟨q.val / 3, by omega⟩ : Fin 16384) (⟨q.val % 3, Nat.mod_lt _ (by decide)⟩ : Fin 3)) (by
      rw [Shape.rowMajor_val_two, Shape.rowMajor_val_one]
      show q.val / 3 * 3 + q.val % 3 = q.val
      omega),
    W1_of_ne m d main_arg0 (by decide)]
  show m ((d.tc : Thread nD τ).loc main_arg0) (ix2 (⟨q.val / 3, by omega⟩ : Fin 16384) (⟨q.val % 3, Nat.mod_lt _ (by decide)⟩ : Fin 3))
    = m ((d.tc : Thread nD τ).loc main_arg0) (ix2 (Fin.ofNat 16384 (q.val / 3)) (Fin.ofNat 3 (q.val % 3)))
  have h1 : (⟨q.val / 3, by omega⟩ : Fin 16384) = Fin.ofNat 16384 (q.val / 3) :=
    Fin.ext (by show q.val / 3 = q.val / 3 % 16384; omega)
  have h2 : (⟨q.val % 3, Nat.mod_lt _ (by decide)⟩ : Fin 3) = Fin.ofNat 3 (q.val % 3) :=
    Fin.ext (by show q.val % 3 = q.val % 3 % 3; omega)
  rw [h1, h2]

/-- With every entry of the index array at most 999, so is every entry of the flattened list. -/
theorem preOK_of_inRange (hx : ∀ d : Dev nD, Cert.Spec.InRange (m ((d.tc : Thread nD τ).loc main_arg0))) :
    ∀ (d : Dev nD) (j : S49152.Idx), ((V2 m d main_v1 : S49152.Idx → BitVec 32) j).toNat ≤ 999 := by
  intro d j
  rw [flat_eq m d]
  exact hx d _

end Cert.Kernel.ChainArgs

end
-- ==== Proof.PrepValueIdeal.lean ====
/-
  The merged table of 3000 rows the preparation step leaves in its output buffer, read at an index.

  The step writes three bands of 1000 rows. Band 0 is the elementwise maximum of its first two operands, band 1 of
  the next two, band 2 of the last two. The three bands tile the 3000 rows, so the buffer afterwards is one function
  of the index: row r, lane e holds the maximum of the two operands of band r / 1000 at row r - 1000 (r / 1000).
-/
import proofs.«205820_g61907658604586_cont_9to1_m_785_3_alg».proof.Proof.Gen.KernelIdeal.Skeleton
import Idealize.ShloMosaic.Lib.Pipeline.FrameBody
import Idealize.ShloMosaic.Lib.Pipeline.Value
import Idealize.ShloMosaic.Lib.ValueIdx

set_option maxRecDepth 16384

noncomputable section

namespace Cert.KernelIdeal.PrepValue

open Idealize.ShloMosaic Idealize.ShloMosaic.ValueIdx Cert.KernelIdeal.Gen

variable {F : FTy → Type} [FloatOps F]

/-- The whole of an operand: 1000 rows from row 0. -/
abbrev rIn : Rect S1000x128 := Rect.unit (s := S1000x128) ![0, 0] S1000x128.size inb_S1000x128_S1000x128_0_0
/-- The three bands of the output: 1000 rows from row 0, from row 1000, from row 2000. -/
abbrev rA : Rect S3000x128 := Rect.unit (s := S3000x128) ![0, 0] S1000x128.size inb_S3000x128_S1000x128_0_0
abbrev rB : Rect S3000x128 := Rect.unit (s := S3000x128) ![1000, 0] S1000x128.size inb_S3000x128_S1000x128_1000_0
abbrev rC : Rect S3000x128 := Rect.unit (s := S3000x128) ![2000, 0] S1000x128.size inb_S3000x128_S1000x128_2000_0

/-- The output buffer after the three band writes (the last write first), from the six operands. -/
def outPrep (x0 x1 x2 x3 x4 x5 : Vec F S1000x128 .f32) : Vec F S3000x128 .f32 :=
  View.canon [⟨rC, k0_pay3 (View.ld x4 rIn) (View.ld x5 rIn)⟩, ⟨rB, k0_pay2 (View.ld x2 rIn) (View.ld x3 rIn)⟩,
    ⟨rA, k0_pay1 (View.ld x0 rIn) (View.ld x1 rIn)⟩]

/-- The three bands tile the 3000 rows (checked by evaluation), so every index lies in one of them. -/
theorem cover (p0 p1 p2 : Vec F S1000x128 .f32) (y : S3000x128.Idx) :
    ∃ pc ∈ ([⟨rC, p2⟩, ⟨rB, p1⟩, ⟨rA, p0⟩] : List (View.Piece (Elt F) S3000x128 .f32)), y ∈ pc.1.set :=
  View.cover_of_tiled [⟨rC, p2⟩, ⟨rB, p1⟩, ⟨rA, p0⟩] S1000x128.size (by rfl) y

/-- The one function of the index the three bands are pieces of. -/
def bandFn (x0 x1 x2 x3 x4 x5 : Vec F S1000x128 .f32) (r : Nat) (e : Fin 128) : F .f32 :=
  if r < 1000 then FloatOps.maximumf (x0 (ix2 (Fin.ofNat 1000 r) e)) (x1 (ix2 (Fin.ofNat 1000 r) e))
  else if r < 2000 then FloatOps.maximumf (x2 (ix2 (Fin.ofNat 1000 (r - 1000)) e)) (x3 (ix2 (Fin.ofNat 1000 (r - 1000)) e))
  else FloatOps.maximumf (x4 (ix2 (Fin.ofNat 1000 (r - 2000)) e)) (x5 (ix2 (Fin.ofNat 1000 (r - 2000)) e))

/-- A whole operand's index, as the pair of its coordinates: row `k` below 1000 is not reduced. -/
theorem rIn_idx (x : rIn.shape.Idx) (k : Nat) (hk : k = (x 0).val) :
    rIn.idx x = ix2 (Fin.ofNat 1000 k) (x 1) := by
  subst hk
  have h0 : (x 0).val < 1000 := (x 0).isLt
  funext a
  match a with
  | ⟨0, _⟩ => exact Fin.ext (by show 0 + 1 * (x 0).val = (x 0).val % 1000; omega)
  | ⟨1, _⟩ => exact Fin.ext (by show 0 + 1 * (x 1).val = (x 1).val; omega)

/-- Row `r`, lane `e` of the output: the maximum of the two operands of the row's band, at the row within the band. -/
theorem outPrep_apply (x0 x1 x2 x3 x4 x5 : Vec F S1000x128 .f32) (r : Fin 3000) (e : Fin 128) :
    outPrep x0 x1 x2 x3 x4 x5 (ix2 r e) =
      if r.val < 1000 then FloatOps.maximumf (x0 (ix2 (Fin.ofNat 1000 r.val) e)) (x1 (ix2 (Fin.ofNat 1000 r.val) e))
      else if r.val < 2000 then FloatOps.maximumf (x2 (ix2 (Fin.ofNat 1000 (r.val - 1000)) e)) (x3 (ix2 (Fin.ofNat 1000 (r.val - 1000)) e))
      else FloatOps.maximumf (x4 (ix2 (Fin.ofNat 1000 (r.val - 2000)) e)) (x5 (ix2 (Fin.ofNat 1000 (r.val - 2000)) e)) := by
  have key := View.canon_apply_of_pieces (Val := Elt F) (S := S3000x128) (e := .f32)
    (fun y => bandFn x0 x1 x2 x3 x4 x5 (y 0).val (y 1))
    [⟨rC, k0_pay3 (View.ld x4 rIn) (View.ld x5 rIn)⟩, ⟨rB, k0_pay2 (View.ld x2 rIn) (View.ld x3 rIn)⟩,
      ⟨rA, k0_pay1 (View.ld x0 rIn) (View.ld x1 rIn)⟩]
    (by
      intro p hp
      simp only [List.mem_cons, List.not_mem_nil, or_false] at hp
      rcases hp with rfl | rfl | rfl
      · intro x
        have h0 : (x 0).val < 1000 := (x 0).isLt
        have e1 : (rC.emb x 1 : Fin 128) = (x 1 : Fin 128) := Fin.ext (by show 0 + 1 * (x 1).val = (x 1).val; omega)
        show FloatOps.maximumf (x4 (rIn.idx x)) (x5 (rIn.idx x)) = bandFn x0 x1 x2 x3 x4 x5 (2000 + 1 * (x 0).val) (rC.emb x 1)
        rw [e1]
        unfold bandFn
        rw [if_neg (by omega), if_neg (by omega), rIn_idx x (2000 + 1 * (x 0).val - 2000) (by omega)]
        rfl
      · intro x
        have h0 : (x 0).val < 1000 := (x 0).isLt
        have e1 : (rB.emb x 1 : Fin 128) = (x 1 : Fin 128) := Fin.ext (by show 0 + 1 * (x 1).val = (x 1).val; omega)
        show FloatOps.maximumf (x2 (rIn.idx x)) (x3 (rIn.idx x)) = bandFn x0 x1 x2 x3 x4 x5 (1000 + 1 * (x 0).val) (rB.emb x 1)
        rw [e1]
        unfold bandFn
        rw [if_neg (by omega), if_pos (by omega), rIn_idx x (1000 + 1 * (x 0).val - 1000) (by omega)]
        rfl
      · intro x
        have h0 : (x 0).val < 1000 := (x 0).isLt
        have e1 : (rA.emb x 1 : Fin 128) = (x 1 : Fin 128) := Fin.ext (by show 0 + 1 * (x 1).val = (x 1).val; omega)
        show FloatOps.maximumf (x0 (rIn.idx x)) (x1 (rIn.idx x)) = bandFn x0 x1 x2 x3 x4 x5 (0 + 1 * (x 0).val) (rA.emb x 1)
        rw [e1]
        unfold bandFn
        rw [if_pos (by omega), rIn_idx x (0 + 1 * (x 0).val) (by omega)]
        rfl)
    (ix2 r e) (cover _ _ _ _)
  exact key

end Cert.KernelIdeal.PrepValue

end
-- ==== Proof.ValueLegPrepIdeal.lean ====
/-
  The first region's result array, at any float instance: the merged table of the four embedding tables.

  The region has one grid point. Its six input blocks are rows 0..999 of the two user tables, rows 0..999 of the two item
  tables, and rows 100000..100999 of the two item tables (block index 100 of 1000 rows); its output block is the whole
  3000-row array. What the body leaves in the output's staging buffer is, row by row, the maximum of the two blocks of
  the row's band; written back at block index (0, 0) it is the merged table of the specification.
-/
import proofs.«205820_g61907658604586_cont_9to1_m_785_3_alg».proof.Proof.PrepBodyIdeal
import proofs.«205820_g61907658604586_cont_9to1_m_785_3_alg».proof.Proof.PrepValueIdeal
import proofs.«205820_g61907658604586_cont_9to1_m_785_3_alg».proof.Proof.Spec
import Idealize.ShloMosaic.Lib.Pipeline.Value

set_option maxRecDepth 16384

noncomputable section

namespace Cert.KernelIdeal.ValueLeg

open Cert.KernelIdeal Cert.KernelIdeal.Gen Cert.KernelIdeal.Setup

open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]

/-! ## The band function over given blocks is the merged table -/

/-- If the six blocks are the rows of the four tables named above, the three bands are the merged table. -/
theorem outPrep_eq_merged (su tu : Cert.Spec.Arr2 (F .f32) 100000 128) (si ti : Cert.Spec.Arr2 (F .f32) 101000 128)
    (x0 x1 x2 x3 x4 x5 : Vec F S1000x128 .f32)
    (h0 : ∀ (p : Fin 1000) (e : Fin 128), x0 (ix2 p e) = su (ix2 (Fin.ofNat 100000 p.val) e))
    (h1 : ∀ (p : Fin 1000) (e : Fin 128), x1 (ix2 p e) = tu (ix2 (Fin.ofNat 100000 p.val) e))
    (h2 : ∀ (p : Fin 1000) (e : Fin 128), x2 (ix2 p e) = si (ix2 (Fin.ofNat 101000 p.val) e))
    (h3 : ∀ (p : Fin 1000) (e : Fin 128), x3 (ix2 p e) = ti (ix2 (Fin.ofNat 101000 p.val) e))
    (h4 : ∀ (p : Fin 1000) (e : Fin 128), x4 (ix2 p e) = si (ix2 (Fin.ofNat 101000 (p.val + 100000)) e))
    (h5 : ∀ (p : Fin 1000) (e : Fin 128), x5 (ix2 p e) = ti (ix2 (Fin.ofNat 101000 (p.val + 100000)) e)) :
    PrepValue.outPrep x0 x1 x2 x3 x4 x5 = Cert.Spec.merged su tu si ti := by
  funext i
  obtain ⟨r, e, rfl⟩ : ∃ (r : Fin 3000) (e : Fin 128), i = ix2 r e := ⟨i 0, i 1, eq_ix2 i⟩
  rw [PrepValue.outPrep_apply]
  show _ = Cert.Spec.mergedAt su tu si ti r.val e
  unfold Cert.Spec.mergedAt
  have hr := r.isLt
  by_cases c1 : r.val < 1000
  · rw [if_pos c1, if_pos c1, h0, h1]
    rw [Cert.Spec.ofNat_congr (n := 100000) (a := (Fin.ofNat 1000 r.val).val) (b := r.val) (by simp only [Fin.ofNat]; omega)]
  · rw [if_neg c1, if_neg c1]
    by_cases c2 : r.val < 2000
    · rw [if_pos c2, if_pos c2, h2, h3]
      rw [Cert.Spec.ofNat_congr (n := 101000) (a := (Fin.ofNat 1000 (r.val - 1000)).val) (b := r.val - 1000) (by simp only [Fin.ofNat]; omega)]
    · rw [if_neg c2, if_neg c2, h4, h5]
      rw [Cert.Spec.ofNat_congr (n := 101000) (a := (Fin.ofNat 1000 (r.val - 2000)).val + 100000) (b := r.val + 98000) (by simp only [Fin.ofNat]; omega)]

/-! ## The region's blocks -/

variable (V : (c : Dev nD) → (b : Ref sig .tc) → Buf (Elt F) ((c : Thread nD τ).loc b)) (O : CellTallies nD τ sig (HIx 1))
  (B : Set (SemLoc sig × HIx 1))

/-- The block indices at the one grid point. -/
theorem prep_index (t : Fin cfg0.N) :
    win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 100 ∧ win0_4.index t 1 = 0 ∧ win0_5.index t 0 = 100 ∧ win0_5.index t 1 = 0
    ∧ win0_6.index t 0 = 0 ∧ win0_6.index t 1 = 0 := by
  obtain rfl := fin_N0 t
  decide

/-- Block 0: rows 0..999 of the first user table. -/
theorem prep_iblk0 (c : Dev nD) (t : Fin cfg0.N) (p : Fin 1000) (e : Fin 128) :
    (Prep.iblk V c 0 t : Vec F S1000x128 .f32) (ix2 p e) = (V c main_arg1 : S100000x128.Idx → F .f32) (ix2 (Fin.ofNat 100000 (p.val)) e) := by
  have hi := prep_index t
  unfold Prep.iblk
  rw [View.read_apply]
  show V c main_arg1 _ = V c main_arg1 _
  congr 1
  funext a
  apply Fin.ext
  have hp := p.isLt
  match a with
  | ⟨0, _⟩ => show win0_0.index t 0 * 1000 + 1 * p.val = (p.val) % 100000; rw [hi.1]; omega
  | ⟨1, _⟩ => show win0_0.index t 1 * 128 + 1 * e.val = e.val; rw [hi.2.1]; omega

/-- Block 1: rows 0..999 of the second user table. -/
theorem prep_iblk1 (c : Dev nD) (t : Fin cfg0.N) (p : Fin 1000) (e : Fin 128) :
    (Prep.iblk V c 1 t : Vec F S1000x128 .f32) (ix2 p e) = (V c main_arg2 : S100000x128.Idx → F .f32) (ix2 (Fin.ofNat 100000 (p.val)) e) := by
  have hi := prep_index t
  unfold Prep.iblk
  rw [View.read_apply]
  show V c main_arg2 _ = V c main_arg2 _
  congr 1
  funext a
  apply Fin.ext
  have hp := p.isLt
  match a with
  | ⟨0, _⟩ => show win0_1.index t 0 * 1000 + 1 * p.val = (p.val) % 100000; rw [hi.2.2.1]; omega
  | ⟨1, _⟩ => show win0_1.index t 1 * 128 + 1 * e.val = e.val; rw [hi.2.2.2.1]; omega

/-- Block 2: rows 0..999 of the first item table. -/
theorem prep_iblk2 (c : Dev nD) (t : Fin cfg0.N) (p : Fin 1000) (e : Fin 128) :
    (Prep.iblk V c 2 t : Vec F S1000x128 .f32) (ix2 p e) = (V c main_arg3 : S101000x128.Idx → F .f32) (ix2 (Fin.ofNat 101000 (p.val)) e) := by
  have hi := prep_index t
  unfold Prep.iblk
  rw [View.read_apply]
  show V c main_arg3 _ = V c main_arg3 _
  congr 1
  funext a
  apply Fin.ext
  have hp := p.isLt
  match a with
  | ⟨0, _⟩ => show win0_2.index t 0 * 1000 + 1 * p.val = (p.val) % 101000; rw [hi.2.2.2.2.1]; omega
  | ⟨1, _⟩ => show win0_2.index t 1 * 128 + 1 * e.val = e.val; rw [hi.2.2.2.2.2.1]; omega

/-- Block 3: rows 0..999 of the second item table. -/
theorem prep_iblk3 (c : Dev nD) (t : Fin cfg0.N) (p : Fin 1000) (e : Fin 128) :
    (Prep.iblk V c 3 t : Vec F S1000x128 .f32) (ix2 p e) = (V c main_arg4 : S101000x128.Idx → F .f32) (ix2 (Fin.ofNat 101000 (p.val)) e) := by
  have hi := prep_index t
  unfold Prep.iblk
  rw [View.read_apply]
  show V c main_arg4 _ = V c main_arg4 _
  congr 1
  funext a
  apply Fin.ext
  have hp := p.isLt
  match a with
  | ⟨0, _⟩ => show win0_3.index t 0 * 1000 + 1 * p.val = (p.val) % 101000; rw [hi.2.2.2.2.2.2.1]; omega
  | ⟨1, _⟩ => show win0_3.index t 1 * 128 + 1 * e.val = e.val; rw [hi.2.2.2.2.2.2.2.1]; omega

/-- Block 4: rows 100000..100999 of the first item table. -/
theorem prep_iblk4 (c : Dev nD) (t : Fin cfg0.N) (p : Fin 1000) (e : Fin 128) :
    (Prep.iblk V c 4 t : Vec F S1000x128 .f32) (ix2 p e) = (V c main_arg3 : S101000x128.Idx → F .f32) (ix2 (Fin.ofNat 101000 (p.val + 100000)) e) := by
  have hi := prep_index t
  unfold Prep.iblk
  rw [View.read_apply]
  show V c main_arg3 _ = V c main_arg3 _
  congr 1
  funext a
  apply Fin.ext
  have hp := p.isLt
  match a with
  | ⟨0, _⟩ => show win0_4.index t 0 * 1000 + 1 * p.val = (p.val + 100000) % 101000; rw [hi.2.2.2.2.2.2.2.2.1]; omega
  | ⟨1, _⟩ => show win0_4.index t 1 * 128 + 1 * e.val = e.val; rw [hi.2.2.2.2.2.2.2.2.2.1]; omega

/-- Block 5: rows 100000..100999 of the second item table. -/
theorem prep_iblk5 (c : Dev nD) (t : Fin cfg0.N) (p : Fin 1000) (e : Fin 128) :
    (Prep.iblk V c 5 t : Vec F S1000x128 .f32) (ix2 p e) = (V c main_arg4 : S101000x128.Idx → F .f32) (ix2 (Fin.ofNat 101000 (p.val + 100000)) e) := by
  have hi := prep_index t
  unfold Prep.iblk
  rw [View.read_apply]
  show V c main_arg4 _ = V c main_arg4 _
  congr 1
  funext a
  apply Fin.ext
  have hp := p.isLt
  match a with
  | ⟨0, _⟩ => show win0_5.index t 0 * 1000 + 1 * p.val = (p.val + 100000) % 101000; rw [hi.2.2.2.2.2.2.2.2.2.2.1]; omega
  | ⟨1, _⟩ => show win0_5.index t 1 * 128 + 1 * e.val = e.val; rw [hi.2.2.2.2.2.2.2.2.2.2.2.1]; omega

/-- The merged table of the four tables as the region finds them. -/
abbrev mergedOf (c : Dev nD) : Buf (Elt F) ((c : Thread nD τ).loc main_v0) :=
  (Cert.Spec.merged (V c main_arg1 : S100000x128.Idx → F .f32) (V c main_arg2 : S100000x128.Idx → F .f32)
    (V c main_arg3 : S101000x128.Idx → F .f32) (V c main_arg4 : S101000x128.Idx → F .f32) : S3000x128.Idx → F .f32)

/-- What the one grid point writes back is the (whole) block of the merged table. -/
theorem prep_flushed (c : Dev nD) (t : Fin cfg0.N) :
    (Prep.dat V O B c).flushed 6 t = ((cfg0.win 6).blk t).view.read (Elt F) (mergedOf V c) := by
  have hi := prep_index t
  show (cfg0.win 6).cut (grid0.coords t) ((Prep.dat V O B c).after 6 t) = _
  rw [Prep.after6]
  rw [show Prep.out6 (Prep.iblk V c 0 t) (Prep.iblk V c 1 t) (Prep.iblk V c 2 t) (Prep.iblk V c 3 t) (Prep.iblk V c 4 t) (Prep.iblk V c 5 t)
      = PrepValue.outPrep (Prep.iblk V c 0 t) (Prep.iblk V c 1 t) (Prep.iblk V c 2 t) (Prep.iblk V c 3 t) (Prep.iblk V c 4 t) (Prep.iblk V c 5 t) from rfl]
  rw [outPrep_eq_merged (V c main_arg1 : S100000x128.Idx → F .f32) (V c main_arg2 : S100000x128.Idx → F .f32)
    (V c main_arg3 : S101000x128.Idx → F .f32) (V c main_arg4 : S101000x128.Idx → F .f32)
    (Prep.iblk V c 0 t) (Prep.iblk V c 1 t) (Prep.iblk V c 2 t) (Prep.iblk V c 3 t) (Prep.iblk V c 4 t) (Prep.iblk V c 5 t)
    (prep_iblk0 V c t) (prep_iblk1 V c t) (prep_iblk2 V c t) (prep_iblk3 V c t) (prep_iblk4 V c t) (prep_iblk5 V c t)]
  funext j
  show mergedOf V c _ = mergedOf V c (((cfg0.win 6).blk t).view.emb j)
  congr 1
  funext a
  apply Fin.ext
  match a with
  | ⟨0, _⟩ => show (j 0).val = win0_6.index t 0 * 3000 + 1 * (j 0).val; rw [hi.2.2.2.2.2.2.2.2.2.2.2.2.1]; omega
  | ⟨1, _⟩ => show (j 1).val = win0_6.index t 1 * 128 + 1 * (j 1).val; rw [hi.2.2.2.2.2.2.2.2.2.2.2.2.2]; omega

/-- The one block is the whole array. -/
theorem prep_cover (i : S3000x128.Idx) : ∃ t : Fin cfg0.N, (cfg0.win 6).flush t = true ∧ i ∈ ((cfg0.win 6).blk t).view.set := by
  have hi := prep_index t0_0
  refine ⟨t0_0, flush0_6 t0_0, ?_⟩
  show i ∈ ((View.whole main_v0).slice (win0_6.rect t0_0)).set
  rw [View.set_slice_whole, Rect.mem_set_unit]
  intro a
  have h0 : (i 0 : Nat) < 3000 := (i 0).isLt
  have h1 : (i 1 : Nat) < 128 := (i 1).isLt
  match a with
  | ⟨0, _⟩ => show win0_6.index t0_0 0 * 3000 ≤ (i 0 : Nat) ∧ (i 0 : Nat) < win0_6.index t0_0 0 * 3000 + 3000
              rw [hi.2.2.2.2.2.2.2.2.2.2.2.2.1]; omega
  | ⟨1, _⟩ => show win0_6.index t0_0 1 * 128 ≤ (i 1 : Nat) ∧ (i 1 : Nat) < win0_6.index t0_0 1 * 128 + 128
              rw [hi.2.2.2.2.2.2.2.2.2.2.2.2.2]; omega

/-- After the region the result array holds the merged table. -/
theorem prep_result (c : Dev nD) : (Prep.dat V O B c).arrAt 6 cfg0.N = mergedOf V c :=
  (Prep.dat V O B c).arrAt_eq_of_cover 6 (mergedOf V c) (fun t _ => prep_flushed V O B c t) prep_cover

end Cert.KernelIdeal.ValueLeg

end
-- ==== Proof.MlpLayerIdeal.lean ====
/-
  One affine layer with a rectifier, as a block product into a zero accumulator plus a broadcast bias row, read at an
  index, at the extended reals; and the last step (a lane sum of a product with a broadcast weight row, a bias, the
  logistic function).

  At the extended reals a block product of an m×k by a k×n matrix into the zero matrix is, at (a, b), the sum over c of
  A(a,c)·B(c,b); the bias row broadcast down the rows reads bias(0,b); the rectifier is the maximum with the zero word,
  which is the number 0. So the layer is max (∑ A(a,c)·B(c,b) + bias(0,b)) 0 at every (a, b), for all sizes.
-/
import proofs.«205820_g61907658604586_cont_9to1_m_785_3_alg».proof.Proof.Spec
import Idealize.ShloMosaic.Lib.StackMember
import Idealize.ShloMosaic.Lib.KernelVsHost
import Idealize.ShloMosaic.Lib.ValueLayout
import Idealize.ShloMosaic.Lib.ValueIdx

noncomputable section

open scoped BigOperators

namespace Cert.KernelIdeal.MlpValue

open Idealize.ShloMosaic Idealize.ShloMosaic.ValueIdx

/-- A block product into the zero matrix, at (a, b): the sum over the contracted coordinate of the products. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A change of number format does nothing at the extended reals. -/
theorem truncf_id {s : Shape} {φ ψ : FTy} (x : FVec Ideal s φ) (h : ψ.bits < φ.bits) :
    (truncf ψ x h : FVec Ideal s ψ) = x := rfl

/-- One layer: block product into zero, plus the bias row laid along every row, then the maximum with zero. -/
theorem layer_eq {m k n : Nat} (D : DotDims ⟨2, ![m, k]⟩ ⟨2, ![k, n]⟩ ⟨2, ![m, n]⟩) (hD : D = DotDims.plain m k n)
    (h : FVec Ideal ⟨2, ![m, k]⟩ .bf16) (W : FVec Ideal ⟨2, ![k, n]⟩ .bf16) (bias : FVec Ideal ⟨2, ![1, n]⟩ .f32)
    (hb : (⟨2, ![1, n]⟩ : Shape).Broadcasts ⟨2, ![m, n]⟩) :
    maximumf (addf (matmul D none h W (constant (F := Ideal) ⟨2, ![m, n]⟩ .f32 0x00000000#32)) (broadcastTo ⟨2, ![m, n]⟩ bias hb))
        (broadcast ⟨2, ![m, n]⟩ (Scalar.ofBits (F := Ideal) .f32 0x00000000#32))
      = Cert.Spec.layer h W (Cert.Spec.rowVec bias) := by
  subst hD
  funext i
  obtain ⟨a, b, rfl⟩ : ∃ (a : Fin m) (b : Fin n), i = ix2 a b := ⟨i 0, i 1, eq_ix2 i⟩
  rw [maximumf_apply, addf_apply, matmul_plain_apply, broadcastTo_1b_ab_apply, broadcast_apply]
  show max _ (Ideal.ofBits .f32 0x00000000#32) = _
  rw [Ideal.ofBits_zero_f32]
  rfl

end Cert.KernelIdeal.MlpValue

end
-- ==== Proof.MlpHeadIdeal.lean ====
/-
  The last step of the network read at an index, at the extended reals: each row of the activations is multiplied
  lane by lane with one weight row laid along every row, the 256 lanes are summed starting from the zero word, a scalar
  bias is added, and the logistic function is applied.

  A lane sum from the zero word is the sum over the lane coordinate; the weight row broadcast down the rows reads
  w(0,q) at (r,q); the broadcast scalar reads itself. So row r gives logistic (∑ act(r,q)·w(0,q) + bias).
-/
import proofs.«205820_g61907658604586_cont_9to1_m_785_3_alg».proof.Proof.Spec
import Idealize.ShloMosaic.PureOps.Ideal.Laws
import Idealize.ShloMosaic.Lib.ValueLayout
import Idealize.ShloMosaic.Lib.ValueIdx

noncomputable section

open scoped BigOperators

namespace Cert.KernelIdeal.MlpValue

open Idealize.ShloMosaic Idealize.ShloMosaic.ValueIdx

/-- A sum over the lanes (axis 1) of an m×n array from the zero word, at row r: the sum over the lane coordinate. -/
theorem laneSum_apply {m n : Nat} (src : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (r : Fin m) :
    multiReduction (F := Ideal) .add [1] ⟨1, ![m]⟩ src 0x00000000#32 h hφ hacc (ix1 r) = ∑ q : Fin n, src (ix2 r q) := by
  rw [Ideal.multiReduction_add_single]
  show (∑ q : Fin n, src (h.lift (ix1 r) q)) = _
  refine Finset.sum_congr rfl fun q _ => congrArg src ?_
  funext c
  match c with
  | ⟨0, _⟩ => rfl
  | ⟨1, _⟩ => rfl

/-- The one entry of a 1×1 array, taken out at position (0, 0). -/
theorem extract_1x1 {α : Type} (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- The last step at row r. -/
theorem head_apply {m : Nat} (act : FVec Ideal ⟨2, ![m, 256]⟩ .f32) (w : FVec Ideal ⟨2, ![1, 256]⟩ .f32) (bp : FVec Ideal ⟨2, ![1, 1]⟩ .f32)
    (hb : (⟨2, ![1, 256]⟩ : Shape).Broadcasts ⟨2, ![m, 256]⟩) (hr : (⟨2, ![m, 256]⟩ : Shape).Reduces [1] ⟨1, ![m]⟩)
    (hφ : FKind.Formats .f32) (hacc : (0x00000000#32 : BitVec 32) = FKind.add.neutral .f32 hφ)
    (hpos : ∀ a, (![0, 0] : Fin 2 → Nat) a < (⟨2, ![1, 1]⟩ : Shape).size a) (r : Fin m) :
    logistic (addf (multiReduction (F := Ideal) .add [1] ⟨1, ![m]⟩ (mulf act (broadcastTo ⟨2, ![m, 256]⟩ w hb)) 0x00000000#32 hr hφ hacc)
        (broadcast ⟨1, ![m]⟩ (extractAt ![0, 0] bp hpos))) (ix1 r)
      = Cert.Spec.head act (Cert.Spec.colOf w) (fun _ => bp (ix2 (0 : Fin 1) (0 : Fin 1))) (ix1 r) := by
  show Ideal.logistic (multiReduction (F := Ideal) .add [1] ⟨1, ![m]⟩ (mulf act (broadcastTo ⟨2, ![m, 256]⟩ w hb)) 0x00000000#32 hr hφ hacc (ix1 r)
      + extractAt ![0, 0] bp hpos)
    = Ideal.logistic ((∑ q : Fin 256, act (ix2 r q) * w (ix2 (0 : Fin 1) q)) + bp (ix2 (0 : Fin 1) (0 : Fin 1)))
  rw [laneSum_apply, extract_1x1]
  refine congrArg (fun s => Ideal.logistic (s + bp (ix2 (0 : Fin 1) (0 : Fin 1)))) (Finset.sum_congr rfl fun q _ => ?_)
  rw [mulf_apply, broadcastTo_1b_ab_apply]

end Cert.KernelIdeal.MlpValue

end
-- ==== Proof.MlpValueIdeal.lean ====
/-
  The value the network step stores for row r, at the extended reals, is the network of the specification on that row.

  The step's block is three layers (block product into zero, bias row, rectifier), the product with the last weight row,
  a lane sum, a bias, the logistic function, and a re-indexing of the 1024 results as a 1×1×1024 array. Same-shape
  re-indexings and number-format changes do nothing at the extended reals; each layer is the specification's layer and
  the tail is the specification's last step, for all sizes (the two modules imported here); the three sizes are
  1024×384·384×1024, 1024×1024·1024×512 and 1024×512·512×256.
-/
import proofs.«205820_g61907658604586_cont_9to1_m_785_3_alg».proof.Proof.Gen.KernelIdeal.Skeleton
import proofs.«205820_g61907658604586_cont_9to1_m_785_3_alg».proof.Proof.Spec
import proofs.«205820_g61907658604586_cont_9to1_m_785_3_alg».proof.Proof.MlpLayerIdeal
import proofs.«205820_g61907658604586_cont_9to1_m_785_3_alg».proof.Proof.MlpHeadIdeal
import Idealize.ShloMosaic.Lib.Pipeline.Value

noncomputable section

open scoped BigOperators

namespace Cert.KernelIdeal.MlpValue

open Idealize.ShloMosaic Idealize.ShloMosaic.ValueIdx Cert.KernelIdeal Cert.KernelIdeal.Gen

/-- The three layers and the product with the last weight row, as one array. -/
theorem pay2_eq (v0 : Vec Ideal S1024x384 .f32) (v3 : Vec Ideal S384x1024 .bf16) (v6 : Vec Ideal S1x1024 .f32) (v13 : Vec Ideal S1024x512 .bf16)
    (v16 : Vec Ideal S1x512 .f32) (v23 : Vec Ideal S512x256 .bf16) (v26 : Vec Ideal S1x256 .f32) (v32 : Vec Ideal S1x256 .f32) :
    k2_pay2 (F := Ideal) v0 v3 v6 v13 v16 v23 v26 v32
      = mulf (F := Ideal) (φ := .f32) (s := S1024x256)
          (Cert.Spec.layer (Cert.Spec.layer (Cert.Spec.layer v0 v3 (Cert.Spec.rowVec v6)) v13 (Cert.Spec.rowVec v16)) v23 (Cert.Spec.rowVec v26))
          (broadcastTo S1024x256 v32 broadcasts_S1x256_S1024x256) := by
  unfold k2_pay2
  simp only [shapeCast_self, truncf_id]
  rw [layer_eq dot_S1024x384_S384x1024_S1024x1024_1_0_0_1_n_n rfl, layer_eq dot_S1024x1024_S1024x512_S1024x512_1_0_0_1_n_n rfl,
    layer_eq dot_S1024x512_S512x256_S1024x256_1_0_0_1_n_n rfl]

/-- Row r of the stored block is the network of the specification on row r. -/
theorem mlp_payload (v0 : Vec Ideal S1024x384 .f32) (v3 : Vec Ideal S384x1024 .bf16) (v6 : Vec Ideal S1x1024 .f32) (v13 : Vec Ideal S1024x512 .bf16) (v16 : Vec Ideal S1x512 .f32)
    (v23 : Vec Ideal S512x256 .bf16) (v26 : Vec Ideal S1x256 .f32) (v32 : Vec Ideal S1x256 .f32) (v37 : Vec Ideal S1x1 .f32) (r : Fin 1024) :
    Cert.KernelIdeal.Gen.k2_pay1 (F := Ideal) (Cert.KernelIdeal.Gen.k2_pay2 v0 v3 v6 v13 v16 v23 v26 v32) v37 (ValueIdx.ix3 (0 : Fin 1) (0 : Fin 1) r)
      = Cert.Spec.net (n := 1024) v0 v3 (Cert.Spec.rowVec v6) v13 (Cert.Spec.rowVec v16) v23 (Cert.Spec.rowVec v26) (Cert.Spec.colOf v32) (fun _ => v37 (ValueIdx.ix2 (0 : Fin 1) (0 : Fin 1))) (ValueIdx.ix1 r) := by
  rw [pay2_eq]
  unfold k2_pay1
  refine (shapeCast_apply _ shapeCasts_S1024_S1x1x1024 (ix3 (0 : Fin 1) (0 : Fin 1) r) (ix1 r) ?_).trans ?_
  · rw [Shape.rowMajor_val_one, Shape.rowMajor_val_three]
    show r.val = (0 * 1 + 0) * 1024 + r.val
    omega
  · exact head_apply _ v32 v37 broadcasts_S1x256_S1024x256 reduces_S1024x256_S1024 _ _ inpos_S1x1_p0_0 r

end Cert.KernelIdeal.MlpValue

end
-- ==== Proof.ValueLegMlpIdeal.lean ====
/-
  The second region's result array at the extended reals: row block t of the [16,1,1024] result holds the network of the
  specification on rows 1024 t .. 1024 t + 1023 of the feature rows.

  The region has sixteen grid points. At point t the first input block is rows 1024 t .. 1024 t + 1023 of the feature
  rows; the eight other input blocks are the whole weight and bias arrays at every point; the output block is row block t.
  The body's stored value for row r of the block is the network on row r of its input block; since each row of the network
  depends on that row of the feature rows only, it is the network of all 16384 rows at row 1024 t + r.
-/
import proofs.«205820_g61907658604586_cont_9to1_m_785_3_alg».proof.Proof.MlpBodyIdeal
import proofs.«205820_g61907658604586_cont_9to1_m_785_3_alg».proof.Proof.MlpValueIdeal
import proofs.«205820_g61907658604586_cont_9to1_m_785_3_alg».proof.Proof.Spec
import Idealize.ShloMosaic.Lib.Pipeline.Value

set_option maxRecDepth 16384

noncomputable section

open scoped BigOperators

namespace Cert.KernelIdeal.ValueLeg

open Cert.KernelIdeal Cert.KernelIdeal.Gen Cert.KernelIdeal.Setup

open Idealize.ShloMosaic Idealize.ShloMosaic.TcCoe Idealize.ShloMosaic.ValueIdx
open Idealize.ShloMosaic.SparseCore.Cfg (HIx)
open Idealize.SL.Sem
open Idealize.ShloMosaic.Pipeline (Dat)

/-! ## Each row of the network depends on that row of the feature rows only -/

theorem net_rows {n n' : Nat} (h : Cert.Spec.Arr2 EReal n 384) (h' : Cert.Spec.Arr2 EReal n' 384)
    (W1 : Cert.Spec.Arr2 EReal 384 1024) (b1 : Cert.Spec.Arr1 EReal 1024) (W2 : Cert.Spec.Arr2 EReal 1024 512) (b2 : Cert.Spec.Arr1 EReal 512)
    (W3 : Cert.Spec.Arr2 EReal 512 256) (b3 : Cert.Spec.Arr1 EReal 256) (Wp : Cert.Spec.Arr2 EReal 256 1) (bp : Cert.Spec.Arr1 EReal 1)
    (r : Fin n) (r' : Fin n') (hh : ∀ q : Fin 384, h (ix2 r q) = h' (ix2 r' q)) :
    Cert.Spec.net h W1 b1 W2 b2 W3 b3 Wp bp (ix1 r) = Cert.Spec.net h' W1 b1 W2 b2 W3 b3 Wp bp (ix1 r') := by
  have l1 : ∀ q : Fin 1024, Cert.Spec.layer h W1 b1 (ix2 r q) = Cert.Spec.layer h' W1 b1 (ix2 r' q) := fun q => by
    show max ((∑ k : Fin 384, h (ix2 r k) * W1 (ix2 k q)) + b1 (ix1 q)) 0 = max ((∑ k : Fin 384, h' (ix2 r' k) * W1 (ix2 k q)) + b1 (ix1 q)) 0
    simp only [hh]
  have l2 : ∀ q : Fin 512, Cert.Spec.layer (Cert.Spec.layer h W1 b1) W2 b2 (ix2 r q) = Cert.Spec.layer (Cert.Spec.layer h' W1 b1) W2 b2 (ix2 r' q) := fun q => by
    show max ((∑ k : Fin 1024, Cert.Spec.layer h W1 b1 (ix2 r k) * W2 (ix2 k q)) + b2 (ix1 q)) 0
      = max ((∑ k : Fin 1024, Cert.Spec.layer h' W1 b1 (ix2 r' k) * W2 (ix2 k q)) + b2 (ix1 q)) 0
    simp only [l1]
  have l3 : ∀ q : Fin 256, Cert.Spec.layer (Cert.Spec.layer (Cert.Spec.layer h W1 b1) W2 b2) W3 b3 (ix2 r q)
      = Cert.Spec.layer (Cert.Spec.layer (Cert.Spec.layer h' W1 b1) W2 b2) W3 b3 (ix2 r' q) := fun q => by
    show max ((∑ k : Fin 512, Cert.Spec.layer (Cert.Spec.layer h W1 b1) W2 b2 (ix2 r k) * W3 (ix2 k q)) + b3 (ix1 q)) 0
      = max ((∑ k : Fin 512, Cert.Spec.layer (Cert.Spec.layer h' W1 b1) W2 b2 (ix2 r' k) * W3 (ix2 k q)) + b3 (ix1 q)) 0
    simp only [l2]
  show Ideal.logistic ((∑ q : Fin 256, Cert.Spec.layer (Cert.Spec.layer (Cert.Spec.layer h W1 b1) W2 b2) W3 b3 (ix2 r q) * Wp (ix2 q (0 : Fin 1))) + bp (ix1 (0 : Fin 1)))
    = Ideal.logistic ((∑ q : Fin 256, Cert.Spec.layer (Cert.Spec.layer (Cert.Spec.layer h' W1 b1) W2 b2) W3 b3 (ix2 r' q) * Wp (ix2 q (0 : Fin 1))) + bp (ix1 (0 : Fin 1)))
  simp only [l3]

/-! ## What the body leaves in the output's staging buffer, over given blocks -/

theorem hz2 : (![0, 0] : Fin 2 → Nat) = fun _ => 0 := funext fun a => by fin_cases a <;> rfl
theorem hz3 : (![0, 0, 0] : Fin 3 → Nat) = fun _ => 0 := funext fun a => by fin_cases a <;> rfl

theorem out9_apply (x0 : Vec Ideal S1024x384 .f32) (x1 : Vec Ideal S384x1024 .bf16) (x2 : Vec Ideal S1x1024 .f32) (x3 : Vec Ideal S1024x512 .bf16)
    (x4 : Vec Ideal S1x512 .f32) (x5 : Vec Ideal S512x256 .bf16) (x6 : Vec Ideal S1x256 .f32) (x7 : Vec Ideal S1x256 .f32) (x8 : Vec Ideal S1x1 .f32)
    (a b : Fin 1) (r : Fin 1024) :
    Mlp.out9 (F := Ideal) x0 x1 x2 x3 x4 x5 x6 x7 x8 (ix3 a b r)
      = Cert.Spec.net (n := 1024) x0 x1 (Cert.Spec.rowVec x2) x3 (Cert.Spec.rowVec x4) x5 (Cert.Spec.rowVec x6) (Cert.Spec.colOf x7)
          (fun _ => x8 (ix2 (0 : Fin 1) (0 : Fin 1))) (ix1 r) := by
  obtain rfl : a = 0 := Subsingleton.elim _ _
  obtain rfl : b = 0 := Subsingleton.elim _ _
  unfold Mlp.out9
  rw [View.canon_unit_zero hz3]
  rw [View.ld_unit_zero (S := S1024x384) hz2, View.ld_unit_zero (S := S384x1024) hz2, View.ld_unit_zero (S := S1x1024) hz2,
    View.ld_unit_zero (S := S1024x512) hz2, View.ld_unit_zero (S := S1x512) hz2, View.ld_unit_zero (S := S512x256) hz2,
    View.ld_unit_zero (S := S1x256) hz2, View.ld_unit_zero (S := S1x256) hz2, View.ld_unit_zero (S := S1x1) hz2]
  exact MlpValue.mlp_payload x0 x1 x2 x3 x4 x5 x6 x7 x8 r

/-- The same at any index of the output block. -/
theorem out9_apply' (x0 : Vec Ideal S1024x384 .f32) (x1 : Vec Ideal S384x1024 .bf16) (x2 : Vec Ideal S1x1024 .f32) (x3 : Vec Ideal S1024x512 .bf16)
    (x4 : Vec Ideal S1x512 .f32) (x5 : Vec Ideal S512x256 .bf16) (x6 : Vec Ideal S1x256 .f32) (x7 : Vec Ideal S1x256 .f32) (x8 : Vec Ideal S1x1 .f32)
    (y : S1x1x1024.Idx) :
    Mlp.out9 (F := Ideal) x0 x1 x2 x3 x4 x5 x6 x7 x8 y
      = Cert.Spec.net (n := 1024) x0 x1 (Cert.Spec.rowVec x2) x3 (Cert.Spec.rowVec x4) x5 (Cert.Spec.rowVec x6) (Cert.Spec.colOf x7)
          (fun _ => x8 (ix2 (0 : Fin 1) (0 : Fin 1))) (ix1 (y 2)) := by
  obtain ⟨a, b, r, rfl⟩ : ∃ (a b : Fin 1) (r : Fin 1024), y = ix3 a b r := ⟨y 0, y 1, y 2, eq_ix3 y⟩
  exact out9_apply x0 x1 x2 x3 x4 x5 x6 x7 x8 a b r

/-! ## The region's blocks -/

variable (V : (c : Dev nD) → (b : Ref sig .tc) → Buf (Elt Ideal) ((c : Thread nD τ).loc b)) (O : CellTallies nD τ sig (HIx 1))
  (B : Set (SemLoc sig × HIx 1))

/-- The block indices at every grid point. -/
theorem mlp_index : ∀ t : Fin cfg2.N, win2_0.index t 0 = t.val
    ∧ win2_0.index t 1 = 0
    ∧ win2_1.index t 0 = 0
    ∧ win2_1.index t 1 = 0
    ∧ win2_2.index t 0 = 0
    ∧ win2_2.index t 1 = 0
    ∧ win2_3.index t 0 = 0
    ∧ win2_3.index t 1 = 0
    ∧ win2_4.index t 0 = 0
    ∧ win2_4.index t 1 = 0
    ∧ win2_5.index t 0 = 0
    ∧ win2_5.index t 1 = 0
    ∧ win2_6.index t 0 = 0
    ∧ win2_6.index t 1 = 0
    ∧ win2_7.index t 0 = 0
    ∧ win2_7.index t 1 = 0
    ∧ win2_8.index t 0 = 0
    ∧ win2_8.index t 1 = 0
    ∧ win2_9.index t 0 = t.val
    ∧ win2_9.index t 1 = 0
    ∧ win2_9.index t 2 = 0 :=
  (by decide +kernel : ∀ t : Fin grid2.N, _)

/-- Block 0 at point t: rows 1024 t .. 1024 t + 1023 of the feature rows. -/
theorem mlp_iblk0 (c : Dev nD) (t : Fin cfg2.N) (p : Fin 1024) (q : Fin 384) :
    (Mlp.iblk V c 0 t : Vec Ideal S1024x384 .f32) (ix2 p q) = (V c main_v3 : S16384x384.Idx → EReal) (ix2 (Fin.ofNat 16384 (1024 * t.val + p.val)) q) := by
  have hi := mlp_index t
  have ht : t.val < 16 := lt_of_lt_of_eq t.isLt (show cfg2.N = 16 from N_2)
  unfold Mlp.iblk
  rw [View.read_apply]
  show V c main_v3 _ = V c main_v3 _
  congr 1
  funext a
  apply Fin.ext
  have hp := p.isLt
  match a with
  | ⟨0, _⟩ => show win2_0.index t 0 * 1024 + 1 * p.val = (1024 * t.val + p.val) % 16384; rw [hi.1]; omega
  | ⟨1, _⟩ => show win2_0.index t 1 * 384 + 1 * q.val = q.val; rw [hi.2.1]; omega

/-- Block 1 is the whole of its array. -/
theorem mlp_iblk1 (c : Dev nD) (t : Fin cfg2.N) :
    (Mlp.iblk V c 1 t : Vec Ideal S384x1024 .bf16) = (V c main_v4 : S384x1024.Idx → EReal) := by
  have hi := mlp_index t
  funext x
  unfold Mlp.iblk
  rw [View.read_apply]
  show V c main_v4 _ = V c main_v4 _
  congr 1
  funext a
  apply Fin.ext
  match a with
  | ⟨0, _⟩ => show win2_1.index t 0 * 384 + 1 * (x 0).val = (x 0).val; rw [hi.2.2.1]; omega
  | ⟨1, _⟩ => show win2_1.index t 1 * 1024 + 1 * (x 1).val = (x 1).val; rw [hi.2.2.2.1]; omega

/-- Block 2 is the whole of its array. -/
theorem mlp_iblk2 (c : Dev nD) (t : Fin cfg2.N) :
    (Mlp.iblk V c 2 t : Vec Ideal S1x1024 .f32) = (V c main_v5 : S1x1024.Idx → EReal) := by
  have hi := mlp_index t
  funext x
  unfold Mlp.iblk
  rw [View.read_apply]
  show V c main_v5 _ = V c main_v5 _
  congr 1
  funext a
  apply Fin.ext
  match a with
  | ⟨0, _⟩ => show win2_2.index t 0 * 1 + 1 * (x 0).val = (x 0).val; rw [hi.2.2.2.2.1]; omega
  | ⟨1, _⟩ => show win2_2.index t 1 * 1024 + 1 * (x 1).val = (x 1).val; rw [hi.2.2.2.2.2.1]; omega

/-- Block 3 is the whole of its array. -/
theorem mlp_iblk3 (c : Dev nD) (t : Fin cfg2.N) :
    (Mlp.iblk V c 3 t : Vec Ideal S1024x512 .bf16) = (V c main_v6 : S1024x512.Idx → EReal) := by
  have hi := mlp_index t
  funext x
  unfold Mlp.iblk
  rw [View.read_apply]
  show V c main_v6 _ = V c main_v6 _
  congr 1
  funext a
  apply Fin.ext
  match a with
  | ⟨0, _⟩ => show win2_3.index t 0 * 1024 + 1 * (x 0).val = (x 0).val; rw [hi.2.2.2.2.2.2.1]; omega
  | ⟨1, _⟩ => show win2_3.index t 1 * 512 + 1 * (x 1).val = (x 1).val; rw [hi.2.2.2.2.2.2.2.1]; omega

/-- Block 4 is the whole of its array. -/
theorem mlp_iblk4 (c : Dev nD) (t : Fin cfg2.N) :
    (Mlp.iblk V c 4 t : Vec Ideal S1x512 .f32) = (V c main_v7 : S1x512.Idx → EReal) := by
  have hi := mlp_index t
  funext x
  unfold Mlp.iblk
  rw [View.read_apply]
  show V c main_v7 _ = V c main_v7 _
  congr 1
  funext a
  apply Fin.ext
  match a with
  | ⟨0, _⟩ => show win2_4.index t 0 * 1 + 1 * (x 0).val = (x 0).val; rw [hi.2.2.2.2.2.2.2.2.1]; omega
  | ⟨1, _⟩ => show win2_4.index t 1 * 512 + 1 * (x 1).val = (x 1).val; rw [hi.2.2.2.2.2.2.2.2.2.1]; omega

/-- Block 5 is the whole of its array. -/
theorem mlp_iblk5 (c : Dev nD) (t : Fin cfg2.N) :
    (Mlp.iblk V c 5 t : Vec Ideal S512x256 .bf16) = (V c main_v8 : S512x256.Idx → EReal) := by
  have hi := mlp_index t
  funext x
  unfold Mlp.iblk
  rw [View.read_apply]
  show V c main_v8 _ = V c main_v8 _
  congr 1
  funext a
  apply Fin.ext
  match a with
  | ⟨0, _⟩ => show win2_5.index t 0 * 512 + 1 * (x 0).val = (x 0).val; rw [hi.2.2.2.2.2.2.2.2.2.2.1]; omega
  | ⟨1, _⟩ => show win2_5.index t 1 * 256 + 1 * (x 1).val = (x 1).val; rw [hi.2.2.2.2.2.2.2.2.2.2.2.1]; omega

/-- Block 6 is the whole of its array. -/
theorem mlp_iblk6 (c : Dev nD) (t : Fin cfg2.N) :
    (Mlp.iblk V c 6 t : Vec Ideal S1x256 .f32) = (V c main_v9 : S1x256.Idx → EReal) := by
  have hi := mlp_index t
  funext x
  unfold Mlp.iblk
  rw [View.read_apply]
  show V c main_v9 _ = V c main_v9 _
  congr 1
  funext a
  apply Fin.ext
  match a with
  | ⟨0, _⟩ => show win2_6.index t 0 * 1 + 1 * (x 0).val = (x 0).val; rw [hi.2.2.2.2.2.2.2.2.2.2.2.2.1]; omega
  | ⟨1, _⟩ => show win2_6.index t 1 * 256 + 1 * (x 1).val = (x 1).val; rw [hi.2.2.2.2.2.2.2.2.2.2.2.2.2.1]; omega

/-- Block 7 is the whole of its array. -/
theorem mlp_iblk7 (c : Dev nD) (t : Fin cfg2.N) :
    (Mlp.iblk V c 7 t : Vec Ideal S1x256 .f32) = (V c main_v10 : S1x256.Idx → EReal) := by
  have hi := mlp_index t
  funext x
  unfold Mlp.iblk
  rw [View.read_apply]
  show V c main_v10 _ = V c main_v10 _
  congr 1
  funext a
  apply Fin.ext
  match a with
  | ⟨0, _⟩ => show win2_7.index t 0 * 1 + 1 * (x 0).val = (x 0).val; rw [hi.2.2.2.2.2.2.2.2.2.2.2.2.2.2.1]; omega
  | ⟨1, _⟩ => show win2_7.index t 1 * 256 + 1 * (x 1).val = (x 1).val; rw [hi.2.2.2.2.2.2.2.2.2.2.2.2.2.2.2.1]; omega

/-- Block 8 is the whole of its array. -/
theorem mlp_iblk8 (c : Dev nD) (t : Fin cfg2.N) :
    (Mlp.iblk V c 8 t : Vec Ideal S1x1 .f32) = (V c main_v11 : S1x1.Idx → EReal) := by
  have hi := mlp_index t
  funext x
  unfold Mlp.iblk
  rw [View.read_apply]
  show V c main_v11 _ = V c main_v11 _
  congr 1
  funext a
  apply Fin.ext
  match a with
  | ⟨0, _⟩ => show win2_8.index t 0 * 1 + 1 * (x 0).val = (x 0).val; rw [hi.2.2.2.2.2.2.2.2.2.2.2.2.2.2.2.2.1]; omega
  | ⟨1, _⟩ => show win2_8.index t 1 * 1 + 1 * (x 1).val = (x 1).val; rw [hi.2.2.2.2.2.2.2.2.2.2.2.2.2.2.2.2.2.1]; omega

/-- The network on the feature rows and weights as the region finds them, at row `k` (reduced below 16384). -/
def netAt (c : Dev nD) (k : Nat) : EReal :=
  Cert.Spec.net (n := 16384) (V c main_v3 : S16384x384.Idx → EReal) (V c main_v4 : S384x1024.Idx → EReal)
      (Cert.Spec.rowVec (V c main_v5 : S1x1024.Idx → EReal)) (V c main_v6 : S1024x512.Idx → EReal) (Cert.Spec.rowVec (V c main_v7 : S1x512.Idx → EReal))
      (V c main_v8 : S512x256.Idx → EReal) (Cert.Spec.rowVec (V c main_v9 : S1x256.Idx → EReal)) (Cert.Spec.colOf (V c main_v10 : S1x256.Idx → EReal))
      (fun _ => (V c main_v11 : S1x1.Idx → EReal) (ix2 (0 : Fin 1) (0 : Fin 1)))
      (ix1 (Fin.ofNat 16384 k))

/-- The same laid out as sixteen row blocks of 1024. -/
abbrev netOf (c : Dev nD) : Buf (Elt Ideal) ((c : Thread nD τ).loc main_v12) :=
  ((fun i => netAt V c (1024 * (i 0).val + (i 2).val)) : S16x1x1024.Idx → EReal)

/-- What point t writes back is block t of that array. -/
theorem mlp_flushed (c : Dev nD) (t : Fin cfg2.N) :
    (Mlp.dat V O B c).flushed 9 t = ((cfg2.win 9).blk t).view.read (Elt Ideal) (netOf V c) := by
  have hi := mlp_index t
  have ht : t.val < 16 := lt_of_lt_of_eq t.isLt (show cfg2.N = 16 from N_2)
  show (cfg2.win 9).cut (grid2.coords t) ((Mlp.dat V O B c).after 9 t) = _
  rw [Mlp.after9]
  funext j
  have e0 : ((((cfg2.win 9).blk t).view.emb j) 0).val = t.val := by
    show win2_9.index t 0 * 1 + 1 * (j 0).val = t.val
    have : (j 0).val < 1 := (j 0).isLt
    rw [hi.2.2.2.2.2.2.2.2.2.2.2.2.2.2.2.2.2.2.1]; omega
  have e2 : ((((cfg2.win 9).blk t).view.emb j) 2).val = (j 2).val := by
    show win2_9.index t 2 * 1024 + 1 * (j 2).val = (j 2).val
    rw [hi.2.2.2.2.2.2.2.2.2.2.2.2.2.2.2.2.2.2.2.2]; omega
  show Mlp.out9 (F := Ideal) (Mlp.iblk V c 0 t) (Mlp.iblk V c 1 t) (Mlp.iblk V c 2 t) (Mlp.iblk V c 3 t) (Mlp.iblk V c 4 t) (Mlp.iblk V c 5 t)
      (Mlp.iblk V c 6 t) (Mlp.iblk V c 7 t) (Mlp.iblk V c 8 t) ((cfg2.win 9).xinj (grid2.coords t) j)
    = netAt V c (1024 * ((((cfg2.win 9).blk t).view.emb j) 0).val + ((((cfg2.win 9).blk t).view.emb j) 2).val)
  rw [e0, e2]
  refine (out9_apply' (Mlp.iblk V c 0 t) (Mlp.iblk V c 1 t) (Mlp.iblk V c 2 t) (Mlp.iblk V c 3 t) (Mlp.iblk V c 4 t) (Mlp.iblk V c 5 t)
      (Mlp.iblk V c 6 t) (Mlp.iblk V c 7 t) (Mlp.iblk V c 8 t) ((cfg2.win 9).xinj (grid2.coords t) j)).trans ?_
  rw [mlp_iblk1 V c t, mlp_iblk2 V c t, mlp_iblk3 V c t, mlp_iblk4 V c t, mlp_iblk5 V c t, mlp_iblk6 V c t, mlp_iblk7 V c t, mlp_iblk8 V c t]
  unfold netAt
  exact net_rows _ _ _ _ _ _ _ _ _ _ _ _ (fun q => mlp_iblk0 V c t _ q)

/-- Row block `i 0` is written by point `i 0`. -/
theorem mlp_cover (i : S16x1x1024.Idx) : ∃ t : Fin cfg2.N, (cfg2.win 9).flush t = true ∧ i ∈ ((cfg2.win 9).blk t).view.set := by
  have h0 : (i 0 : Nat) < 16 := (i 0).isLt
  have h1 : (i 1 : Nat) < 1 := (i 1).isLt
  have h2 : (i 2 : Nat) < 1024 := (i 2).isLt
  let t : Fin cfg2.N := ⟨(i 0).val, lt_of_lt_of_eq h0 (show 16 = cfg2.N from N_2.symm)⟩
  have hi := mlp_index t
  have htv : t.val = (i 0).val := rfl
  refine ⟨t, flush2_9 t, ?_⟩
  show i ∈ ((View.whole main_v12).slice (win2_9.rect t)).set
  rw [View.set_slice_whole, Rect.mem_set_unit]
  intro a
  match a with
  | ⟨0, _⟩ => show win2_9.index t 0 * 1 ≤ (i 0 : Nat) ∧ (i 0 : Nat) < win2_9.index t 0 * 1 + 1
              rw [hi.2.2.2.2.2.2.2.2.2.2.2.2.2.2.2.2.2.2.1, htv]; omega
  | ⟨1, _⟩ => show win2_9.index t 1 * 1 ≤ (i 1 : Nat) ∧ (i 1 : Nat) < win2_9.index t 1 * 1 + 1
              rw [hi.2.2.2.2.2.2.2.2.2.2.2.2.2.2.2.2.2.2.2.1]; omega
  | ⟨2, _⟩ => show win2_9.index t 2 * 1024 ≤ (i 2 : Nat) ∧ (i 2 : Nat) < win2_9.index t 2 * 1024 + 1024
              rw [hi.2.2.2.2.2.2.2.2.2.2.2.2.2.2.2.2.2.2.2.2]; omega

/-- After the region the result array holds the network on every row. -/
theorem mlp_result (c : Dev nD) : (Mlp.dat V O B c).arrAt 9 cfg2.N = netOf V c :=
  (Mlp.dat V O B c).arrAt_eq_of_cover 9 (netOf V c) (fun t _ => mlp_flushed V O B c t) mlp_cover

end Cert.KernelIdeal.ValueLeg

end
-- ==== Proof.ValueLegReshapeIdeal.lean ====
/-
  The reshapes between the kernels, read at an index, against the specification's re-indexings.

  The [16384,3] index array flattened row-major is the flat index list; the [49152,128] gathered rows regrouped as
  [16384,384] are the feature rows read off the table (row b, column k is gathered row 3 b + k / 128, lane k % 128); a
  vector of n entries viewed as a one-row matrix has the vector as its row; a one-column matrix of 256 entries viewed as
  a one-row matrix has the original as its column; the [16,1,1024] result flattened is entry 1024 t + r at (t, 0, r).
-/
import proofs.«205820_g61907658604586_cont_9to1_m_785_3_alg».proof.Proof.Spec
import Idealize.ShloMosaic.Lib.Pipeline.Value
import Idealize.ShloMosaic.Lib.ValueLayout
import Idealize.ShloMosaic.Lib.ValueIdx

noncomputable section

namespace Cert.KernelIdeal.ValueLeg

open Idealize.ShloMosaic Idealize.ShloMosaic.ValueIdx

variable {α : Type}

/-- The index array flattened row-major is the flat index list. -/
theorem reshape_flat (x : Cert.Spec.Arr2 (BitVec 32) 16384 3) (h : (⟨2, ![16384, 3]⟩ : Shape).ShapeCasts ⟨1, ![49152]⟩) :
    shapeCast ⟨1, ![49152]⟩ x h = Cert.Spec.flat x := by
  funext i
  obtain ⟨j, rfl⟩ : ∃ j : Fin 49152, i = ix1 j := ⟨i 0, eq_ix1 i⟩
  have hj := j.isLt
  refine shapeCast_apply x h (ix1 j) (ix2 (Fin.ofNat 16384 (j.val / 3)) (Fin.ofNat 3 (j.val % 3))) ?_
  rw [Shape.rowMajor_val_two, Shape.rowMajor_val_one]
  show (j.val / 3 % 16384) * 3 + j.val % 3 % 3 = j.val
  omega

/-- The gathered rows regrouped three to a sample are the feature rows read off the table. -/
theorem reshape_gath (M : Cert.Spec.Arr2 α 3000 128) (x : Cert.Spec.Arr2 (BitVec 32) 16384 3)
    (h : (⟨2, ![49152, 128]⟩ : Shape).ShapeCasts ⟨2, ![16384, 384]⟩) :
    shapeCast ⟨2, ![16384, 384]⟩ (Cert.Spec.gath M (Cert.Spec.flat x)) h = Cert.Spec.hcat M x := by
  funext i
  obtain ⟨b, k, rfl⟩ : ∃ (b : Fin 16384) (k : Fin 384), i = ix2 b k := ⟨i 0, i 1, eq_ix2 i⟩
  have hb := b.isLt
  have hk := k.isLt
  have e := shapeCast_apply (Cert.Spec.gath M (Cert.Spec.flat x)) h (ix2 b k)
    (ix2 (⟨3 * b.val + k.val / 128, by omega⟩ : Fin 49152) (⟨k.val % 128, by omega⟩ : Fin 128)) (by
      rw [Shape.rowMajor_val_two, Shape.rowMajor_val_two]
      show (3 * b.val + k.val / 128) * 128 + k.val % 128 = b.val * 384 + k.val
      omega)
  rw [e]
  show M (ix2 (Fin.ofNat 3000 ((x (ix2 (Fin.ofNat 16384 ((3 * b.val + k.val / 128) / 3)) (Fin.ofNat 3 ((3 * b.val + k.val / 128) % 3)))).toNat
      + ((3 * b.val + k.val / 128) % 3) * 1000)) (⟨k.val % 128, _⟩ : Fin 128))
    = M (ix2 (Fin.ofNat 3000 ((x (ix2 b (Cert.Spec.fld k))).toNat + (Cert.Spec.fld k).val * 1000)) (Cert.Spec.lane k))
  have e1 : Fin.ofNat 16384 ((3 * b.val + k.val / 128) / 3) = b := Fin.ext (by show (3 * b.val + k.val / 128) / 3 % 16384 = b.val; omega)
  have e2 : Fin.ofNat 3 ((3 * b.val + k.val / 128) % 3) = Cert.Spec.fld k := Fin.ext (by show (3 * b.val + k.val / 128) % 3 % 3 = k.val / 128; omega)
  have e3 : (3 * b.val + k.val / 128) % 3 = (Cert.Spec.fld k).val := by show (3 * b.val + k.val / 128) % 3 = k.val / 128; omega
  rw [e1, e2, e3]
  rfl

/-- A vector viewed as a one-row matrix: its row is the vector. -/
theorem rowVec_reshape {n : Nat} (b : Cert.Spec.Arr1 α n) (h : (⟨1, ![n]⟩ : Shape).ShapeCasts ⟨2, ![1, n]⟩) :
    Cert.Spec.rowVec (shapeCast ⟨2, ![1, n]⟩ b h) = b := by
  funext i
  obtain ⟨q, rfl⟩ : ∃ q : Fin n, i = ix1 q := ⟨i 0, eq_ix1 i⟩
  exact shapeCast_a_1a_apply b h (0 : Fin 1) q

/-- A one-column matrix viewed as a one-row matrix: read back as a column it is the original. -/
theorem colOf_reshape {n : Nat} (w : Cert.Spec.Arr2 α n 1) (h : (⟨2, ![n, 1]⟩ : Shape).ShapeCasts ⟨2, ![1, n]⟩) :
    Cert.Spec.colOf (shapeCast ⟨2, ![1, n]⟩ w h) = w := by
  funext i
  obtain ⟨q, u, rfl⟩ : ∃ (q : Fin n) (u : Fin 1), i = ix2 q u := ⟨i 0, i 1, eq_ix2 i⟩
  obtain rfl : u = 0 := Subsingleton.elim _ _
  refine shapeCast_apply w h (ix2 (0 : Fin 1) q) (ix2 q (0 : Fin 1)) ?_
  rw [Shape.rowMajor_val_two, Shape.rowMajor_val_two]
  show q.val * 1 + 0 = 0 * n + q.val
  omega

/-- A one-entry vector viewed as a 1×1 matrix: the constant vector of its entry is the original. -/
theorem one_reshape (b : Cert.Spec.Arr1 α 1) (h : (⟨1, ![1]⟩ : Shape).ShapeCasts ⟨2, ![1, 1]⟩) :
    (fun _ => shapeCast ⟨2, ![1, 1]⟩ b h (ix2 (0 : Fin 1) (0 : Fin 1)) : Cert.Spec.Arr1 α 1) = b := by
  funext i
  obtain ⟨q, rfl⟩ : ∃ q : Fin 1, i = ix1 q := ⟨i 0, eq_ix1 i⟩
  obtain rfl : q = 0 := Subsingleton.elim _ _
  exact shapeCast_a_1a_apply b h (0 : Fin 1) (0 : Fin 1)

/-- Sixteen row blocks of 1024 flattened: entry j is the block entry at (j / 1024, 0, j % 1024). -/
theorem reshape_blocks (f : Nat → α) (h : (⟨3, ![16, 1, 1024]⟩ : Shape).ShapeCasts ⟨1, ![16384]⟩) (j : Fin 16384) :
    shapeCast ⟨1, ![16384]⟩ (fun i : (⟨3, ![16, 1, 1024]⟩ : Shape).Idx => f (1024 * (i 0).val + (i 2).val)) h (ix1 j) = f j.val := by
  have hj := j.isLt
  have e := shapeCast_apply (fun i : (⟨3, ![16, 1, 1024]⟩ : Shape).Idx => f (1024 * (i 0).val + (i 2).val)) h (ix1 j)
    (ix3 (⟨j.val / 1024, by omega⟩ : Fin 16) (0 : Fin 1) (⟨j.val % 1024, by omega⟩ : Fin 1024)) (by
      rw [Shape.rowMajor_val_three, Shape.rowMajor_val_one]
      show (j.val / 1024 * 1 + 0) * 1024 + j.val % 1024 = j.val
      omega)
  rw [e]
  show f (1024 * (j.val / 1024) + j.val % 1024) = f j.val
  congr 1
  omega

end Cert.KernelIdeal.ValueLeg

end
-- ==== Proof.ValueLegIdeal.lean ====
/-
  The value at the extended reals: what the program leaves in its result buffer is the specification's function G of the
  thirteen launch arguments, when every entry of the index array is at most 999.

  The buffers are followed through the chain of contents. The first region leaves the merged table of the four embedding
  tables; the index array flattened is the flat index list; the gather leaves the merged table's rows by that list; those
  rows regrouped three to a sample are the feature rows read through the merged table, which for entries in range are
  the feature rows of the specification; the rounded weight matrices are the weight matrices, the reshaped biases and the
  reshaped last weight column are the originals re-indexed; the second region leaves the network on every row as sixteen
  row blocks; flattened, entry j is the network at row j.
-/
import proofs.«205820_g61907658604586_cont_9to1_m_785_3_alg».proof.Proof.ChainIdeal
import proofs.«205820_g61907658604586_cont_9to1_m_785_3_alg».proof.Proof.ValueLegPrepIdeal
import proofs.«205820_g61907658604586_cont_9to1_m_785_3_alg».proof.Proof.ValueLegMlpIdeal
import proofs.«205820_g61907658604586_cont_9to1_m_785_3_alg».proof.Proof.ValueLegReshapeIdeal
import proofs.«205820_g61907658604586_cont_9to1_m_785_3_alg».proof.Proof.Spec
import Idealize.ShloMosaic.Lib.StableHlo.Run

set_option maxRecDepth 16384

noncomputable section

namespace Cert.KernelIdeal.ValueLeg

open Cert.KernelIdeal Cert.KernelIdeal.Gen Cert.KernelIdeal.Setup Cert.KernelIdeal.Chain

open Idealize.ShloMosaic Idealize.ShloMosaic.TcCoe Idealize.ShloMosaic.ValueIdx
open Idealize.ShloMosaic.SparseCore.Cfg (HIx)
open Idealize.SL.Sem
open Idealize.ShloMosaic.Pipeline (Dat)

variable (m : (ℓ : Loc nD τ sig) → Buf (Elt Ideal) ℓ) (d : Dev nD)

/-! ## The chain, buffer by buffer -/

theorem W1_of_ne {b : Ref sig .tc} (h : b ≠ main_v0) : W1 m d (Proc.devRef .tc b) = W0 m d (Proc.devRef .tc b) := by
  unfold W1; exact Function.update_of_ne (StableHlo.devRef_ne_of_ne h) _ _

theorem W1_v0 : W1 m d (Proc.devRef .tc main_v0) = mergedOf (V0 m) d := by
  unfold W1; rw [Function.update_self]; exact prep_result (V0 m) _ _ d

theorem W2_of_ne {b : Ref sig .tc} (h : b ≠ main_v1) : W2 m d (Proc.devRef .tc b) = W1 m d (Proc.devRef .tc b) := by
  show StableHlo.after hostOpsA (W1 m d) (Proc.devRef .tc b) = _
  simp only [hostOpsA, StableHlo.after_cons, StableHlo.after_nil]
  rw [StableHlo.reshape_result_ne]; exact h

theorem W2_v1 : (W2 m d (Proc.devRef .tc main_v1) : S49152.Idx → BitVec 32)
    = shapeCast S49152 (m ((d : Thread nD τ).loc main_arg0) : S16384x3.Idx → BitVec 32) shapeCasts_S16384x3_S49152 := by
  show StableHlo.after hostOpsA (W1 m d) (Proc.devRef .tc main_v1) = _
  simp only [hostOpsA, StableHlo.after_cons, StableHlo.after_nil]
  rw [StableHlo.reshape_result, W1_of_ne m d (by decide)]
  rfl

theorem W3_of_ne {b : Ref sig .tc} (h : b ≠ main_v2) : W3 m d (Proc.devRef .tc b) = W2 m d (Proc.devRef .tc b) := by
  unfold W3; exact Function.update_of_ne (StableHlo.devRef_ne_of_ne h) _ _

/-- A buffer none of the first three stretches writes holds its launch contents before the second kernel's host stretch. -/
theorem W3_launch {b : Ref sig .tc} (h0 : b ≠ main_v0) (h1 : b ≠ main_v1) (h2 : b ≠ main_v2) :
    W3 m d (Proc.devRef .tc b) = m ((d : Thread nD τ).loc b) := by
  rw [W3_of_ne m d h2, W2_of_ne m d h1, W1_of_ne m d h0]

theorem W3_v2 : (W3 m d (Proc.devRef .tc main_v2) : S49152x128.Idx → EReal)
    = (Cert.Spec.gath (α := EReal) (Cert.Spec.merged (F := Ideal) (m ((d : Thread nD τ).loc main_arg1) : S100000x128.Idx → EReal) (m ((d : Thread nD τ).loc main_arg2) : S100000x128.Idx → EReal)
        (m ((d : Thread nD τ).loc main_arg3) : S101000x128.Idx → EReal) (m ((d : Thread nD τ).loc main_arg4) : S101000x128.Idx → EReal))
      (Cert.Spec.flat (m ((d : Thread nD τ).loc main_arg0) : S16384x3.Idx → BitVec 32)) : S49152x128.Idx → EReal) := by
  unfold W3; rw [Function.update_self]
  show (Cert.Spec.gath (α := EReal) (W2 m d (Proc.devRef .tc main_v0) : S3000x128.Idx → EReal) (W2 m d (Proc.devRef .tc main_v1) : S49152.Idx → BitVec 32) : S49152x128.Idx → EReal) = _
  rw [W2_v1, reshape_flat, W2_of_ne m d (by decide), W1_v0]

/-! ## The second kernel's arguments, after the nine host operations -/

theorem W4_v3 : (W4 m d (Proc.devRef .tc main_v3) : S16384x384.Idx → EReal)
    = (Cert.Spec.hcat (α := EReal) (Cert.Spec.merged (F := Ideal) (m ((d : Thread nD τ).loc main_arg1) : S100000x128.Idx → EReal) (m ((d : Thread nD τ).loc main_arg2) : S100000x128.Idx → EReal)
        (m ((d : Thread nD τ).loc main_arg3) : S101000x128.Idx → EReal) (m ((d : Thread nD τ).loc main_arg4) : S101000x128.Idx → EReal))
      (m ((d : Thread nD τ).loc main_arg0) : S16384x3.Idx → BitVec 32) : S16384x384.Idx → EReal) := by
  show StableHlo.after hostOpsB (W3 m d) (Proc.devRef .tc main_v3) = _
  simp only [hostOpsB]
  after_results
  rw [W3_v2]
  exact reshape_gath _ _ shapeCasts_S49152x128_S16384x384

theorem W4_v4 : (W4 m d (Proc.devRef .tc main_v4) : S384x1024.Idx → EReal) = (m ((d : Thread nD τ).loc main_arg5) : S384x1024.Idx → EReal) := by
  show StableHlo.after hostOpsB (W3 m d) (Proc.devRef .tc main_v4) = _
  simp only [hostOpsB]
  after_results
  rw [W3_launch m d (by decide) (by decide) (by decide)]
  rfl

theorem W4_v6 : (W4 m d (Proc.devRef .tc main_v6) : S1024x512.Idx → EReal) = (m ((d : Thread nD τ).loc main_arg7) : S1024x512.Idx → EReal) := by
  show StableHlo.after hostOpsB (W3 m d) (Proc.devRef .tc main_v6) = _
  simp only [hostOpsB]
  after_results
  rw [W3_launch m d (by decide) (by decide) (by decide)]
  rfl

theorem W4_v8 : (W4 m d (Proc.devRef .tc main_v8) : S512x256.Idx → EReal) = (m ((d : Thread nD τ).loc main_arg9) : S512x256.Idx → EReal) := by
  show StableHlo.after hostOpsB (W3 m d) (Proc.devRef .tc main_v8) = _
  simp only [hostOpsB]
  after_results
  rw [W3_launch m d (by decide) (by decide) (by decide)]
  rfl

theorem W4_v5 : Cert.Spec.rowVec (W4 m d (Proc.devRef .tc main_v5) : S1x1024.Idx → EReal) = (m ((d : Thread nD τ).loc main_arg6) : S1024.Idx → EReal) := by
  have e : (W4 m d (Proc.devRef .tc main_v5) : S1x1024.Idx → EReal) = shapeCast S1x1024 (m ((d : Thread nD τ).loc main_arg6) : S1024.Idx → EReal) shapeCasts_S1024_S1x1024 := by
    show StableHlo.after hostOpsB (W3 m d) (Proc.devRef .tc main_v5) = _
    simp only [hostOpsB]
    after_results
    rw [W3_launch m d (by decide) (by decide) (by decide)]
    rfl
  rw [e]; exact rowVec_reshape _ _

theorem W4_v7 : Cert.Spec.rowVec (W4 m d (Proc.devRef .tc main_v7) : S1x512.Idx → EReal) = (m ((d : Thread nD τ).loc main_arg8) : S512.Idx → EReal) := by
  have e : (W4 m d (Proc.devRef .tc main_v7) : S1x512.Idx → EReal) = shapeCast S1x512 (m ((d : Thread nD τ).loc main_arg8) : S512.Idx → EReal) shapeCasts_S512_S1x512 := by
    show StableHlo.after hostOpsB (W3 m d) (Proc.devRef .tc main_v7) = _
    simp only [hostOpsB]
    after_results
    rw [W3_launch m d (by decide) (by decide) (by decide)]
    rfl
  rw [e]; exact rowVec_reshape _ _

theorem W4_v9 : Cert.Spec.rowVec (W4 m d (Proc.devRef .tc main_v9) : S1x256.Idx → EReal) = (m ((d : Thread nD τ).loc main_arg10) : S256.Idx → EReal) := by
  have e : (W4 m d (Proc.devRef .tc main_v9) : S1x256.Idx → EReal) = shapeCast S1x256 (m ((d : Thread nD τ).loc main_arg10) : S256.Idx → EReal) shapeCasts_S256_S1x256 := by
    show StableHlo.after hostOpsB (W3 m d) (Proc.devRef .tc main_v9) = _
    simp only [hostOpsB]
    after_results
    rw [W3_launch m d (by decide) (by decide) (by decide)]
    rfl
  rw [e]; exact rowVec_reshape _ _

theorem W4_v10 : Cert.Spec.colOf (W4 m d (Proc.devRef .tc main_v10) : S1x256.Idx → EReal) = (m ((d : Thread nD τ).loc main_arg11) : S256x1.Idx → EReal) := by
  have e : (W4 m d (Proc.devRef .tc main_v10) : S1x256.Idx → EReal) = shapeCast S1x256 (m ((d : Thread nD τ).loc main_arg11) : S256x1.Idx → EReal) shapeCasts_S256x1_S1x256 := by
    show StableHlo.after hostOpsB (W3 m d) (Proc.devRef .tc main_v10) = _
    simp only [hostOpsB]
    after_results
    rw [W3_launch m d (by decide) (by decide) (by decide)]
    rfl
  rw [e]; exact colOf_reshape _ _

theorem W4_v11 : (fun _ => (W4 m d (Proc.devRef .tc main_v11) : S1x1.Idx → EReal) (ix2 (0 : Fin 1) (0 : Fin 1)) : Cert.Spec.Arr1 EReal 1) = (m ((d : Thread nD τ).loc main_arg12) : S1.Idx → EReal) := by
  have e : (W4 m d (Proc.devRef .tc main_v11) : S1x1.Idx → EReal) = shapeCast S1x1 (m ((d : Thread nD τ).loc main_arg12) : S1.Idx → EReal) shapeCasts_S1_S1x1 := by
    show StableHlo.after hostOpsB (W3 m d) (Proc.devRef .tc main_v11) = _
    simp only [hostOpsB]
    after_results
    rw [W3_launch m d (by decide) (by decide) (by decide)]
    rfl
  rw [e]; exact one_reshape _ _

/-! ## The result -/

theorem W5_v12 : W5 m d (Proc.devRef .tc main_v12) = netOf (V4 m) d := by
  unfold W5; rw [Function.update_self]; exact mlp_result (V4 m) _ _ d

/-- The network of the second kernel's arguments, at row k, is the specification's on the launch arguments. -/
theorem netAt_launch (hx : Cert.Spec.InRange (m ((d : Thread nD τ).loc main_arg0) : S16384x3.Idx → BitVec 32)) (k : Nat) :
    netAt (V4 m) d k
      = Cert.Spec.G (m ((d : Thread nD τ).loc main_arg0) : S16384x3.Idx → BitVec 32) (m ((d : Thread nD τ).loc main_arg1) : S100000x128.Idx → EReal) (m ((d : Thread nD τ).loc main_arg2) : S100000x128.Idx → EReal)
          (m ((d : Thread nD τ).loc main_arg3) : S101000x128.Idx → EReal) (m ((d : Thread nD τ).loc main_arg4) : S101000x128.Idx → EReal)
          (m ((d : Thread nD τ).loc main_arg5) : S384x1024.Idx → EReal) (m ((d : Thread nD τ).loc main_arg6) : S1024.Idx → EReal) (m ((d : Thread nD τ).loc main_arg7) : S1024x512.Idx → EReal) (m ((d : Thread nD τ).loc main_arg8) : S512.Idx → EReal)
          (m ((d : Thread nD τ).loc main_arg9) : S512x256.Idx → EReal) (m ((d : Thread nD τ).loc main_arg10) : S256.Idx → EReal) (m ((d : Thread nD τ).loc main_arg11) : S256x1.Idx → EReal) (m ((d : Thread nD τ).loc main_arg12) : S1.Idx → EReal)
          (ix1 (Fin.ofNat 16384 k)) := by
  unfold netAt
  show Cert.Spec.net (n := 16384) (W4 m d (Proc.devRef .tc main_v3) : S16384x384.Idx → EReal) (W4 m d (Proc.devRef .tc main_v4) : S384x1024.Idx → EReal)
      (Cert.Spec.rowVec (W4 m d (Proc.devRef .tc main_v5) : S1x1024.Idx → EReal)) (W4 m d (Proc.devRef .tc main_v6) : S1024x512.Idx → EReal)
      (Cert.Spec.rowVec (W4 m d (Proc.devRef .tc main_v7) : S1x512.Idx → EReal)) (W4 m d (Proc.devRef .tc main_v8) : S512x256.Idx → EReal)
      (Cert.Spec.rowVec (W4 m d (Proc.devRef .tc main_v9) : S1x256.Idx → EReal)) (Cert.Spec.colOf (W4 m d (Proc.devRef .tc main_v10) : S1x256.Idx → EReal))
      (fun _ => (W4 m d (Proc.devRef .tc main_v11) : S1x1.Idx → EReal) (ix2 (0 : Fin 1) (0 : Fin 1))) (ix1 (Fin.ofNat 16384 k)) = _
  rw [W4_v3, W4_v4, W4_v5, W4_v6, W4_v7, W4_v8, W4_v9, W4_v10, W4_v11, Cert.Spec.hcat_merged _ _ _ _ _ hx]
  rfl

/-- What the program leaves in its result buffer is the specification's function of the thirteen launch arguments. -/
theorem W6_result (m : (ℓ : Loc nD τ sig) → Buf (Elt Ideal) ℓ) (d : Dev nD)
    (hx : Cert.Spec.InRange (m ((d : Thread nD τ).loc main_arg0) : S16384x3.Idx → BitVec 32)) :
    (Chain.W6 (F := Ideal) m d (Proc.devRef .tc main_v13) : S16384.Idx → EReal)
      = Cert.Spec.G (m ((d : Thread nD τ).loc main_arg0) : S16384x3.Idx → BitVec 32) (m ((d : Thread nD τ).loc main_arg1) : S100000x128.Idx → EReal) (m ((d : Thread nD τ).loc main_arg2) : S100000x128.Idx → EReal)
          (m ((d : Thread nD τ).loc main_arg3) : S101000x128.Idx → EReal) (m ((d : Thread nD τ).loc main_arg4) : S101000x128.Idx → EReal)
          (m ((d : Thread nD τ).loc main_arg5) : S384x1024.Idx → EReal) (m ((d : Thread nD τ).loc main_arg6) : S1024.Idx → EReal) (m ((d : Thread nD τ).loc main_arg7) : S1024x512.Idx → EReal) (m ((d : Thread nD τ).loc main_arg8) : S512.Idx → EReal)
          (m ((d : Thread nD τ).loc main_arg9) : S512x256.Idx → EReal) (m ((d : Thread nD τ).loc main_arg10) : S256.Idx → EReal) (m ((d : Thread nD τ).loc main_arg11) : S256x1.Idx → EReal) (m ((d : Thread nD τ).loc main_arg12) : S1.Idx → EReal) := by
  have e : (Chain.W6 (F := Ideal) m d (Proc.devRef .tc main_v13) : S16384.Idx → EReal)
      = shapeCast S16384 (netOf (V4 m) d : S16x1x1024.Idx → EReal) shapeCasts_S16x1x1024_S16384 := by
    show StableHlo.after hostOpsC (W5 m d) (Proc.devRef .tc main_v13) = _
    simp only [hostOpsC]
    after_results
    rw [W5_v12]
    rfl
  rw [e]
  funext i
  obtain ⟨j, rfl⟩ : ∃ j : Fin 16384, i = ix1 j := ⟨i 0, eq_ix1 i⟩
  refine (reshape_blocks (netAt (V4 m) d) shapeCasts_S16x1x1024_S16384 j).trans ?_
  rw [netAt_launch m d hx j.val]
  have ej : Fin.ofNat 16384 j.val = j := Fin.ext (by show j.val % 16384 = j.val; have := j.isLt; omega)
  rw [ej]

end Cert.KernelIdeal.ValueLeg

end
-- ==== Proof.lean ====
/-
  The certificate's claim, assembled.

  The reference: its run, written out operation by operation, ends with the result at the specification `Cert.Spec.G` of the
  arguments (every `jnp.take` with its index in range is the plain row read; the concatenated maxima are the feature rows; the
  four products with the weights are sums over the contracted index; the last four host operations are the logistic function).

  The kernel's program: a TensorCore kernel merges the four tables into one of 3000 rows; thirty-two SparseCore tiles each
  gather 1536 rows of it by the flattened index list, entry j at row x_flat(j) + 1000 (j mod 3); a second TensorCore kernel
  applies the three layers, the weighted sum, the bias and the logistic function block by block. Every weakly fair execution
  of the whole family of threads terminates with every buffer of the TensorCore at a chain of contents computed from the launch
  memory; read at the arguments the chain gives them back unchanged (the three frames), and read at the result it gives
  `Cert.Spec.G` of the arguments, because the merged table read at those rows is the feature rows (`Cert.Spec.hcat_merged`)
  and each block's rows are computed independently. The index entries lie in [0, 999] by the precondition, which is what
  keeps every gathered row inside the merged table. The idealization rewrote no operation, so `preserves` asks nothing.
-/
import proofs.«205820_g61907658604586_cont_9to1_m_785_3_alg».proof.Defs
import proofs.«205820_g61907658604586_cont_9to1_m_785_3_alg».proof.Proof.Gen.Kernel
import proofs.«205820_g61907658604586_cont_9to1_m_785_3_alg».proof.Proof.Gen.Kernel.Skeleton
import proofs.«205820_g61907658604586_cont_9to1_m_785_3_alg».proof.Proof.Gen.Kernel.Launch
import proofs.«205820_g61907658604586_cont_9to1_m_785_3_alg».proof.Proof.Gen.Kernel.Regions
import proofs.«205820_g61907658604586_cont_9to1_m_785_3_alg».proof.Proof.Gen.Kernel.Points
import proofs.«205820_g61907658604586_cont_9to1_m_785_3_alg».proof.Proof.Gen.KernelIdeal
import proofs.«205820_g61907658604586_cont_9to1_m_785_3_alg».proof.Proof.Gen.KernelIdeal.Skeleton
import proofs.«205820_g61907658604586_cont_9to1_m_785_3_alg».proof.Proof.Gen.KernelIdeal.Launch
import proofs.«205820_g61907658604586_cont_9to1_m_785_3_alg».proof.Proof.Gen.KernelIdeal.Regions
import proofs.«205820_g61907658604586_cont_9to1_m_785_3_alg».proof.Proof.Gen.KernelIdeal.Points
import proofs.«205820_g61907658604586_cont_9to1_m_785_3_alg».proof.Proof.Gen.ReferenceIdeal
import proofs.«205820_g61907658604586_cont_9to1_m_785_3_alg».proof.Proof.Gen.Pre_input_domain
import proofs.«205820_g61907658604586_cont_9to1_m_785_3_alg».proof.Proof.Assemble
import proofs.«205820_g61907658604586_cont_9to1_m_785_3_alg».proof.Proof.LaunchIdeal
import proofs.«205820_g61907658604586_cont_9to1_m_785_3_alg».proof.Proof.Launch
import proofs.«205820_g61907658604586_cont_9to1_m_785_3_alg».proof.Proof.ChainArgsIdeal
import proofs.«205820_g61907658604586_cont_9to1_m_785_3_alg».proof.Proof.ChainArgs
import proofs.«205820_g61907658604586_cont_9to1_m_785_3_alg».proof.Proof.ValueLegIdeal
import proofs.«205820_g61907658604586_cont_9to1_m_785_3_alg».proof.Proof.PreRange

set_option maxRecDepth 16384

noncomputable section

namespace Cert.Proof

open Idealize.ShloMosaic Idealize.ShloMosaic.TcCoe Idealize.SL.Sem

/-- The idealized kernel's run, from index entries in range. -/
theorem runKI (m : (ℓ : Loc Cert.KernelIdeal.nD Cert.KernelIdeal.τ Cert.KernelIdeal.sig) → Buf (Elt Ideal) ℓ) (ρ : Dev Cert.KernelIdeal.nD → PrngReg)
    (hx : ∀ d : Dev Cert.KernelIdeal.nD, Cert.Spec.InRange (m (Cert.Assemble.kloc d Cert.KernelIdeal.main_arg0))) :
    θ_run (Cert.KernelIdeal.defs (F := Ideal)) (Cert.KernelIdeal.threads (F := Ideal)) ⟨m, fun _ => 0, ρ⟩
      (fun r => ∀ c : Dev Cert.KernelIdeal.nD, ∀ b ∈ Pipeline.ucRefs Cert.KernelIdeal.τ Cert.KernelIdeal.sig, r.2.mem (c, b) = Cert.KernelIdeal.Chain.W6 (F := Ideal) m c b) :=
  Cert.KernelIdeal.Launch.run_main (F := Ideal) m ρ (Cert.KernelIdeal.ChainArgs.preOK_of_inRange m hx)

/-- Every argument's buffer ends at its launch contents. -/
theorem argsKI (m : (ℓ : Loc Cert.KernelIdeal.nD Cert.KernelIdeal.τ Cert.KernelIdeal.sig) → Buf (Elt Ideal) ℓ) (d : Dev Cert.KernelIdeal.nD) :
    Cert.KernelIdeal.Chain.W6 (F := Ideal) m d (Proc.devRef .tc Cert.KernelIdeal.main_arg0) = m (Cert.Assemble.kloc d Cert.KernelIdeal.main_arg0)
    ∧ Cert.KernelIdeal.Chain.W6 (F := Ideal) m d (Proc.devRef .tc Cert.KernelIdeal.main_arg1) = m (Cert.Assemble.kloc d Cert.KernelIdeal.main_arg1)
    ∧ Cert.KernelIdeal.Chain.W6 (F := Ideal) m d (Proc.devRef .tc Cert.KernelIdeal.main_arg2) = m (Cert.Assemble.kloc d Cert.KernelIdeal.main_arg2)
    ∧ Cert.KernelIdeal.Chain.W6 (F := Ideal) m d (Proc.devRef .tc Cert.KernelIdeal.main_arg3) = m (Cert.Assemble.kloc d Cert.KernelIdeal.main_arg3)
    ∧ Cert.KernelIdeal.Chain.W6 (F := Ideal) m d (Proc.devRef .tc Cert.KernelIdeal.main_arg4) = m (Cert.Assemble.kloc d Cert.KernelIdeal.main_arg4)
    ∧ Cert.KernelIdeal.Chain.W6 (F := Ideal) m d (Proc.devRef .tc Cert.KernelIdeal.main_arg5) = m (Cert.Assemble.kloc d Cert.KernelIdeal.main_arg5)
    ∧ Cert.KernelIdeal.Chain.W6 (F := Ideal) m d (Proc.devRef .tc Cert.KernelIdeal.main_arg6) = m (Cert.Assemble.kloc d Cert.KernelIdeal.main_arg6)
    ∧ Cert.KernelIdeal.Chain.W6 (F := Ideal) m d (Proc.devRef .tc Cert.KernelIdeal.main_arg7) = m (Cert.Assemble.kloc d Cert.KernelIdeal.main_arg7)
    ∧ Cert.KernelIdeal.Chain.W6 (F := Ideal) m d (Proc.devRef .tc Cert.KernelIdeal.main_arg8) = m (Cert.Assemble.kloc d Cert.KernelIdeal.main_arg8)
    ∧ Cert.KernelIdeal.Chain.W6 (F := Ideal) m d (Proc.devRef .tc Cert.KernelIdeal.main_arg9) = m (Cert.Assemble.kloc d Cert.KernelIdeal.main_arg9)
    ∧ Cert.KernelIdeal.Chain.W6 (F := Ideal) m d (Proc.devRef .tc Cert.KernelIdeal.main_arg10) = m (Cert.Assemble.kloc d Cert.KernelIdeal.main_arg10)
    ∧ Cert.KernelIdeal.Chain.W6 (F := Ideal) m d (Proc.devRef .tc Cert.KernelIdeal.main_arg11) = m (Cert.Assemble.kloc d Cert.KernelIdeal.main_arg11)
    ∧ Cert.KernelIdeal.Chain.W6 (F := Ideal) m d (Proc.devRef .tc Cert.KernelIdeal.main_arg12) = m (Cert.Assemble.kloc d Cert.KernelIdeal.main_arg12) :=
  ⟨Cert.KernelIdeal.ChainArgs.W6_arg0 m d, Cert.KernelIdeal.ChainArgs.W6_arg1 m d, Cert.KernelIdeal.ChainArgs.W6_arg2 m d, Cert.KernelIdeal.ChainArgs.W6_arg3 m d, Cert.KernelIdeal.ChainArgs.W6_arg4 m d, Cert.KernelIdeal.ChainArgs.W6_arg5 m d, Cert.KernelIdeal.ChainArgs.W6_arg6 m d, Cert.KernelIdeal.ChainArgs.W6_arg7 m d, Cert.KernelIdeal.ChainArgs.W6_arg8 m d, Cert.KernelIdeal.ChainArgs.W6_arg9 m d, Cert.KernelIdeal.ChainArgs.W6_arg10 m d, Cert.KernelIdeal.ChainArgs.W6_arg11 m d, Cert.KernelIdeal.ChainArgs.W6_arg12 m d⟩

theorem mem_ucK (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩

/-- The word-level program runs and leaves its arguments unchanged: the same run at the word-level instance, read at the
    arguments. -/
theorem frameK : Cert.frame_Kernel (hKernel := Cert.Kernel.Gen.facts) (hPre_input_domain := Cert.Pre_input_domain.Gen.facts) := fun m ρ hpre =>
  (θ_run (Cert.Kernel.defs (F := Bits)) _ _).mono
    (fun r h c => ⟨(h c _ (mem_ucK Cert.Kernel.main_arg0 (by decide))).trans (Cert.Kernel.ChainArgs.W6_arg0 m c),
      (h c _ (mem_ucK Cert.Kernel.main_arg1 (by decide))).trans (Cert.Kernel.ChainArgs.W6_arg1 m c),
      (h c _ (mem_ucK Cert.Kernel.main_arg2 (by decide))).trans (Cert.Kernel.ChainArgs.W6_arg2 m c),
      (h c _ (mem_ucK Cert.Kernel.main_arg3 (by decide))).trans (Cert.Kernel.ChainArgs.W6_arg3 m c),
      (h c _ (mem_ucK Cert.Kernel.main_arg4 (by decide))).trans (Cert.Kernel.ChainArgs.W6_arg4 m c),
      (h c _ (mem_ucK Cert.Kernel.main_arg5 (by decide))).trans (Cert.Kernel.ChainArgs.W6_arg5 m c),
      (h c _ (mem_ucK Cert.Kernel.main_arg6 (by decide))).trans (Cert.Kernel.ChainArgs.W6_arg6 m c),
      (h c _ (mem_ucK Cert.Kernel.main_arg7 (by decide))).trans (Cert.Kernel.ChainArgs.W6_arg7 m c),
      (h c _ (mem_ucK Cert.Kernel.main_arg8 (by decide))).trans (Cert.Kernel.ChainArgs.W6_arg8 m c),
      (h c _ (mem_ucK Cert.Kernel.main_arg9 (by decide))).trans (Cert.Kernel.ChainArgs.W6_arg9 m c),
      (h c _ (mem_ucK Cert.Kernel.main_arg10 (by decide))).trans (Cert.Kernel.ChainArgs.W6_arg10 m c),
      (h c _ (mem_ucK Cert.Kernel.main_arg11 (by decide))).trans (Cert.Kernel.ChainArgs.W6_arg11 m c),
      (h c _ (mem_ucK Cert.Kernel.main_arg12 (by decide))).trans (Cert.Kernel.ChainArgs.W6_arg12 m c)⟩)
    (Cert.Kernel.Launch.run_main (F := Bits) m ρ (Cert.Kernel.ChainArgs.preOK_of_inRange m fun d =>
      Cert.PreRange.inRange_of_pre (F := Bits) _ _ _ _ _ _ _ _ _ _ _ _ _ (hpre d)))

end Cert.Proof

/-- The claim. -/
theorem Cert.Proof.claim : Cert.Claim :=
  Cert.Assemble.claim_of Cert.Proof.runKI Cert.Proof.argsKI (fun m d hx => Cert.KernelIdeal.ValueLeg.W6_result m d hx) Cert.Proof.frameK

end
